-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v59)) (v1 : (c : Dev Cert.KernelIdeal.nD) → Buf (Elt Ideal) ((c.tc : Thread Cert.KernelIdeal.nD Cert.KernelIdeal.τ).loc Cert.KernelIdeal.main_v60)) (v2 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_v60) = v1 c
          ∧ r.2.mem ((c.tc : Thread Cert.KernelIdeal.nD Cert.KernelIdeal.τ).loc Cert.KernelIdeal.main_v61) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_v74) = v1 c
          ∧ r.2.mem ((c.tc : Thread Cert.ReferenceIdeal.nD Cert.ReferenceIdeal.τ).loc Cert.ReferenceIdeal.main_v75) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000x512 : Shape := ⟨2, ![2000, 512]⟩
abbrev S500000 : Shape := ⟨1, ![500000]⟩
abbrev S2x512x512 : Shape := ⟨3, ![2, 512, 512]⟩
abbrev S2x512 : Shape := ⟨2, ![2, 512]⟩
abbrev S2x400000 : Shape := ⟨2, ![2, 400000]⟩
abbrev S_ : Shape := ⟨0, ![]⟩

class Facts : Prop where
  bcast_S_S2000x512 : S_.BroadcastsInDim S2000x512 (![] : Fin 0 → Fin S2000x512.rank)
  reducesTo_S2000x512_S_d0_1 : S2000x512.ReducesTo [0, 1] S_
  h_S_ : 0 < S_.numel
  bcast_S_S500000 : S_.BroadcastsInDim S500000 (![] : Fin 0 → Fin S500000.rank)
  reducesTo_S500000_S_d0 : S500000.ReducesTo [0] S_
  bcast_S_S2x512x512 : S_.BroadcastsInDim S2x512x512 (![] : Fin 0 → Fin S2x512x512.rank)
  reducesTo_S2x512x512_S_d0_1_2 : S2x512x512.ReducesTo [0, 1, 2] S_
  bcast_S_S2x512 : S_.BroadcastsInDim S2x512 (![] : Fin 0 → Fin S2x512.rank)
  reducesTo_S2x512_S_d0_1 : S2x512.ReducesTo [0, 1] S_

variable [Facts]

def fn_part2 {F : FTy → Type} [FloatOps F] (main_arg7 : FVec F S2x512 .f32) (main_v33 : IVec S_ 1) : IVec S_ 1 :=
  let main_v34 : FVec F S2x512 .f32 := Host.absf main_arg7
  let main_cst_12 : FVec F S_ .f32 := constant S_ .f32 0x7F800000#32
  let main_v35 : FVec F S2x512 .f32 := broadcastInDim S2x512 ![] bcast_S_S2x512 main_cst_12
  let main_v36 : IVec S2x512 1 := cmpf .olt main_v34 main_v35
  let main_c_13 : IVec S_ 1 := constantI S_ 1 1#1
  let main_v37 : IVec S_ 1 := (fun x v => Host.reduce IntOp.andi x v reducesTo_S2x512_S_d0_1 h_S_) main_v36 main_c_13
  let main_v38 : IVec S_ 1 := andi main_v33 main_v37
  main_v38

def fn_part1 {F : FTy → Type} [FloatOps F] (main_arg4 : FVec F S2x512x512 .f32) (main_arg5 : FVec F S2x512 .f32) (main_arg6 : FVec F S2x512x512 .f32) (main_arg7 : FVec F S2x512 .f32) (main_v13 : IVec S_ 1) (main_v16 : IVec S500000 1) : IVec S_ 1 :=
  let main_c_5 : IVec S_ 1 := constantI S_ 1 1#1
  let main_v17 : IVec S_ 1 := (fun x v => Host.reduce IntOp.andi x v reducesTo_S500000_S_d0 h_S_) main_v16 main_c_5
  let main_v18 : IVec S_ 1 := andi main_v13 main_v17
  let main_v19 : FVec F S2x512x512 .f32 := Host.absf main_arg4
  let main_cst_6 : FVec F S_ .f32 := constant S_ .f32 0x7F800000#32
  let main_v20 : FVec F S2x512x512 .f32 := broadcastInDim S2x512x512 ![] bcast_S_S2x512x512 main_cst_6
  let main_v21 : IVec S2x512x512 1 := cmpf .olt main_v19 main_v20
  let main_c_7 : IVec S_ 1 := constantI S_ 1 1#1
  let main_v22 : IVec S_ 1 := (fun x v => Host.reduce IntOp.andi x v reducesTo_S2x512x512_S_d0_1_2 h_S_) main_v21 main_c_7
  let main_v23 : IVec S_ 1 := andi main_v18 main_v22
  let main_v24 : FVec F S2x512 .f32 := Host.absf main_arg5
  let main_cst_8 : FVec F S_ .f32 := constant S_ .f32 0x7F800000#32
  let main_v25 : FVec F S2x512 .f32 := broadcastInDim S2x512 ![] bcast_S_S2x512 main_cst_8
  let main_v26 : IVec S2x512 1 := cmpf .olt main_v24 main_v25
  let main_c_9 : IVec S_ 1 := constantI S_ 1 1#1
  let main_v27 : IVec S_ 1 := (fun x v => Host.reduce IntOp.andi x v reducesTo_S2x512_S_d0_1 h_S_) main_v26 main_c_9
  let main_v28 : IVec S_ 1 := andi main_v23 main_v27
  let main_v29 : FVec F S2x512x512 .f32 := Host.absf main_arg6
  let main_cst_10 : FVec F S_ .f32 := constant S_ .f32 0x7F800000#32
  let main_v30 : FVec F S2x512x512 .f32 := broadcastInDim S2x512x512 ![] bcast_S_S2x512x512 main_cst_10
  let main_v31 : IVec S2x512x512 1 := cmpf .olt main_v29 main_v30
  let main_c_11 : IVec S_ 1 := constantI S_ 1 1#1
  let main_v32 : IVec S_ 1 := (fun x v => Host.reduce IntOp.andi x v reducesTo_S2x512x512_S_d0_1_2 h_S_) main_v31 main_c_11
  let main_v33 : IVec S_ 1 := andi main_v28 main_v32
  fn_part2 (F := F) main_arg7 main_v33

def fn {F : FTy → Type} [FloatOps F] (main_arg0 : FVec F S2000x512 .f32) (main_arg1 : FVec F S2000x512 .f32) (main_arg2 : FVec F S2000x512 .f32) (main_arg3 : FVec F S500000 .f32) (main_arg4 : FVec F S2x512x512 .f32) (main_arg5 : FVec F S2x512 .f32) (main_arg6 : FVec F S2x512x512 .f32) (main_arg7 : FVec F S2x512 .f32) (main_arg8 : IVec S2x400000 32) : IVec S_ 1 :=
  let main_v0 : FVec F S2000x512 .f32 := Host.absf main_arg0
  let main_cst : FVec F S_ .f32 := constant S_ .f32 0x7F800000#32
  let main_v1 : FVec F S2000x512 .f32 := broadcastInDim S2000x512 ![] bcast_S_S2000x512 main_cst
  let main_v2 : IVec S2000x512 1 := cmpf .olt main_v0 main_v1
  let main_c : IVec S_ 1 := constantI S_ 1 1#1
  let main_v3 : IVec S_ 1 := (fun x v => Host.reduce IntOp.andi x v reducesTo_S2000x512_S_d0_1 h_S_) main_v2 main_c
  let main_v4 : FVec F S2000x512 .f32 := Host.absf main_arg1
  let main_cst_0 : FVec F S_ .f32 := constant S_ .f32 0x7F800000#32
  let main_v5 : FVec F S2000x512 .f32 := broadcastInDim S2000x512 ![] bcast_S_S2000x512 main_cst_0
  let main_v6 : IVec S2000x512 1 := cmpf .olt main_v4 main_v5
  let main_c_1 : IVec S_ 1 := constantI S_ 1 1#1
  let main_v7 : IVec S_ 1 := (fun x v => Host.reduce IntOp.andi x v reducesTo_S2000x512_S_d0_1 h_S_) main_v6 main_c_1
  let main_v8 : IVec S_ 1 := andi main_v3 main_v7
  let main_v9 : FVec F S2000x512 .f32 := Host.absf main_arg2
  let main_cst_2 : FVec F S_ .f32 := constant S_ .f32 0x7F800000#32
  let main_v10 : FVec F S2000x512 .f32 := broadcastInDim S2000x512 ![] bcast_S_S2000x512 main_cst_2
  let main_v11 : IVec S2000x512 1 := cmpf .olt main_v9 main_v10
  let main_c_3 : IVec S_ 1 := constantI S_ 1 1#1
  let main_v12 : IVec S_ 1 := (fun x v => Host.reduce IntOp.andi x v reducesTo_S2000x512_S_d0_1 h_S_) main_v11 main_c_3
  let main_v13 : IVec S_ 1 := andi main_v8 main_v12
  let main_v14 : FVec F S500000 .f32 := Host.absf main_arg3
  let main_cst_4 : FVec F S_ .f32 := constant S_ .f32 0x7F800000#32
  let main_v15 : FVec F S500000 .f32 := broadcastInDim S500000 ![] bcast_S_S500000 main_cst_4
  let main_v16 : IVec S500000 1 := cmpf .olt main_v14 main_v15
  fn_part1 (F := F) main_arg4 main_arg5 main_arg6 main_arg7 main_v13 main_v16
-- ==== Kernel.lean ====
abbrev S2000x512 : Shape := ⟨2, ![2000, 512]⟩
abbrev S500000 : Shape := ⟨1, ![500000]⟩
abbrev S2x512x512 : Shape := ⟨3, ![2, 512, 512]⟩
abbrev S2x512 : Shape := ⟨2, ![2, 512]⟩
abbrev S2x400000 : Shape := ⟨2, ![2, 400000]⟩
abbrev S6000x512 : Shape := ⟨2, ![6000, 512]⟩
abbrev S400000 : Shape := ⟨1, ![400000]⟩
abbrev S_ : Shape := ⟨0, ![]⟩
abbrev S6000x6000 : Shape := ⟨2, ![6000, 6000]⟩
abbrev S1x400000 : Shape := ⟨2, ![1, 400000]⟩
abbrev S400000x1 : Shape := ⟨2, ![400000, 1]⟩
abbrev S400000x2 : Shape := ⟨2, ![400000, 2]⟩
abbrev S6000 : Shape := ⟨1, ![6000]⟩
abbrev S6000x1 : Shape := ⟨2, ![6000, 1]⟩
abbrev S1x512x512 : Shape := ⟨3, ![1, 512, 512]⟩
abbrev S512x512 : Shape := ⟨2, ![512, 512]⟩
abbrev S1x512 : Shape := ⟨2, ![1, 512]⟩
abbrev S512 : Shape := ⟨1, ![512]⟩
abbrev S400x6000 : Shape := ⟨2, ![400, 6000]⟩
abbrev S400x1 : Shape := ⟨2, ![400, 1]⟩
abbrev S400x512 : Shape := ⟨2, ![400, 512]⟩

abbrev nBuf : Space → Nat
  | .hbm => 86
  | .vmem => 30
  | .smem => 0
  | _ => 0

abbrev bufTy : (tb : Table) → Fin (tcTables nBuf tb) → BufTy
  | .hbm, ⟨0, _⟩ => ⟨S2000x512, .f32⟩
  | .hbm, ⟨1, _⟩ => ⟨S2000x512, .f32⟩
  | .hbm, ⟨2, _⟩ => ⟨S2000x512, .f32⟩
  | .hbm, ⟨3, _⟩ => ⟨S500000, .f32⟩
  | .hbm, ⟨4, _⟩ => ⟨S2x512x512, .f32⟩
  | .hbm, ⟨5, _⟩ => ⟨S2x512, .f32⟩
  | .hbm, ⟨6, _⟩ => ⟨S2x512x512, .f32⟩
  | .hbm, ⟨7, _⟩ => ⟨S2x512, .f32⟩
  | .hbm, ⟨8, _⟩ => ⟨S2x400000, .i32⟩
  | .hbm, ⟨9, _⟩ => ⟨S6000x512, .f32⟩
  | .hbm, ⟨10, _⟩ => ⟨S400000, .f32⟩
  | .hbm, ⟨11, _⟩ => ⟨S_, .f32⟩
  | .hbm, ⟨12, _⟩ => ⟨S6000x6000, .f32⟩
  | .hbm, ⟨13, _⟩ => ⟨S1x400000, .i32⟩
  | .hbm, ⟨14, _⟩ => ⟨S400000, .i32⟩
  | .hbm, ⟨15, _⟩ => ⟨S1x400000, .i32⟩
  | .hbm, ⟨16, _⟩ => ⟨S400000, .i32⟩
  | .hbm, ⟨17, _⟩ => ⟨S_, .i32⟩
  | .hbm, ⟨18, _⟩ => ⟨S400000, .i32⟩
  | .hbm, ⟨19, _⟩ => ⟨S400000, .i1⟩
  | .hbm, ⟨20, _⟩ => ⟨S_, .i32⟩
  | .hbm, ⟨21, _⟩ => ⟨S400000, .i32⟩
  | .hbm, ⟨22, _⟩ => ⟨S400000, .i32⟩
  | .hbm, ⟨23, _⟩ => ⟨S400000, .i32⟩
  | .hbm, ⟨24, _⟩ => ⟨S_, .i32⟩
  | .hbm, ⟨25, _⟩ => ⟨S400000, .i32⟩
  | .hbm, ⟨26, _⟩ => ⟨S400000, .i1⟩
  | .hbm, ⟨27, _⟩ => ⟨S_, .i32⟩
  | .hbm, ⟨28, _⟩ => ⟨S400000, .i32⟩
  | .hbm, ⟨29, _⟩ => ⟨S400000, .i32⟩
  | .hbm, ⟨30, _⟩ => ⟨S400000, .i32⟩
  | .hbm, ⟨31, _⟩ => ⟨S400000x1, .i32⟩
  | .hbm, ⟨32, _⟩ => ⟨S400000x1, .i32⟩
  | .hbm, ⟨33, _⟩ => ⟨S400000x2, .i32⟩
  | .hbm, ⟨34, _⟩ => ⟨S6000x6000, .f32⟩
  | .hbm, ⟨35, _⟩ => ⟨S_, .f32⟩
  | .hbm, ⟨36, _⟩ => ⟨S6000, .f32⟩
  | .hbm, ⟨37, _⟩ => ⟨S_, .f32⟩
  | .hbm, ⟨38, _⟩ => ⟨S6000, .f32⟩
  | .hbm, ⟨39, _⟩ => ⟨S6000, .i1⟩
  | .hbm, ⟨40, _⟩ => ⟨S_, .f32⟩
  | .hbm, ⟨41, _⟩ => ⟨S_, .f32⟩
  | .hbm, ⟨42, _⟩ => ⟨S6000, .f32⟩
  | .hbm, ⟨43, _⟩ => ⟨S6000, .f32⟩
  | .hbm, ⟨44, _⟩ => ⟨S6000, .f32⟩
  | .hbm, ⟨45, _⟩ => ⟨S_, .f32⟩
  | .hbm, ⟨46, _⟩ => ⟨S_, .f32⟩
  | .hbm, ⟨47, _⟩ => ⟨S6000, .f32⟩
  | .hbm, ⟨48, _⟩ => ⟨S6000, .f32⟩
  | .hbm, ⟨49, _⟩ => ⟨S6000x1, .f32⟩
  | .hbm, ⟨50, _⟩ => ⟨S6000x6000, .bf16⟩
  | .hbm, ⟨51, _⟩ => ⟨S2x512x512, .bf16⟩
  | .hbm, ⟨52, _⟩ => ⟨S2x512x512, .bf16⟩
  | .hbm, ⟨53, _⟩ => ⟨S1x512x512, .bf16⟩
  | .hbm, ⟨54, _⟩ => ⟨S512x512, .bf16⟩
  | .hbm, ⟨55, _⟩ => ⟨S1x512, .f32⟩
  | .hbm, ⟨56, _⟩ => ⟨S512, .f32⟩
  | .hbm, ⟨57, _⟩ => ⟨S1x512, .f32⟩
  | .hbm, ⟨58, _⟩ => ⟨S1x512x512, .bf16⟩
  | .hbm, ⟨59, _⟩ => ⟨S512x512, .bf16⟩
  | .hbm, ⟨60, _⟩ => ⟨S1x512, .f32⟩
  | .hbm, ⟨61, _⟩ => ⟨S512, .f32⟩
  | .hbm, ⟨62, _⟩ => ⟨S1x512, .f32⟩
  | .hbm, ⟨63, _⟩ => ⟨S6000x512, .f32⟩
  | .hbm, ⟨64, _⟩ => ⟨S6000x512, .f32⟩
  | .hbm, ⟨65, _⟩ => ⟨S6000x512, .bf16⟩
  | .hbm, ⟨66, _⟩ => ⟨S6000x512, .f32⟩
  | .hbm, ⟨67, _⟩ => ⟨S6000x512, .f32⟩
  | .hbm, ⟨68, _⟩ => ⟨S1x512x512, .bf16⟩
  | .hbm, ⟨69, _⟩ => ⟨S512x512, .bf16⟩
  | .hbm, ⟨70, _⟩ => ⟨S1x512, .f32⟩
  | .hbm, ⟨71, _⟩ => ⟨S512, .f32⟩
  | .hbm, ⟨72, _⟩ => ⟨S1x512, .f32⟩
  | .hbm, ⟨73, _⟩ => ⟨S1x512x512, .bf16⟩
  | .hbm, ⟨74, _⟩ => ⟨S512x512, .bf16⟩
  | .hbm, ⟨75, _⟩ => ⟨S1x512, .f32⟩
  | .hbm, ⟨76, _⟩ => ⟨S512, .f32⟩
  | .hbm, ⟨77, _⟩ => ⟨S1x512, .f32⟩
  | .hbm, ⟨78, _⟩ => ⟨S6000x512, .f32⟩
  | .hbm, ⟨79, _⟩ => ⟨S6000x512, .f32⟩
  | .hbm, ⟨80, _⟩ => ⟨S6000x512, .bf16⟩
  | .hbm, ⟨81, _⟩ => ⟨S6000x512, .f32⟩
  | .hbm, ⟨82, _⟩ => ⟨S6000x512, .f32⟩
  | .hbm, ⟨83, _⟩ => ⟨S2000x512, .f32⟩
  | .hbm, ⟨84, _⟩ => ⟨S2000x512, .f32⟩
  | .hbm, ⟨85, _⟩ => ⟨S2000x512, .f32⟩
  | .local _ .vmem, ⟨0, _⟩ => ⟨S400x6000, .bf16⟩
  | .local _ .vmem, ⟨1, _⟩ => ⟨S400x6000, .bf16⟩
  | .local _ .vmem, ⟨2, _⟩ => ⟨S6000x512, .bf16⟩
  | .local _ .vmem, ⟨3, _⟩ => ⟨S400x1, .f32⟩
  | .local _ .vmem, ⟨4, _⟩ => ⟨S400x1, .f32⟩
  | .local _ .vmem, ⟨5, _⟩ => ⟨S512x512, .bf16⟩
  | .local _ .vmem, ⟨6, _⟩ => ⟨S1x512, .f32⟩
  | .local _ .vmem, ⟨7, _⟩ => ⟨S512x512, .bf16⟩
  | .local _ .vmem, ⟨8, _⟩ => ⟨S1x512, .f32⟩
  | .local _ .vmem, ⟨9, _⟩ => ⟨S400x512, .f32⟩
  | .local _ .vmem, ⟨10, _⟩ => ⟨S400x512, .f32⟩
  | .local _ .vmem, ⟨11, _⟩ => ⟨S400x512, .f32⟩
  | .local _ .vmem, ⟨12, _⟩ => ⟨S400x512, .f32⟩
  | .local _ .vmem, ⟨13, _⟩ => ⟨S400x512, .f32⟩
  | .local _ .vmem, ⟨14, _⟩ => ⟨S400x512, .f32⟩
  | .local _ .vmem, ⟨15, _⟩ => ⟨S400x6000, .bf16⟩
  | .local _ .vmem, ⟨16, _⟩ => ⟨S400x6000, .bf16⟩
  | .local _ .vmem, ⟨17, _⟩ => ⟨S6000x512, .bf16⟩
  | .local _ .vmem, ⟨18, _⟩ => ⟨S400x1, .f32⟩
  | .local _ .vmem, ⟨19, _⟩ => ⟨S400x1, .f32⟩
  | .local _ .vmem, ⟨20, _⟩ => ⟨S512x512, .bf16⟩
  | .local _ .vmem, ⟨21, _⟩ => ⟨S1x512, .f32⟩
  | .local _ .vmem, ⟨22, _⟩ => ⟨S512x512, .bf16⟩
  | .local _ .vmem, ⟨23, _⟩ => ⟨S1x512, .f32⟩
  | .local _ .vmem, ⟨24, _⟩ => ⟨S400x512, .f32⟩
  | .local _ .vmem, ⟨25, _⟩ => ⟨S400x512, .f32⟩
  | .local _ .vmem, ⟨26, _⟩ => ⟨S400x512, .f32⟩
  | .local _ .vmem, ⟨27, _⟩ => ⟨S400x512, .f32⟩
  | .local _ .vmem, ⟨28, _⟩ => ⟨S400x512, .f32⟩
  | .local _ .vmem, ⟨29, _⟩ => ⟨S400x512, .f32⟩
  | _, _ => ⟨S2000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c : Ref sig .tc := ⟨.hbm, 17, rfl⟩
abbrev main_v7 : Ref sig .tc := ⟨.hbm, 18, rfl⟩
abbrev main_v8 : Ref sig .tc := ⟨.hbm, 19, rfl⟩
abbrev main_c_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c_1 : Ref sig .tc := ⟨.hbm, 24, rfl⟩
abbrev main_v12 : Ref sig .tc := ⟨.hbm, 25, rfl⟩
abbrev main_v13 : Ref sig .tc := ⟨.hbm, 26, rfl⟩
abbrev main_c_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_cst_4 : Ref sig .tc := ⟨.hbm, 37, rfl⟩
abbrev main_v22 : Ref sig .tc := ⟨.hbm, 38, rfl⟩
abbrev main_v23 : Ref sig .tc := ⟨.hbm, 39, rfl⟩
abbrev main_cst_5 : Ref sig .tc := ⟨.hbm, 40, rfl⟩
abbrev main_call0_v0 : Ref sig .tc := ⟨.hbm, 41, rfl⟩
abbrev main_call0_v1 : Ref sig .tc := ⟨.hbm, 42, rfl⟩
abbrev main_v24 : Ref sig .tc := ⟨.hbm, 43, rfl⟩
abbrev main_v25 : Ref sig .tc := ⟨.hbm, 44, rfl⟩
abbrev main_cst_6 : Ref sig .tc := ⟨.hbm, 45, rfl⟩
abbrev main_call1_v0 : Ref sig .tc := ⟨.hbm, 46, rfl⟩
abbrev main_call1_v1 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44_0 : Ref sig .tc := ⟨.hbm, 66, rfl⟩
abbrev main_v44_1 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58_0 : Ref sig .tc := ⟨.hbm, 81, rfl⟩
abbrev main_v58_1 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg7_0 : Ref sig .tc := ⟨.vmem, 24, rfl⟩
abbrev cc1_stg7_1 : Ref sig .tc := ⟨.vmem, 25, rfl⟩
abbrev cc1_stg8_0 : Ref sig .tc := ⟨.vmem, 26, rfl⟩
abbrev cc1_stg8_1 : Ref sig .tc := ⟨.vmem, 27, rfl⟩
abbrev cc1_stg9_0 : Ref sig .tc := ⟨.vmem, 28, rfl⟩
abbrev cc1_stg9_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc1_sem0_0 : DmaSem sig := 15
abbrev cc1_sem0_1 : DmaSem sig := 16
abbrev cc1_sem1_0 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem5_0 : DmaSem sig := 22
abbrev cc1_sem6_0 : DmaSem sig := 23
abbrev cc1_sem7_0 : DmaSem sig := 24
abbrev cc1_sem7_1 : DmaSem sig := 25
abbrev cc1_sem8_0 : DmaSem sig := 26
abbrev cc1_sem8_1 : DmaSem sig := 27
abbrev cc1_sem9_0 : DmaSem sig := 28
abbrev cc1_sem9_1 : DmaSem sig := 29

abbrev nD : Nat := 1
abbrev τ : Topo := Topo.v7x

variable {F : FTy → Type} [FloatOps F]

abbrev grid0 : Pipeline.Grid := ⟨1, ![15], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x6000 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6000x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S400x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S400x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S400x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S400x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![15], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x6000 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S6000x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S400x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S512x512 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S512x512 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S400x512 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S400x512 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S400x512 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  concatenates_S2000x512_S2000x512_S2000x512_S6000x512_d0 : Shape.Concatenates [S2000x512, S2000x512, S2000x512] S6000x512 0
  slices_S500000_S400000_0 : S500000.Slices ![0] S400000
  bcast_S_S6000x6000 : S_.BroadcastsInDim S6000x6000 (![] : Fin 0 → Fin S6000x6000.rank)
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S400000_S400000x1_0 : S400000.BroadcastsInDim S400000x1 (![0] : Fin 1 → Fin S400000x1.rank)
  concatenates_S400000x1_S400000x1_S400000x2_d1 : Shape.Concatenates [S400000x1, S400000x1] S400000x2 1
  reducesTo_S6000x6000_S6000_d1 : S6000x6000.ReducesTo [1] S6000
  h_S_ : 0 < S_.numel
  bcast_S_S6000 : S_.BroadcastsInDim S6000 (![] : Fin 0 → Fin S6000.rank)
  shapeCasts_S6000_S6000x1 : S6000.ShapeCasts S6000x1
  bitsLt_bf16_f32 : FTy.bits .bf16 < FTy.bits .f32
  slices_S2x512x512_S1x512x512_0_0_0 : S2x512x512.Slices ![0, 0, 0] S1x512x512
  shapeCasts_S1x512x512_S512x512 : S1x512x512.ShapeCasts S512x512
  slices_S2x512_S1x512_0_0 : S2x512.Slices ![0, 0] S1x512
  shapeCasts_S1x512_S512 : S1x512.ShapeCasts S512
  shapeCasts_S512_S1x512 : S512.ShapeCasts S1x512
  bcast_S6000x1_S6000x512_0_1 : S6000x1.BroadcastsInDim S6000x512 (![0, 1] : Fin 2 → Fin S6000x512.rank)
  inb_S400x6000_S400x6000_0_0 : ∀ a, (![0, 0] : Fin 2 → Nat) a + S400x6000.size a ≤ S400x6000.size a
  h_S400x6000 : 0 < S400x6000.numel
  shapeCasts_S400x6000_S400x6000 : S400x6000.ShapeCasts S400x6000
  inb_S6000x512_S6000x512_0_0 : ∀ a, (![0, 0] : Fin 2 → Nat) a + S6000x512.size a ≤ S6000x512.size a
  h_S6000x512 : 0 < S6000x512.numel
  shapeCasts_S6000x512_S6000x512 : S6000x512.ShapeCasts S6000x512
  inb_S400x1_S400x1_0_0 : ∀ a, (![0, 0] : Fin 2 → Nat) a + S400x1.size a ≤ S400x1.size a
  h_S400x1 : 0 < S400x1.numel
  shapeCasts_S400x1_S400x1 : S400x1.ShapeCasts S400x1
  broadcasts_S400x1_S400x512 : S400x1.Broadcasts S400x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S400x512 : S1x512.Broadcasts S400x512
  inb_S400x512_S400x512_0_0 : ∀ a, (![0, 0] : Fin 2 → Nat) a + S400x512.size a ≤ S400x512.size a
  h_S400x512 : 0 < S400x512.numel
  shapeCasts_S400x512_S400x512 : S400x512.ShapeCasts S400x512
  slices_S2x512x512_S1x512x512_1_0_0 : S2x512x512.Slices ![1, 0, 0] S1x512x512
  slices_S2x512_S1x512_1_0 : S2x512.Slices ![1, 0] S1x512
  slices_S6000x512_S2000x512_0_0 : S6000x512.Slices ![0, 0] S2000x512
  slices_S6000x512_S2000x512_2000_0 : S6000x512.Slices ![2000, 0] S2000x512
  slices_S6000x512_S2000x512_4000_0 : S6000x512.Slices ![4000, 0] S2000x512
  scatter_S6000x6000_S400000x2_S400000_n_01_01_1_wf : ScatterDims.WF S6000x6000 S400000x2 S400000 [] [0, 1] [0, 1] 1
  dot_S400x6000_S6000x512_S400x512_1_0_0_1_n_n_wf : DotDims.WF S400x6000 S6000x512 S400x512 [1] [0] [0] [1] [] []
  dot_S400x512_S512x512_S400x512_1_0_0_1_n_n_wf : DotDims.WF S400x512 S512x512 S400x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x6000.size a ≤ S6000x6000.size a
  hwx0_0 : ∀ i : grid0.Coords, EltTy.bits .bf16 = 32 ∨ (Rect.block (s := S6000x6000) S400x6000.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S6000x512.size a ≤ S6000x512.size a
  hwx0_1 : ∀ i : grid0.Coords, EltTy.bits .bf16 = 32 ∨ (Rect.block (s := S6000x512) S6000x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S400x1.size a ≤ S6000x1.size a
  hwx0_2 : ∀ i : grid0.Coords, EltTy.bits .f32 = 32 ∨ (Rect.block (s := S6000x1) S400x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .bf16 = 32 ∨ (Rect.block (s := S512x512) S512x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x512.size a
  hwx0_5 : ∀ i : grid0.Coords, EltTy.bits .bf16 = 32 ∨ (Rect.block (s := S512x512) S512x512.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S400x512.size a ≤ S6000x512.size a
  hwx0_7 : ∀ i : grid0.Coords, EltTy.bits .f32 = 32 ∨ (Rect.block (s := S6000x512) S400x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S400x512.size a ≤ S6000x512.size a
  hwx0_8 : ∀ i : grid0.Coords, EltTy.bits .f32 = 32 ∨ (Rect.block (s := S6000x512) S400x512.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S400x512.size a ≤ S6000x512.size a
  hwx0_9 : ∀ i : grid0.Coords, EltTy.bits .f32 = 32 ∨ (Rect.block (s := S6000x512) S400x512.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x6000.size a ≤ S6000x6000.size a
  hwx1_0 : ∀ i : grid1.Coords, EltTy.bits .bf16 = 32 ∨ (Rect.block (s := S6000x6000) S400x6000.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S6000x512.size a ≤ S6000x512.size a
  hwx1_1 : ∀ i : grid1.Coords, EltTy.bits .bf16 = 32 ∨ (Rect.block (s := S6000x512) S6000x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S400x1.size a ≤ S6000x1.size a
  hwx1_2 : ∀ i : grid1.Coords, EltTy.bits .f32 = 32 ∨ (Rect.block (s := S6000x1) S400x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S512x512.size a
  hwx1_3 : ∀ i : grid1.Coords, EltTy.bits .bf16 = 32 ∨ (Rect.block (s := S512x512) S512x512.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x512.size a ≤ S1x512.size a
  hwx1_4 : ∀ i : grid1.Coords, EltTy.bits .f32 = 32 ∨ (Rect.block (s := S1x512) S1x512.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S512x512.size a ≤ S512x512.size a
  hwx1_5 : ∀ i : grid1.Coords, EltTy.bits .bf16 = 32 ∨ (Rect.block (s := S512x512) S512x512.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x512.size a ≤ S1x512.size a
  hwx1_6 : ∀ i : grid1.Coords, EltTy.bits .f32 = 32 ∨ (Rect.block (s := S1x512) S1x512.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S400x512.size a ≤ S6000x512.size a
  hwx1_7 : ∀ i : grid1.Coords, EltTy.bits .f32 = 32 ∨ (Rect.block (s := S6000x512) S400x512.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S400x512.size a ≤ S6000x512.size a
  hwx1_8 : ∀ i : grid1.Coords, EltTy.bits .f32 = 32 ∨ (Rect.block (s := S6000x512) S400x512.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S400x512.size a ≤ S6000x512.size a
  hwx1_9 : ∀ i : grid1.Coords, EltTy.bits .f32 = 32 ∨ (Rect.block (s := S6000x512) S400x512.size (cc1_transform_9 i) (hinb1_9 i)).WholeWords (EltTy.packing .f32)

variable [Facts₀]

def scatter_S6000x6000_S400000x2_S400000_n_01_01_1 : ScatterDims S6000x6000 S400000x2 S400000 where
  updateWindowDims := []
  insertedWindowDims := [0, 1]
  scatterDimsToOperandDims := [0, 1]
  indexVectorDim := 1
  wf := scatter_S6000x6000_S400000x2_S400000_n_01_01_1_wf
def dot_S400x6000_S6000x512_S400x512_1_0_0_1_n_n : DotDims S400x6000 S6000x512 S400x512 where
  lhsContracting := [1]
  rhsContracting := [0]
  lhsNonContracting := [0]
  rhsNonContracting := [1]
  lhsBatch := []
  rhsBatch := []
  wf := dot_S400x6000_S6000x512_S400x512_1_0_0_1_n_n_wf
def dot_S400x512_S512x512_S400x512_1_0_0_1_n_n : DotDims S400x512 S512x512 S400x512 where
  lhsContracting := [1]
  rhsContracting := [0]
  lhsNonContracting := [0]
  rhsNonContracting := [1]
  lhsBatch := []
  rhsBatch := []
  wf := dot_S400x512_S512x512_S400x512_1_0_0_1_n_n_wf

abbrev win0_0 : Pipeline.Window sig grid0 :=
  Pipeline.Window.ofSpec (Memref.whole main_v28) S400x6000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v43) S6000x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S400x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v32) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v35) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v37) S512x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v40) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S400x512.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v44_0) S400x512.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v44_1) S400x512.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v28) S400x6000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v57) S6000x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v27) S400x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v46) S512x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v49) S1x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v51) S512x512.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v54) S1x512.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v44_1) S400x512.size cc1_transform_7 reads1_7 false false 2 stage1_7 sem1_7
    hrank1 hreads1_7 hinb1_7 nbuf1_7 (Memref.isWhole_whole _) hwx1_7 hstage1_7

abbrev win1_8 : Pipeline.Window sig grid1 :=
  Pipeline.Window.ofSpec (Memref.whole main_v58_0) S400x512.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v58_1) S400x512.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where
  halias0_9 : Pipeline.Aliased win0 7 9
  halias1_9 : Pipeline.Aliased win1 7 9

variable [Facts]
-- ==== ReferenceIdeal.lean ====
abbrev S2000x512 : Shape := ⟨2, ![2000, 512]⟩
abbrev S500000 : Shape := ⟨1, ![500000]⟩
abbrev S2x512x512 : Shape := ⟨3, ![2, 512, 512]⟩
abbrev S2x512 : Shape := ⟨2, ![2, 512]⟩
abbrev S2x400000 : Shape := ⟨2, ![2, 400000]⟩
abbrev S6000x512 : Shape := ⟨2, ![6000, 512]⟩
abbrev S400000 : Shape := ⟨1, ![400000]⟩
abbrev S_ : Shape := ⟨0, ![]⟩
abbrev S6000x6000 : Shape := ⟨2, ![6000, 6000]⟩
abbrev S1x400000 : Shape := ⟨2, ![1, 400000]⟩
abbrev S400000x1 : Shape := ⟨2, ![400000, 1]⟩
abbrev S400000x2 : Shape := ⟨2, ![400000, 2]⟩
abbrev S6000 : Shape := ⟨1, ![6000]⟩
abbrev S6000x1 : Shape := ⟨2, ![6000, 1]⟩
abbrev S1x6000 : Shape := ⟨2, ![1, 6000]⟩
abbrev S1x512x512 : Shape := ⟨3, ![1, 512, 512]⟩
abbrev S512x512 : Shape := ⟨2, ![512, 512]⟩
abbrev S1x512 : Shape := ⟨2, ![1, 512]⟩
abbrev S512 : Shape := ⟨1, ![512]⟩

abbrev nBuf : Space → Nat
  | .hbm => 116
  | .vmem => 0
  | .smem => 0
  | _ => 0

abbrev bufTy : (tb : Table) → Fin (tcTables nBuf tb) → BufTy
  | .hbm, ⟨0, _⟩ => ⟨S2000x512, .f32⟩
  | .hbm, ⟨1, _⟩ => ⟨S2000x512, .f32⟩
  | .hbm, ⟨2, _⟩ => ⟨S2000x512, .f32⟩
  | .hbm, ⟨3, _⟩ => ⟨S500000, .f32⟩
  | .hbm, ⟨4, _⟩ => ⟨S2x512x512, .f32⟩
  | .hbm, ⟨5, _⟩ => ⟨S2x512, .f32⟩
  | .hbm, ⟨6, _⟩ => ⟨S2x512x512, .f32⟩
  | .hbm, ⟨7, _⟩ => ⟨S2x512, .f32⟩
  | .hbm, ⟨8, _⟩ => ⟨S2x400000, .i32⟩
  | .hbm, ⟨9, _⟩ => ⟨S6000x512, .f32⟩
  | .hbm, ⟨10, _⟩ => ⟨S400000, .f32⟩
  | .hbm, ⟨11, _⟩ => ⟨S_, .f32⟩
  | .hbm, ⟨12, _⟩ => ⟨S6000x6000, .f32⟩
  | .hbm, ⟨13, _⟩ => ⟨S1x400000, .i32⟩
  | .hbm, ⟨14, _⟩ => ⟨S400000, .i32⟩
  | .hbm, ⟨15, _⟩ => ⟨S1x400000, .i32⟩
  | .hbm, ⟨16, _⟩ => ⟨S400000, .i32⟩
  | .hbm, ⟨17, _⟩ => ⟨S_, .i32⟩
  | .hbm, ⟨18, _⟩ => ⟨S400000, .i32⟩
  | .hbm, ⟨19, _⟩ => ⟨S400000, .i1⟩
  | .hbm, ⟨20, _⟩ => ⟨S_, .i32⟩
  | .hbm, ⟨21, _⟩ => ⟨S400000, .i32⟩
  | .hbm, ⟨22, _⟩ => ⟨S400000, .i32⟩
  | .hbm, ⟨23, _⟩ => ⟨S400000, .i32⟩
  | .hbm, ⟨24, _⟩ => ⟨S_, .i32⟩
  | .hbm, ⟨25, _⟩ => ⟨S400000, .i32⟩
  | .hbm, ⟨26, _⟩ => ⟨S400000, .i1⟩
  | .hbm, ⟨27, _⟩ => ⟨S_, .i32⟩
  | .hbm, ⟨28, _⟩ => ⟨S400000, .i32⟩
  | .hbm, ⟨29, _⟩ => ⟨S400000, .i32⟩
  | .hbm, ⟨30, _⟩ => ⟨S400000, .i32⟩
  | .hbm, ⟨31, _⟩ => ⟨S400000x1, .i32⟩
  | .hbm, ⟨32, _⟩ => ⟨S400000x1, .i32⟩
  | .hbm, ⟨33, _⟩ => ⟨S400000x2, .i32⟩
  | .hbm, ⟨34, _⟩ => ⟨S6000x6000, .f32⟩
  | .hbm, ⟨35, _⟩ => ⟨S_, .f32⟩
  | .hbm, ⟨36, _⟩ => ⟨S6000, .f32⟩
  | .hbm, ⟨37, _⟩ => ⟨S_, .f32⟩
  | .hbm, ⟨38, _⟩ => ⟨S6000, .f32⟩
  | .hbm, ⟨39, _⟩ => ⟨S6000, .i1⟩
  | .hbm, ⟨40, _⟩ => ⟨S_, .f32⟩
  | .hbm, ⟨41, _⟩ => ⟨S_, .f32⟩
  | .hbm, ⟨42, _⟩ => ⟨S6000, .f32⟩
  | .hbm, ⟨43, _⟩ => ⟨S6000, .f32⟩
  | .hbm, ⟨44, _⟩ => ⟨S6000, .f32⟩
  | .hbm, ⟨45, _⟩ => ⟨S_, .f32⟩
  | .hbm, ⟨46, _⟩ => ⟨S_, .f32⟩
  | .hbm, ⟨47, _⟩ => ⟨S6000, .f32⟩
  | .hbm, ⟨48, _⟩ => ⟨S6000, .f32⟩
  | .hbm, ⟨49, _⟩ => ⟨S6000x1, .f32⟩
  | .hbm, ⟨50, _⟩ => ⟨S6000x6000, .f32⟩
  | .hbm, ⟨51, _⟩ => ⟨S6000x6000, .f32⟩
  | .hbm, ⟨52, _⟩ => ⟨S1x6000, .f32⟩
  | .hbm, ⟨53, _⟩ => ⟨S6000x6000, .f32⟩
  | .hbm, ⟨54, _⟩ => ⟨S6000x6000, .f32⟩
  | .hbm, ⟨55, _⟩ => ⟨S6000x512, .f32⟩
  | .hbm, ⟨56, _⟩ => ⟨S1x512x512, .f32⟩
  | .hbm, ⟨57, _⟩ => ⟨S512x512, .f32⟩
  | .hbm, ⟨58, _⟩ => ⟨S6000x512, .f32⟩
  | .hbm, ⟨59, _⟩ => ⟨S1x512, .f32⟩
  | .hbm, ⟨60, _⟩ => ⟨S512, .f32⟩
  | .hbm, ⟨61, _⟩ => ⟨S1x512, .f32⟩
  | .hbm, ⟨62, _⟩ => ⟨S6000x512, .f32⟩
  | .hbm, ⟨63, _⟩ => ⟨S6000x512, .f32⟩
  | .hbm, ⟨64, _⟩ => ⟨S_, .f32⟩
  | .hbm, ⟨65, _⟩ => ⟨S6000x512, .f32⟩
  | .hbm, ⟨66, _⟩ => ⟨S6000x512, .f32⟩
  | .hbm, ⟨67, _⟩ => ⟨S1x512x512, .f32⟩
  | .hbm, ⟨68, _⟩ => ⟨S512x512, .f32⟩
  | .hbm, ⟨69, _⟩ => ⟨S6000x512, .f32⟩
  | .hbm, ⟨70, _⟩ => ⟨S1x512, .f32⟩
  | .hbm, ⟨71, _⟩ => ⟨S512, .f32⟩
  | .hbm, ⟨72, _⟩ => ⟨S1x512, .f32⟩
  | .hbm, ⟨73, _⟩ => ⟨S6000x512, .f32⟩
  | .hbm, ⟨74, _⟩ => ⟨S6000x512, .f32⟩
  | .hbm, ⟨75, _⟩ => ⟨S_, .f32⟩
  | .hbm, ⟨76, _⟩ => ⟨S_, .f32⟩
  | .hbm, ⟨77, _⟩ => ⟨S6000x512, .f32⟩
  | .hbm, ⟨78, _⟩ => ⟨S6000x512, .i1⟩
  | .hbm, ⟨79, _⟩ => ⟨S_, .f32⟩
  | .hbm, ⟨80, _⟩ => ⟨S6000x512, .f32⟩
  | .hbm, ⟨81, _⟩ => ⟨S6000x512, .f32⟩
  | .hbm, ⟨82, _⟩ => ⟨S6000x512, .f32⟩
  | .hbm, ⟨83, _⟩ => ⟨S6000x512, .f32⟩
  | .hbm, ⟨84, _⟩ => ⟨S6000x512, .f32⟩
  | .hbm, ⟨85, _⟩ => ⟨S1x512x512, .f32⟩
  | .hbm, ⟨86, _⟩ => ⟨S512x512, .f32⟩
  | .hbm, ⟨87, _⟩ => ⟨S6000x512, .f32⟩
  | .hbm, ⟨88, _⟩ => ⟨S1x512, .f32⟩
  | .hbm, ⟨89, _⟩ => ⟨S512, .f32⟩
  | .hbm, ⟨90, _⟩ => ⟨S1x512, .f32⟩
  | .hbm, ⟨91, _⟩ => ⟨S6000x512, .f32⟩
  | .hbm, ⟨92, _⟩ => ⟨S6000x512, .f32⟩
  | .hbm, ⟨93, _⟩ => ⟨S_, .f32⟩
  | .hbm, ⟨94, _⟩ => ⟨S6000x512, .f32⟩
  | .hbm, ⟨95, _⟩ => ⟨S6000x512, .f32⟩
  | .hbm, ⟨96, _⟩ => ⟨S1x512x512, .f32⟩
  | .hbm, ⟨97, _⟩ => ⟨S512x512, .f32⟩
  | .hbm, ⟨98, _⟩ => ⟨S6000x512, .f32⟩
  | .hbm, ⟨99, _⟩ => ⟨S1x512, .f32⟩
  | .hbm, ⟨100, _⟩ => ⟨S512, .f32⟩
  | .hbm, ⟨101, _⟩ => ⟨S1x512, .f32⟩
  | .hbm, ⟨102, _⟩ => ⟨S6000x512, .f32⟩
  | .hbm, ⟨103, _⟩ => ⟨S6000x512, .f32⟩
  | .hbm, ⟨104, _⟩ => ⟨S_, .f32⟩
  | .hbm, ⟨105, _⟩ => ⟨S_, .f32⟩
  | .hbm, ⟨106, _⟩ => ⟨S6000x512, .f32⟩
  | .hbm, ⟨107, _⟩ => ⟨S6000x512, .i1⟩
  | .hbm, ⟨108, _⟩ => ⟨S_, .f32⟩
  | .hbm, ⟨109, _⟩ => ⟨S6000x512, .f32⟩
  | .hbm, ⟨110, _⟩ => ⟨S6000x512, .f32⟩
  | .hbm, ⟨111, _⟩ => ⟨S6000x512, .f32⟩
  | .hbm, ⟨112, _⟩ => ⟨S6000x512, .f32⟩
  | .hbm, ⟨113, _⟩ => ⟨S2000x512, .f32⟩
  | .hbm, ⟨114, _⟩ => ⟨S2000x512, .f32⟩
  | .hbm, ⟨115, _⟩ => ⟨S2000x512, .f32⟩
  | _, _ => ⟨S2000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c : Ref sig .tc := ⟨.hbm, 17, rfl⟩
abbrev main_v7 : Ref sig .tc := ⟨.hbm, 18, rfl⟩
abbrev main_v8 : Ref sig .tc := ⟨.hbm, 19, rfl⟩
abbrev main_c_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c_1 : Ref sig .tc := ⟨.hbm, 24, rfl⟩
abbrev main_v12 : Ref sig .tc := ⟨.hbm, 25, rfl⟩
abbrev main_v13 : Ref sig .tc := ⟨.hbm, 26, rfl⟩
abbrev main_c_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_cst_4 : Ref sig .tc := ⟨.hbm, 37, rfl⟩
abbrev main_v22 : Ref sig .tc := ⟨.hbm, 38, rfl⟩
abbrev main_v23 : Ref sig .tc := ⟨.hbm, 39, rfl⟩
abbrev main_cst_5 : Ref sig .tc := ⟨.hbm, 40, rfl⟩
abbrev main_call0_v0 : Ref sig .tc := ⟨.hbm, 41, rfl⟩
abbrev main_call0_v1 : Ref sig .tc := ⟨.hbm, 42, rfl⟩
abbrev main_v24 : Ref sig .tc := ⟨.hbm, 43, rfl⟩
abbrev main_v25 : Ref sig .tc := ⟨.hbm, 44, rfl⟩
abbrev main_cst_6 : Ref sig .tc := ⟨.hbm, 45, rfl⟩
abbrev main_call1_v0 : Ref sig .tc := ⟨.hbm, 46, rfl⟩
abbrev main_call1_v1 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_call2_cst : Ref sig .tc := ⟨.hbm, 64, rfl⟩
abbrev main_call2_v0 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_cst_7 : Ref sig .tc := ⟨.hbm, 75, rfl⟩
abbrev main_call3_cst : Ref sig .tc := ⟨.hbm, 76, rfl⟩
abbrev main_call3_v0 : Ref sig .tc := ⟨.hbm, 77, rfl⟩
abbrev main_call3_v1 : Ref sig .tc := ⟨.hbm, 78, rfl⟩
abbrev main_call3_v2 : Ref sig .tc := ⟨.hbm, 79, rfl⟩
abbrev main_call3_v3 : Ref sig .tc := ⟨.hbm, 80, rfl⟩
abbrev main_call3_v4 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_call4_cst : Ref sig .tc := ⟨.hbm, 93, rfl⟩
abbrev main_call4_v0 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_cst_8 : Ref sig .tc := ⟨.hbm, 104, rfl⟩
abbrev main_call5_cst : Ref sig .tc := ⟨.hbm, 105, rfl⟩
abbrev main_call5_v0 : Ref sig .tc := ⟨.hbm, 106, rfl⟩
abbrev main_call5_v1 : Ref sig .tc := ⟨.hbm, 107, rfl⟩
abbrev main_call5_v2 : Ref sig .tc := ⟨.hbm, 108, rfl⟩
abbrev main_call5_v3 : Ref sig .tc := ⟨.hbm, 109, rfl⟩
abbrev main_call5_v4 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩

abbrev nD : Nat := 1
abbrev τ : Topo := Topo.v7x

variable {F : FTy → Type} [FloatOps F]

class Facts₀ : Prop where
  concatenates_S2000x512_S2000x512_S2000x512_S6000x512_d0 : Shape.Concatenates [S2000x512, S2000x512, S2000x512] S6000x512 0
  slices_S500000_S400000_0 : S500000.Slices ![0] S400000
  bcast_S_S6000x6000 : S_.BroadcastsInDim S6000x6000 (![] : Fin 0 → Fin S6000x6000.rank)
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S400000_S400000x1_0 : S400000.BroadcastsInDim S400000x1 (![0] : Fin 1 → Fin S400000x1.rank)
  concatenates_S400000x1_S400000x1_S400000x2_d1 : Shape.Concatenates [S400000x1, S400000x1] S400000x2 1
  reducesTo_S6000x6000_S6000_d1 : S6000x6000.ReducesTo [1] S6000
  h_S_ : 0 < S_.numel
  bcast_S_S6000 : S_.BroadcastsInDim S6000 (![] : Fin 0 → Fin S6000.rank)
  bcast_S6000_S6000x1_0 : S6000.BroadcastsInDim S6000x1 (![0] : Fin 1 → Fin S6000x1.rank)
  bcast_S6000x1_S6000x6000_0_1 : S6000x1.BroadcastsInDim S6000x6000 (![0, 1] : Fin 2 → Fin S6000x6000.rank)
  bcast_S6000_S1x6000_1 : S6000.BroadcastsInDim S1x6000 (![1] : Fin 1 → Fin S1x6000.rank)
  bcast_S1x6000_S6000x6000_0_1 : S1x6000.BroadcastsInDim S6000x6000 (![0, 1] : Fin 2 → Fin S6000x6000.rank)
  slices_S2x512x512_S1x512x512_0_0_0 : S2x512x512.Slices ![0, 0, 0] S1x512x512
  shapeCasts_S1x512x512_S512x512 : S1x512x512.ShapeCasts S512x512
  slices_S2x512_S1x512_0_0 : S2x512.Slices ![0, 0] S1x512
  shapeCasts_S1x512_S512 : S1x512.ShapeCasts S512
  bcast_S512_S1x512_1 : S512.BroadcastsInDim S1x512 (![1] : Fin 1 → Fin S1x512.rank)
  bcast_S1x512_S6000x512_0_1 : S1x512.BroadcastsInDim S6000x512 (![0, 1] : Fin 2 → Fin S6000x512.rank)
  bcast_S_S6000x512 : S_.BroadcastsInDim S6000x512 (![] : Fin 0 → Fin S6000x512.rank)
  slices_S2x512x512_S1x512x512_1_0_0 : S2x512x512.Slices ![1, 0, 0] S1x512x512
  slices_S2x512_S1x512_1_0 : S2x512.Slices ![1, 0] S1x512
  slices_S6000x512_S2000x512_0_0 : S6000x512.Slices ![0, 0] S2000x512
  slices_S6000x512_S2000x512_2000_0 : S6000x512.Slices ![2000, 0] S2000x512
  slices_S6000x512_S2000x512_4000_0 : S6000x512.Slices ![4000, 0] S2000x512
  scatter_S6000x6000_S400000x2_S400000_n_01_01_1_wf : ScatterDims.WF S6000x6000 S400000x2 S400000 [] [0, 1] [0, 1] 1
  dot_S6000x6000_S6000x512_S6000x512_1_0_0_1_n_n_wf : DotDims.WF S6000x6000 S6000x512 S6000x512 [1] [0] [0] [1] [] []
  dot_S6000x512_S512x512_S6000x512_1_0_0_1_n_n_wf : DotDims.WF S6000x512 S512x512 S6000x512 [1] [0] [0] [1] [] []

variable [Facts₀]

def scatter_S6000x6000_S400000x2_S400000_n_01_01_1 : ScatterDims S6000x6000 S400000x2 S400000 where
  updateWindowDims := []
  insertedWindowDims := [0, 1]
  scatterDimsToOperandDims := [0, 1]
  indexVectorDim := 1
  wf := scatter_S6000x6000_S400000x2_S400000_n_01_01_1_wf
def dot_S6000x6000_S6000x512_S6000x512_1_0_0_1_n_n : DotDims S6000x6000 S6000x512 S6000x512 where
  lhsContracting := [1]
  rhsContracting := [0]
  lhsNonContracting := [0]
  rhsNonContracting := [1]
  lhsBatch := []
  rhsBatch := []
  wf := dot_S6000x6000_S6000x512_S6000x512_1_0_0_1_n_n_wf
def dot_S6000x512_S512x512_S6000x512_1_0_0_1_n_n : DotDims S6000x512 S512x512 S6000x512 where
  lhsContracting := [1]
  rhsContracting := [0]
  lhsNonContracting := [0]
  rhsNonContracting := [1]
  lhsBatch := []
  rhsBatch := []
  wf := dot_S6000x512_S512x512_S6000x512_1_0_0_1_n_n_wf

class Facts : Prop extends Facts₀ where

variable [Facts]
-- ==== Proof.KData.lean ====
/-
  The two pallas_call regions of this program share one body: per row tile of the adjacency, two chained
  projections of the propagated features. This module fixes, for each region and at a PARAMETER `V` (the buffer
  contents when the region is entered): a window's block at a grid point, what the body leaves in each of its two
  output buffers as a function of the input blocks (one whole-block store each, over the body's pure terms), and
  the pipeline's proof data built from them. Everything here is a definition or a projection of one.
-/
import proofs.«102648_j56324201120496_1_alg».proof.Proof.Gen.Kernel.Launch
import proofs.«102648_j56324201120496_1_alg».proof.Proof.Gen.Kernel.Skeleton
import proofs.«102648_j56324201120496_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The body's accesses: every load and store is of a whole staging buffer -/

abbrev rA : Rect S400x6000 := Rect.unit (s := S400x6000) ![0, 0] S400x6000.size inb_S400x6000_S400x6000_0_0
abbrev rX : Rect S6000x512 := Rect.unit (s := S6000x512) ![0, 0] S6000x512.size inb_S6000x512_S6000x512_0_0
abbrev rD : Rect S400x1 := Rect.unit (s := S400x1) ![0, 0] S400x1.size inb_S400x1_S400x1_0_0
abbrev rW : Rect S512x512 := Rect.unit (s := S512x512) ![0, 0] S512x512.size inb_S512x512_S512x512_0_0
abbrev rB : Rect S1x512 := Rect.unit (s := S1x512) ![0, 0] S1x512.size inb_S1x512_S1x512_0_0
abbrev rO : Rect S400x512 := Rect.unit (s := S400x512) ![0, 0] S400x512.size inb_S400x512_S400x512_0_0

/-- A single whole-buffer store covers the buffer. -/
theorem coverO (p : Vec F S400x512 .f32) (y : S400x512.Idx) :
    ∃ pc ∈ ([⟨rO, p⟩] : List (View.Piece (Elt F) S400x512 .f32)), y ∈ pc.1.set :=
  View.cover_of_tiled [⟨rO, p⟩] S400x512.size (by rfl) y

section Regions
variable (V : (c : Dev nD) → (b : Ref sig .tc) → Buf (Elt F) ((c : Thread nD τ).loc b))

/-! # Region 0: the windows' blocks, what the body leaves in each output buffer, the proof data -/

/-- Window `w`'s block at grid point `t`, read off the window's array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The new-feature output buffer after the body: one whole-block store of relu((A_tile · Xs) ⊙ d_rows · W + b). -/
def out0_8 (x0 : Vec F S400x6000 .bf16) (x1 : Vec F S6000x512 .bf16) (x2 : Vec F S400x1 .f32) (x3 : Vec F S512x512 .bf16) (x4 : Vec F S1x512 .f32) :
    Vec F S400x512 .f32 :=
  View.canon [⟨rO, k0_pay2 (View.ld x0 rA) (View.ld x1 rX) (View.ld x2 rD) (View.ld x3 rW) (View.ld x4 rB)⟩]

/-- The running-sum output buffer after the body: one whole-block store of the incoming sum block plus the
    leaky-relu of the second projection of the new features. -/
def out0_9 (x0 : Vec F S400x6000 .bf16) (x1 : Vec F S6000x512 .bf16) (x2 : Vec F S400x1 .f32) (x3 : Vec F S512x512 .bf16) (x4 : Vec F S1x512 .f32)
    (x5 : Vec F S512x512 .bf16) (x6 : Vec F S1x512 .f32) (x7 : Vec F S400x512 .f32) : Vec F S400x512 .f32 :=
  View.canon [⟨rO, k0_pay1 (k0_pay3 (View.ld x0 rA) (View.ld x1 rX) (View.ld x2 rD) (View.ld x3 rW) (View.ld x4 rB) (View.ld x5 rW) (View.ld x6 rB)) (View.ld x7 rO)⟩]

/-- The proof data of pipeline 0 on core `c`: the arrays as the region finds them; after the body at point `t`
    each input's buffer still at its block, each output's at the body's store over the input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => out0_8 (iblk0 V c 0 t) (iblk0 V c 1 t) (iblk0 V c 2 t) (iblk0 V c 3 t) (iblk0 V c 4 t)
    | ⟨9, _⟩ => out0_9 (iblk0 V c 0 t) (iblk0 V c 1 t) (iblk0 V c 2 t) (iblk0 V c 3 t) (iblk0 V c 4 t) (iblk0 V c 5 t) (iblk0 V c 6 t) (iblk0 V c 7 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t
    = out0_8 (iblk0 V c 0 t) (iblk0 V c 1 t) (iblk0 V c 2 t) (iblk0 V c 3 t) (iblk0 V c 4 t) := by dsimp only [dat0]
theorem after0_9 (c : Dev nD) (t : Fin cfg0.N) : (dat0 V c).after 9 t
    = out0_9 (iblk0 V c 0 t) (iblk0 V c 1 t) (iblk0 V c 2 t) (iblk0 V c 3 t) (iblk0 V c 4 t) (iblk0 V c 5 t) (iblk0 V c 6 t) (iblk0 V c 7 t) := by dsimp only [dat0]

/-! # Region 1: the windows' blocks, what the body leaves in each output buffer, the proof data -/

/-- Window `w`'s block at grid point `t`, read off the window's array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The new-feature output buffer after the body: one whole-block store of relu((A_tile · Xs) ⊙ d_rows · W + b). -/
def out1_8 (x0 : Vec F S400x6000 .bf16) (x1 : Vec F S6000x512 .bf16) (x2 : Vec F S400x1 .f32) (x3 : Vec F S512x512 .bf16) (x4 : Vec F S1x512 .f32) :
    Vec F S400x512 .f32 :=
  View.canon [⟨rO, k1_pay2 (View.ld x0 rA) (View.ld x1 rX) (View.ld x2 rD) (View.ld x3 rW) (View.ld x4 rB)⟩]

/-- The running-sum output buffer after the body: one whole-block store of the incoming sum block plus the
    leaky-relu of the second projection of the new features. -/
def out1_9 (x0 : Vec F S400x6000 .bf16) (x1 : Vec F S6000x512 .bf16) (x2 : Vec F S400x1 .f32) (x3 : Vec F S512x512 .bf16) (x4 : Vec F S1x512 .f32)
    (x5 : Vec F S512x512 .bf16) (x6 : Vec F S1x512 .f32) (x7 : Vec F S400x512 .f32) : Vec F S400x512 .f32 :=
  View.canon [⟨rO, k1_pay1 (k1_pay3 (View.ld x0 rA) (View.ld x1 rX) (View.ld x2 rD) (View.ld x3 rW) (View.ld x4 rB) (View.ld x5 rW) (View.ld x6 rB)) (View.ld x7 rO)⟩]

/-- The proof data of pipeline 1 on core `c`: the arrays as the region finds them; after the body at point `t`
    each input's buffer still at its block, each output's at the body's store over the input blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => out1_8 (iblk1 V c 0 t) (iblk1 V c 1 t) (iblk1 V c 2 t) (iblk1 V c 3 t) (iblk1 V c 4 t)
    | ⟨9, _⟩ => out1_9 (iblk1 V c 0 t) (iblk1 V c 1 t) (iblk1 V c 2 t) (iblk1 V c 3 t) (iblk1 V c 4 t) (iblk1 V c 5 t) (iblk1 V c 6 t) (iblk1 V c 7 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t
    = out1_8 (iblk1 V c 0 t) (iblk1 V c 1 t) (iblk1 V c 2 t) (iblk1 V c 3 t) (iblk1 V c 4 t) := by dsimp only [dat1]
theorem after1_9 (c : Dev nD) (t : Fin cfg1.N) : (dat1 V c).after 9 t
    = out1_9 (iblk1 V c 0 t) (iblk1 V c 1 t) (iblk1 V c 2 t) (iblk1 V c 3 t) (iblk1 V c 4 t) (iblk1 V c 5 t) (iblk1 V c 6 t) (iblk1 V c 7 t) := by dsimp only [dat1]

end Regions

end Cert.Kernel.Hand

end
-- ==== Proof.KBody0.lean ====
/-
  Region 0 of the program: what its body finds in each input window's staging buffer, what it leaves in the two
  output buffers, and from these the obligation the pipeline asks of the body at every grid point. All of it at a
  PARAMETER `V`: the buffer contents when the region is entered.
-/
import proofs.«102648_j56324201120496_1_alg».proof.Proof.KData

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## What the body finds in an input window's buffer

An input window's current staging buffer holds the window's block at every grid point, whether the pipeline fetched
it at that point or not: where it did not (a window whose block index is constant is fetched at the first point
only), the block index has not moved since the point before and the body left the buffer as it found it. -/

/-- Input window 0's buffer holds its block at every point, for any proof data whose array is `V`'s and whose body
    leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's buffer holds its block at every point, for any proof data whose array is `V`'s and whose body
    leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's buffer holds its block at every point, for any proof data whose array is `V`'s and whose body
    leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's buffer holds its block at every point, for any proof data whose array is `V`'s and whose body
    leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's buffer holds its block at every point, for any proof data whose array is `V`'s and whose body
    leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's buffer holds its block at every point, for any proof data whose array is `V`'s and whose body
    leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's buffer holds its block at every point, for any proof data whose array is `V`'s and whose body
    leaves the block in place. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Input window 7's buffer holds its block at every point, for any proof data whose array is `V`'s and whose body
    leaves the block in place. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d

/-! ## The body's triple -/

set_option maxHeartbeats 1000000 in
/-- The body on whole staging buffers — each input's at contents `xW`, each output's at anything — runs to a
    continuation that holds the inputs' as they were, the new-feature output's at `out0_8` of the inputs' and the
    running-sum output's at `out0_9` of them. The body reads each output buffer once before storing it; the value
    read is not used. Each output is stored once, whole, so what is read back through the buffer is that store. -/
theorem sound_kernel0 (c : Dev nD) (E : Set ℕ) (i : grid0.Coords) (arg1 : Memref sig .tc .vmem S400x6000 .bf16) (harg1 : arg1.IsWhole) (arg2 : Memref sig .tc .vmem S6000x512 .bf16) (harg2 : arg2.IsWhole) (arg3 : Memref sig .tc .vmem S400x1 .f32) (harg3 : arg3.IsWhole) (arg4 : Memref sig .tc .vmem S512x512 .bf16) (harg4 : arg4.IsWhole) (arg5 : Memref sig .tc .vmem S1x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S400x512 .f32) (harg8 : arg8.IsWhole) (arg9 : Memref sig .tc .vmem S400x512 .f32) (harg9 : arg9.IsWhole) (arg10 : Memref sig .tc .vmem S400x512 .f32) (harg10 : arg10.IsWhole)
    (x0 : Vec F S400x6000 .bf16) (x1 : Vec F S6000x512 .bf16) (x2 : Vec F S400x1 .f32) (x3 : Vec F S512x512 .bf16) (x4 : Vec F S1x512 .f32) (x5 : Vec F S512x512 .bf16) (x6 : Vec F S1x512 .f32) (x7 : Vec F S400x512 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ (∃ d, owns (c : Thread nD τ) arg9 fullShare d)
        ∗ (∃ d, owns (c : Thread nD τ) arg10 fullShare d)
        ∗ (iprop(owns (c : Thread nD τ) arg1 fullShare x0
          ∗ owns (c : Thread nD τ) arg2 fullShare x1
          ∗ owns (c : Thread nD τ) arg3 fullShare x2
          ∗ owns (c : Thread nD τ) arg4 fullShare x3
          ∗ owns (c : Thread nD τ) arg5 fullShare x4
          ∗ owns (c : Thread nD τ) arg6 fullShare x5
          ∗ owns (c : Thread nD τ) arg7 fullShare x6
          ∗ owns (c : Thread nD τ) arg8 fullShare x7
          ∗ owns (c : Thread nD τ) arg9 fullShare (out0_8 x0 x1 x2 x3 x4)
          ∗ owns (c : Thread nD τ) arg10 fullShare (out0_9 x0 x1 x2 x3 x4 x5 x6 x7)) -∗ K ⟨⟩))
      ⊢ wp frame (wpE (defs₀ (F := F)) Variants.none c none) E (cc0__layer_kernel i arg1 harg1 arg2 harg2 arg3 harg3 arg4 harg4 arg5 harg5 arg6 harg6 arg7 harg7 arg8 harg8 arg9 harg9 arg10 harg10) K := by
  simp only [cc0__layer_kernel_eq_skeleton]; unfold cc0__layer_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    try dsimp only
    exact View.read_writes_eq_canon _ _ _ (coverO _)
  iexists _; isplitr
  swap; · iexact H9
  ipureintro
  try dsimp only
  exact View.read_writes_eq_canon _ _ _ (coverO _)

/-! ## The body obligation, at a generic point -/

/-- What the body is called with at point `t`: the pipeline's invariant, what the core owes, and each window's
    current staging buffer, the windows one by one. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- What it returns: the same, each buffer at what the proof data say the body leaves in it. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

/-- The body at any point: the inputs' buffers hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ (grid0.coords t) _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The obligation the pipeline asks of the body, at every point. -/
theorem body_obligation0 (c : Dev nD) : BodyObligation (dat0 (F := F) V c) (defs₀ (F := F)) Variants.none () Set.univ := fun t => by
  rw [bigSep_W0, bigSep_W0]
  exact sound_body0 V c t

end Regions

end Cert.Kernel.Hand

end
-- ==== Proof.KBody1.lean ====
/-
  Region 1 of the program: what its body finds in each input window's staging buffer, what it leaves in the two
  output buffers, and from these the obligation the pipeline asks of the body at every grid point. All of it at a
  PARAMETER `V`: the buffer contents when the region is entered.
-/
import proofs.«102648_j56324201120496_1_alg».proof.Proof.KData

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## What the body finds in an input window's buffer

An input window's current staging buffer holds the window's block at every grid point, whether the pipeline fetched
it at that point or not: where it did not (a window whose block index is constant is fetched at the first point
only), the block index has not moved since the point before and the body left the buffer as it found it. -/

/-- Input window 0's buffer holds its block at every point, for any proof data whose array is `V`'s and whose body
    leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's buffer holds its block at every point, for any proof data whose array is `V`'s and whose body
    leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's buffer holds its block at every point, for any proof data whose array is `V`'s and whose body
    leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's buffer holds its block at every point, for any proof data whose array is `V`'s and whose body
    leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's buffer holds its block at every point, for any proof data whose array is `V`'s and whose body
    leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's buffer holds its block at every point, for any proof data whose array is `V`'s and whose body
    leaves the block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's buffer holds its block at every point, for any proof data whose array is `V`'s and whose body
    leaves the block in place. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's buffer holds its block at every point, for any proof data whose array is `V`'s and whose body
    leaves the block in place. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

/-! ## The body's triple -/

set_option maxHeartbeats 1000000 in
/-- The body on whole staging buffers — each input's at contents `xW`, each output's at anything — runs to a
    continuation that holds the inputs' as they were, the new-feature output's at `out1_8` of the inputs' and the
    running-sum output's at `out1_9` of them. The body reads each output buffer once before storing it; the value
    read is not used. Each output is stored once, whole, so what is read back through the buffer is that store. -/
theorem sound_kernel1 (c : Dev nD) (E : Set ℕ) (i : grid1.Coords) (arg1 : Memref sig .tc .vmem S400x6000 .bf16) (harg1 : arg1.IsWhole) (arg2 : Memref sig .tc .vmem S6000x512 .bf16) (harg2 : arg2.IsWhole) (arg3 : Memref sig .tc .vmem S400x1 .f32) (harg3 : arg3.IsWhole) (arg4 : Memref sig .tc .vmem S512x512 .bf16) (harg4 : arg4.IsWhole) (arg5 : Memref sig .tc .vmem S1x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S400x512 .f32) (harg8 : arg8.IsWhole) (arg9 : Memref sig .tc .vmem S400x512 .f32) (harg9 : arg9.IsWhole) (arg10 : Memref sig .tc .vmem S400x512 .f32) (harg10 : arg10.IsWhole)
    (x0 : Vec F S400x6000 .bf16) (x1 : Vec F S6000x512 .bf16) (x2 : Vec F S400x1 .f32) (x3 : Vec F S512x512 .bf16) (x4 : Vec F S1x512 .f32) (x5 : Vec F S512x512 .bf16) (x6 : Vec F S1x512 .f32) (x7 : Vec F S400x512 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ (∃ d, owns (c : Thread nD τ) arg9 fullShare d)
        ∗ (∃ d, owns (c : Thread nD τ) arg10 fullShare d)
        ∗ (iprop(owns (c : Thread nD τ) arg1 fullShare x0
          ∗ owns (c : Thread nD τ) arg2 fullShare x1
          ∗ owns (c : Thread nD τ) arg3 fullShare x2
          ∗ owns (c : Thread nD τ) arg4 fullShare x3
          ∗ owns (c : Thread nD τ) arg5 fullShare x4
          ∗ owns (c : Thread nD τ) arg6 fullShare x5
          ∗ owns (c : Thread nD τ) arg7 fullShare x6
          ∗ owns (c : Thread nD τ) arg8 fullShare x7
          ∗ owns (c : Thread nD τ) arg9 fullShare (out1_8 x0 x1 x2 x3 x4)
          ∗ owns (c : Thread nD τ) arg10 fullShare (out1_9 x0 x1 x2 x3 x4 x5 x6 x7)) -∗ K ⟨⟩))
      ⊢ wp frame (wpE (defs₀ (F := F)) Variants.none c none) E (cc1__layer_kernel i arg1 harg1 arg2 harg2 arg3 harg3 arg4 harg4 arg5 harg5 arg6 harg6 arg7 harg7 arg8 harg8 arg9 harg9 arg10 harg10) K := by
  simp only [cc1__layer_kernel_eq_skeleton]; unfold cc1__layer_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    try dsimp only
    exact View.read_writes_eq_canon _ _ _ (coverO _)
  iexists _; isplitr
  swap; · iexact H9
  ipureintro
  try dsimp only
  exact View.read_writes_eq_canon _ _ _ (coverO _)

/-! ## The body obligation, at a generic point -/

/-- What the body is called with at point `t`: the pipeline's invariant, what the core owes, and each window's
    current staging buffer, the windows one by one. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

/-- What it returns: the same, each buffer at what the proof data say the body leaves in it. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

/-- The body at any point: the inputs' buffers hold their blocks, so the body's triple applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ (grid1.coords t) _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The obligation the pipeline asks of the body, at every point. -/
theorem body_obligation1 (c : Dev nD) : BodyObligation (dat1 (F := F) V c) (defs₀ (F := F)) Variants.none () Set.univ := fun t => by
  rw [bigSep_W1, bigSep_W1]
  exact sound_body1 V c t

end Regions

end Cert.Kernel.Hand

end
-- ==== Proof.KRun.lean ====
/-
  The run of the whole program: seven stretches of host operations and two kernel regions, in the program's order.
  The buffer contents at each boundary between two of them are a fold from the launch memory: a host stretch applies
  its operations; a region leaves each of its windows' arrays at what its pipeline's write-backs make of it and
  every other buffer as it was. Over these, each host stretch and each region is one segment of the several-region
  launch theorem, whose conclusion is: every weakly fair execution from the launch memory terminates, and every
  unscoped buffer of every core ends at the last boundary's contents. The arguments are among those buffers and no
  segment writes them, so they end as launched.
-/
import proofs.«102648_j56324201120496_1_alg».proof.Proof.KBody0
import proofs.«102648_j56324201120496_1_alg».proof.Proof.KBody1
import proofs.«102648_j56324201120496_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary: a fold through the program -/

/-- Core `c`'s buffers at launch. -/
abbrev W0 : Dev nD → Valuation τ sig (Elt F) := fun c b => (s₀ m ρ).mem ((c : Dev nD), b)
/-- After the first host stretch, -/
abbrev W1 : Dev nD → Valuation τ sig (Elt F) := fun c => StableHlo.after hostOps0 (W0 m ρ c)
/-- the second, -/
abbrev W2 : Dev nD → Valuation τ sig (Elt F) := fun c => StableHlo.after hostOps0_1 (W1 m ρ c)
/-- the third, -/
abbrev W3 : Dev nD → Valuation τ sig (Elt F) := fun c => StableHlo.after hostOps0_2 (W2 m ρ c)
/-- the fourth, -/
abbrev W4 : Dev nD → Valuation τ sig (Elt F) := fun c => StableHlo.after hostOps0_3 (W3 m ρ c)
/-- and the fifth: region 0's entry. -/
abbrev W5 : Dev nD → Valuation τ sig (Elt F) := fun c => StableHlo.after hostOps0_4 (W4 m ρ c)
/-- The same read at the TensorCore's references: what region 0's proof data take. -/
abbrev V5 : (c : Dev nD) → (b : Ref sig .tc) → Buf (Elt F) ((c : Thread nD τ).loc b) := fun c b => W5 m ρ c b
/-- At region 0's exit: its windows' arrays at what the pipeline leaves (an input's as entered, an output's at its
    write-backs folded over the grid), every other buffer as entered. -/
def W6 (c : Dev nD) : Valuation τ sig (Elt F) :=
  Pipeline.withArrays spec0 c (W5 m ρ c) fun w => (dat0 (V5 m ρ) c).arrAt w cfg0.N
theorem W6_arr (c : Dev nD) (w : Fin cfg0.W) :
    W6 m ρ c (Proc.devRef .tc (Pipeline.arrRef spec0 w)) = (dat0 (V5 m ρ) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m ρ c (Proc.devRef .tc b) = W5 m ρ c (Proc.devRef .tc b) := by
  unfold W6; exact Pipeline.withArrays_of_ne spec0 c _ _ b hb
/-- The same read at the TensorCore's references: region 0's exit contents. -/
abbrev V6 : (c : Dev nD) → (b : Ref sig .tc) → Buf (Elt F) ((c : Thread nD τ).loc b) := fun c b => W6 m ρ c b
/-- At region 0's exit each of its arrays holds what the pipeline leaves, and every other buffer what it held at entry. -/
theorem hF0 (c : Dev nD) (w : Fin cfg0.W) : (dat0 (V5 m ρ) c).arrAt w cfg0.N = V6 m ρ c (Pipeline.arrRef spec0 w) :=
  (W6_arr m ρ c w).symm
theorem hrest0 (c : Dev nD) : ∀ b, b ∉ Finset.univ.image (Pipeline.arrRef spec0) → V6 m ρ c b = V5 m ρ c b :=
  fun b hb => W6_of_ne m ρ c b fun w e => hb (Finset.mem_image.mpr ⟨w, Finset.mem_univ _, e⟩)

/-- After the host stretch between the regions: region 1's entry. -/
abbrev W7 : Dev nD → Valuation τ sig (Elt F) := fun c => StableHlo.after hostOps1 (W6 m ρ c)
/-- The same read at the TensorCore's references: what region 1's proof data take. -/
abbrev V7 : (c : Dev nD) → (b : Ref sig .tc) → Buf (Elt F) ((c : Thread nD τ).loc b) := fun c b => W7 m ρ c b
/-- At region 1's exit: its windows' arrays at what the pipeline leaves, every other buffer as entered. -/
def W8 (c : Dev nD) : Valuation τ sig (Elt F) :=
  Pipeline.withArrays spec1 c (W7 m ρ c) fun w => (dat1 (V7 m ρ) c).arrAt w cfg1.N
theorem W8_arr (c : Dev nD) (w : Fin cfg1.W) :
    W8 m ρ c (Proc.devRef .tc (Pipeline.arrRef spec1 w)) = (dat1 (V7 m ρ) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m ρ c (Proc.devRef .tc b) = W7 m ρ c (Proc.devRef .tc b) := by
  unfold W8; exact Pipeline.withArrays_of_ne spec1 c _ _ b hb
/-- The same read at the TensorCore's references: region 1's exit contents. -/
abbrev V8 : (c : Dev nD) → (b : Ref sig .tc) → Buf (Elt F) ((c : Thread nD τ).loc b) := fun c b => W8 m ρ c b
theorem hF1 (c : Dev nD) (w : Fin cfg1.W) : (dat1 (V7 m ρ) c).arrAt w cfg1.N = V8 m ρ c (Pipeline.arrRef spec1 w) :=
  (W8_arr m ρ c w).symm
theorem hrest1 (c : Dev nD) : ∀ b, b ∉ Finset.univ.image (Pipeline.arrRef spec1) → V8 m ρ c b = V7 m ρ c b :=
  fun b hb => W8_of_ne m ρ c b fun w e => hb (Finset.mem_image.mpr ⟨w, Finset.mem_univ _, e⟩)

/-- After the last host stretch: the contents the program ends with. -/
abbrev W9 : Dev nD → Valuation τ sig (Elt F) := fun c => StableHlo.after hostOps2 (W8 m ρ c)

/-! ### The arguments end as launched -/

/-- Argument 0 ends as launched: no host stretch writes it and it is no window's array of either region. -/
theorem W9_main_arg0 (c : Dev nD) : W9 m ρ c (Proc.devRef .tc main_arg0) = m ((c : Thread nD τ).loc main_arg0) :=
  calc W9 m ρ c (Proc.devRef .tc main_arg0)
    _ = W8 m ρ c (Proc.devRef .tc main_arg0) := StableHlo.after_of_writes_sub hostOps2 _ hostOps2_writes (by decide)
    _ = W7 m ρ c (Proc.devRef .tc main_arg0) := W8_of_ne m ρ c main_arg0 (by decide)
    _ = W6 m ρ c (Proc.devRef .tc main_arg0) := StableHlo.after_of_writes_sub hostOps1 _ hostOps1_writes (by decide)
    _ = W5 m ρ c (Proc.devRef .tc main_arg0) := W6_of_ne m ρ c main_arg0 (by decide)
    _ = W4 m ρ c (Proc.devRef .tc main_arg0) := StableHlo.after_of_writes_sub hostOps0_4 _ hostOps0_4_writes (by decide)
    _ = W3 m ρ c (Proc.devRef .tc main_arg0) := StableHlo.after_of_writes_sub hostOps0_3 _ hostOps0_3_writes (by decide)
    _ = W2 m ρ c (Proc.devRef .tc main_arg0) := StableHlo.after_of_writes_sub hostOps0_2 _ hostOps0_2_writes (by decide)
    _ = W1 m ρ c (Proc.devRef .tc main_arg0) := StableHlo.after_of_writes_sub hostOps0_1 _ hostOps0_1_writes (by decide)
    _ = W0 m ρ c (Proc.devRef .tc main_arg0) := StableHlo.after_of_writes_sub hostOps0 _ hostOps0_writes (by decide)
    _ = m ((c : Thread nD τ).loc main_arg0) := rfl

/-- Argument 1 ends as launched: no host stretch writes it and it is no window's array of either region. -/
theorem W9_main_arg1 (c : Dev nD) : W9 m ρ c (Proc.devRef .tc main_arg1) = m ((c : Thread nD τ).loc main_arg1) :=
  calc W9 m ρ c (Proc.devRef .tc main_arg1)
    _ = W8 m ρ c (Proc.devRef .tc main_arg1) := StableHlo.after_of_writes_sub hostOps2 _ hostOps2_writes (by decide)
    _ = W7 m ρ c (Proc.devRef .tc main_arg1) := W8_of_ne m ρ c main_arg1 (by decide)
    _ = W6 m ρ c (Proc.devRef .tc main_arg1) := StableHlo.after_of_writes_sub hostOps1 _ hostOps1_writes (by decide)
    _ = W5 m ρ c (Proc.devRef .tc main_arg1) := W6_of_ne m ρ c main_arg1 (by decide)
    _ = W4 m ρ c (Proc.devRef .tc main_arg1) := StableHlo.after_of_writes_sub hostOps0_4 _ hostOps0_4_writes (by decide)
    _ = W3 m ρ c (Proc.devRef .tc main_arg1) := StableHlo.after_of_writes_sub hostOps0_3 _ hostOps0_3_writes (by decide)
    _ = W2 m ρ c (Proc.devRef .tc main_arg1) := StableHlo.after_of_writes_sub hostOps0_2 _ hostOps0_2_writes (by decide)
    _ = W1 m ρ c (Proc.devRef .tc main_arg1) := StableHlo.after_of_writes_sub hostOps0_1 _ hostOps0_1_writes (by decide)
    _ = W0 m ρ c (Proc.devRef .tc main_arg1) := StableHlo.after_of_writes_sub hostOps0 _ hostOps0_writes (by decide)
    _ = m ((c : Thread nD τ).loc main_arg1) := rfl

/-- Argument 2 ends as launched: no host stretch writes it and it is no window's array of either region. -/
theorem W9_main_arg2 (c : Dev nD) : W9 m ρ c (Proc.devRef .tc main_arg2) = m ((c : Thread nD τ).loc main_arg2) :=
  calc W9 m ρ c (Proc.devRef .tc main_arg2)
    _ = W8 m ρ c (Proc.devRef .tc main_arg2) := StableHlo.after_of_writes_sub hostOps2 _ hostOps2_writes (by decide)
    _ = W7 m ρ c (Proc.devRef .tc main_arg2) := W8_of_ne m ρ c main_arg2 (by decide)
    _ = W6 m ρ c (Proc.devRef .tc main_arg2) := StableHlo.after_of_writes_sub hostOps1 _ hostOps1_writes (by decide)
    _ = W5 m ρ c (Proc.devRef .tc main_arg2) := W6_of_ne m ρ c main_arg2 (by decide)
    _ = W4 m ρ c (Proc.devRef .tc main_arg2) := StableHlo.after_of_writes_sub hostOps0_4 _ hostOps0_4_writes (by decide)
    _ = W3 m ρ c (Proc.devRef .tc main_arg2) := StableHlo.after_of_writes_sub hostOps0_3 _ hostOps0_3_writes (by decide)
    _ = W2 m ρ c (Proc.devRef .tc main_arg2) := StableHlo.after_of_writes_sub hostOps0_2 _ hostOps0_2_writes (by decide)
    _ = W1 m ρ c (Proc.devRef .tc main_arg2) := StableHlo.after_of_writes_sub hostOps0_1 _ hostOps0_1_writes (by decide)
    _ = W0 m ρ c (Proc.devRef .tc main_arg2) := StableHlo.after_of_writes_sub hostOps0 _ hostOps0_writes (by decide)
    _ = m ((c : Thread nD τ).loc main_arg2) := rfl

/-- Argument 3 ends as launched: no host stretch writes it and it is no window's array of either region. -/
theorem W9_main_arg3 (c : Dev nD) : W9 m ρ c (Proc.devRef .tc main_arg3) = m ((c : Thread nD τ).loc main_arg3) :=
  calc W9 m ρ c (Proc.devRef .tc main_arg3)
    _ = W8 m ρ c (Proc.devRef .tc main_arg3) := StableHlo.after_of_writes_sub hostOps2 _ hostOps2_writes (by decide)
    _ = W7 m ρ c (Proc.devRef .tc main_arg3) := W8_of_ne m ρ c main_arg3 (by decide)
    _ = W6 m ρ c (Proc.devRef .tc main_arg3) := StableHlo.after_of_writes_sub hostOps1 _ hostOps1_writes (by decide)
    _ = W5 m ρ c (Proc.devRef .tc main_arg3) := W6_of_ne m ρ c main_arg3 (by decide)
    _ = W4 m ρ c (Proc.devRef .tc main_arg3) := StableHlo.after_of_writes_sub hostOps0_4 _ hostOps0_4_writes (by decide)
    _ = W3 m ρ c (Proc.devRef .tc main_arg3) := StableHlo.after_of_writes_sub hostOps0_3 _ hostOps0_3_writes (by decide)
    _ = W2 m ρ c (Proc.devRef .tc main_arg3) := StableHlo.after_of_writes_sub hostOps0_2 _ hostOps0_2_writes (by decide)
    _ = W1 m ρ c (Proc.devRef .tc main_arg3) := StableHlo.after_of_writes_sub hostOps0_1 _ hostOps0_1_writes (by decide)
    _ = W0 m ρ c (Proc.devRef .tc main_arg3) := StableHlo.after_of_writes_sub hostOps0 _ hostOps0_writes (by decide)
    _ = m ((c : Thread nD τ).loc main_arg3) := rfl

/-- Argument 4 ends as launched: no host stretch writes it and it is no window's array of either region. -/
theorem W9_main_arg4 (c : Dev nD) : W9 m ρ c (Proc.devRef .tc main_arg4) = m ((c : Thread nD τ).loc main_arg4) :=
  calc W9 m ρ c (Proc.devRef .tc main_arg4)
    _ = W8 m ρ c (Proc.devRef .tc main_arg4) := StableHlo.after_of_writes_sub hostOps2 _ hostOps2_writes (by decide)
    _ = W7 m ρ c (Proc.devRef .tc main_arg4) := W8_of_ne m ρ c main_arg4 (by decide)
    _ = W6 m ρ c (Proc.devRef .tc main_arg4) := StableHlo.after_of_writes_sub hostOps1 _ hostOps1_writes (by decide)
    _ = W5 m ρ c (Proc.devRef .tc main_arg4) := W6_of_ne m ρ c main_arg4 (by decide)
    _ = W4 m ρ c (Proc.devRef .tc main_arg4) := StableHlo.after_of_writes_sub hostOps0_4 _ hostOps0_4_writes (by decide)
    _ = W3 m ρ c (Proc.devRef .tc main_arg4) := StableHlo.after_of_writes_sub hostOps0_3 _ hostOps0_3_writes (by decide)
    _ = W2 m ρ c (Proc.devRef .tc main_arg4) := StableHlo.after_of_writes_sub hostOps0_2 _ hostOps0_2_writes (by decide)
    _ = W1 m ρ c (Proc.devRef .tc main_arg4) := StableHlo.after_of_writes_sub hostOps0_1 _ hostOps0_1_writes (by decide)
    _ = W0 m ρ c (Proc.devRef .tc main_arg4) := StableHlo.after_of_writes_sub hostOps0 _ hostOps0_writes (by decide)
    _ = m ((c : Thread nD τ).loc main_arg4) := rfl

/-- Argument 5 ends as launched: no host stretch writes it and it is no window's array of either region. -/
theorem W9_main_arg5 (c : Dev nD) : W9 m ρ c (Proc.devRef .tc main_arg5) = m ((c : Thread nD τ).loc main_arg5) :=
  calc W9 m ρ c (Proc.devRef .tc main_arg5)
    _ = W8 m ρ c (Proc.devRef .tc main_arg5) := StableHlo.after_of_writes_sub hostOps2 _ hostOps2_writes (by decide)
    _ = W7 m ρ c (Proc.devRef .tc main_arg5) := W8_of_ne m ρ c main_arg5 (by decide)
    _ = W6 m ρ c (Proc.devRef .tc main_arg5) := StableHlo.after_of_writes_sub hostOps1 _ hostOps1_writes (by decide)
    _ = W5 m ρ c (Proc.devRef .tc main_arg5) := W6_of_ne m ρ c main_arg5 (by decide)
    _ = W4 m ρ c (Proc.devRef .tc main_arg5) := StableHlo.after_of_writes_sub hostOps0_4 _ hostOps0_4_writes (by decide)
    _ = W3 m ρ c (Proc.devRef .tc main_arg5) := StableHlo.after_of_writes_sub hostOps0_3 _ hostOps0_3_writes (by decide)
    _ = W2 m ρ c (Proc.devRef .tc main_arg5) := StableHlo.after_of_writes_sub hostOps0_2 _ hostOps0_2_writes (by decide)
    _ = W1 m ρ c (Proc.devRef .tc main_arg5) := StableHlo.after_of_writes_sub hostOps0_1 _ hostOps0_1_writes (by decide)
    _ = W0 m ρ c (Proc.devRef .tc main_arg5) := StableHlo.after_of_writes_sub hostOps0 _ hostOps0_writes (by decide)
    _ = m ((c : Thread nD τ).loc main_arg5) := rfl

/-- Argument 6 ends as launched: no host stretch writes it and it is no window's array of either region. -/
theorem W9_main_arg6 (c : Dev nD) : W9 m ρ c (Proc.devRef .tc main_arg6) = m ((c : Thread nD τ).loc main_arg6) :=
  calc W9 m ρ c (Proc.devRef .tc main_arg6)
    _ = W8 m ρ c (Proc.devRef .tc main_arg6) := StableHlo.after_of_writes_sub hostOps2 _ hostOps2_writes (by decide)
    _ = W7 m ρ c (Proc.devRef .tc main_arg6) := W8_of_ne m ρ c main_arg6 (by decide)
    _ = W6 m ρ c (Proc.devRef .tc main_arg6) := StableHlo.after_of_writes_sub hostOps1 _ hostOps1_writes (by decide)
    _ = W5 m ρ c (Proc.devRef .tc main_arg6) := W6_of_ne m ρ c main_arg6 (by decide)
    _ = W4 m ρ c (Proc.devRef .tc main_arg6) := StableHlo.after_of_writes_sub hostOps0_4 _ hostOps0_4_writes (by decide)
    _ = W3 m ρ c (Proc.devRef .tc main_arg6) := StableHlo.after_of_writes_sub hostOps0_3 _ hostOps0_3_writes (by decide)
    _ = W2 m ρ c (Proc.devRef .tc main_arg6) := StableHlo.after_of_writes_sub hostOps0_2 _ hostOps0_2_writes (by decide)
    _ = W1 m ρ c (Proc.devRef .tc main_arg6) := StableHlo.after_of_writes_sub hostOps0_1 _ hostOps0_1_writes (by decide)
    _ = W0 m ρ c (Proc.devRef .tc main_arg6) := StableHlo.after_of_writes_sub hostOps0 _ hostOps0_writes (by decide)
    _ = m ((c : Thread nD τ).loc main_arg6) := rfl

/-- Argument 7 ends as launched: no host stretch writes it and it is no window's array of either region. -/
theorem W9_main_arg7 (c : Dev nD) : W9 m ρ c (Proc.devRef .tc main_arg7) = m ((c : Thread nD τ).loc main_arg7) :=
  calc W9 m ρ c (Proc.devRef .tc main_arg7)
    _ = W8 m ρ c (Proc.devRef .tc main_arg7) := StableHlo.after_of_writes_sub hostOps2 _ hostOps2_writes (by decide)
    _ = W7 m ρ c (Proc.devRef .tc main_arg7) := W8_of_ne m ρ c main_arg7 (by decide)
    _ = W6 m ρ c (Proc.devRef .tc main_arg7) := StableHlo.after_of_writes_sub hostOps1 _ hostOps1_writes (by decide)
    _ = W5 m ρ c (Proc.devRef .tc main_arg7) := W6_of_ne m ρ c main_arg7 (by decide)
    _ = W4 m ρ c (Proc.devRef .tc main_arg7) := StableHlo.after_of_writes_sub hostOps0_4 _ hostOps0_4_writes (by decide)
    _ = W3 m ρ c (Proc.devRef .tc main_arg7) := StableHlo.after_of_writes_sub hostOps0_3 _ hostOps0_3_writes (by decide)
    _ = W2 m ρ c (Proc.devRef .tc main_arg7) := StableHlo.after_of_writes_sub hostOps0_2 _ hostOps0_2_writes (by decide)
    _ = W1 m ρ c (Proc.devRef .tc main_arg7) := StableHlo.after_of_writes_sub hostOps0_1 _ hostOps0_1_writes (by decide)
    _ = W0 m ρ c (Proc.devRef .tc main_arg7) := StableHlo.after_of_writes_sub hostOps0 _ hostOps0_writes (by decide)
    _ = m ((c : Thread nD τ).loc main_arg7) := rfl

/-- Argument 8 ends as launched: no host stretch writes it and it is no window's array of either region. -/
theorem W9_main_arg8 (c : Dev nD) : W9 m ρ c (Proc.devRef .tc main_arg8) = m ((c : Thread nD τ).loc main_arg8) :=
  calc W9 m ρ c (Proc.devRef .tc main_arg8)
    _ = W8 m ρ c (Proc.devRef .tc main_arg8) := StableHlo.after_of_writes_sub hostOps2 _ hostOps2_writes (by decide)
    _ = W7 m ρ c (Proc.devRef .tc main_arg8) := W8_of_ne m ρ c main_arg8 (by decide)
    _ = W6 m ρ c (Proc.devRef .tc main_arg8) := StableHlo.after_of_writes_sub hostOps1 _ hostOps1_writes (by decide)
    _ = W5 m ρ c (Proc.devRef .tc main_arg8) := W6_of_ne m ρ c main_arg8 (by decide)
    _ = W4 m ρ c (Proc.devRef .tc main_arg8) := StableHlo.after_of_writes_sub hostOps0_4 _ hostOps0_4_writes (by decide)
    _ = W3 m ρ c (Proc.devRef .tc main_arg8) := StableHlo.after_of_writes_sub hostOps0_3 _ hostOps0_3_writes (by decide)
    _ = W2 m ρ c (Proc.devRef .tc main_arg8) := StableHlo.after_of_writes_sub hostOps0_2 _ hostOps0_2_writes (by decide)
    _ = W1 m ρ c (Proc.devRef .tc main_arg8) := StableHlo.after_of_writes_sub hostOps0_1 _ hostOps0_1_writes (by decide)
    _ = W0 m ρ c (Proc.devRef .tc main_arg8) := StableHlo.after_of_writes_sub hostOps0 _ hostOps0_writes (by decide)
    _ = m ((c : Thread nD τ).loc main_arg8) := rfl

/-! ## The proof data family and the thread state -/

/-- Every pipeline's proof data, each at its region's entry contents: a literal match on the pipeline's index. -/
def pdats : (p : Fin 2) → (c : Dev nD) → Dat τ (Elt F) Unit ℕ (UR sig nD τ) ℕ (Pipeline.pin (pcfgs (F := F)) adm p) c
  | ⟨0, _⟩ => fun c => dat0 (V5 m ρ) c
  | ⟨1, _⟩ => fun c => dat1 (V7 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state, and what the
    core owes, which is nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it ends with
    those references at the stretch applied to `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last boundary's contents, the
    generator register at some state. -/
abbrev Tₙ (c : Dev nD) : sProp 𝕄 := iprop(StableHlo.held (c : Thread nD τ) (Pipeline.ucRefs τ sig) (W9 m ρ c) ∗ ∃ r, prngReg c r)

/-! ## The regions as segments -/

-- a library lemma stated over a pinned configuration unifies with the printed one only when unification may unfold plain
-- definitions in a metavariable's type
set_option backward.isDefEq.respectTransparency.types false in
/-- Region 0 over the thread state: entered from every unscoped buffer at `W5`, left at `W6`. Its arrays are split
    out of the unscoped buffers on entry and put back at the exit contents; the generator register passes into the
    pipeline's invariant and out; nothing is owed; the body has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V5 m ρ) c).loose
  hwaits := Pipeline.hwaits_of_owed_zero _ _ _ _ L lv 0 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec0 c (V5 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V5 m ρ c) (V6 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over a pinned configuration unifies with the printed one only when unification may unfold plain
-- definitions in a metavariable's type
set_option backward.isDefEq.respectTransparency.types false in
/-- Region 1 over the thread state: entered from every unscoped buffer at `W7`, left at `W8`. Its arrays are split
    out of the unscoped buffers on entry and put back at the exit contents; the generator register passes into the
    pipeline's invariant and out; nothing is owed; the body has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V7 m ρ) c).loose
  hwaits := Pipeline.hwaits_of_owed_zero _ _ _ _ L lv 1 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec1 c (V7 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V7 m ρ c) (V8 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The program's nine segments in order: a host segment per stretch from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .region (reg0 m ρ),
    .host (hseg hostOps1 hostOps1_sub hostOps1_fresh (W6 m ρ)),
    .region (reg1 m ρ),
    .host (hseg hostOps2 hostOps2_sub hostOps2_fresh (W8 m ρ)) ]

-- the launch theorem's implicit arguments are found by unifying its conclusion with this one, which takes unfolding
-- plain definitions in a metavariable's type
set_option backward.isDefEq.respectTransparency.types false in
/-- From any launch memory with zero counters, every weakly fair execution of the program on the TensorCores
    terminates, nothing faulting, and in every final state every unscoped buffer of every core holds the last
    boundary's contents `W9`. -/
theorem run_all : θ_run defs (onTc (τ := τ) (main (F := F))) ⟨m, fun _ => 0, ρ⟩ (fun r => ∀ c : Dev nD, ∀ b : Ref sig .tc,
      ¬ (Proc.devRef .tc b : DevRef τ sig).isScoped → r.2.mem ((c.tc : Thread nD τ).loc b) = W9 m ρ c (Proc.devRef .tc b)) :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain,
        show (segs m ρ).map Pipeline.Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          StableHlo.seq hostOps1,
          Prog.lift (.customCall (Pipeline.entry 1) ()),
          StableHlo.seq hostOps2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl,
      fun _ => .rfl, fun c =>
        (show iprop(StableHlo.held (c : Thread nD τ) (Pipeline.ucRefs τ sig) (W9 m ρ c) ∗ R c)
            ⊢ iprop(Tₙ m ρ c ∗ ∃ W, owes (c : Thread nD τ) (0 : CellTallies nD τ sig Unit) W) from by
          iintro ⟨Hh, Hp, HO⟩
          isplitl [Hh Hp]
          · isplitl [Hh]; · iexact Hh
            iexact Hp
          iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c b hb => h c _ (mem_uc b hb))

/-- The frame: every weakly fair execution terminates and every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c main_arg0 (by decide)).trans (W9_main_arg0 m ρ c),
     (h c main_arg1 (by decide)).trans (W9_main_arg1 m ρ c),
     (h c main_arg2 (by decide)).trans (W9_main_arg2 m ρ c),
     (h c main_arg3 (by decide)).trans (W9_main_arg3 m ρ c),
     (h c main_arg4 (by decide)).trans (W9_main_arg4 m ρ c),
     (h c main_arg5 (by decide)).trans (W9_main_arg5 m ρ c),
     (h c main_arg6 (by decide)).trans (W9_main_arg6 m ρ c),
     (h c main_arg7 (by decide)).trans (W9_main_arg7 m ρ c),
     (h c main_arg8 (by decide)).trans (W9_main_arg8 m ρ c)⟩) (run_all m ρ)

end Cert.Kernel.Hand

end
-- ==== Proof.KIData.lean ====
/-
  The two pallas_call regions of this program share one body: per row tile of the adjacency, two chained
  projections of the propagated features. This module fixes, for each region and at a PARAMETER `V` (the buffer
  contents when the region is entered): a window's block at a grid point, what the body leaves in each of its two
  output buffers as a function of the input blocks (one whole-block store each, over the body's pure terms), and
  the pipeline's proof data built from them. Everything here is a definition or a projection of one.
-/
import proofs.«102648_j56324201120496_1_alg».proof.Proof.Gen.KernelIdeal.Launch
import proofs.«102648_j56324201120496_1_alg».proof.Proof.Gen.KernelIdeal.Skeleton
import proofs.«102648_j56324201120496_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The body's accesses: every load and store is of a whole staging buffer -/

abbrev rA : Rect S400x6000 := Rect.unit (s := S400x6000) ![0, 0] S400x6000.size inb_S400x6000_S400x6000_0_0
abbrev rX : Rect S6000x512 := Rect.unit (s := S6000x512) ![0, 0] S6000x512.size inb_S6000x512_S6000x512_0_0
abbrev rD : Rect S400x1 := Rect.unit (s := S400x1) ![0, 0] S400x1.size inb_S400x1_S400x1_0_0
abbrev rW : Rect S512x512 := Rect.unit (s := S512x512) ![0, 0] S512x512.size inb_S512x512_S512x512_0_0
abbrev rB : Rect S1x512 := Rect.unit (s := S1x512) ![0, 0] S1x512.size inb_S1x512_S1x512_0_0
abbrev rO : Rect S400x512 := Rect.unit (s := S400x512) ![0, 0] S400x512.size inb_S400x512_S400x512_0_0

/-- A single whole-buffer store covers the buffer. -/
theorem coverO (p : Vec F S400x512 .f32) (y : S400x512.Idx) :
    ∃ pc ∈ ([⟨rO, p⟩] : List (View.Piece (Elt F) S400x512 .f32)), y ∈ pc.1.set :=
  View.cover_of_tiled [⟨rO, p⟩] S400x512.size (by rfl) y

section Regions
variable (V : (c : Dev nD) → (b : Ref sig .tc) → Buf (Elt F) ((c : Thread nD τ).loc b))

/-! # Region 0: the windows' blocks, what the body leaves in each output buffer, the proof data -/

/-- Window `w`'s block at grid point `t`, read off the window's array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The new-feature output buffer after the body: one whole-block store of relu((A_tile · Xs) ⊙ d_rows · W + b). -/
def out0_8 (x0 : Vec F S400x6000 .bf16) (x1 : Vec F S6000x512 .bf16) (x2 : Vec F S400x1 .f32) (x3 : Vec F S512x512 .bf16) (x4 : Vec F S1x512 .f32) :
    Vec F S400x512 .f32 :=
  View.canon [⟨rO, k0_pay2 (View.ld x0 rA) (View.ld x1 rX) (View.ld x2 rD) (View.ld x3 rW) (View.ld x4 rB)⟩]

/-- The running-sum output buffer after the body: one whole-block store of the incoming sum block plus the
    leaky-relu of the second projection of the new features. -/
def out0_9 (x0 : Vec F S400x6000 .bf16) (x1 : Vec F S6000x512 .bf16) (x2 : Vec F S400x1 .f32) (x3 : Vec F S512x512 .bf16) (x4 : Vec F S1x512 .f32)
    (x5 : Vec F S512x512 .bf16) (x6 : Vec F S1x512 .f32) (x7 : Vec F S400x512 .f32) : Vec F S400x512 .f32 :=
  View.canon [⟨rO, k0_pay1 (k0_pay3 (View.ld x0 rA) (View.ld x1 rX) (View.ld x2 rD) (View.ld x3 rW) (View.ld x4 rB) (View.ld x5 rW) (View.ld x6 rB)) (View.ld x7 rO)⟩]

/-- The proof data of pipeline 0 on core `c`: the arrays as the region finds them; after the body at point `t`
    each input's buffer still at its block, each output's at the body's store over the input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => out0_8 (iblk0 V c 0 t) (iblk0 V c 1 t) (iblk0 V c 2 t) (iblk0 V c 3 t) (iblk0 V c 4 t)
    | ⟨9, _⟩ => out0_9 (iblk0 V c 0 t) (iblk0 V c 1 t) (iblk0 V c 2 t) (iblk0 V c 3 t) (iblk0 V c 4 t) (iblk0 V c 5 t) (iblk0 V c 6 t) (iblk0 V c 7 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t
    = out0_8 (iblk0 V c 0 t) (iblk0 V c 1 t) (iblk0 V c 2 t) (iblk0 V c 3 t) (iblk0 V c 4 t) := by dsimp only [dat0]
theorem after0_9 (c : Dev nD) (t : Fin cfg0.N) : (dat0 V c).after 9 t
    = out0_9 (iblk0 V c 0 t) (iblk0 V c 1 t) (iblk0 V c 2 t) (iblk0 V c 3 t) (iblk0 V c 4 t) (iblk0 V c 5 t) (iblk0 V c 6 t) (iblk0 V c 7 t) := by dsimp only [dat0]

/-! # Region 1: the windows' blocks, what the body leaves in each output buffer, the proof data -/

/-- Window `w`'s block at grid point `t`, read off the window's array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The new-feature output buffer after the body: one whole-block store of relu((A_tile · Xs) ⊙ d_rows · W + b). -/
def out1_8 (x0 : Vec F S400x6000 .bf16) (x1 : Vec F S6000x512 .bf16) (x2 : Vec F S400x1 .f32) (x3 : Vec F S512x512 .bf16) (x4 : Vec F S1x512 .f32) :
    Vec F S400x512 .f32 :=
  View.canon [⟨rO, k1_pay2 (View.ld x0 rA) (View.ld x1 rX) (View.ld x2 rD) (View.ld x3 rW) (View.ld x4 rB)⟩]

/-- The running-sum output buffer after the body: one whole-block store of the incoming sum block plus the
    leaky-relu of the second projection of the new features. -/
def out1_9 (x0 : Vec F S400x6000 .bf16) (x1 : Vec F S6000x512 .bf16) (x2 : Vec F S400x1 .f32) (x3 : Vec F S512x512 .bf16) (x4 : Vec F S1x512 .f32)
    (x5 : Vec F S512x512 .bf16) (x6 : Vec F S1x512 .f32) (x7 : Vec F S400x512 .f32) : Vec F S400x512 .f32 :=
  View.canon [⟨rO, k1_pay1 (k1_pay3 (View.ld x0 rA) (View.ld x1 rX) (View.ld x2 rD) (View.ld x3 rW) (View.ld x4 rB) (View.ld x5 rW) (View.ld x6 rB)) (View.ld x7 rO)⟩]

/-- The proof data of pipeline 1 on core `c`: the arrays as the region finds them; after the body at point `t`
    each input's buffer still at its block, each output's at the body's store over the input blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => out1_8 (iblk1 V c 0 t) (iblk1 V c 1 t) (iblk1 V c 2 t) (iblk1 V c 3 t) (iblk1 V c 4 t)
    | ⟨9, _⟩ => out1_9 (iblk1 V c 0 t) (iblk1 V c 1 t) (iblk1 V c 2 t) (iblk1 V c 3 t) (iblk1 V c 4 t) (iblk1 V c 5 t) (iblk1 V c 6 t) (iblk1 V c 7 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t
    = out1_8 (iblk1 V c 0 t) (iblk1 V c 1 t) (iblk1 V c 2 t) (iblk1 V c 3 t) (iblk1 V c 4 t) := by dsimp only [dat1]
theorem after1_9 (c : Dev nD) (t : Fin cfg1.N) : (dat1 V c).after 9 t
    = out1_9 (iblk1 V c 0 t) (iblk1 V c 1 t) (iblk1 V c 2 t) (iblk1 V c 3 t) (iblk1 V c 4 t) (iblk1 V c 5 t) (iblk1 V c 6 t) (iblk1 V c 7 t) := by dsimp only [dat1]

end Regions

end Cert.KernelIdeal.Hand

end
-- ==== Proof.KIBody0.lean ====
/-
  Region 0 of the program: what its body finds in each input window's staging buffer, what it leaves in the two
  output buffers, and from these the obligation the pipeline asks of the body at every grid point. All of it at a
  PARAMETER `V`: the buffer contents when the region is entered.
-/
import proofs.«102648_j56324201120496_1_alg».proof.Proof.KIData

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## What the body finds in an input window's buffer

An input window's current staging buffer holds the window's block at every grid point, whether the pipeline fetched
it at that point or not: where it did not (a window whose block index is constant is fetched at the first point
only), the block index has not moved since the point before and the body left the buffer as it found it. -/

/-- Input window 0's buffer holds its block at every point, for any proof data whose array is `V`'s and whose body
    leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's buffer holds its block at every point, for any proof data whose array is `V`'s and whose body
    leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's buffer holds its block at every point, for any proof data whose array is `V`'s and whose body
    leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's buffer holds its block at every point, for any proof data whose array is `V`'s and whose body
    leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's buffer holds its block at every point, for any proof data whose array is `V`'s and whose body
    leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's buffer holds its block at every point, for any proof data whose array is `V`'s and whose body
    leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's buffer holds its block at every point, for any proof data whose array is `V`'s and whose body
    leaves the block in place. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Input window 7's buffer holds its block at every point, for any proof data whose array is `V`'s and whose body
    leaves the block in place. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d

/-! ## The body's triple -/

set_option maxHeartbeats 1000000 in
/-- The body on whole staging buffers — each input's at contents `xW`, each output's at anything — runs to a
    continuation that holds the inputs' as they were, the new-feature output's at `out0_8` of the inputs' and the
    running-sum output's at `out0_9` of them. The body reads each output buffer once before storing it; the value
    read is not used. Each output is stored once, whole, so what is read back through the buffer is that store. -/
theorem sound_kernel0 (c : Dev nD) (E : Set ℕ) (i : grid0.Coords) (arg1 : Memref sig .tc .vmem S400x6000 .bf16) (harg1 : arg1.IsWhole) (arg2 : Memref sig .tc .vmem S6000x512 .bf16) (harg2 : arg2.IsWhole) (arg3 : Memref sig .tc .vmem S400x1 .f32) (harg3 : arg3.IsWhole) (arg4 : Memref sig .tc .vmem S512x512 .bf16) (harg4 : arg4.IsWhole) (arg5 : Memref sig .tc .vmem S1x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S400x512 .f32) (harg8 : arg8.IsWhole) (arg9 : Memref sig .tc .vmem S400x512 .f32) (harg9 : arg9.IsWhole) (arg10 : Memref sig .tc .vmem S400x512 .f32) (harg10 : arg10.IsWhole)
    (x0 : Vec F S400x6000 .bf16) (x1 : Vec F S6000x512 .bf16) (x2 : Vec F S400x1 .f32) (x3 : Vec F S512x512 .bf16) (x4 : Vec F S1x512 .f32) (x5 : Vec F S512x512 .bf16) (x6 : Vec F S1x512 .f32) (x7 : Vec F S400x512 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ (∃ d, owns (c : Thread nD τ) arg9 fullShare d)
        ∗ (∃ d, owns (c : Thread nD τ) arg10 fullShare d)
        ∗ (iprop(owns (c : Thread nD τ) arg1 fullShare x0
          ∗ owns (c : Thread nD τ) arg2 fullShare x1
          ∗ owns (c : Thread nD τ) arg3 fullShare x2
          ∗ owns (c : Thread nD τ) arg4 fullShare x3
          ∗ owns (c : Thread nD τ) arg5 fullShare x4
          ∗ owns (c : Thread nD τ) arg6 fullShare x5
          ∗ owns (c : Thread nD τ) arg7 fullShare x6
          ∗ owns (c : Thread nD τ) arg8 fullShare x7
          ∗ owns (c : Thread nD τ) arg9 fullShare (out0_8 x0 x1 x2 x3 x4)
          ∗ owns (c : Thread nD τ) arg10 fullShare (out0_9 x0 x1 x2 x3 x4 x5 x6 x7)) -∗ K ⟨⟩))
      ⊢ wp frame (wpE (defs₀ (F := F)) Variants.none c none) E (cc0__layer_kernel i arg1 harg1 arg2 harg2 arg3 harg3 arg4 harg4 arg5 harg5 arg6 harg6 arg7 harg7 arg8 harg8 arg9 harg9 arg10 harg10) K := by
  simp only [cc0__layer_kernel_eq_skeleton]; unfold cc0__layer_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    try dsimp only
    exact View.read_writes_eq_canon _ _ _ (coverO _)
  iexists _; isplitr
  swap; · iexact H9
  ipureintro
  try dsimp only
  exact View.read_writes_eq_canon _ _ _ (coverO _)

/-! ## The body obligation, at a generic point -/

/-- What the body is called with at point `t`: the pipeline's invariant, what the core owes, and each window's
    current staging buffer, the windows one by one. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- What it returns: the same, each buffer at what the proof data say the body leaves in it. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

/-- The body at any point: the inputs' buffers hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ (grid0.coords t) _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The obligation the pipeline asks of the body, at every point. -/
theorem body_obligation0 (c : Dev nD) : BodyObligation (dat0 (F := F) V c) (defs₀ (F := F)) Variants.none () Set.univ := fun t => by
  rw [bigSep_W0, bigSep_W0]
  exact sound_body0 V c t

end Regions

end Cert.KernelIdeal.Hand

end
-- ==== Proof.KIBody1.lean ====
/-
  Region 1 of the program: what its body finds in each input window's staging buffer, what it leaves in the two
  output buffers, and from these the obligation the pipeline asks of the body at every grid point. All of it at a
  PARAMETER `V`: the buffer contents when the region is entered.
-/
import proofs.«102648_j56324201120496_1_alg».proof.Proof.KIData

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## What the body finds in an input window's buffer

An input window's current staging buffer holds the window's block at every grid point, whether the pipeline fetched
it at that point or not: where it did not (a window whose block index is constant is fetched at the first point
only), the block index has not moved since the point before and the body left the buffer as it found it. -/

/-- Input window 0's buffer holds its block at every point, for any proof data whose array is `V`'s and whose body
    leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's buffer holds its block at every point, for any proof data whose array is `V`'s and whose body
    leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's buffer holds its block at every point, for any proof data whose array is `V`'s and whose body
    leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's buffer holds its block at every point, for any proof data whose array is `V`'s and whose body
    leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's buffer holds its block at every point, for any proof data whose array is `V`'s and whose body
    leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's buffer holds its block at every point, for any proof data whose array is `V`'s and whose body
    leaves the block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's buffer holds its block at every point, for any proof data whose array is `V`'s and whose body
    leaves the block in place. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's buffer holds its block at every point, for any proof data whose array is `V`'s and whose body
    leaves the block in place. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

/-! ## The body's triple -/

set_option maxHeartbeats 1000000 in
/-- The body on whole staging buffers — each input's at contents `xW`, each output's at anything — runs to a
    continuation that holds the inputs' as they were, the new-feature output's at `out1_8` of the inputs' and the
    running-sum output's at `out1_9` of them. The body reads each output buffer once before storing it; the value
    read is not used. Each output is stored once, whole, so what is read back through the buffer is that store. -/
theorem sound_kernel1 (c : Dev nD) (E : Set ℕ) (i : grid1.Coords) (arg1 : Memref sig .tc .vmem S400x6000 .bf16) (harg1 : arg1.IsWhole) (arg2 : Memref sig .tc .vmem S6000x512 .bf16) (harg2 : arg2.IsWhole) (arg3 : Memref sig .tc .vmem S400x1 .f32) (harg3 : arg3.IsWhole) (arg4 : Memref sig .tc .vmem S512x512 .bf16) (harg4 : arg4.IsWhole) (arg5 : Memref sig .tc .vmem S1x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S400x512 .f32) (harg8 : arg8.IsWhole) (arg9 : Memref sig .tc .vmem S400x512 .f32) (harg9 : arg9.IsWhole) (arg10 : Memref sig .tc .vmem S400x512 .f32) (harg10 : arg10.IsWhole)
    (x0 : Vec F S400x6000 .bf16) (x1 : Vec F S6000x512 .bf16) (x2 : Vec F S400x1 .f32) (x3 : Vec F S512x512 .bf16) (x4 : Vec F S1x512 .f32) (x5 : Vec F S512x512 .bf16) (x6 : Vec F S1x512 .f32) (x7 : Vec F S400x512 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ (∃ d, owns (c : Thread nD τ) arg9 fullShare d)
        ∗ (∃ d, owns (c : Thread nD τ) arg10 fullShare d)
        ∗ (iprop(owns (c : Thread nD τ) arg1 fullShare x0
          ∗ owns (c : Thread nD τ) arg2 fullShare x1
          ∗ owns (c : Thread nD τ) arg3 fullShare x2
          ∗ owns (c : Thread nD τ) arg4 fullShare x3
          ∗ owns (c : Thread nD τ) arg5 fullShare x4
          ∗ owns (c : Thread nD τ) arg6 fullShare x5
          ∗ owns (c : Thread nD τ) arg7 fullShare x6
          ∗ owns (c : Thread nD τ) arg8 fullShare x7
          ∗ owns (c : Thread nD τ) arg9 fullShare (out1_8 x0 x1 x2 x3 x4)
          ∗ owns (c : Thread nD τ) arg10 fullShare (out1_9 x0 x1 x2 x3 x4 x5 x6 x7)) -∗ K ⟨⟩))
      ⊢ wp frame (wpE (defs₀ (F := F)) Variants.none c none) E (cc1__layer_kernel i arg1 harg1 arg2 harg2 arg3 harg3 arg4 harg4 arg5 harg5 arg6 harg6 arg7 harg7 arg8 harg8 arg9 harg9 arg10 harg10) K := by
  simp only [cc1__layer_kernel_eq_skeleton]; unfold cc1__layer_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    try dsimp only
    exact View.read_writes_eq_canon _ _ _ (coverO _)
  iexists _; isplitr
  swap; · iexact H9
  ipureintro
  try dsimp only
  exact View.read_writes_eq_canon _ _ _ (coverO _)

/-! ## The body obligation, at a generic point -/

/-- What the body is called with at point `t`: the pipeline's invariant, what the core owes, and each window's
    current staging buffer, the windows one by one. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

/-- What it returns: the same, each buffer at what the proof data say the body leaves in it. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

/-- The body at any point: the inputs' buffers hold their blocks, so the body's triple applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ (grid1.coords t) _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The obligation the pipeline asks of the body, at every point. -/
theorem body_obligation1 (c : Dev nD) : BodyObligation (dat1 (F := F) V c) (defs₀ (F := F)) Variants.none () Set.univ := fun t => by
  rw [bigSep_W1, bigSep_W1]
  exact sound_body1 V c t

end Regions

end Cert.KernelIdeal.Hand

end
-- ==== Proof.KIRun.lean ====
/-
  The run of the whole program: seven stretches of host operations and two kernel regions, in the program's order.
  The buffer contents at each boundary between two of them are a fold from the launch memory: a host stretch applies
  its operations; a region leaves each of its windows' arrays at what its pipeline's write-backs make of it and
  every other buffer as it was. Over these, each host stretch and each region is one segment of the several-region
  launch theorem, whose conclusion is: every weakly fair execution from the launch memory terminates, and every
  unscoped buffer of every core ends at the last boundary's contents. The arguments are among those buffers and no
  segment writes them, so they end as launched.
-/
import proofs.«102648_j56324201120496_1_alg».proof.Proof.KIBody0
import proofs.«102648_j56324201120496_1_alg».proof.Proof.KIBody1
import proofs.«102648_j56324201120496_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary: a fold through the program -/

/-- Core `c`'s buffers at launch. -/
abbrev W0 : Dev nD → Valuation τ sig (Elt F) := fun c b => (s₀ m ρ).mem ((c : Dev nD), b)
/-- After the first host stretch, -/
abbrev W1 : Dev nD → Valuation τ sig (Elt F) := fun c => StableHlo.after hostOps0 (W0 m ρ c)
/-- the second, -/
abbrev W2 : Dev nD → Valuation τ sig (Elt F) := fun c => StableHlo.after hostOps0_1 (W1 m ρ c)
/-- the third, -/
abbrev W3 : Dev nD → Valuation τ sig (Elt F) := fun c => StableHlo.after hostOps0_2 (W2 m ρ c)
/-- the fourth, -/
abbrev W4 : Dev nD → Valuation τ sig (Elt F) := fun c => StableHlo.after hostOps0_3 (W3 m ρ c)
/-- and the fifth: region 0's entry. -/
abbrev W5 : Dev nD → Valuation τ sig (Elt F) := fun c => StableHlo.after hostOps0_4 (W4 m ρ c)
/-- The same read at the TensorCore's references: what region 0's proof data take. -/
abbrev V5 : (c : Dev nD) → (b : Ref sig .tc) → Buf (Elt F) ((c : Thread nD τ).loc b) := fun c b => W5 m ρ c b
/-- At region 0's exit: its windows' arrays at what the pipeline leaves (an input's as entered, an output's at its
    write-backs folded over the grid), every other buffer as entered. -/
def W6 (c : Dev nD) : Valuation τ sig (Elt F) :=
  Pipeline.withArrays spec0 c (W5 m ρ c) fun w => (dat0 (V5 m ρ) c).arrAt w cfg0.N
theorem W6_arr (c : Dev nD) (w : Fin cfg0.W) :
    W6 m ρ c (Proc.devRef .tc (Pipeline.arrRef spec0 w)) = (dat0 (V5 m ρ) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m ρ c (Proc.devRef .tc b) = W5 m ρ c (Proc.devRef .tc b) := by
  unfold W6; exact Pipeline.withArrays_of_ne spec0 c _ _ b hb
/-- The same read at the TensorCore's references: region 0's exit contents. -/
abbrev V6 : (c : Dev nD) → (b : Ref sig .tc) → Buf (Elt F) ((c : Thread nD τ).loc b) := fun c b => W6 m ρ c b
/-- At region 0's exit each of its arrays holds what the pipeline leaves, and every other buffer what it held at entry. -/
theorem hF0 (c : Dev nD) (w : Fin cfg0.W) : (dat0 (V5 m ρ) c).arrAt w cfg0.N = V6 m ρ c (Pipeline.arrRef spec0 w) :=
  (W6_arr m ρ c w).symm
theorem hrest0 (c : Dev nD) : ∀ b, b ∉ Finset.univ.image (Pipeline.arrRef spec0) → V6 m ρ c b = V5 m ρ c b :=
  fun b hb => W6_of_ne m ρ c b fun w e => hb (Finset.mem_image.mpr ⟨w, Finset.mem_univ _, e⟩)

/-- After the host stretch between the regions: region 1's entry. -/
abbrev W7 : Dev nD → Valuation τ sig (Elt F) := fun c => StableHlo.after hostOps1 (W6 m ρ c)
/-- The same read at the TensorCore's references: what region 1's proof data take. -/
abbrev V7 : (c : Dev nD) → (b : Ref sig .tc) → Buf (Elt F) ((c : Thread nD τ).loc b) := fun c b => W7 m ρ c b
/-- At region 1's exit: its windows' arrays at what the pipeline leaves, every other buffer as entered. -/
def W8 (c : Dev nD) : Valuation τ sig (Elt F) :=
  Pipeline.withArrays spec1 c (W7 m ρ c) fun w => (dat1 (V7 m ρ) c).arrAt w cfg1.N
theorem W8_arr (c : Dev nD) (w : Fin cfg1.W) :
    W8 m ρ c (Proc.devRef .tc (Pipeline.arrRef spec1 w)) = (dat1 (V7 m ρ) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m ρ c (Proc.devRef .tc b) = W7 m ρ c (Proc.devRef .tc b) := by
  unfold W8; exact Pipeline.withArrays_of_ne spec1 c _ _ b hb
/-- The same read at the TensorCore's references: region 1's exit contents. -/
abbrev V8 : (c : Dev nD) → (b : Ref sig .tc) → Buf (Elt F) ((c : Thread nD τ).loc b) := fun c b => W8 m ρ c b
theorem hF1 (c : Dev nD) (w : Fin cfg1.W) : (dat1 (V7 m ρ) c).arrAt w cfg1.N = V8 m ρ c (Pipeline.arrRef spec1 w) :=
  (W8_arr m ρ c w).symm
theorem hrest1 (c : Dev nD) : ∀ b, b ∉ Finset.univ.image (Pipeline.arrRef spec1) → V8 m ρ c b = V7 m ρ c b :=
  fun b hb => W8_of_ne m ρ c b fun w e => hb (Finset.mem_image.mpr ⟨w, Finset.mem_univ _, e⟩)

/-- After the last host stretch: the contents the program ends with. -/
abbrev W9 : Dev nD → Valuation τ sig (Elt F) := fun c => StableHlo.after hostOps2 (W8 m ρ c)

/-! ### The arguments end as launched -/

/-- Argument 0 ends as launched: no host stretch writes it and it is no window's array of either region. -/
theorem W9_main_arg0 (c : Dev nD) : W9 m ρ c (Proc.devRef .tc main_arg0) = m ((c : Thread nD τ).loc main_arg0) :=
  calc W9 m ρ c (Proc.devRef .tc main_arg0)
    _ = W8 m ρ c (Proc.devRef .tc main_arg0) := StableHlo.after_of_writes_sub hostOps2 _ hostOps2_writes (by decide)
    _ = W7 m ρ c (Proc.devRef .tc main_arg0) := W8_of_ne m ρ c main_arg0 (by decide)
    _ = W6 m ρ c (Proc.devRef .tc main_arg0) := StableHlo.after_of_writes_sub hostOps1 _ hostOps1_writes (by decide)
    _ = W5 m ρ c (Proc.devRef .tc main_arg0) := W6_of_ne m ρ c main_arg0 (by decide)
    _ = W4 m ρ c (Proc.devRef .tc main_arg0) := StableHlo.after_of_writes_sub hostOps0_4 _ hostOps0_4_writes (by decide)
    _ = W3 m ρ c (Proc.devRef .tc main_arg0) := StableHlo.after_of_writes_sub hostOps0_3 _ hostOps0_3_writes (by decide)
    _ = W2 m ρ c (Proc.devRef .tc main_arg0) := StableHlo.after_of_writes_sub hostOps0_2 _ hostOps0_2_writes (by decide)
    _ = W1 m ρ c (Proc.devRef .tc main_arg0) := StableHlo.after_of_writes_sub hostOps0_1 _ hostOps0_1_writes (by decide)
    _ = W0 m ρ c (Proc.devRef .tc main_arg0) := StableHlo.after_of_writes_sub hostOps0 _ hostOps0_writes (by decide)
    _ = m ((c : Thread nD τ).loc main_arg0) := rfl

/-- Argument 1 ends as launched: no host stretch writes it and it is no window's array of either region. -/
theorem W9_main_arg1 (c : Dev nD) : W9 m ρ c (Proc.devRef .tc main_arg1) = m ((c : Thread nD τ).loc main_arg1) :=
  calc W9 m ρ c (Proc.devRef .tc main_arg1)
    _ = W8 m ρ c (Proc.devRef .tc main_arg1) := StableHlo.after_of_writes_sub hostOps2 _ hostOps2_writes (by decide)
    _ = W7 m ρ c (Proc.devRef .tc main_arg1) := W8_of_ne m ρ c main_arg1 (by decide)
    _ = W6 m ρ c (Proc.devRef .tc main_arg1) := StableHlo.after_of_writes_sub hostOps1 _ hostOps1_writes (by decide)
    _ = W5 m ρ c (Proc.devRef .tc main_arg1) := W6_of_ne m ρ c main_arg1 (by decide)
    _ = W4 m ρ c (Proc.devRef .tc main_arg1) := StableHlo.after_of_writes_sub hostOps0_4 _ hostOps0_4_writes (by decide)
    _ = W3 m ρ c (Proc.devRef .tc main_arg1) := StableHlo.after_of_writes_sub hostOps0_3 _ hostOps0_3_writes (by decide)
    _ = W2 m ρ c (Proc.devRef .tc main_arg1) := StableHlo.after_of_writes_sub hostOps0_2 _ hostOps0_2_writes (by decide)
    _ = W1 m ρ c (Proc.devRef .tc main_arg1) := StableHlo.after_of_writes_sub hostOps0_1 _ hostOps0_1_writes (by decide)
    _ = W0 m ρ c (Proc.devRef .tc main_arg1) := StableHlo.after_of_writes_sub hostOps0 _ hostOps0_writes (by decide)
    _ = m ((c : Thread nD τ).loc main_arg1) := rfl

/-- Argument 2 ends as launched: no host stretch writes it and it is no window's array of either region. -/
theorem W9_main_arg2 (c : Dev nD) : W9 m ρ c (Proc.devRef .tc main_arg2) = m ((c : Thread nD τ).loc main_arg2) :=
  calc W9 m ρ c (Proc.devRef .tc main_arg2)
    _ = W8 m ρ c (Proc.devRef .tc main_arg2) := StableHlo.after_of_writes_sub hostOps2 _ hostOps2_writes (by decide)
    _ = W7 m ρ c (Proc.devRef .tc main_arg2) := W8_of_ne m ρ c main_arg2 (by decide)
    _ = W6 m ρ c (Proc.devRef .tc main_arg2) := StableHlo.after_of_writes_sub hostOps1 _ hostOps1_writes (by decide)
    _ = W5 m ρ c (Proc.devRef .tc main_arg2) := W6_of_ne m ρ c main_arg2 (by decide)
    _ = W4 m ρ c (Proc.devRef .tc main_arg2) := StableHlo.after_of_writes_sub hostOps0_4 _ hostOps0_4_writes (by decide)
    _ = W3 m ρ c (Proc.devRef .tc main_arg2) := StableHlo.after_of_writes_sub hostOps0_3 _ hostOps0_3_writes (by decide)
    _ = W2 m ρ c (Proc.devRef .tc main_arg2) := StableHlo.after_of_writes_sub hostOps0_2 _ hostOps0_2_writes (by decide)
    _ = W1 m ρ c (Proc.devRef .tc main_arg2) := StableHlo.after_of_writes_sub hostOps0_1 _ hostOps0_1_writes (by decide)
    _ = W0 m ρ c (Proc.devRef .tc main_arg2) := StableHlo.after_of_writes_sub hostOps0 _ hostOps0_writes (by decide)
    _ = m ((c : Thread nD τ).loc main_arg2) := rfl

/-- Argument 3 ends as launched: no host stretch writes it and it is no window's array of either region. -/
theorem W9_main_arg3 (c : Dev nD) : W9 m ρ c (Proc.devRef .tc main_arg3) = m ((c : Thread nD τ).loc main_arg3) :=
  calc W9 m ρ c (Proc.devRef .tc main_arg3)
    _ = W8 m ρ c (Proc.devRef .tc main_arg3) := StableHlo.after_of_writes_sub hostOps2 _ hostOps2_writes (by decide)
    _ = W7 m ρ c (Proc.devRef .tc main_arg3) := W8_of_ne m ρ c main_arg3 (by decide)
    _ = W6 m ρ c (Proc.devRef .tc main_arg3) := StableHlo.after_of_writes_sub hostOps1 _ hostOps1_writes (by decide)
    _ = W5 m ρ c (Proc.devRef .tc main_arg3) := W6_of_ne m ρ c main_arg3 (by decide)
    _ = W4 m ρ c (Proc.devRef .tc main_arg3) := StableHlo.after_of_writes_sub hostOps0_4 _ hostOps0_4_writes (by decide)
    _ = W3 m ρ c (Proc.devRef .tc main_arg3) := StableHlo.after_of_writes_sub hostOps0_3 _ hostOps0_3_writes (by decide)
    _ = W2 m ρ c (Proc.devRef .tc main_arg3) := StableHlo.after_of_writes_sub hostOps0_2 _ hostOps0_2_writes (by decide)
    _ = W1 m ρ c (Proc.devRef .tc main_arg3) := StableHlo.after_of_writes_sub hostOps0_1 _ hostOps0_1_writes (by decide)
    _ = W0 m ρ c (Proc.devRef .tc main_arg3) := StableHlo.after_of_writes_sub hostOps0 _ hostOps0_writes (by decide)
    _ = m ((c : Thread nD τ).loc main_arg3) := rfl

/-- Argument 4 ends as launched: no host stretch writes it and it is no window's array of either region. -/
theorem W9_main_arg4 (c : Dev nD) : W9 m ρ c (Proc.devRef .tc main_arg4) = m ((c : Thread nD τ).loc main_arg4) :=
  calc W9 m ρ c (Proc.devRef .tc main_arg4)
    _ = W8 m ρ c (Proc.devRef .tc main_arg4) := StableHlo.after_of_writes_sub hostOps2 _ hostOps2_writes (by decide)
    _ = W7 m ρ c (Proc.devRef .tc main_arg4) := W8_of_ne m ρ c main_arg4 (by decide)
    _ = W6 m ρ c (Proc.devRef .tc main_arg4) := StableHlo.after_of_writes_sub hostOps1 _ hostOps1_writes (by decide)
    _ = W5 m ρ c (Proc.devRef .tc main_arg4) := W6_of_ne m ρ c main_arg4 (by decide)
    _ = W4 m ρ c (Proc.devRef .tc main_arg4) := StableHlo.after_of_writes_sub hostOps0_4 _ hostOps0_4_writes (by decide)
    _ = W3 m ρ c (Proc.devRef .tc main_arg4) := StableHlo.after_of_writes_sub hostOps0_3 _ hostOps0_3_writes (by decide)
    _ = W2 m ρ c (Proc.devRef .tc main_arg4) := StableHlo.after_of_writes_sub hostOps0_2 _ hostOps0_2_writes (by decide)
    _ = W1 m ρ c (Proc.devRef .tc main_arg4) := StableHlo.after_of_writes_sub hostOps0_1 _ hostOps0_1_writes (by decide)
    _ = W0 m ρ c (Proc.devRef .tc main_arg4) := StableHlo.after_of_writes_sub hostOps0 _ hostOps0_writes (by decide)
    _ = m ((c : Thread nD τ).loc main_arg4) := rfl

/-- Argument 5 ends as launched: no host stretch writes it and it is no window's array of either region. -/
theorem W9_main_arg5 (c : Dev nD) : W9 m ρ c (Proc.devRef .tc main_arg5) = m ((c : Thread nD τ).loc main_arg5) :=
  calc W9 m ρ c (Proc.devRef .tc main_arg5)
    _ = W8 m ρ c (Proc.devRef .tc main_arg5) := StableHlo.after_of_writes_sub hostOps2 _ hostOps2_writes (by decide)
    _ = W7 m ρ c (Proc.devRef .tc main_arg5) := W8_of_ne m ρ c main_arg5 (by decide)
    _ = W6 m ρ c (Proc.devRef .tc main_arg5) := StableHlo.after_of_writes_sub hostOps1 _ hostOps1_writes (by decide)
    _ = W5 m ρ c (Proc.devRef .tc main_arg5) := W6_of_ne m ρ c main_arg5 (by decide)
    _ = W4 m ρ c (Proc.devRef .tc main_arg5) := StableHlo.after_of_writes_sub hostOps0_4 _ hostOps0_4_writes (by decide)
    _ = W3 m ρ c (Proc.devRef .tc main_arg5) := StableHlo.after_of_writes_sub hostOps0_3 _ hostOps0_3_writes (by decide)
    _ = W2 m ρ c (Proc.devRef .tc main_arg5) := StableHlo.after_of_writes_sub hostOps0_2 _ hostOps0_2_writes (by decide)
    _ = W1 m ρ c (Proc.devRef .tc main_arg5) := StableHlo.after_of_writes_sub hostOps0_1 _ hostOps0_1_writes (by decide)
    _ = W0 m ρ c (Proc.devRef .tc main_arg5) := StableHlo.after_of_writes_sub hostOps0 _ hostOps0_writes (by decide)
    _ = m ((c : Thread nD τ).loc main_arg5) := rfl

/-- Argument 6 ends as launched: no host stretch writes it and it is no window's array of either region. -/
theorem W9_main_arg6 (c : Dev nD) : W9 m ρ c (Proc.devRef .tc main_arg6) = m ((c : Thread nD τ).loc main_arg6) :=
  calc W9 m ρ c (Proc.devRef .tc main_arg6)
    _ = W8 m ρ c (Proc.devRef .tc main_arg6) := StableHlo.after_of_writes_sub hostOps2 _ hostOps2_writes (by decide)
    _ = W7 m ρ c (Proc.devRef .tc main_arg6) := W8_of_ne m ρ c main_arg6 (by decide)
    _ = W6 m ρ c (Proc.devRef .tc main_arg6) := StableHlo.after_of_writes_sub hostOps1 _ hostOps1_writes (by decide)
    _ = W5 m ρ c (Proc.devRef .tc main_arg6) := W6_of_ne m ρ c main_arg6 (by decide)
    _ = W4 m ρ c (Proc.devRef .tc main_arg6) := StableHlo.after_of_writes_sub hostOps0_4 _ hostOps0_4_writes (by decide)
    _ = W3 m ρ c (Proc.devRef .tc main_arg6) := StableHlo.after_of_writes_sub hostOps0_3 _ hostOps0_3_writes (by decide)
    _ = W2 m ρ c (Proc.devRef .tc main_arg6) := StableHlo.after_of_writes_sub hostOps0_2 _ hostOps0_2_writes (by decide)
    _ = W1 m ρ c (Proc.devRef .tc main_arg6) := StableHlo.after_of_writes_sub hostOps0_1 _ hostOps0_1_writes (by decide)
    _ = W0 m ρ c (Proc.devRef .tc main_arg6) := StableHlo.after_of_writes_sub hostOps0 _ hostOps0_writes (by decide)
    _ = m ((c : Thread nD τ).loc main_arg6) := rfl

/-- Argument 7 ends as launched: no host stretch writes it and it is no window's array of either region. -/
theorem W9_main_arg7 (c : Dev nD) : W9 m ρ c (Proc.devRef .tc main_arg7) = m ((c : Thread nD τ).loc main_arg7) :=
  calc W9 m ρ c (Proc.devRef .tc main_arg7)
    _ = W8 m ρ c (Proc.devRef .tc main_arg7) := StableHlo.after_of_writes_sub hostOps2 _ hostOps2_writes (by decide)
    _ = W7 m ρ c (Proc.devRef .tc main_arg7) := W8_of_ne m ρ c main_arg7 (by decide)
    _ = W6 m ρ c (Proc.devRef .tc main_arg7) := StableHlo.after_of_writes_sub hostOps1 _ hostOps1_writes (by decide)
    _ = W5 m ρ c (Proc.devRef .tc main_arg7) := W6_of_ne m ρ c main_arg7 (by decide)
    _ = W4 m ρ c (Proc.devRef .tc main_arg7) := StableHlo.after_of_writes_sub hostOps0_4 _ hostOps0_4_writes (by decide)
    _ = W3 m ρ c (Proc.devRef .tc main_arg7) := StableHlo.after_of_writes_sub hostOps0_3 _ hostOps0_3_writes (by decide)
    _ = W2 m ρ c (Proc.devRef .tc main_arg7) := StableHlo.after_of_writes_sub hostOps0_2 _ hostOps0_2_writes (by decide)
    _ = W1 m ρ c (Proc.devRef .tc main_arg7) := StableHlo.after_of_writes_sub hostOps0_1 _ hostOps0_1_writes (by decide)
    _ = W0 m ρ c (Proc.devRef .tc main_arg7) := StableHlo.after_of_writes_sub hostOps0 _ hostOps0_writes (by decide)
    _ = m ((c : Thread nD τ).loc main_arg7) := rfl

/-- Argument 8 ends as launched: no host stretch writes it and it is no window's array of either region. -/
theorem W9_main_arg8 (c : Dev nD) : W9 m ρ c (Proc.devRef .tc main_arg8) = m ((c : Thread nD τ).loc main_arg8) :=
  calc W9 m ρ c (Proc.devRef .tc main_arg8)
    _ = W8 m ρ c (Proc.devRef .tc main_arg8) := StableHlo.after_of_writes_sub hostOps2 _ hostOps2_writes (by decide)
    _ = W7 m ρ c (Proc.devRef .tc main_arg8) := W8_of_ne m ρ c main_arg8 (by decide)
    _ = W6 m ρ c (Proc.devRef .tc main_arg8) := StableHlo.after_of_writes_sub hostOps1 _ hostOps1_writes (by decide)
    _ = W5 m ρ c (Proc.devRef .tc main_arg8) := W6_of_ne m ρ c main_arg8 (by decide)
    _ = W4 m ρ c (Proc.devRef .tc main_arg8) := StableHlo.after_of_writes_sub hostOps0_4 _ hostOps0_4_writes (by decide)
    _ = W3 m ρ c (Proc.devRef .tc main_arg8) := StableHlo.after_of_writes_sub hostOps0_3 _ hostOps0_3_writes (by decide)
    _ = W2 m ρ c (Proc.devRef .tc main_arg8) := StableHlo.after_of_writes_sub hostOps0_2 _ hostOps0_2_writes (by decide)
    _ = W1 m ρ c (Proc.devRef .tc main_arg8) := StableHlo.after_of_writes_sub hostOps0_1 _ hostOps0_1_writes (by decide)
    _ = W0 m ρ c (Proc.devRef .tc main_arg8) := StableHlo.after_of_writes_sub hostOps0 _ hostOps0_writes (by decide)
    _ = m ((c : Thread nD τ).loc main_arg8) := rfl

/-! ## The proof data family and the thread state -/

/-- Every pipeline's proof data, each at its region's entry contents: a literal match on the pipeline's index. -/
def pdats : (p : Fin 2) → (c : Dev nD) → Dat τ (Elt F) Unit ℕ (UR sig nD τ) ℕ (Pipeline.pin (pcfgs (F := F)) adm p) c
  | ⟨0, _⟩ => fun c => dat0 (V5 m ρ) c
  | ⟨1, _⟩ => fun c => dat1 (V7 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state, and what the
    core owes, which is nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it ends with
    those references at the stretch applied to `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last boundary's contents, the
    generator register at some state. -/
abbrev Tₙ (c : Dev nD) : sProp 𝕄 := iprop(StableHlo.held (c : Thread nD τ) (Pipeline.ucRefs τ sig) (W9 m ρ c) ∗ ∃ r, prngReg c r)

/-! ## The regions as segments -/

-- a library lemma stated over a pinned configuration unifies with the printed one only when unification may unfold plain
-- definitions in a metavariable's type
set_option backward.isDefEq.respectTransparency.types false in
/-- Region 0 over the thread state: entered from every unscoped buffer at `W5`, left at `W6`. Its arrays are split
    out of the unscoped buffers on entry and put back at the exit contents; the generator register passes into the
    pipeline's invariant and out; nothing is owed; the body has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V5 m ρ) c).loose
  hwaits := Pipeline.hwaits_of_owed_zero _ _ _ _ L lv 0 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec0 c (V5 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V5 m ρ c) (V6 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over a pinned configuration unifies with the printed one only when unification may unfold plain
-- definitions in a metavariable's type
set_option backward.isDefEq.respectTransparency.types false in
/-- Region 1 over the thread state: entered from every unscoped buffer at `W7`, left at `W8`. Its arrays are split
    out of the unscoped buffers on entry and put back at the exit contents; the generator register passes into the
    pipeline's invariant and out; nothing is owed; the body has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V7 m ρ) c).loose
  hwaits := Pipeline.hwaits_of_owed_zero _ _ _ _ L lv 1 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec1 c (V7 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V7 m ρ c) (V8 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The program's nine segments in order: a host segment per stretch from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .region (reg0 m ρ),
    .host (hseg hostOps1 hostOps1_sub hostOps1_fresh (W6 m ρ)),
    .region (reg1 m ρ),
    .host (hseg hostOps2 hostOps2_sub hostOps2_fresh (W8 m ρ)) ]

-- the launch theorem's implicit arguments are found by unifying its conclusion with this one, which takes unfolding
-- plain definitions in a metavariable's type
set_option backward.isDefEq.respectTransparency.types false in
/-- From any launch memory with zero counters, every weakly fair execution of the program on the TensorCores
    terminates, nothing faulting, and in every final state every unscoped buffer of every core holds the last
    boundary's contents `W9`. -/
theorem run_all : θ_run defs (onTc (τ := τ) (main (F := F))) ⟨m, fun _ => 0, ρ⟩ (fun r => ∀ c : Dev nD, ∀ b : Ref sig .tc,
      ¬ (Proc.devRef .tc b : DevRef τ sig).isScoped → r.2.mem ((c.tc : Thread nD τ).loc b) = W9 m ρ c (Proc.devRef .tc b)) :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain,
        show (segs m ρ).map Pipeline.Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          StableHlo.seq hostOps1,
          Prog.lift (.customCall (Pipeline.entry 1) ()),
          StableHlo.seq hostOps2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl,
      fun _ => .rfl, fun c =>
        (show iprop(StableHlo.held (c : Thread nD τ) (Pipeline.ucRefs τ sig) (W9 m ρ c) ∗ R c)
            ⊢ iprop(Tₙ m ρ c ∗ ∃ W, owes (c : Thread nD τ) (0 : CellTallies nD τ sig Unit) W) from by
          iintro ⟨Hh, Hp, HO⟩
          isplitl [Hh Hp]
          · isplitl [Hh]; · iexact Hh
            iexact Hp
          iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c b hb => h c _ (mem_uc b hb))

/-- The frame: every weakly fair execution terminates and every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c main_arg0 (by decide)).trans (W9_main_arg0 m ρ c),
     (h c main_arg1 (by decide)).trans (W9_main_arg1 m ρ c),
     (h c main_arg2 (by decide)).trans (W9_main_arg2 m ρ c),
     (h c main_arg3 (by decide)).trans (W9_main_arg3 m ρ c),
     (h c main_arg4 (by decide)).trans (W9_main_arg4 m ρ c),
     (h c main_arg5 (by decide)).trans (W9_main_arg5 m ρ c),
     (h c main_arg6 (by decide)).trans (W9_main_arg6 m ρ c),
     (h c main_arg7 (by decide)).trans (W9_main_arg7 m ρ c),
     (h c main_arg8 (by decide)).trans (W9_main_arg8 m ρ c)⟩) (run_all m ρ)

end Cert.KernelIdeal.Hand

end
-- ==== Proof.RefTables.lean ====
import proofs.«102648_j56324201120496_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of @main's first window (statements 1 … 60): the concatenate, the dense adjacency by
    scatter-add, its row sums, the guarded inverse square root, the normalized adjacency, and the first
    layer up to the second affine map. -/
abbrev opsA : List (HloOp τ sig (Elt F)) :=
  [ nary ![main_arg0, main_arg1, main_arg2] main_v0 (fun u => concatenate S6000x512 0 [⟨S2000x512, u 0⟩, ⟨S2000x512, u 1⟩, ⟨S2000x512, u 2⟩] concatenates_S2000x512_S2000x512_S2000x512_S6000x512_d0),
    unary main_arg3 main_v1 ((extractStridedSlice S400000 ![0] · slices_S500000_S400000_0) : (⟨S500000, .f32⟩ : BufTy).Contents (Elt F) → (⟨S400000, .f32⟩ : BufTy).Contents (Elt F)),
    nullary main_cst (constant S_ .f32 0x00000000#32),
    unary main_cst main_v2 (broadcastInDim S6000x6000 ![] bcast_S_S6000x6000 : (⟨S_, .f32⟩ : BufTy).Contents (Elt F) → (⟨S6000x6000, .f32⟩ : BufTy).Contents (Elt F)),
    unary main_arg8 main_v3 ((extractStridedSlice S1x400000 ![0, 0] · slices_S2x400000_S1x400000_0_0) : (⟨S2x400000, .i32⟩ : BufTy).Contents (Elt F) → (⟨S1x400000, .i32⟩ : BufTy).Contents (Elt F)),
    reshape main_v3 main_v4 rfl shapeCasts_S1x400000_S400000,
    unary main_arg8 main_v5 ((extractStridedSlice S1x400000 ![1, 0] · slices_S2x400000_S1x400000_1_0) : (⟨S2x400000, .i32⟩ : BufTy).Contents (Elt F) → (⟨S1x400000, .i32⟩ : BufTy).Contents (Elt F)),
    reshape main_v5 main_v6 rfl shapeCasts_S1x400000_S400000,
    nullary main_c (constantI S_ 32 0#32),
    unary main_c main_v7 (broadcastInDim S400000 ![] bcast_S_S400000 : (⟨S_, .i32⟩ : BufTy).Contents (Elt F) → (⟨S400000, .i32⟩ : BufTy).Contents (Elt F)),
    binary main_v4 main_v7 main_v8 (cmpi .slt : (⟨S400000, .i32⟩ : BufTy).Contents (Elt F) → (⟨S400000, .i32⟩ : BufTy).Contents (Elt F) → (⟨S400000, .i1⟩ : BufTy).Contents (Elt F)),
    nullary main_c_0 (constantI S_ 32 6000#32),
    unary main_c_0 main_v9 (broadcastInDim S400000 ![] bcast_S_S400000 : (⟨S_, .i32⟩ : BufTy).Contents (Elt F) → (⟨S400000, .i32⟩ : BufTy).Contents (Elt F)),
    binary main_v4 main_v9 main_v10 (addi : (⟨S400000, .i32⟩ : BufTy).Contents (Elt F) → (⟨S400000, .i32⟩ : BufTy).Contents (Elt F) → (⟨S400000, .i32⟩ : BufTy).Contents (Elt F)),
    ternary main_v8 main_v10 main_v4 main_v11 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    nullary main_c_1 (constantI S_ 32 0#32),
    unary main_c_1 main_v12 (broadcastInDim S400000 ![] bcast_S_S400000 : (⟨S_, .i32⟩ : BufTy).Contents (Elt F) → (⟨S400000, .i32⟩ : BufTy).Contents (Elt F)),
    binary main_v6 main_v12 main_v13 (cmpi .slt : (⟨S400000, .i32⟩ : BufTy).Contents (Elt F) → (⟨S400000, .i32⟩ : BufTy).Contents (Elt F) → (⟨S400000, .i1⟩ : BufTy).Contents (Elt F)),
    nullary main_c_2 (constantI S_ 32 6000#32),
    unary main_c_2 main_v14 (broadcastInDim S400000 ![] bcast_S_S400000 : (⟨S_, .i32⟩ : BufTy).Contents (Elt F) → (⟨S400000, .i32⟩ : BufTy).Contents (Elt F)),
    binary main_v6 main_v14 main_v15 (addi : (⟨S400000, .i32⟩ : BufTy).Contents (Elt F) → (⟨S400000, .i32⟩ : BufTy).Contents (Elt F) → (⟨S400000, .i32⟩ : BufTy).Contents (Elt F)),
    ternary main_v13 main_v15 main_v6 main_v16 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v11 main_v17 (broadcastInDim S400000x1 ![0] bcast_S400000_S400000x1_0 : (⟨S400000, .i32⟩ : BufTy).Contents (Elt F) → (⟨S400000x1, .i32⟩ : BufTy).Contents (Elt F)),
    unary main_v16 main_v18 (broadcastInDim S400000x1 ![0] bcast_S400000_S400000x1_0 : (⟨S400000, .i32⟩ : BufTy).Contents (Elt F) → (⟨S400000x1, .i32⟩ : BufTy).Contents (Elt F)),
    binary main_v17 main_v18 main_v19 ((fun a b => concatenate S400000x2 1 [⟨S400000x1, a⟩, ⟨S400000x1, b⟩] concatenates_S400000x1_S400000x1_S400000x2_d1) : (⟨S400000x1, .i32⟩ : BufTy).Contents (Elt F) → (⟨S400000x1, .i32⟩ : BufTy).Contents (Elt F) → (⟨S400000x2, .i32⟩ : BufTy).Contents (Elt F)),
    ternary main_v2 main_v19 main_v1 main_v20 ((fun x i u => Host.scatterAdd scatter_S6000x6000_S400000x2_S400000_n_01_01_1 x i u) : (⟨S6000x6000, .f32⟩ : BufTy).Contents (Elt F) → (⟨S400000x2, .i32⟩ : BufTy).Contents (Elt F) → (⟨S400000, .f32⟩ : BufTy).Contents (Elt F) → (⟨S6000x6000, .f32⟩ : BufTy).Contents (Elt F)),
    nullary main_cst_3 (constant S_ .f32 0x00000000#32),
    binary main_v20 main_cst_3 main_v21 ((fun x v => Host.reduceAdd x v reducesTo_S6000x6000_S6000_d1 h_S_) : (⟨S6000x6000, .f32⟩ : BufTy).Contents (Elt F) → (⟨S_, .f32⟩ : BufTy).Contents (Elt F) → (⟨S6000, .f32⟩ : BufTy).Contents (Elt F)),
    nullary main_cst_4 (constant S_ .f32 0x00000000#32),
    unary main_cst_4 main_v22 (broadcastInDim S6000 ![] bcast_S_S6000 : (⟨S_, .f32⟩ : BufTy).Contents (Elt F) → (⟨S6000, .f32⟩ : BufTy).Contents (Elt F)),
    binary main_v21 main_v22 main_v23 (cmpf .ogt : (⟨S6000, .f32⟩ : BufTy).Contents (Elt F) → (⟨S6000, .f32⟩ : BufTy).Contents (Elt F) → (⟨S6000, .i1⟩ : BufTy).Contents (Elt F)),
    nullary main_cst_5 (constant S_ .f32 0x3F800000#32),
    TRef.unary (.of main_cst_5 : TRef sig ⟨S_, .f32⟩) main_call0.v0 id,
    TRef.unary main_call0.v0 main_call0.v1 (broadcastInDim S6000 ![] bcast_S_S6000),
    TRef.ternary (.of main_v23 : TRef sig ⟨S6000, .i1⟩) (.of main_v21 : TRef sig ⟨S6000, .f32⟩) main_call0.v1 main_call0.v2 select,
    unary main_v24 main_v25 (Host.rsqrt : (⟨S6000, .f32⟩ : BufTy).Contents (Elt F) → (⟨S6000, .f32⟩ : BufTy).Contents (Elt F)),
    nullary main_cst_6 (constant S_ .f32 0x00000000#32),
    TRef.unary (.of main_cst_6 : TRef sig ⟨S_, .f32⟩) main_call1.v0 id,
    TRef.unary main_call1.v0 main_call1.v1 (broadcastInDim S6000 ![] bcast_S_S6000),
    TRef.ternary (.of main_v23 : TRef sig ⟨S6000, .i1⟩) (.of main_v25 : TRef sig ⟨S6000, .f32⟩) main_call1.v1 main_call1.v2 select,
    unary main_v26 main_v27 (broadcastInDim S6000x1 ![0] bcast_S6000_S6000x1_0 : (⟨S6000, .f32⟩ : BufTy).Contents (Elt F) → (⟨S6000x1, .f32⟩ : BufTy).Contents (Elt F)),
    unary main_v27 main_v28 (broadcastInDim S6000x6000 ![0, 1] bcast_S6000x1_S6000x6000_0_1 : (⟨S6000x1, .f32⟩ : BufTy).Contents (Elt F) → (⟨S6000x6000, .f32⟩ : BufTy).Contents (Elt F)),
    binary main_v28 main_v20 main_v29 (mulf : (⟨S6000x6000, .f32⟩ : BufTy).Contents (Elt F) → (⟨S6000x6000, .f32⟩ : BufTy).Contents (Elt F) → (⟨S6000x6000, .f32⟩ : BufTy).Contents (Elt F)),
    unary main_v26 main_v30 (broadcastInDim S1x6000 ![1] bcast_S6000_S1x6000_1 : (⟨S6000, .f32⟩ : BufTy).Contents (Elt F) → (⟨S1x6000, .f32⟩ : BufTy).Contents (Elt F)),
    unary main_v30 main_v31 (broadcastInDim S6000x6000 ![0, 1] bcast_S1x6000_S6000x6000_0_1 : (⟨S1x6000, .f32⟩ : BufTy).Contents (Elt F) → (⟨S6000x6000, .f32⟩ : BufTy).Contents (Elt F)),
    binary main_v29 main_v31 main_v32 (mulf : (⟨S6000x6000, .f32⟩ : BufTy).Contents (Elt F) → (⟨S6000x6000, .f32⟩ : BufTy).Contents (Elt F) → (⟨S6000x6000, .f32⟩ : BufTy).Contents (Elt F)),
    binary main_v32 main_v0 main_v33 ((fun l r => Host.dotGeneral dot_S6000x6000_S6000x512_S6000x512_1_0_0_1_n_n none l r) : (⟨S6000x6000, .f32⟩ : BufTy).Contents (Elt F) → (⟨S6000x512, .f32⟩ : BufTy).Contents (Elt F) → (⟨S6000x512, .f32⟩ : BufTy).Contents (Elt F)),
    unary main_arg4 main_v34 ((extractStridedSlice S1x512x512 ![0, 0, 0] · slices_S2x512x512_S1x512x512_0_0_0) : (⟨S2x512x512, .f32⟩ : BufTy).Contents (Elt F) → (⟨S1x512x512, .f32⟩ : BufTy).Contents (Elt F)),
    reshape main_v34 main_v35 rfl shapeCasts_S1x512x512_S512x512,
    binary main_v33 main_v35 main_v36 ((fun l r => Host.dotGeneral dot_S6000x512_S512x512_S6000x512_1_0_0_1_n_n none l r) : (⟨S6000x512, .f32⟩ : BufTy).Contents (Elt F) → (⟨S512x512, .f32⟩ : BufTy).Contents (Elt F) → (⟨S6000x512, .f32⟩ : BufTy).Contents (Elt F)),
    unary main_arg5 main_v37 ((extractStridedSlice S1x512 ![0, 0] · slices_S2x512_S1x512_0_0) : (⟨S2x512, .f32⟩ : BufTy).Contents (Elt F) → (⟨S1x512, .f32⟩ : BufTy).Contents (Elt F)),
    reshape main_v37 main_v38 rfl shapeCasts_S1x512_S512,
    unary main_v38 main_v39 (broadcastInDim S1x512 ![1] bcast_S512_S1x512_1 : (⟨S512, .f32⟩ : BufTy).Contents (Elt F) → (⟨S1x512, .f32⟩ : BufTy).Contents (Elt F)),
    unary main_v39 main_v40 (broadcastInDim S6000x512 ![0, 1] bcast_S1x512_S6000x512_0_1 : (⟨S1x512, .f32⟩ : BufTy).Contents (Elt F) → (⟨S6000x512, .f32⟩ : BufTy).Contents (Elt F)),
    binary main_v36 main_v40 main_v41 (addf : (⟨S6000x512, .f32⟩ : BufTy).Contents (Elt F) → (⟨S6000x512, .f32⟩ : BufTy).Contents (Elt F) → (⟨S6000x512, .f32⟩ : BufTy).Contents (Elt F)),
    TRef.nullary main_call2.cst (constant S_ .f32 0x00000000#32),
    TRef.unary main_call2.cst main_call2.v0 (broadcastInDim S6000x512 ![] bcast_S_S6000x512),
    TRef.binary (.of main_v41 : TRef sig ⟨S6000x512, .f32⟩) main_call2.v0 main_call2.v1 maximumf,
    unary main_arg6 main_v43 ((extractStridedSlice S1x512x512 ![0, 0, 0] · slices_S2x512x512_S1x512x512_0_0_0) : (⟨S2x512x512, .f32⟩ : BufTy).Contents (Elt F) → (⟨S1x512x512, .f32⟩ : BufTy).Contents (Elt F)),
    reshape main_v43 main_v44 rfl shapeCasts_S1x512x512_S512x512,
    binary main_v42 main_v44 main_v45 ((fun l r => Host.dotGeneral dot_S6000x512_S512x512_S6000x512_1_0_0_1_n_n none l r) : (⟨S6000x512, .f32⟩ : BufTy).Contents (Elt F) → (⟨S512x512, .f32⟩ : BufTy).Contents (Elt F) → (⟨S6000x512, .f32⟩ : BufTy).Contents (Elt F)),
    unary main_arg7 main_v46 ((extractStridedSlice S1x512 ![0, 0] · slices_S2x512_S1x512_0_0) : (⟨S2x512, .f32⟩ : BufTy).Contents (Elt F) → (⟨S1x512, .f32⟩ : BufTy).Contents (Elt F)),
    reshape main_v46 main_v47 rfl shapeCasts_S1x512_S512,
    unary main_v47 main_v48 (broadcastInDim S1x512 ![1] bcast_S512_S1x512_1 : (⟨S512, .f32⟩ : BufTy).Contents (Elt F) → (⟨S1x512, .f32⟩ : BufTy).Contents (Elt F)),
    unary main_v48 main_v49 (broadcastInDim S6000x512 ![0, 1] bcast_S1x512_S6000x512_0_1 : (⟨S1x512, .f32⟩ : BufTy).Contents (Elt F) → (⟨S6000x512, .f32⟩ : BufTy).Contents (Elt F)),
    binary main_v45 main_v49 main_v50 (addf : (⟨S6000x512, .f32⟩ : BufTy).Contents (Elt F) → (⟨S6000x512, .f32⟩ : BufTy).Contents (Elt F) → (⟨S6000x512, .f32⟩ : BufTy).Contents (Elt F)) ]

/-- The operations of @main's second window (statements 61 … 88): the first layer's leaky rectifier and
    residual sum, the second layer, and the three row blocks of the result. -/
abbrev opsB : List (HloOp τ sig (Elt F)) :=
  [ nullary main_cst_7 (constant S_ .f32 0x3C23D70A#32),
    TRef.nullary main_call3.cst (constant S_ .f32 0x00000000#32),
    TRef.unary main_call3.cst main_call3.v0 (broadcastInDim S6000x512 ![] bcast_S_S6000x512),
    TRef.binary (.of main_v50 : TRef sig ⟨S6000x512, .f32⟩) main_call3.v0 main_call3.v1 (cmpf .oge),
    TRef.unary (.of main_cst_7 : TRef sig ⟨S_, .f32⟩) main_call3.v2 id,
    TRef.unary main_call3.v2 main_call3.v3 (broadcastInDim S6000x512 ![] bcast_S_S6000x512),
    TRef.binary main_call3.v3 (.of main_v50 : TRef sig ⟨S6000x512, .f32⟩) main_call3.v4 mulf,
    TRef.ternary main_call3.v1 (.of main_v50 : TRef sig ⟨S6000x512, .f32⟩) main_call3.v4 main_call3.call0.v0 select,
    binary main_v0 main_v51 main_v52 (addf : (⟨S6000x512, .f32⟩ : BufTy).Contents (Elt F) → (⟨S6000x512, .f32⟩ : BufTy).Contents (Elt F) → (⟨S6000x512, .f32⟩ : BufTy).Contents (Elt F)),
    binary main_v32 main_v42 main_v53 ((fun l r => Host.dotGeneral dot_S6000x6000_S6000x512_S6000x512_1_0_0_1_n_n none l r) : (⟨S6000x6000, .f32⟩ : BufTy).Contents (Elt F) → (⟨S6000x512, .f32⟩ : BufTy).Contents (Elt F) → (⟨S6000x512, .f32⟩ : BufTy).Contents (Elt F)),
    unary main_arg4 main_v54 ((extractStridedSlice S1x512x512 ![1, 0, 0] · slices_S2x512x512_S1x512x512_1_0_0) : (⟨S2x512x512, .f32⟩ : BufTy).Contents (Elt F) → (⟨S1x512x512, .f32⟩ : BufTy).Contents (Elt F)),
    reshape main_v54 main_v55 rfl shapeCasts_S1x512x512_S512x512,
    binary main_v53 main_v55 main_v56 ((fun l r => Host.dotGeneral dot_S6000x512_S512x512_S6000x512_1_0_0_1_n_n none l r) : (⟨S6000x512, .f32⟩ : BufTy).Contents (Elt F) → (⟨S512x512, .f32⟩ : BufTy).Contents (Elt F) → (⟨S6000x512, .f32⟩ : BufTy).Contents (Elt F)),
    unary main_arg5 main_v57 ((extractStridedSlice S1x512 ![1, 0] · slices_S2x512_S1x512_1_0) : (⟨S2x512, .f32⟩ : BufTy).Contents (Elt F) → (⟨S1x512, .f32⟩ : BufTy).Contents (Elt F)),
    reshape main_v57 main_v58 rfl shapeCasts_S1x512_S512,
    unary main_v58 main_v59 (broadcastInDim S1x512 ![1] bcast_S512_S1x512_1 : (⟨S512, .f32⟩ : BufTy).Contents (Elt F) → (⟨S1x512, .f32⟩ : BufTy).Contents (Elt F)),
    unary main_v59 main_v60 (broadcastInDim S6000x512 ![0, 1] bcast_S1x512_S6000x512_0_1 : (⟨S1x512, .f32⟩ : BufTy).Contents (Elt F) → (⟨S6000x512, .f32⟩ : BufTy).Contents (Elt F)),
    binary main_v56 main_v60 main_v61 (addf : (⟨S6000x512, .f32⟩ : BufTy).Contents (Elt F) → (⟨S6000x512, .f32⟩ : BufTy).Contents (Elt F) → (⟨S6000x512, .f32⟩ : BufTy).Contents (Elt F)),
    TRef.nullary main_call4.cst (constant S_ .f32 0x00000000#32),
    TRef.unary main_call4.cst main_call4.v0 (broadcastInDim S6000x512 ![] bcast_S_S6000x512),
    TRef.binary (.of main_v61 : TRef sig ⟨S6000x512, .f32⟩) main_call4.v0 main_call4.v1 maximumf,
    unary main_arg6 main_v63 ((extractStridedSlice S1x512x512 ![1, 0, 0] · slices_S2x512x512_S1x512x512_1_0_0) : (⟨S2x512x512, .f32⟩ : BufTy).Contents (Elt F) → (⟨S1x512x512, .f32⟩ : BufTy).Contents (Elt F)),
    reshape main_v63 main_v64 rfl shapeCasts_S1x512x512_S512x512,
    binary main_v62 main_v64 main_v65 ((fun l r => Host.dotGeneral dot_S6000x512_S512x512_S6000x512_1_0_0_1_n_n none l r) : (⟨S6000x512, .f32⟩ : BufTy).Contents (Elt F) → (⟨S512x512, .f32⟩ : BufTy).Contents (Elt F) → (⟨S6000x512, .f32⟩ : BufTy).Contents (Elt F)),
    unary main_arg7 main_v66 ((extractStridedSlice S1x512 ![1, 0] · slices_S2x512_S1x512_1_0) : (⟨S2x512, .f32⟩ : BufTy).Contents (Elt F) → (⟨S1x512, .f32⟩ : BufTy).Contents (Elt F)),
    reshape main_v66 main_v67 rfl shapeCasts_S1x512_S512,
    unary main_v67 main_v68 (broadcastInDim S1x512 ![1] bcast_S512_S1x512_1 : (⟨S512, .f32⟩ : BufTy).Contents (Elt F) → (⟨S1x512, .f32⟩ : BufTy).Contents (Elt F)),
    unary main_v68 main_v69 (broadcastInDim S6000x512 ![0, 1] bcast_S1x512_S6000x512_0_1 : (⟨S1x512, .f32⟩ : BufTy).Contents (Elt F) → (⟨S6000x512, .f32⟩ : BufTy).Contents (Elt F)),
    binary main_v65 main_v69 main_v70 (addf : (⟨S6000x512, .f32⟩ : BufTy).Contents (Elt F) → (⟨S6000x512, .f32⟩ : BufTy).Contents (Elt F) → (⟨S6000x512, .f32⟩ : BufTy).Contents (Elt F)),
    nullary main_cst_8 (constant S_ .f32 0x3C23D70A#32),
    TRef.nullary main_call5.cst (constant S_ .f32 0x00000000#32),
    TRef.unary main_call5.cst main_call5.v0 (broadcastInDim S6000x512 ![] bcast_S_S6000x512),
    TRef.binary (.of main_v70 : TRef sig ⟨S6000x512, .f32⟩) main_call5.v0 main_call5.v1 (cmpf .oge),
    TRef.unary (.of main_cst_8 : TRef sig ⟨S_, .f32⟩) main_call5.v2 id,
    TRef.unary main_call5.v2 main_call5.v3 (broadcastInDim S6000x512 ![] bcast_S_S6000x512),
    TRef.binary main_call5.v3 (.of main_v70 : TRef sig ⟨S6000x512, .f32⟩) main_call5.v4 mulf,
    TRef.ternary main_call5.v1 (.of main_v70 : TRef sig ⟨S6000x512, .f32⟩) main_call5.v4 main_call5.call0.v0 select,
    binary main_v52 main_v71 main_v72 (addf : (⟨S6000x512, .f32⟩ : BufTy).Contents (Elt F) → (⟨S6000x512, .f32⟩ : BufTy).Contents (Elt F) → (⟨S6000x512, .f32⟩ : BufTy).Contents (Elt F)),
    unary main_v72 main_v73 ((extractStridedSlice S2000x512 ![0, 0] · slices_S6000x512_S2000x512_0_0) : (⟨S6000x512, .f32⟩ : BufTy).Contents (Elt F) → (⟨S2000x512, .f32⟩ : BufTy).Contents (Elt F)),
    unary main_v72 main_v74 ((extractStridedSlice S2000x512 ![2000, 0] · slices_S6000x512_S2000x512_2000_0) : (⟨S6000x512, .f32⟩ : BufTy).Contents (Elt F) → (⟨S2000x512, .f32⟩ : BufTy).Contents (Elt F)),
    unary main_v72 main_v75 ((extractStridedSlice S2000x512 ![4000, 0] · slices_S6000x512_S2000x512_4000_0) : (⟨S6000x512, .f32⟩ : BufTy).Contents (Elt F) → (⟨S2000x512, .f32⟩ : BufTy).Contents (Elt F)) ]

/-- @main's 107 operations, in program order. -/
abbrev ops : List (HloOp τ sig (Elt F)) :=
  [ nary ![main_arg0, main_arg1, main_arg2] main_v0 (fun u => concatenate S6000x512 0 [⟨S2000x512, u 0⟩, ⟨S2000x512, u 1⟩, ⟨S2000x512, u 2⟩] concatenates_S2000x512_S2000x512_S2000x512_S6000x512_d0),
    unary main_arg3 main_v1 ((extractStridedSlice S400000 ![0] · slices_S500000_S400000_0) : (⟨S500000, .f32⟩ : BufTy).Contents (Elt F) → (⟨S400000, .f32⟩ : BufTy).Contents (Elt F)),
    nullary main_cst (constant S_ .f32 0x00000000#32),
    unary main_cst main_v2 (broadcastInDim S6000x6000 ![] bcast_S_S6000x6000 : (⟨S_, .f32⟩ : BufTy).Contents (Elt F) → (⟨S6000x6000, .f32⟩ : BufTy).Contents (Elt F)),
    unary main_arg8 main_v3 ((extractStridedSlice S1x400000 ![0, 0] · slices_S2x400000_S1x400000_0_0) : (⟨S2x400000, .i32⟩ : BufTy).Contents (Elt F) → (⟨S1x400000, .i32⟩ : BufTy).Contents (Elt F)),
    reshape main_v3 main_v4 rfl shapeCasts_S1x400000_S400000,
    unary main_arg8 main_v5 ((extractStridedSlice S1x400000 ![1, 0] · slices_S2x400000_S1x400000_1_0) : (⟨S2x400000, .i32⟩ : BufTy).Contents (Elt F) → (⟨S1x400000, .i32⟩ : BufTy).Contents (Elt F)),
    reshape main_v5 main_v6 rfl shapeCasts_S1x400000_S400000,
    nullary main_c (constantI S_ 32 0#32),
    unary main_c main_v7 (broadcastInDim S400000 ![] bcast_S_S400000 : (⟨S_, .i32⟩ : BufTy).Contents (Elt F) → (⟨S400000, .i32⟩ : BufTy).Contents (Elt F)),
    binary main_v4 main_v7 main_v8 (cmpi .slt : (⟨S400000, .i32⟩ : BufTy).Contents (Elt F) → (⟨S400000, .i32⟩ : BufTy).Contents (Elt F) → (⟨S400000, .i1⟩ : BufTy).Contents (Elt F)),
    nullary main_c_0 (constantI S_ 32 6000#32),
    unary main_c_0 main_v9 (broadcastInDim S400000 ![] bcast_S_S400000 : (⟨S_, .i32⟩ : BufTy).Contents (Elt F) → (⟨S400000, .i32⟩ : BufTy).Contents (Elt F)),
    binary main_v4 main_v9 main_v10 (addi : (⟨S400000, .i32⟩ : BufTy).Contents (Elt F) → (⟨S400000, .i32⟩ : BufTy).Contents (Elt F) → (⟨S400000, .i32⟩ : BufTy).Contents (Elt F)),
    ternary main_v8 main_v10 main_v4 main_v11 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    nullary main_c_1 (constantI S_ 32 0#32),
    unary main_c_1 main_v12 (broadcastInDim S400000 ![] bcast_S_S400000 : (⟨S_, .i32⟩ : BufTy).Contents (Elt F) → (⟨S400000, .i32⟩ : BufTy).Contents (Elt F)),
    binary main_v6 main_v12 main_v13 (cmpi .slt : (⟨S400000, .i32⟩ : BufTy).Contents (Elt F) → (⟨S400000, .i32⟩ : BufTy).Contents (Elt F) → (⟨S400000, .i1⟩ : BufTy).Contents (Elt F)),
    nullary main_c_2 (constantI S_ 32 6000#32),
    unary main_c_2 main_v14 (broadcastInDim S400000 ![] bcast_S_S400000 : (⟨S_, .i32⟩ : BufTy).Contents (Elt F) → (⟨S400000, .i32⟩ : BufTy).Contents (Elt F)),
    binary main_v6 main_v14 main_v15 (addi : (⟨S400000, .i32⟩ : BufTy).Contents (Elt F) → (⟨S400000, .i32⟩ : BufTy).Contents (Elt F) → (⟨S400000, .i32⟩ : BufTy).Contents (Elt F)),
    ternary main_v13 main_v15 main_v6 main_v16 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v11 main_v17 (broadcastInDim S400000x1 ![0] bcast_S400000_S400000x1_0 : (⟨S400000, .i32⟩ : BufTy).Contents (Elt F) → (⟨S400000x1, .i32⟩ : BufTy).Contents (Elt F)),
    unary main_v16 main_v18 (broadcastInDim S400000x1 ![0] bcast_S400000_S400000x1_0 : (⟨S400000, .i32⟩ : BufTy).Contents (Elt F) → (⟨S400000x1, .i32⟩ : BufTy).Contents (Elt F)),
    binary main_v17 main_v18 main_v19 ((fun a b => concatenate S400000x2 1 [⟨S400000x1, a⟩, ⟨S400000x1, b⟩] concatenates_S400000x1_S400000x1_S400000x2_d1) : (⟨S400000x1, .i32⟩ : BufTy).Contents (Elt F) → (⟨S400000x1, .i32⟩ : BufTy).Contents (Elt F) → (⟨S400000x2, .i32⟩ : BufTy).Contents (Elt F)),
    ternary main_v2 main_v19 main_v1 main_v20 ((fun x i u => Host.scatterAdd scatter_S6000x6000_S400000x2_S400000_n_01_01_1 x i u) : (⟨S6000x6000, .f32⟩ : BufTy).Contents (Elt F) → (⟨S400000x2, .i32⟩ : BufTy).Contents (Elt F) → (⟨S400000, .f32⟩ : BufTy).Contents (Elt F) → (⟨S6000x6000, .f32⟩ : BufTy).Contents (Elt F)),
    nullary main_cst_3 (constant S_ .f32 0x00000000#32),
    binary main_v20 main_cst_3 main_v21 ((fun x v => Host.reduceAdd x v reducesTo_S6000x6000_S6000_d1 h_S_) : (⟨S6000x6000, .f32⟩ : BufTy).Contents (Elt F) → (⟨S_, .f32⟩ : BufTy).Contents (Elt F) → (⟨S6000, .f32⟩ : BufTy).Contents (Elt F)),
    nullary main_cst_4 (constant S_ .f32 0x00000000#32),
    unary main_cst_4 main_v22 (broadcastInDim S6000 ![] bcast_S_S6000 : (⟨S_, .f32⟩ : BufTy).Contents (Elt F) → (⟨S6000, .f32⟩ : BufTy).Contents (Elt F)),
    binary main_v21 main_v22 main_v23 (cmpf .ogt : (⟨S6000, .f32⟩ : BufTy).Contents (Elt F) → (⟨S6000, .f32⟩ : BufTy).Contents (Elt F) → (⟨S6000, .i1⟩ : BufTy).Contents (Elt F)),
    nullary main_cst_5 (constant S_ .f32 0x3F800000#32),
    TRef.unary (.of main_cst_5 : TRef sig ⟨S_, .f32⟩) main_call0.v0 id,
    TRef.unary main_call0.v0 main_call0.v1 (broadcastInDim S6000 ![] bcast_S_S6000),
    TRef.ternary (.of main_v23 : TRef sig ⟨S6000, .i1⟩) (.of main_v21 : TRef sig ⟨S6000, .f32⟩) main_call0.v1 main_call0.v2 select,
    unary main_v24 main_v25 (Host.rsqrt : (⟨S6000, .f32⟩ : BufTy).Contents (Elt F) → (⟨S6000, .f32⟩ : BufTy).Contents (Elt F)),
    nullary main_cst_6 (constant S_ .f32 0x00000000#32),
    TRef.unary (.of main_cst_6 : TRef sig ⟨S_, .f32⟩) main_call1.v0 id,
    TRef.unary main_call1.v0 main_call1.v1 (broadcastInDim S6000 ![] bcast_S_S6000),
    TRef.ternary (.of main_v23 : TRef sig ⟨S6000, .i1⟩) (.of main_v25 : TRef sig ⟨S6000, .f32⟩) main_call1.v1 main_call1.v2 select,
    unary main_v26 main_v27 (broadcastInDim S6000x1 ![0] bcast_S6000_S6000x1_0 : (⟨S6000, .f32⟩ : BufTy).Contents (Elt F) → (⟨S6000x1, .f32⟩ : BufTy).Contents (Elt F)),
    unary main_v27 main_v28 (broadcastInDim S6000x6000 ![0, 1] bcast_S6000x1_S6000x6000_0_1 : (⟨S6000x1, .f32⟩ : BufTy).Contents (Elt F) → (⟨S6000x6000, .f32⟩ : BufTy).Contents (Elt F)),
    binary main_v28 main_v20 main_v29 (mulf : (⟨S6000x6000, .f32⟩ : BufTy).Contents (Elt F) → (⟨S6000x6000, .f32⟩ : BufTy).Contents (Elt F) → (⟨S6000x6000, .f32⟩ : BufTy).Contents (Elt F)),
    unary main_v26 main_v30 (broadcastInDim S1x6000 ![1] bcast_S6000_S1x6000_1 : (⟨S6000, .f32⟩ : BufTy).Contents (Elt F) → (⟨S1x6000, .f32⟩ : BufTy).Contents (Elt F)),
    unary main_v30 main_v31 (broadcastInDim S6000x6000 ![0, 1] bcast_S1x6000_S6000x6000_0_1 : (⟨S1x6000, .f32⟩ : BufTy).Contents (Elt F) → (⟨S6000x6000, .f32⟩ : BufTy).Contents (Elt F)),
    binary main_v29 main_v31 main_v32 (mulf : (⟨S6000x6000, .f32⟩ : BufTy).Contents (Elt F) → (⟨S6000x6000, .f32⟩ : BufTy).Contents (Elt F) → (⟨S6000x6000, .f32⟩ : BufTy).Contents (Elt F)),
    binary main_v32 main_v0 main_v33 ((fun l r => Host.dotGeneral dot_S6000x6000_S6000x512_S6000x512_1_0_0_1_n_n none l r) : (⟨S6000x6000, .f32⟩ : BufTy).Contents (Elt F) → (⟨S6000x512, .f32⟩ : BufTy).Contents (Elt F) → (⟨S6000x512, .f32⟩ : BufTy).Contents (Elt F)),
    unary main_arg4 main_v34 ((extractStridedSlice S1x512x512 ![0, 0, 0] · slices_S2x512x512_S1x512x512_0_0_0) : (⟨S2x512x512, .f32⟩ : BufTy).Contents (Elt F) → (⟨S1x512x512, .f32⟩ : BufTy).Contents (Elt F)),
    reshape main_v34 main_v35 rfl shapeCasts_S1x512x512_S512x512,
    binary main_v33 main_v35 main_v36 ((fun l r => Host.dotGeneral dot_S6000x512_S512x512_S6000x512_1_0_0_1_n_n none l r) : (⟨S6000x512, .f32⟩ : BufTy).Contents (Elt F) → (⟨S512x512, .f32⟩ : BufTy).Contents (Elt F) → (⟨S6000x512, .f32⟩ : BufTy).Contents (Elt F)),
    unary main_arg5 main_v37 ((extractStridedSlice S1x512 ![0, 0] · slices_S2x512_S1x512_0_0) : (⟨S2x512, .f32⟩ : BufTy).Contents (Elt F) → (⟨S1x512, .f32⟩ : BufTy).Contents (Elt F)),
    reshape main_v37 main_v38 rfl shapeCasts_S1x512_S512,
    unary main_v38 main_v39 (broadcastInDim S1x512 ![1] bcast_S512_S1x512_1 : (⟨S512, .f32⟩ : BufTy).Contents (Elt F) → (⟨S1x512, .f32⟩ : BufTy).Contents (Elt F)),
    unary main_v39 main_v40 (broadcastInDim S6000x512 ![0, 1] bcast_S1x512_S6000x512_0_1 : (⟨S1x512, .f32⟩ : BufTy).Contents (Elt F) → (⟨S6000x512, .f32⟩ : BufTy).Contents (Elt F)),
    binary main_v36 main_v40 main_v41 (addf : (⟨S6000x512, .f32⟩ : BufTy).Contents (Elt F) → (⟨S6000x512, .f32⟩ : BufTy).Contents (Elt F) → (⟨S6000x512, .f32⟩ : BufTy).Contents (Elt F)),
    TRef.nullary main_call2.cst (constant S_ .f32 0x00000000#32),
    TRef.unary main_call2.cst main_call2.v0 (broadcastInDim S6000x512 ![] bcast_S_S6000x512),
    TRef.binary (.of main_v41 : TRef sig ⟨S6000x512, .f32⟩) main_call2.v0 main_call2.v1 maximumf,
    unary main_arg6 main_v43 ((extractStridedSlice S1x512x512 ![0, 0, 0] · slices_S2x512x512_S1x512x512_0_0_0) : (⟨S2x512x512, .f32⟩ : BufTy).Contents (Elt F) → (⟨S1x512x512, .f32⟩ : BufTy).Contents (Elt F)),
    reshape main_v43 main_v44 rfl shapeCasts_S1x512x512_S512x512,
    binary main_v42 main_v44 main_v45 ((fun l r => Host.dotGeneral dot_S6000x512_S512x512_S6000x512_1_0_0_1_n_n none l r) : (⟨S6000x512, .f32⟩ : BufTy).Contents (Elt F) → (⟨S512x512, .f32⟩ : BufTy).Contents (Elt F) → (⟨S6000x512, .f32⟩ : BufTy).Contents (Elt F)),
    unary main_arg7 main_v46 ((extractStridedSlice S1x512 ![0, 0] · slices_S2x512_S1x512_0_0) : (⟨S2x512, .f32⟩ : BufTy).Contents (Elt F) → (⟨S1x512, .f32⟩ : BufTy).Contents (Elt F)),
    reshape main_v46 main_v47 rfl shapeCasts_S1x512_S512,
    unary main_v47 main_v48 (broadcastInDim S1x512 ![1] bcast_S512_S1x512_1 : (⟨S512, .f32⟩ : BufTy).Contents (Elt F) → (⟨S1x512, .f32⟩ : BufTy).Contents (Elt F)),
    unary main_v48 main_v49 (broadcastInDim S6000x512 ![0, 1] bcast_S1x512_S6000x512_0_1 : (⟨S1x512, .f32⟩ : BufTy).Contents (Elt F) → (⟨S6000x512, .f32⟩ : BufTy).Contents (Elt F)),
    binary main_v45 main_v49 main_v50 (addf : (⟨S6000x512, .f32⟩ : BufTy).Contents (Elt F) → (⟨S6000x512, .f32⟩ : BufTy).Contents (Elt F) → (⟨S6000x512, .f32⟩ : BufTy).Contents (Elt F)),
    nullary main_cst_7 (constant S_ .f32 0x3C23D70A#32),
    TRef.nullary main_call3.cst (constant S_ .f32 0x00000000#32),
    TRef.unary main_call3.cst main_call3.v0 (broadcastInDim S6000x512 ![] bcast_S_S6000x512),
    TRef.binary (.of main_v50 : TRef sig ⟨S6000x512, .f32⟩) main_call3.v0 main_call3.v1 (cmpf .oge),
    TRef.unary (.of main_cst_7 : TRef sig ⟨S_, .f32⟩) main_call3.v2 id,
    TRef.unary main_call3.v2 main_call3.v3 (broadcastInDim S6000x512 ![] bcast_S_S6000x512),
    TRef.binary main_call3.v3 (.of main_v50 : TRef sig ⟨S6000x512, .f32⟩) main_call3.v4 mulf,
    TRef.ternary main_call3.v1 (.of main_v50 : TRef sig ⟨S6000x512, .f32⟩) main_call3.v4 main_call3.call0.v0 select,
    binary main_v0 main_v51 main_v52 (addf : (⟨S6000x512, .f32⟩ : BufTy).Contents (Elt F) → (⟨S6000x512, .f32⟩ : BufTy).Contents (Elt F) → (⟨S6000x512, .f32⟩ : BufTy).Contents (Elt F)),
    binary main_v32 main_v42 main_v53 ((fun l r => Host.dotGeneral dot_S6000x6000_S6000x512_S6000x512_1_0_0_1_n_n none l r) : (⟨S6000x6000, .f32⟩ : BufTy).Contents (Elt F) → (⟨S6000x512, .f32⟩ : BufTy).Contents (Elt F) → (⟨S6000x512, .f32⟩ : BufTy).Contents (Elt F)),
    unary main_arg4 main_v54 ((extractStridedSlice S1x512x512 ![1, 0, 0] · slices_S2x512x512_S1x512x512_1_0_0) : (⟨S2x512x512, .f32⟩ : BufTy).Contents (Elt F) → (⟨S1x512x512, .f32⟩ : BufTy).Contents (Elt F)),
    reshape main_v54 main_v55 rfl shapeCasts_S1x512x512_S512x512,
    binary main_v53 main_v55 main_v56 ((fun l r => Host.dotGeneral dot_S6000x512_S512x512_S6000x512_1_0_0_1_n_n none l r) : (⟨S6000x512, .f32⟩ : BufTy).Contents (Elt F) → (⟨S512x512, .f32⟩ : BufTy).Contents (Elt F) → (⟨S6000x512, .f32⟩ : BufTy).Contents (Elt F)),
    unary main_arg5 main_v57 ((extractStridedSlice S1x512 ![1, 0] · slices_S2x512_S1x512_1_0) : (⟨S2x512, .f32⟩ : BufTy).Contents (Elt F) → (⟨S1x512, .f32⟩ : BufTy).Contents (Elt F)),
    reshape main_v57 main_v58 rfl shapeCasts_S1x512_S512,
    unary main_v58 main_v59 (broadcastInDim S1x512 ![1] bcast_S512_S1x512_1 : (⟨S512, .f32⟩ : BufTy).Contents (Elt F) → (⟨S1x512, .f32⟩ : BufTy).Contents (Elt F)),
    unary main_v59 main_v60 (broadcastInDim S6000x512 ![0, 1] bcast_S1x512_S6000x512_0_1 : (⟨S1x512, .f32⟩ : BufTy).Contents (Elt F) → (⟨S6000x512, .f32⟩ : BufTy).Contents (Elt F)),
    binary main_v56 main_v60 main_v61 (addf : (⟨S6000x512, .f32⟩ : BufTy).Contents (Elt F) → (⟨S6000x512, .f32⟩ : BufTy).Contents (Elt F) → (⟨S6000x512, .f32⟩ : BufTy).Contents (Elt F)),
    TRef.nullary main_call4.cst (constant S_ .f32 0x00000000#32),
    TRef.unary main_call4.cst main_call4.v0 (broadcastInDim S6000x512 ![] bcast_S_S6000x512),
    TRef.binary (.of main_v61 : TRef sig ⟨S6000x512, .f32⟩) main_call4.v0 main_call4.v1 maximumf,
    unary main_arg6 main_v63 ((extractStridedSlice S1x512x512 ![1, 0, 0] · slices_S2x512x512_S1x512x512_1_0_0) : (⟨S2x512x512, .f32⟩ : BufTy).Contents (Elt F) → (⟨S1x512x512, .f32⟩ : BufTy).Contents (Elt F)),
    reshape main_v63 main_v64 rfl shapeCasts_S1x512x512_S512x512,
    binary main_v62 main_v64 main_v65 ((fun l r => Host.dotGeneral dot_S6000x512_S512x512_S6000x512_1_0_0_1_n_n none l r) : (⟨S6000x512, .f32⟩ : BufTy).Contents (Elt F) → (⟨S512x512, .f32⟩ : BufTy).Contents (Elt F) → (⟨S6000x512, .f32⟩ : BufTy).Contents (Elt F)),
    unary main_arg7 main_v66 ((extractStridedSlice S1x512 ![1, 0] · slices_S2x512_S1x512_1_0) : (⟨S2x512, .f32⟩ : BufTy).Contents (Elt F) → (⟨S1x512, .f32⟩ : BufTy).Contents (Elt F)),
    reshape main_v66 main_v67 rfl shapeCasts_S1x512_S512,
    unary main_v67 main_v68 (broadcastInDim S1x512 ![1] bcast_S512_S1x512_1 : (⟨S512, .f32⟩ : BufTy).Contents (Elt F) → (⟨S1x512, .f32⟩ : BufTy).Contents (Elt F)),
    unary main_v68 main_v69 (broadcastInDim S6000x512 ![0, 1] bcast_S1x512_S6000x512_0_1 : (⟨S1x512, .f32⟩ : BufTy).Contents (Elt F) → (⟨S6000x512, .f32⟩ : BufTy).Contents (Elt F)),
    binary main_v65 main_v69 main_v70 (addf : (⟨S6000x512, .f32⟩ : BufTy).Contents (Elt F) → (⟨S6000x512, .f32⟩ : BufTy).Contents (Elt F) → (⟨S6000x512, .f32⟩ : BufTy).Contents (Elt F)),
    nullary main_cst_8 (constant S_ .f32 0x3C23D70A#32),
    TRef.nullary main_call5.cst (constant S_ .f32 0x00000000#32),
    TRef.unary main_call5.cst main_call5.v0 (broadcastInDim S6000x512 ![] bcast_S_S6000x512),
    TRef.binary (.of main_v70 : TRef sig ⟨S6000x512, .f32⟩) main_call5.v0 main_call5.v1 (cmpf .oge),
    TRef.unary (.of main_cst_8 : TRef sig ⟨S_, .f32⟩) main_call5.v2 id,
    TRef.unary main_call5.v2 main_call5.v3 (broadcastInDim S6000x512 ![] bcast_S_S6000x512),
    TRef.binary main_call5.v3 (.of main_v70 : TRef sig ⟨S6000x512, .f32⟩) main_call5.v4 mulf,
    TRef.ternary main_call5.v1 (.of main_v70 : TRef sig ⟨S6000x512, .f32⟩) main_call5.v4 main_call5.call0.v0 select,
    binary main_v52 main_v71 main_v72 (addf : (⟨S6000x512, .f32⟩ : BufTy).Contents (Elt F) → (⟨S6000x512, .f32⟩ : BufTy).Contents (Elt F) → (⟨S6000x512, .f32⟩ : BufTy).Contents (Elt F)),
    unary main_v72 main_v73 ((extractStridedSlice S2000x512 ![0, 0] · slices_S6000x512_S2000x512_0_0) : (⟨S6000x512, .f32⟩ : BufTy).Contents (Elt F) → (⟨S2000x512, .f32⟩ : BufTy).Contents (Elt F)),
    unary main_v72 main_v74 ((extractStridedSlice S2000x512 ![2000, 0] · slices_S6000x512_S2000x512_2000_0) : (⟨S6000x512, .f32⟩ : BufTy).Contents (Elt F) → (⟨S2000x512, .f32⟩ : BufTy).Contents (Elt F)),
    unary main_v72 main_v75 ((extractStridedSlice S2000x512 ![4000, 0] · slices_S6000x512_S2000x512_4000_0) : (⟨S6000x512, .f32⟩ : BufTy).Contents (Elt F) → (⟨S2000x512, .f32⟩ : BufTy).Contents (Elt F)) ]

/-- Every operation touches TensorCore references only. -/
theorem ops_sub : (ops : List (HloOp τ sig (Elt F))).Forall fun op => op.bufs ⊆ tcRefs τ sig :=
  ⟨nary_bufs_sub ..,
    unary_bufs_sub ..,
    nullary_bufs_sub ..,
    unary_bufs_sub ..,
    unary_bufs_sub ..,
    reshape_bufs_sub ..,
    unary_bufs_sub ..,
    reshape_bufs_sub ..,
    nullary_bufs_sub ..,
    unary_bufs_sub ..,
    binary_bufs_sub ..,
    nullary_bufs_sub ..,
    unary_bufs_sub ..,
    binary_bufs_sub ..,
    ternary_bufs_sub ..,
    nullary_bufs_sub ..,
    unary_bufs_sub ..,
    binary_bufs_sub ..,
    nullary_bufs_sub ..,
    unary_bufs_sub ..,
    binary_bufs_sub ..,
    ternary_bufs_sub ..,
    unary_bufs_sub ..,
    unary_bufs_sub ..,
    binary_bufs_sub ..,
    ternary_bufs_sub ..,
    nullary_bufs_sub ..,
    binary_bufs_sub ..,
    nullary_bufs_sub ..,
    unary_bufs_sub ..,
    binary_bufs_sub ..,
    nullary_bufs_sub ..,
    unary_bufs_sub ..,
    unary_bufs_sub ..,
    ternary_bufs_sub ..,
    unary_bufs_sub ..,
    nullary_bufs_sub ..,
    unary_bufs_sub ..,
    unary_bufs_sub ..,
    ternary_bufs_sub ..,
    unary_bufs_sub ..,
    unary_bufs_sub ..,
    binary_bufs_sub ..,
    unary_bufs_sub ..,
    unary_bufs_sub ..,
    binary_bufs_sub ..,
    binary_bufs_sub ..,
    unary_bufs_sub ..,
    reshape_bufs_sub ..,
    binary_bufs_sub ..,
    unary_bufs_sub ..,
    reshape_bufs_sub ..,
    unary_bufs_sub ..,
    unary_bufs_sub ..,
    binary_bufs_sub ..,
    nullary_bufs_sub ..,
    unary_bufs_sub ..,
    binary_bufs_sub ..,
    unary_bufs_sub ..,
    reshape_bufs_sub ..,
    binary_bufs_sub ..,
    unary_bufs_sub ..,
    reshape_bufs_sub ..,
    unary_bufs_sub ..,
    unary_bufs_sub ..,
    binary_bufs_sub ..,
    nullary_bufs_sub ..,
    nullary_bufs_sub ..,
    unary_bufs_sub ..,
    binary_bufs_sub ..,
    unary_bufs_sub ..,
    unary_bufs_sub ..,
    binary_bufs_sub ..,
    ternary_bufs_sub ..,
    binary_bufs_sub ..,
    binary_bufs_sub ..,
    unary_bufs_sub ..,
    reshape_bufs_sub ..,
    binary_bufs_sub ..,
    unary_bufs_sub ..,
    reshape_bufs_sub ..,
    unary_bufs_sub ..,
    unary_bufs_sub ..,
    binary_bufs_sub ..,
    nullary_bufs_sub ..,
    unary_bufs_sub ..,
    binary_bufs_sub ..,
    unary_bufs_sub ..,
    reshape_bufs_sub ..,
    binary_bufs_sub ..,
    unary_bufs_sub ..,
    reshape_bufs_sub ..,
    unary_bufs_sub ..,
    unary_bufs_sub ..,
    binary_bufs_sub ..,
    nullary_bufs_sub ..,
    nullary_bufs_sub ..,
    unary_bufs_sub ..,
    binary_bufs_sub ..,
    unary_bufs_sub ..,
    unary_bufs_sub ..,
    binary_bufs_sub ..,
    ternary_bufs_sub ..,
    binary_bufs_sub ..,
    unary_bufs_sub ..,
    unary_bufs_sub ..,
    unary_bufs_sub ..⟩

end Cert.ReferenceIdeal.RefRun

end
-- ==== Proof.RefRun.lean ====
import proofs.«102648_j56324201120496_1_alg».proof.Proof.RefTables

/-! # The reference program's run

The reference's @main is the straight line of its host operations, each outlined function's operations standing
inline at its call site over that call's buffer record; so every weakly fair execution of it terminates with each
buffer at the operations' fold over the launch contents. -/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The whole line is the first window's operations followed by the second's. -/
theorem ops_split : (ops : List (HloOp τ sig (Elt F))) = opsA ++ opsB := rfl

set_option maxRecDepth 4096 in
set_option maxHeartbeats 4000000 in
/-- The first window is its straight line: the called functions unfolded, sequencing reassociated. -/
theorem part0_eq (c : Dev nD) : main_part0 (F := F) c = seq opsA := by
  simp only [main_part0, fn_where.body, fn_relu.body, seq, bind_assoc, pure_bind]
  rfl

set_option maxRecDepth 4096 in
set_option maxHeartbeats 4000000 in
/-- The second window likewise. -/
theorem part1_eq (c : Dev nD) : main_part1 (F := F) c = seq opsB := by
  simp only [main_part1, fn_leaky_relu.body, fn_where_0.body, fn_relu.body, seq, bind_assoc, pure_bind]

/-- @main is the straight line of its operations. -/
theorem main_eq (c : Dev nD) : main (F := F) c = seq ops := by
  rw [ops_split, seq_append, ← part0_eq c, ← part1_eq c]
  rfl

theorem scopedRefs_eq : (Finset.univ.filter fun b : Ref sig .tc => b.isScoped) = ∅ := by decide
theorem scopedSems_eq : (Finset.univ.filter fun sm : SemLoc sig => sm.isScoped .tc) = ∅ := by decide

/-- On every device, for any float values, from any memory with zero counters: every weakly fair execution
    of @main terminates, and every buffer ends at the operations' fold over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  StableHlo.run_seq scopedRefs_eq scopedSems_eq defs main (fun _ => ops) main_eq (fun _ => ops_sub) m ρ

end Cert.ReferenceIdeal.RefRun

end
-- ==== Proof.RefSSA.lean ====
import Idealize.ShloMosaic.Lib.StableHlo.Run

/-! # A straight line of host operations, one operation at a time

When every buffer of a line is written by exactly one of its operations, and an operation reads only buffers
written before it (or never written), the contents the line ends with satisfy each operation's own equation:
the buffer it writes holds its function of what the line ends with at its operands. This module proves that
for any line whose operations each write the reference beside them in a list. -/

noncomputable section

namespace Cert.ReferenceIdeal.RefRun

open Idealize.ShloMosaic Idealize.ShloMosaic.TcCoe Idealize.SL.Sem Idealize.ShloMosaic.StableHlo

section General

variable {τ : Topo} {sig : RefSig} {Val : EltTy → Type}

/-- Two lines one after the other fold as one. -/
theorem after_app : ∀ (l₁ l₂ : List (HloOp τ sig Val)) (V : Valuation τ sig Val), after (l₁ ++ l₂) V = after l₂ (after l₁ V)
  | [], _, _ => rfl
  | op :: l₁, l₂, V => by rw [List.cons_append, after_cons, after_cons, after_app l₁ l₂]

/-- Each operation of the line writes exactly the reference beside it. -/
def WritesAt (ops : List (HloOp τ sig Val)) (outs : List (Ref sig .tc)) : Prop :=
  List.Forall₂ (fun o y => o.writes = {Proc.devRef (τ := τ) .tc y}) ops outs

namespace WritesAt

variable {ops : List (HloOp τ sig Val)} {outs : List (Ref sig .tc)}

/-- A reference no operation writes keeps its contents through the line. -/
theorem keep (h : WritesAt ops outs) (V : Valuation τ sig Val) {r : Ref sig .tc} (hr : r ∉ outs) :
    after ops V (Proc.devRef .tc r) = V (Proc.devRef .tc r) := by
  induction h generalizing V with
  | nil => rfl
  | @cons o y os ys ho _ ih =>
    rw [after_cons, ih _ (fun hm => hr (List.mem_cons_of_mem _ hm)), HloOp.result_of_not_mem]
    rw [ho, Finset.mem_singleton]
    exact devRef_ne_of_ne (fun e => hr (e ▸ List.mem_cons_self))

/-- What the line ends with at a reference written by none of the operations from the `k`-th on is what its first
    `k` operations leave there. -/
theorem keep_from (h : WritesAt ops outs) (k : Nat) (V : Valuation τ sig Val) {r : Ref sig .tc} (hr : r ∉ outs.drop k) :
    after ops V (Proc.devRef .tc r) = after (ops.take k) V (Proc.devRef .tc r) := by
  have h' : WritesAt (ops.drop k) (outs.drop k) := List.forall₂_drop k h
  conv_lhs => rw [← List.take_append_drop k ops, after_app]
  exact h'.keep _ hr

/-- The first `k + 1` operations are the first `k`, then the `k`-th. -/
theorem take_succ {k : Nat} {op : HloOp τ sig Val} (hk : ops[k]? = some op) (V : Valuation τ sig Val) :
    after (ops.take (k + 1)) V = op.result (after (ops.take k) V) := by
  rw [List.take_succ, hk, after_app]
  rfl

theorem nullary_at (h : WritesAt ops outs) (k : Nat) {y : Ref sig .tc} {v : y.ty.Contents Val} {hy}
    (hk : ops[k]? = some (nullary y v hy)) (V : Valuation τ sig Val) (hy' : y ∉ outs.drop (k + 1)) :
    after ops V (Proc.devRef .tc y) = v := by
  rw [h.keep_from (k + 1) V hy', take_succ hk, nullary_result]

theorem unary_at (h : WritesAt ops outs) (k : Nat) {x y : Ref sig .tc} {f : x.ty.Contents Val → y.ty.Contents Val} {hx hy}
    (hk : ops[k]? = some (unary x y f hx hy)) (V : Valuation τ sig Val)
    (hy' : y ∉ outs.drop (k + 1)) (hx' : x ∉ outs.drop k) :
    after ops V (Proc.devRef .tc y) = f (after ops V (Proc.devRef .tc x)) := by
  rw [h.keep_from (k + 1) V hy', take_succ hk, unary_result]
  simp only [h.keep_from k V hx']

theorem binary_at (h : WritesAt ops outs) (k : Nat) {a b y : Ref sig .tc}
    {f : a.ty.Contents Val → b.ty.Contents Val → y.ty.Contents Val} {ha hb hy}
    (hk : ops[k]? = some (binary a b y f ha hb hy)) (V : Valuation τ sig Val)
    (hy' : y ∉ outs.drop (k + 1)) (ha' : a ∉ outs.drop k) (hb' : b ∉ outs.drop k) :
    after ops V (Proc.devRef .tc y) = f (after ops V (Proc.devRef .tc a)) (after ops V (Proc.devRef .tc b)) := by
  rw [h.keep_from (k + 1) V hy', take_succ hk, binary_result]
  simp only [h.keep_from k V ha', h.keep_from k V hb']

theorem ternary_at (h : WritesAt ops outs) (k : Nat) {c a b y : Ref sig .tc}
    {f : c.ty.Contents Val → a.ty.Contents Val → b.ty.Contents Val → y.ty.Contents Val} {hc ha hb hy}
    (hk : ops[k]? = some (ternary c a b y f hc ha hb hy)) (V : Valuation τ sig Val)
    (hy' : y ∉ outs.drop (k + 1)) (hc' : c ∉ outs.drop k) (ha' : a ∉ outs.drop k) (hb' : b ∉ outs.drop k) :
    after ops V (Proc.devRef .tc y)
      = f (after ops V (Proc.devRef .tc c)) (after ops V (Proc.devRef .tc a)) (after ops V (Proc.devRef .tc b)) := by
  rw [h.keep_from (k + 1) V hy', take_succ hk, ternary_result]
  simp only [h.keep_from k V hc', h.keep_from k V ha', h.keep_from k V hb']

theorem reshape_at (h : WritesAt ops outs) (k : Nat) {x y : Ref sig .tc} {he hn hx hy}
    (hk : ops[k]? = some (reshape (Val := Val) x y he hn hx hy)) (V : Valuation τ sig Val)
    (hy' : y ∉ outs.drop (k + 1)) (hx' : x ∉ outs.drop k) :
    after ops V (Proc.devRef .tc y) = fun i => he ▸ shapeCast y.ty.shape (after ops V (Proc.devRef .tc x)) hn i := by
  rw [h.keep_from (k + 1) V hy', take_succ hk, reshape_result]
  simp only [h.keep_from k V hx']

theorem nary_at (h : WritesAt ops outs) (k : Nat) {n : Nat} {xs : Fin n → Ref sig .tc} {y : Ref sig .tc}
    {f : ((j : Fin n) → (xs j).ty.Contents Val) → y.ty.Contents Val} {hxs hy}
    (hk : ops[k]? = some (nary xs y f hxs hy)) (V : Valuation τ sig Val)
    (hy' : y ∉ outs.drop (k + 1)) (hx' : ∀ j, xs j ∉ outs.drop k) :
    after ops V (Proc.devRef .tc y) = f (fun j => after ops V (Proc.devRef .tc (xs j))) := by
  rw [h.keep_from (k + 1) V hy', take_succ hk, nary_result]
  simp only [fun j => h.keep_from k V (hx' j)]

end WritesAt

end General

end Cert.ReferenceIdeal.RefRun

end
-- ==== Proof.RefSSATables.lean ====
import proofs.«102648_j56324201120496_1_alg».proof.Proof.RefTables
import proofs.«102648_j56324201120496_1_alg».proof.Proof.RefSSA

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

-- an operation's place in the line is found by walking the list: the cost grows with the place
set_option maxHeartbeats 2000000

/-- The reference each operation of the line writes, in program order. -/
abbrev outs : List (Ref sig .tc) :=
  [main_v0, main_v1, main_cst, main_v2, main_v3, main_v4, main_v5, main_v6, main_c, main_v7, main_v8, main_c_0, main_v9, main_v10, main_v11, main_c_1, main_v12, main_v13, main_c_2, main_v14, main_v15, main_v16, main_v17, main_v18, main_v19, main_v20, main_cst_3, main_v21, main_cst_4, main_v22, main_v23, main_cst_5, main_call0_v0, main_call0_v1, main_v24, main_v25, main_cst_6, main_call1_v0, main_call1_v1, main_v26, main_v27, main_v28, main_v29, main_v30, main_v31, main_v32, main_v33, main_v34, main_v35, main_v36, main_v37, main_v38, main_v39, main_v40, main_v41, main_call2_cst, main_call2_v0, main_v42, main_v43, main_v44, main_v45, main_v46, main_v47, main_v48, main_v49, main_v50, main_cst_7, main_call3_cst, main_call3_v0, main_call3_v1, main_call3_v2, main_call3_v3, main_call3_v4, main_v51, main_v52, main_v53, main_v54, main_v55, main_v56, main_v57, main_v58, main_v59, main_v60, main_v61, main_call4_cst, main_call4_v0, main_v62, main_v63, main_v64, main_v65, main_v66, main_v67, main_v68, main_v69, main_v70, main_cst_8, main_call5_cst, main_call5_v0, main_call5_v1, main_call5_v2, main_call5_v3, main_call5_v4, main_v71, main_v72, main_v73, main_v74, main_v75]

set_option maxRecDepth 8192 in
/-- Each operation writes the reference beside it. -/
theorem ops_writes : WritesAt (ops : List (HloOp τ sig (Elt F))) outs :=
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <| List.Forall₂.nil

/-! ## The arguments are never written -/

theorem keep_main_arg0 (V : Valuation τ sig (Elt F)) :
    after ops V (Proc.devRef .tc main_arg0) = V (Proc.devRef .tc main_arg0) :=
  ops_writes.keep V (by decide)

theorem keep_main_arg1 (V : Valuation τ sig (Elt F)) :
    after ops V (Proc.devRef .tc main_arg1) = V (Proc.devRef .tc main_arg1) :=
  ops_writes.keep V (by decide)

theorem keep_main_arg2 (V : Valuation τ sig (Elt F)) :
    after ops V (Proc.devRef .tc main_arg2) = V (Proc.devRef .tc main_arg2) :=
  ops_writes.keep V (by decide)

theorem keep_main_arg3 (V : Valuation τ sig (Elt F)) :
    after ops V (Proc.devRef .tc main_arg3) = V (Proc.devRef .tc main_arg3) :=
  ops_writes.keep V (by decide)

theorem keep_main_arg4 (V : Valuation τ sig (Elt F)) :
    after ops V (Proc.devRef .tc main_arg4) = V (Proc.devRef .tc main_arg4) :=
  ops_writes.keep V (by decide)

theorem keep_main_arg5 (V : Valuation τ sig (Elt F)) :
    after ops V (Proc.devRef .tc main_arg5) = V (Proc.devRef .tc main_arg5) :=
  ops_writes.keep V (by decide)

theorem keep_main_arg6 (V : Valuation τ sig (Elt F)) :
    after ops V (Proc.devRef .tc main_arg6) = V (Proc.devRef .tc main_arg6) :=
  ops_writes.keep V (by decide)

theorem keep_main_arg7 (V : Valuation τ sig (Elt F)) :
    after ops V (Proc.devRef .tc main_arg7) = V (Proc.devRef .tc main_arg7) :=
  ops_writes.keep V (by decide)

theorem keep_main_arg8 (V : Valuation τ sig (Elt F)) :
    after ops V (Proc.devRef .tc main_arg8) = V (Proc.devRef .tc main_arg8) :=
  ops_writes.keep V (by decide)

/-! ## Each operation's equation over what the line ends with -/

theorem eq_main_v0 (V : Valuation τ sig (Elt F)) :
    after ops V (Proc.devRef .tc main_v0)
      = concatenate S6000x512 0 [⟨S2000x512, after ops V (Proc.devRef .tc main_arg0)⟩, ⟨S2000x512, after ops V (Proc.devRef .tc main_arg1)⟩, ⟨S2000x512, after ops V (Proc.devRef .tc main_arg2)⟩] concatenates_S2000x512_S2000x512_S2000x512_S6000x512_d0 :=
  ops_writes.nary_at 0 (xs := ![main_arg0, main_arg1, main_arg2]) (y := main_v0) (f := (fun u => concatenate S6000x512 0 [⟨S2000x512, u 0⟩, ⟨S2000x512, u 1⟩, ⟨S2000x512, u 2⟩] concatenates_S2000x512_S2000x512_S2000x512_S6000x512_d0)) rfl V (by decide) (by decide)

theorem eq_main_v1 (V : Valuation τ sig (Elt F)) :
    after ops V (Proc.devRef .tc main_v1)
      = extractStridedSlice S400000 ![0] (after ops V (Proc.devRef .tc main_arg3)) slices_S500000_S400000_0 :=
  ops_writes.unary_at 1 (x := main_arg3) (y := main_v1) (f := ((extractStridedSlice S400000 ![0] · slices_S500000_S400000_0) : (⟨S500000, .f32⟩ : BufTy).Contents (Elt F) → (⟨S400000, .f32⟩ : BufTy).Contents (Elt F))) rfl V (by decide) (by decide)

theorem eq_main_cst (V : Valuation τ sig (Elt F)) :
    after ops V (Proc.devRef .tc main_cst)
      = (constant S_ .f32 0x00000000#32) :=
  ops_writes.nullary_at 2 (y := main_cst) (v := (constant S_ .f32 0x00000000#32)) rfl V (by decide)

theorem eq_main_v2 (V : Valuation τ sig (Elt F)) :
    after ops V (Proc.devRef .tc main_v2)
      = broadcastInDim S6000x6000 ![] bcast_S_S6000x6000 (after ops V (Proc.devRef .tc main_cst)) :=
  ops_writes.unary_at 3 (x := main_cst) (y := main_v2) (f := (broadcastInDim S6000x6000 ![] bcast_S_S6000x6000 : (⟨S_, .f32⟩ : BufTy).Contents (Elt F) → (⟨S6000x6000, .f32⟩ : BufTy).Contents (Elt F))) rfl V (by decide) (by decide)

theorem eq_main_v3 (V : Valuation τ sig (Elt F)) :
    after ops V (Proc.devRef .tc main_v3)
      = extractStridedSlice S1x400000 ![0, 0] (after ops V (Proc.devRef .tc main_arg8)) slices_S2x400000_S1x400000_0_0 :=
  ops_writes.unary_at 4 (x := main_arg8) (y := main_v3) (f := ((extractStridedSlice S1x400000 ![0, 0] · slices_S2x400000_S1x400000_0_0) : (⟨S2x400000, .i32⟩ : BufTy).Contents (Elt F) → (⟨S1x400000, .i32⟩ : BufTy).Contents (Elt F))) rfl V (by decide) (by decide)

theorem eq_main_v4 (V : Valuation τ sig (Elt F)) :
    after ops V (Proc.devRef .tc main_v4)
      = shapeCast S400000 (after ops V (Proc.devRef .tc main_v3)) shapeCasts_S1x400000_S400000 :=
  ops_writes.reshape_at 5 (x := main_v3) (y := main_v4) rfl V (by decide) (by decide)

theorem eq_main_v5 (V : Valuation τ sig (Elt F)) :
    after ops V (Proc.devRef .tc main_v5)
      = extractStridedSlice S1x400000 ![1, 0] (after ops V (Proc.devRef .tc main_arg8)) slices_S2x400000_S1x400000_1_0 :=
  ops_writes.unary_at 6 (x := main_arg8) (y := main_v5) (f := ((extractStridedSlice S1x400000 ![1, 0] · slices_S2x400000_S1x400000_1_0) : (⟨S2x400000, .i32⟩ : BufTy).Contents (Elt F) → (⟨S1x400000, .i32⟩ : BufTy).Contents (Elt F))) rfl V (by decide) (by decide)

theorem eq_main_v6 (V : Valuation τ sig (Elt F)) :
    after ops V (Proc.devRef .tc main_v6)
      = shapeCast S400000 (after ops V (Proc.devRef .tc main_v5)) shapeCasts_S1x400000_S400000 :=
  ops_writes.reshape_at 7 (x := main_v5) (y := main_v6) rfl V (by decide) (by decide)

theorem eq_main_c (V : Valuation τ sig (Elt F)) :
    after ops V (Proc.devRef .tc main_c)
      = (constantI S_ 32 0#32) :=
  ops_writes.nullary_at 8 (y := main_c) (v := (constantI S_ 32 0#32)) rfl V (by decide)

theorem eq_main_v7 (V : Valuation τ sig (Elt F)) :
    after ops V (Proc.devRef .tc main_v7)
      = broadcastInDim S400000 ![] bcast_S_S400000 (after ops V (Proc.devRef .tc main_c)) :=
  ops_writes.unary_at 9 (x := main_c) (y := main_v7) (f := (broadcastInDim S400000 ![] bcast_S_S400000 : (⟨S_, .i32⟩ : BufTy).Contents (Elt F) → (⟨S400000, .i32⟩ : BufTy).Contents (Elt F))) rfl V (by decide) (by decide)

theorem eq_main_v8 (V : Valuation τ sig (Elt F)) :
    after ops V (Proc.devRef .tc main_v8)
      = cmpi .slt (after ops V (Proc.devRef .tc main_v4)) (after ops V (Proc.devRef .tc main_v7)) :=
  ops_writes.binary_at 10 (a := main_v4) (b := main_v7) (y := main_v8) (f := (cmpi .slt : (⟨S400000, .i32⟩ : BufTy).Contents (Elt F) → (⟨S400000, .i32⟩ : BufTy).Contents (Elt F) → (⟨S400000, .i1⟩ : BufTy).Contents (Elt F))) rfl V (by decide) (by decide) (by decide)

theorem eq_main_c_0 (V : Valuation τ sig (Elt F)) :
    after ops V (Proc.devRef .tc main_c_0)
      = (constantI S_ 32 6000#32) :=
  ops_writes.nullary_at 11 (y := main_c_0) (v := (constantI S_ 32 6000#32)) rfl V (by decide)

theorem eq_main_v9 (V : Valuation τ sig (Elt F)) :
    after ops V (Proc.devRef .tc main_v9)
      = broadcastInDim S400000 ![] bcast_S_S400000 (after ops V (Proc.devRef .tc main_c_0)) :=
  ops_writes.unary_at 12 (x := main_c_0) (y := main_v9) (f := (broadcastInDim S400000 ![] bcast_S_S400000 : (⟨S_, .i32⟩ : BufTy).Contents (Elt F) → (⟨S400000, .i32⟩ : BufTy).Contents (Elt F))) rfl V (by decide) (by decide)

theorem eq_main_v10 (V : Valuation τ sig (Elt F)) :
    after ops V (Proc.devRef .tc main_v10)
      = addi (after ops V (Proc.devRef .tc main_v4)) (after ops V (Proc.devRef .tc main_v9)) :=
  ops_writes.binary_at 13 (a := main_v4) (b := main_v9) (y := main_v10) (f := (addi : (⟨S400000, .i32⟩ : BufTy).Contents (Elt F) → (⟨S400000, .i32⟩ : BufTy).Contents (Elt F) → (⟨S400000, .i32⟩ : BufTy).Contents (Elt F))) rfl V (by decide) (by decide) (by decide)

theorem eq_main_v11 (V : Valuation τ sig (Elt F)) :
    after ops V (Proc.devRef .tc main_v11)
      = select (after ops V (Proc.devRef .tc main_v8)) (after ops V (Proc.devRef .tc main_v10)) (after ops V (Proc.devRef .tc main_v4)) :=
  ops_writes.ternary_at 14 (c := main_v8) (a := main_v10) (b := main_v4) (y := main_v11) (f := (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F))) rfl V (by decide) (by decide) (by decide) (by decide)

theorem eq_main_c_1 (V : Valuation τ sig (Elt F)) :
    after ops V (Proc.devRef .tc main_c_1)
      = (constantI S_ 32 0#32) :=
  ops_writes.nullary_at 15 (y := main_c_1) (v := (constantI S_ 32 0#32)) rfl V (by decide)

theorem eq_main_v12 (V : Valuation τ sig (Elt F)) :
    after ops V (Proc.devRef .tc main_v12)
      = broadcastInDim S400000 ![] bcast_S_S400000 (after ops V (Proc.devRef .tc main_c_1)) :=
  ops_writes.unary_at 16 (x := main_c_1) (y := main_v12) (f := (broadcastInDim S400000 ![] bcast_S_S400000 : (⟨S_, .i32⟩ : BufTy).Contents (Elt F) → (⟨S400000, .i32⟩ : BufTy).Contents (Elt F))) rfl V (by decide) (by decide)

theorem eq_main_v13 (V : Valuation τ sig (Elt F)) :
    after ops V (Proc.devRef .tc main_v13)
      = cmpi .slt (after ops V (Proc.devRef .tc main_v6)) (after ops V (Proc.devRef .tc main_v12)) :=
  ops_writes.binary_at 17 (a := main_v6) (b := main_v12) (y := main_v13) (f := (cmpi .slt : (⟨S400000, .i32⟩ : BufTy).Contents (Elt F) → (⟨S400000, .i32⟩ : BufTy).Contents (Elt F) → (⟨S400000, .i1⟩ : BufTy).Contents (Elt F))) rfl V (by decide) (by decide) (by decide)

theorem eq_main_c_2 (V : Valuation τ sig (Elt F)) :
    after ops V (Proc.devRef .tc main_c_2)
      = (constantI S_ 32 6000#32) :=
  ops_writes.nullary_at 18 (y := main_c_2) (v := (constantI S_ 32 6000#32)) rfl V (by decide)

theorem eq_main_v14 (V : Valuation τ sig (Elt F)) :
    after ops V (Proc.devRef .tc main_v14)
      = broadcastInDim S400000 ![] bcast_S_S400000 (after ops V (Proc.devRef .tc main_c_2)) :=
  ops_writes.unary_at 19 (x := main_c_2) (y := main_v14) (f := (broadcastInDim S400000 ![] bcast_S_S400000 : (⟨S_, .i32⟩ : BufTy).Contents (Elt F) → (⟨S400000, .i32⟩ : BufTy).Contents (Elt F))) rfl V (by decide) (by decide)

theorem eq_main_v15 (V : Valuation τ sig (Elt F)) :
    after ops V (Proc.devRef .tc main_v15)
      = addi (after ops V (Proc.devRef .tc main_v6)) (after ops V (Proc.devRef .tc main_v14)) :=
  ops_writes.binary_at 20 (a := main_v6) (b := main_v14) (y := main_v15) (f := (addi : (⟨S400000, .i32⟩ : BufTy).Contents (Elt F) → (⟨S400000, .i32⟩ : BufTy).Contents (Elt F) → (⟨S400000, .i32⟩ : BufTy).Contents (Elt F))) rfl V (by decide) (by decide) (by decide)

theorem eq_main_v16 (V : Valuation τ sig (Elt F)) :
    after ops V (Proc.devRef .tc main_v16)
      = select (after ops V (Proc.devRef .tc main_v13)) (after ops V (Proc.devRef .tc main_v15)) (after ops V (Proc.devRef .tc main_v6)) :=
  ops_writes.ternary_at 21 (c := main_v13) (a := main_v15) (b := main_v6) (y := main_v16) (f := (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F))) rfl V (by decide) (by decide) (by decide) (by decide)

theorem eq_main_v17 (V : Valuation τ sig (Elt F)) :
    after ops V (Proc.devRef .tc main_v17)
      = broadcastInDim S400000x1 ![0] bcast_S400000_S400000x1_0 (after ops V (Proc.devRef .tc main_v11)) :=
  ops_writes.unary_at 22 (x := main_v11) (y := main_v17) (f := (broadcastInDim S400000x1 ![0] bcast_S400000_S400000x1_0 : (⟨S400000, .i32⟩ : BufTy).Contents (Elt F) → (⟨S400000x1, .i32⟩ : BufTy).Contents (Elt F))) rfl V (by decide) (by decide)

theorem eq_main_v18 (V : Valuation τ sig (Elt F)) :
    after ops V (Proc.devRef .tc main_v18)
      = broadcastInDim S400000x1 ![0] bcast_S400000_S400000x1_0 (after ops V (Proc.devRef .tc main_v16)) :=
  ops_writes.unary_at 23 (x := main_v16) (y := main_v18) (f := (broadcastInDim S400000x1 ![0] bcast_S400000_S400000x1_0 : (⟨S400000, .i32⟩ : BufTy).Contents (Elt F) → (⟨S400000x1, .i32⟩ : BufTy).Contents (Elt F))) rfl V (by decide) (by decide)

theorem eq_main_v19 (V : Valuation τ sig (Elt F)) :
    after ops V (Proc.devRef .tc main_v19)
      = concatenate S400000x2 1 [⟨S400000x1, (after ops V (Proc.devRef .tc main_v17))⟩, ⟨S400000x1, (after ops V (Proc.devRef .tc main_v18))⟩] concatenates_S400000x1_S400000x1_S400000x2_d1 :=
  ops_writes.binary_at 24 (a := main_v17) (b := main_v18) (y := main_v19) (f := ((fun a b => concatenate S400000x2 1 [⟨S400000x1, a⟩, ⟨S400000x1, b⟩] concatenates_S400000x1_S400000x1_S400000x2_d1) : (⟨S400000x1, .i32⟩ : BufTy).Contents (Elt F) → (⟨S400000x1, .i32⟩ : BufTy).Contents (Elt F) → (⟨S400000x2, .i32⟩ : BufTy).Contents (Elt F))) rfl V (by decide) (by decide) (by decide)

theorem eq_main_v20 (V : Valuation τ sig (Elt F)) :
    after ops V (Proc.devRef .tc main_v20)
      = Host.scatterAdd scatter_S6000x6000_S400000x2_S400000_n_01_01_1 (after ops V (Proc.devRef .tc main_v2)) (after ops V (Proc.devRef .tc main_v19)) (after ops V (Proc.devRef .tc main_v1)) :=
  ops_writes.ternary_at 25 (c := main_v2) (a := main_v19) (b := main_v1) (y := main_v20) (f := ((fun x i u => Host.scatterAdd scatter_S6000x6000_S400000x2_S400000_n_01_01_1 x i u) : (⟨S6000x6000, .f32⟩ : BufTy).Contents (Elt F) → (⟨S400000x2, .i32⟩ : BufTy).Contents (Elt F) → (⟨S400000, .f32⟩ : BufTy).Contents (Elt F) → (⟨S6000x6000, .f32⟩ : BufTy).Contents (Elt F))) rfl V (by decide) (by decide) (by decide) (by decide)

theorem eq_main_cst_3 (V : Valuation τ sig (Elt F)) :
    after ops V (Proc.devRef .tc main_cst_3)
      = (constant S_ .f32 0x00000000#32) :=
  ops_writes.nullary_at 26 (y := main_cst_3) (v := (constant S_ .f32 0x00000000#32)) rfl V (by decide)

theorem eq_main_v21 (V : Valuation τ sig (Elt F)) :
    after ops V (Proc.devRef .tc main_v21)
      = Host.reduceAdd (after ops V (Proc.devRef .tc main_v20)) (after ops V (Proc.devRef .tc main_cst_3)) reducesTo_S6000x6000_S6000_d1 h_S_ :=
  ops_writes.binary_at 27 (a := main_v20) (b := main_cst_3) (y := main_v21) (f := ((fun x v => Host.reduceAdd x v reducesTo_S6000x6000_S6000_d1 h_S_) : (⟨S6000x6000, .f32⟩ : BufTy).Contents (Elt F) → (⟨S_, .f32⟩ : BufTy).Contents (Elt F) → (⟨S6000, .f32⟩ : BufTy).Contents (Elt F))) rfl V (by decide) (by decide) (by decide)

theorem eq_main_cst_4 (V : Valuation τ sig (Elt F)) :
    after ops V (Proc.devRef .tc main_cst_4)
      = (constant S_ .f32 0x00000000#32) :=
  ops_writes.nullary_at 28 (y := main_cst_4) (v := (constant S_ .f32 0x00000000#32)) rfl V (by decide)

theorem eq_main_v22 (V : Valuation τ sig (Elt F)) :
    after ops V (Proc.devRef .tc main_v22)
      = broadcastInDim S6000 ![] bcast_S_S6000 (after ops V (Proc.devRef .tc main_cst_4)) :=
  ops_writes.unary_at 29 (x := main_cst_4) (y := main_v22) (f := (broadcastInDim S6000 ![] bcast_S_S6000 : (⟨S_, .f32⟩ : BufTy).Contents (Elt F) → (⟨S6000, .f32⟩ : BufTy).Contents (Elt F))) rfl V (by decide) (by decide)

theorem eq_main_v23 (V : Valuation τ sig (Elt F)) :
    after ops V (Proc.devRef .tc main_v23)
      = cmpf .ogt (after ops V (Proc.devRef .tc main_v21)) (after ops V (Proc.devRef .tc main_v22)) :=
  ops_writes.binary_at 30 (a := main_v21) (b := main_v22) (y := main_v23) (f := (cmpf .ogt : (⟨S6000, .f32⟩ : BufTy).Contents (Elt F) → (⟨S6000, .f32⟩ : BufTy).Contents (Elt F) → (⟨S6000, .i1⟩ : BufTy).Contents (Elt F))) rfl V (by decide) (by decide) (by decide)

theorem eq_main_cst_5 (V : Valuation τ sig (Elt F)) :
    after ops V (Proc.devRef .tc main_cst_5)
      = (constant S_ .f32 0x3F800000#32) :=
  ops_writes.nullary_at 31 (y := main_cst_5) (v := (constant S_ .f32 0x3F800000#32)) rfl V (by decide)

theorem eq_main_call0_v0 (V : Valuation τ sig (Elt F)) :
    after ops V (Proc.devRef .tc main_call0_v0)
      = id (after ops V (Proc.devRef .tc main_cst_5)) :=
  ops_writes.unary_at 32 (x := main_cst_5) (y := main_call0_v0) (f := (id : (⟨S_, .f32⟩ : BufTy).Contents (Elt F) → (⟨S_, .f32⟩ : BufTy).Contents (Elt F))) rfl V (by decide) (by decide)

theorem eq_main_call0_v1 (V : Valuation τ sig (Elt F)) :
    after ops V (Proc.devRef .tc main_call0_v1)
      = broadcastInDim S6000 ![] bcast_S_S6000 (after ops V (Proc.devRef .tc main_call0_v0)) :=
  ops_writes.unary_at 33 (x := main_call0_v0) (y := main_call0_v1) (f := ((broadcastInDim S6000 ![] bcast_S_S6000) : (⟨S_, .f32⟩ : BufTy).Contents (Elt F) → (⟨S6000, .f32⟩ : BufTy).Contents (Elt F))) rfl V (by decide) (by decide)

theorem eq_main_v24 (V : Valuation τ sig (Elt F)) :
    after ops V (Proc.devRef .tc main_v24)
      = select (after ops V (Proc.devRef .tc main_v23)) (after ops V (Proc.devRef .tc main_v21)) (after ops V (Proc.devRef .tc main_call0_v1)) :=
  ops_writes.ternary_at 34 (c := main_v23) (a := main_v21) (b := main_call0_v1) (y := main_v24) (f := (select : (⟨S6000, .i1⟩ : BufTy).Contents (Elt F) → (⟨S6000, .f32⟩ : BufTy).Contents (Elt F) → (⟨S6000, .f32⟩ : BufTy).Contents (Elt F) → (⟨S6000, .f32⟩ : BufTy).Contents (Elt F))) rfl V (by decide) (by decide) (by decide) (by decide)

theorem eq_main_v25 (V : Valuation τ sig (Elt F)) :
    after ops V (Proc.devRef .tc main_v25)
      = Host.rsqrt (after ops V (Proc.devRef .tc main_v24)) :=
  ops_writes.unary_at 35 (x := main_v24) (y := main_v25) (f := (Host.rsqrt : (⟨S6000, .f32⟩ : BufTy).Contents (Elt F) → (⟨S6000, .f32⟩ : BufTy).Contents (Elt F))) rfl V (by decide) (by decide)

theorem eq_main_cst_6 (V : Valuation τ sig (Elt F)) :
    after ops V (Proc.devRef .tc main_cst_6)
      = (constant S_ .f32 0x00000000#32) :=
  ops_writes.nullary_at 36 (y := main_cst_6) (v := (constant S_ .f32 0x00000000#32)) rfl V (by decide)

theorem eq_main_call1_v0 (V : Valuation τ sig (Elt F)) :
    after ops V (Proc.devRef .tc main_call1_v0)
      = id (after ops V (Proc.devRef .tc main_cst_6)) :=
  ops_writes.unary_at 37 (x := main_cst_6) (y := main_call1_v0) (f := (id : (⟨S_, .f32⟩ : BufTy).Contents (Elt F) → (⟨S_, .f32⟩ : BufTy).Contents (Elt F))) rfl V (by decide) (by decide)

theorem eq_main_call1_v1 (V : Valuation τ sig (Elt F)) :
    after ops V (Proc.devRef .tc main_call1_v1)
      = broadcastInDim S6000 ![] bcast_S_S6000 (after ops V (Proc.devRef .tc main_call1_v0)) :=
  ops_writes.unary_at 38 (x := main_call1_v0) (y := main_call1_v1) (f := ((broadcastInDim S6000 ![] bcast_S_S6000) : (⟨S_, .f32⟩ : BufTy).Contents (Elt F) → (⟨S6000, .f32⟩ : BufTy).Contents (Elt F))) rfl V (by decide) (by decide)

theorem eq_main_v26 (V : Valuation τ sig (Elt F)) :
    after ops V (Proc.devRef .tc main_v26)
      = select (after ops V (Proc.devRef .tc main_v23)) (after ops V (Proc.devRef .tc main_v25)) (after ops V (Proc.devRef .tc main_call1_v1)) :=
  ops_writes.ternary_at 39 (c := main_v23) (a := main_v25) (b := main_call1_v1) (y := main_v26) (f := (select : (⟨S6000, .i1⟩ : BufTy).Contents (Elt F) → (⟨S6000, .f32⟩ : BufTy).Contents (Elt F) → (⟨S6000, .f32⟩ : BufTy).Contents (Elt F) → (⟨S6000, .f32⟩ : BufTy).Contents (Elt F))) rfl V (by decide) (by decide) (by decide) (by decide)

theorem eq_main_v27 (V : Valuation τ sig (Elt F)) :
    after ops V (Proc.devRef .tc main_v27)
      = broadcastInDim S6000x1 ![0] bcast_S6000_S6000x1_0 (after ops V (Proc.devRef .tc main_v26)) :=
  ops_writes.unary_at 40 (x := main_v26) (y := main_v27) (f := (broadcastInDim S6000x1 ![0] bcast_S6000_S6000x1_0 : (⟨S6000, .f32⟩ : BufTy).Contents (Elt F) → (⟨S6000x1, .f32⟩ : BufTy).Contents (Elt F))) rfl V (by decide) (by decide)

theorem eq_main_v28 (V : Valuation τ sig (Elt F)) :
    after ops V (Proc.devRef .tc main_v28)
      = broadcastInDim S6000x6000 ![0, 1] bcast_S6000x1_S6000x6000_0_1 (after ops V (Proc.devRef .tc main_v27)) :=
  ops_writes.unary_at 41 (x := main_v27) (y := main_v28) (f := (broadcastInDim S6000x6000 ![0, 1] bcast_S6000x1_S6000x6000_0_1 : (⟨S6000x1, .f32⟩ : BufTy).Contents (Elt F) → (⟨S6000x6000, .f32⟩ : BufTy).Contents (Elt F))) rfl V (by decide) (by decide)

theorem eq_main_v29 (V : Valuation τ sig (Elt F)) :
    after ops V (Proc.devRef .tc main_v29)
      = mulf (after ops V (Proc.devRef .tc main_v28)) (after ops V (Proc.devRef .tc main_v20)) :=
  ops_writes.binary_at 42 (a := main_v28) (b := main_v20) (y := main_v29) (f := (mulf : (⟨S6000x6000, .f32⟩ : BufTy).Contents (Elt F) → (⟨S6000x6000, .f32⟩ : BufTy).Contents (Elt F) → (⟨S6000x6000, .f32⟩ : BufTy).Contents (Elt F))) rfl V (by decide) (by decide) (by decide)

theorem eq_main_v30 (V : Valuation τ sig (Elt F)) :
    after ops V (Proc.devRef .tc main_v30)
      = broadcastInDim S1x6000 ![1] bcast_S6000_S1x6000_1 (after ops V (Proc.devRef .tc main_v26)) :=
  ops_writes.unary_at 43 (x := main_v26) (y := main_v30) (f := (broadcastInDim S1x6000 ![1] bcast_S6000_S1x6000_1 : (⟨S6000, .f32⟩ : BufTy).Contents (Elt F) → (⟨S1x6000, .f32⟩ : BufTy).Contents (Elt F))) rfl V (by decide) (by decide)

theorem eq_main_v31 (V : Valuation τ sig (Elt F)) :
    after ops V (Proc.devRef .tc main_v31)
      = broadcastInDim S6000x6000 ![0, 1] bcast_S1x6000_S6000x6000_0_1 (after ops V (Proc.devRef .tc main_v30)) :=
  ops_writes.unary_at 44 (x := main_v30) (y := main_v31) (f := (broadcastInDim S6000x6000 ![0, 1] bcast_S1x6000_S6000x6000_0_1 : (⟨S1x6000, .f32⟩ : BufTy).Contents (Elt F) → (⟨S6000x6000, .f32⟩ : BufTy).Contents (Elt F))) rfl V (by decide) (by decide)

theorem eq_main_v32 (V : Valuation τ sig (Elt F)) :
    after ops V (Proc.devRef .tc main_v32)
      = mulf (after ops V (Proc.devRef .tc main_v29)) (after ops V (Proc.devRef .tc main_v31)) :=
  ops_writes.binary_at 45 (a := main_v29) (b := main_v31) (y := main_v32) (f := (mulf : (⟨S6000x6000, .f32⟩ : BufTy).Contents (Elt F) → (⟨S6000x6000, .f32⟩ : BufTy).Contents (Elt F) → (⟨S6000x6000, .f32⟩ : BufTy).Contents (Elt F))) rfl V (by decide) (by decide) (by decide)

theorem eq_main_v33 (V : Valuation τ sig (Elt F)) :
    after ops V (Proc.devRef .tc main_v33)
      = Host.dotGeneral dot_S6000x6000_S6000x512_S6000x512_1_0_0_1_n_n none (after ops V (Proc.devRef .tc main_v32)) (after ops V (Proc.devRef .tc main_v0)) :=
  ops_writes.binary_at 46 (a := main_v32) (b := main_v0) (y := main_v33) (f := ((fun l r => Host.dotGeneral dot_S6000x6000_S6000x512_S6000x512_1_0_0_1_n_n none l r) : (⟨S6000x6000, .f32⟩ : BufTy).Contents (Elt F) → (⟨S6000x512, .f32⟩ : BufTy).Contents (Elt F) → (⟨S6000x512, .f32⟩ : BufTy).Contents (Elt F))) rfl V (by decide) (by decide) (by decide)

theorem eq_main_v34 (V : Valuation τ sig (Elt F)) :
    after ops V (Proc.devRef .tc main_v34)
      = extractStridedSlice S1x512x512 ![0, 0, 0] (after ops V (Proc.devRef .tc main_arg4)) slices_S2x512x512_S1x512x512_0_0_0 :=
  ops_writes.unary_at 47 (x := main_arg4) (y := main_v34) (f := ((extractStridedSlice S1x512x512 ![0, 0, 0] · slices_S2x512x512_S1x512x512_0_0_0) : (⟨S2x512x512, .f32⟩ : BufTy).Contents (Elt F) → (⟨S1x512x512, .f32⟩ : BufTy).Contents (Elt F))) rfl V (by decide) (by decide)

theorem eq_main_v35 (V : Valuation τ sig (Elt F)) :
    after ops V (Proc.devRef .tc main_v35)
      = shapeCast S512x512 (after ops V (Proc.devRef .tc main_v34)) shapeCasts_S1x512x512_S512x512 :=
  ops_writes.reshape_at 48 (x := main_v34) (y := main_v35) rfl V (by decide) (by decide)

theorem eq_main_v36 (V : Valuation τ sig (Elt F)) :
    after ops V (Proc.devRef .tc main_v36)
      = Host.dotGeneral dot_S6000x512_S512x512_S6000x512_1_0_0_1_n_n none (after ops V (Proc.devRef .tc main_v33)) (after ops V (Proc.devRef .tc main_v35)) :=
  ops_writes.binary_at 49 (a := main_v33) (b := main_v35) (y := main_v36) (f := ((fun l r => Host.dotGeneral dot_S6000x512_S512x512_S6000x512_1_0_0_1_n_n none l r) : (⟨S6000x512, .f32⟩ : BufTy).Contents (Elt F) → (⟨S512x512, .f32⟩ : BufTy).Contents (Elt F) → (⟨S6000x512, .f32⟩ : BufTy).Contents (Elt F))) rfl V (by decide) (by decide) (by decide)

theorem eq_main_v37 (V : Valuation τ sig (Elt F)) :
    after ops V (Proc.devRef .tc main_v37)
      = extractStridedSlice S1x512 ![0, 0] (after ops V (Proc.devRef .tc main_arg5)) slices_S2x512_S1x512_0_0 :=
  ops_writes.unary_at 50 (x := main_arg5) (y := main_v37) (f := ((extractStridedSlice S1x512 ![0, 0] · slices_S2x512_S1x512_0_0) : (⟨S2x512, .f32⟩ : BufTy).Contents (Elt F) → (⟨S1x512, .f32⟩ : BufTy).Contents (Elt F))) rfl V (by decide) (by decide)

theorem eq_main_v38 (V : Valuation τ sig (Elt F)) :
    after ops V (Proc.devRef .tc main_v38)
      = shapeCast S512 (after ops V (Proc.devRef .tc main_v37)) shapeCasts_S1x512_S512 :=
  ops_writes.reshape_at 51 (x := main_v37) (y := main_v38) rfl V (by decide) (by decide)

theorem eq_main_v39 (V : Valuation τ sig (Elt F)) :
    after ops V (Proc.devRef .tc main_v39)
      = broadcastInDim S1x512 ![1] bcast_S512_S1x512_1 (after ops V (Proc.devRef .tc main_v38)) :=
  ops_writes.unary_at 52 (x := main_v38) (y := main_v39) (f := (broadcastInDim S1x512 ![1] bcast_S512_S1x512_1 : (⟨S512, .f32⟩ : BufTy).Contents (Elt F) → (⟨S1x512, .f32⟩ : BufTy).Contents (Elt F))) rfl V (by decide) (by decide)

theorem eq_main_v40 (V : Valuation τ sig (Elt F)) :
    after ops V (Proc.devRef .tc main_v40)
      = broadcastInDim S6000x512 ![0, 1] bcast_S1x512_S6000x512_0_1 (after ops V (Proc.devRef .tc main_v39)) :=
  ops_writes.unary_at 53 (x := main_v39) (y := main_v40) (f := (broadcastInDim S6000x512 ![0, 1] bcast_S1x512_S6000x512_0_1 : (⟨S1x512, .f32⟩ : BufTy).Contents (Elt F) → (⟨S6000x512, .f32⟩ : BufTy).Contents (Elt F))) rfl V (by decide) (by decide)

theorem eq_main_v41 (V : Valuation τ sig (Elt F)) :
    after ops V (Proc.devRef .tc main_v41)
      = addf (after ops V (Proc.devRef .tc main_v36)) (after ops V (Proc.devRef .tc main_v40)) :=
  ops_writes.binary_at 54 (a := main_v36) (b := main_v40) (y := main_v41) (f := (addf : (⟨S6000x512, .f32⟩ : BufTy).Contents (Elt F) → (⟨S6000x512, .f32⟩ : BufTy).Contents (Elt F) → (⟨S6000x512, .f32⟩ : BufTy).Contents (Elt F))) rfl V (by decide) (by decide) (by decide)

theorem eq_main_call2_cst (V : Valuation τ sig (Elt F)) :
    after ops V (Proc.devRef .tc main_call2_cst)
      = (constant S_ .f32 0x00000000#32) :=
  ops_writes.nullary_at 55 (y := main_call2_cst) (v := ((constant S_ .f32 0x00000000#32) : (⟨S_, .f32⟩ : BufTy).Contents (Elt F))) rfl V (by decide)

theorem eq_main_call2_v0 (V : Valuation τ sig (Elt F)) :
    after ops V (Proc.devRef .tc main_call2_v0)
      = broadcastInDim S6000x512 ![] bcast_S_S6000x512 (after ops V (Proc.devRef .tc main_call2_cst)) :=
  ops_writes.unary_at 56 (x := main_call2_cst) (y := main_call2_v0) (f := ((broadcastInDim S6000x512 ![] bcast_S_S6000x512) : (⟨S_, .f32⟩ : BufTy).Contents (Elt F) → (⟨S6000x512, .f32⟩ : BufTy).Contents (Elt F))) rfl V (by decide) (by decide)

theorem eq_main_v42 (V : Valuation τ sig (Elt F)) :
    after ops V (Proc.devRef .tc main_v42)
      = maximumf (after ops V (Proc.devRef .tc main_v41)) (after ops V (Proc.devRef .tc main_call2_v0)) :=
  ops_writes.binary_at 57 (a := main_v41) (b := main_call2_v0) (y := main_v42) (f := (maximumf : (⟨S6000x512, .f32⟩ : BufTy).Contents (Elt F) → (⟨S6000x512, .f32⟩ : BufTy).Contents (Elt F) → (⟨S6000x512, .f32⟩ : BufTy).Contents (Elt F))) rfl V (by decide) (by decide) (by decide)

theorem eq_main_v43 (V : Valuation τ sig (Elt F)) :
    after ops V (Proc.devRef .tc main_v43)
      = extractStridedSlice S1x512x512 ![0, 0, 0] (after ops V (Proc.devRef .tc main_arg6)) slices_S2x512x512_S1x512x512_0_0_0 :=
  ops_writes.unary_at 58 (x := main_arg6) (y := main_v43) (f := ((extractStridedSlice S1x512x512 ![0, 0, 0] · slices_S2x512x512_S1x512x512_0_0_0) : (⟨S2x512x512, .f32⟩ : BufTy).Contents (Elt F) → (⟨S1x512x512, .f32⟩ : BufTy).Contents (Elt F))) rfl V (by decide) (by decide)

theorem eq_main_v44 (V : Valuation τ sig (Elt F)) :
    after ops V (Proc.devRef .tc main_v44)
      = shapeCast S512x512 (after ops V (Proc.devRef .tc main_v43)) shapeCasts_S1x512x512_S512x512 :=
  ops_writes.reshape_at 59 (x := main_v43) (y := main_v44) rfl V (by decide) (by decide)

theorem eq_main_v45 (V : Valuation τ sig (Elt F)) :
    after ops V (Proc.devRef .tc main_v45)
      = Host.dotGeneral dot_S6000x512_S512x512_S6000x512_1_0_0_1_n_n none (after ops V (Proc.devRef .tc main_v42)) (after ops V (Proc.devRef .tc main_v44)) :=
  ops_writes.binary_at 60 (a := main_v42) (b := main_v44) (y := main_v45) (f := ((fun l r => Host.dotGeneral dot_S6000x512_S512x512_S6000x512_1_0_0_1_n_n none l r) : (⟨S6000x512, .f32⟩ : BufTy).Contents (Elt F) → (⟨S512x512, .f32⟩ : BufTy).Contents (Elt F) → (⟨S6000x512, .f32⟩ : BufTy).Contents (Elt F))) rfl V (by decide) (by decide) (by decide)

theorem eq_main_v46 (V : Valuation τ sig (Elt F)) :
    after ops V (Proc.devRef .tc main_v46)
      = extractStridedSlice S1x512 ![0, 0] (after ops V (Proc.devRef .tc main_arg7)) slices_S2x512_S1x512_0_0 :=
  ops_writes.unary_at 61 (x := main_arg7) (y := main_v46) (f := ((extractStridedSlice S1x512 ![0, 0] · slices_S2x512_S1x512_0_0) : (⟨S2x512, .f32⟩ : BufTy).Contents (Elt F) → (⟨S1x512, .f32⟩ : BufTy).Contents (Elt F))) rfl V (by decide) (by decide)

theorem eq_main_v47 (V : Valuation τ sig (Elt F)) :
    after ops V (Proc.devRef .tc main_v47)
      = shapeCast S512 (after ops V (Proc.devRef .tc main_v46)) shapeCasts_S1x512_S512 :=
  ops_writes.reshape_at 62 (x := main_v46) (y := main_v47) rfl V (by decide) (by decide)

theorem eq_main_v48 (V : Valuation τ sig (Elt F)) :
    after ops V (Proc.devRef .tc main_v48)
      = broadcastInDim S1x512 ![1] bcast_S512_S1x512_1 (after ops V (Proc.devRef .tc main_v47)) :=
  ops_writes.unary_at 63 (x := main_v47) (y := main_v48) (f := (broadcastInDim S1x512 ![1] bcast_S512_S1x512_1 : (⟨S512, .f32⟩ : BufTy).Contents (Elt F) → (⟨S1x512, .f32⟩ : BufTy).Contents (Elt F))) rfl V (by decide) (by decide)

theorem eq_main_v49 (V : Valuation τ sig (Elt F)) :
    after ops V (Proc.devRef .tc main_v49)
      = broadcastInDim S6000x512 ![0, 1] bcast_S1x512_S6000x512_0_1 (after ops V (Proc.devRef .tc main_v48)) :=
  ops_writes.unary_at 64 (x := main_v48) (y := main_v49) (f := (broadcastInDim S6000x512 ![0, 1] bcast_S1x512_S6000x512_0_1 : (⟨S1x512, .f32⟩ : BufTy).Contents (Elt F) → (⟨S6000x512, .f32⟩ : BufTy).Contents (Elt F))) rfl V (by decide) (by decide)

theorem eq_main_v50 (V : Valuation τ sig (Elt F)) :
    after ops V (Proc.devRef .tc main_v50)
      = addf (after ops V (Proc.devRef .tc main_v45)) (after ops V (Proc.devRef .tc main_v49)) :=
  ops_writes.binary_at 65 (a := main_v45) (b := main_v49) (y := main_v50) (f := (addf : (⟨S6000x512, .f32⟩ : BufTy).Contents (Elt F) → (⟨S6000x512, .f32⟩ : BufTy).Contents (Elt F) → (⟨S6000x512, .f32⟩ : BufTy).Contents (Elt F))) rfl V (by decide) (by decide) (by decide)

theorem eq_main_cst_7 (V : Valuation τ sig (Elt F)) :
    after ops V (Proc.devRef .tc main_cst_7)
      = (constant S_ .f32 0x3C23D70A#32) :=
  ops_writes.nullary_at 66 (y := main_cst_7) (v := (constant S_ .f32 0x3C23D70A#32)) rfl V (by decide)

theorem eq_main_call3_cst (V : Valuation τ sig (Elt F)) :
    after ops V (Proc.devRef .tc main_call3_cst)
      = (constant S_ .f32 0x00000000#32) :=
  ops_writes.nullary_at 67 (y := main_call3_cst) (v := ((constant S_ .f32 0x00000000#32) : (⟨S_, .f32⟩ : BufTy).Contents (Elt F))) rfl V (by decide)

theorem eq_main_call3_v0 (V : Valuation τ sig (Elt F)) :
    after ops V (Proc.devRef .tc main_call3_v0)
      = broadcastInDim S6000x512 ![] bcast_S_S6000x512 (after ops V (Proc.devRef .tc main_call3_cst)) :=
  ops_writes.unary_at 68 (x := main_call3_cst) (y := main_call3_v0) (f := ((broadcastInDim S6000x512 ![] bcast_S_S6000x512) : (⟨S_, .f32⟩ : BufTy).Contents (Elt F) → (⟨S6000x512, .f32⟩ : BufTy).Contents (Elt F))) rfl V (by decide) (by decide)

theorem eq_main_call3_v1 (V : Valuation τ sig (Elt F)) :
    after ops V (Proc.devRef .tc main_call3_v1)
      = cmpf .oge (after ops V (Proc.devRef .tc main_v50)) (after ops V (Proc.devRef .tc main_call3_v0)) :=
  ops_writes.binary_at 69 (a := main_v50) (b := main_call3_v0) (y := main_call3_v1) (f := ((cmpf .oge) : (⟨S6000x512, .f32⟩ : BufTy).Contents (Elt F) → (⟨S6000x512, .f32⟩ : BufTy).Contents (Elt F) → (⟨S6000x512, .i1⟩ : BufTy).Contents (Elt F))) rfl V (by decide) (by decide) (by decide)

theorem eq_main_call3_v2 (V : Valuation τ sig (Elt F)) :
    after ops V (Proc.devRef .tc main_call3_v2)
      = id (after ops V (Proc.devRef .tc main_cst_7)) :=
  ops_writes.unary_at 70 (x := main_cst_7) (y := main_call3_v2) (f := (id : (⟨S_, .f32⟩ : BufTy).Contents (Elt F) → (⟨S_, .f32⟩ : BufTy).Contents (Elt F))) rfl V (by decide) (by decide)

theorem eq_main_call3_v3 (V : Valuation τ sig (Elt F)) :
    after ops V (Proc.devRef .tc main_call3_v3)
      = broadcastInDim S6000x512 ![] bcast_S_S6000x512 (after ops V (Proc.devRef .tc main_call3_v2)) :=
  ops_writes.unary_at 71 (x := main_call3_v2) (y := main_call3_v3) (f := ((broadcastInDim S6000x512 ![] bcast_S_S6000x512) : (⟨S_, .f32⟩ : BufTy).Contents (Elt F) → (⟨S6000x512, .f32⟩ : BufTy).Contents (Elt F))) rfl V (by decide) (by decide)

theorem eq_main_call3_v4 (V : Valuation τ sig (Elt F)) :
    after ops V (Proc.devRef .tc main_call3_v4)
      = mulf (after ops V (Proc.devRef .tc main_call3_v3)) (after ops V (Proc.devRef .tc main_v50)) :=
  ops_writes.binary_at 72 (a := main_call3_v3) (b := main_v50) (y := main_call3_v4) (f := (mulf : (⟨S6000x512, .f32⟩ : BufTy).Contents (Elt F) → (⟨S6000x512, .f32⟩ : BufTy).Contents (Elt F) → (⟨S6000x512, .f32⟩ : BufTy).Contents (Elt F))) rfl V (by decide) (by decide) (by decide)

theorem eq_main_v51 (V : Valuation τ sig (Elt F)) :
    after ops V (Proc.devRef .tc main_v51)
      = select (after ops V (Proc.devRef .tc main_call3_v1)) (after ops V (Proc.devRef .tc main_v50)) (after ops V (Proc.devRef .tc main_call3_v4)) :=
  ops_writes.ternary_at 73 (c := main_call3_v1) (a := main_v50) (b := main_call3_v4) (y := main_v51) (f := (select : (⟨S6000x512, .i1⟩ : BufTy).Contents (Elt F) → (⟨S6000x512, .f32⟩ : BufTy).Contents (Elt F) → (⟨S6000x512, .f32⟩ : BufTy).Contents (Elt F) → (⟨S6000x512, .f32⟩ : BufTy).Contents (Elt F))) rfl V (by decide) (by decide) (by decide) (by decide)

theorem eq_main_v52 (V : Valuation τ sig (Elt F)) :
    after ops V (Proc.devRef .tc main_v52)
      = addf (after ops V (Proc.devRef .tc main_v0)) (after ops V (Proc.devRef .tc main_v51)) :=
  ops_writes.binary_at 74 (a := main_v0) (b := main_v51) (y := main_v52) (f := (addf : (⟨S6000x512, .f32⟩ : BufTy).Contents (Elt F) → (⟨S6000x512, .f32⟩ : BufTy).Contents (Elt F) → (⟨S6000x512, .f32⟩ : BufTy).Contents (Elt F))) rfl V (by decide) (by decide) (by decide)

theorem eq_main_v53 (V : Valuation τ sig (Elt F)) :
    after ops V (Proc.devRef .tc main_v53)
      = Host.dotGeneral dot_S6000x6000_S6000x512_S6000x512_1_0_0_1_n_n none (after ops V (Proc.devRef .tc main_v32)) (after ops V (Proc.devRef .tc main_v42)) :=
  ops_writes.binary_at 75 (a := main_v32) (b := main_v42) (y := main_v53) (f := ((fun l r => Host.dotGeneral dot_S6000x6000_S6000x512_S6000x512_1_0_0_1_n_n none l r) : (⟨S6000x6000, .f32⟩ : BufTy).Contents (Elt F) → (⟨S6000x512, .f32⟩ : BufTy).Contents (Elt F) → (⟨S6000x512, .f32⟩ : BufTy).Contents (Elt F))) rfl V (by decide) (by decide) (by decide)

theorem eq_main_v54 (V : Valuation τ sig (Elt F)) :
    after ops V (Proc.devRef .tc main_v54)
      = extractStridedSlice S1x512x512 ![1, 0, 0] (after ops V (Proc.devRef .tc main_arg4)) slices_S2x512x512_S1x512x512_1_0_0 :=
  ops_writes.unary_at 76 (x := main_arg4) (y := main_v54) (f := ((extractStridedSlice S1x512x512 ![1, 0, 0] · slices_S2x512x512_S1x512x512_1_0_0) : (⟨S2x512x512, .f32⟩ : BufTy).Contents (Elt F) → (⟨S1x512x512, .f32⟩ : BufTy).Contents (Elt F))) rfl V (by decide) (by decide)

theorem eq_main_v55 (V : Valuation τ sig (Elt F)) :
    after ops V (Proc.devRef .tc main_v55)
      = shapeCast S512x512 (after ops V (Proc.devRef .tc main_v54)) shapeCasts_S1x512x512_S512x512 :=
  ops_writes.reshape_at 77 (x := main_v54) (y := main_v55) rfl V (by decide) (by decide)

theorem eq_main_v56 (V : Valuation τ sig (Elt F)) :
    after ops V (Proc.devRef .tc main_v56)
      = Host.dotGeneral dot_S6000x512_S512x512_S6000x512_1_0_0_1_n_n none (after ops V (Proc.devRef .tc main_v53)) (after ops V (Proc.devRef .tc main_v55)) :=
  ops_writes.binary_at 78 (a := main_v53) (b := main_v55) (y := main_v56) (f := ((fun l r => Host.dotGeneral dot_S6000x512_S512x512_S6000x512_1_0_0_1_n_n none l r) : (⟨S6000x512, .f32⟩ : BufTy).Contents (Elt F) → (⟨S512x512, .f32⟩ : BufTy).Contents (Elt F) → (⟨S6000x512, .f32⟩ : BufTy).Contents (Elt F))) rfl V (by decide) (by decide) (by decide)

theorem eq_main_v57 (V : Valuation τ sig (Elt F)) :
    after ops V (Proc.devRef .tc main_v57)
      = extractStridedSlice S1x512 ![1, 0] (after ops V (Proc.devRef .tc main_arg5)) slices_S2x512_S1x512_1_0 :=
  ops_writes.unary_at 79 (x := main_arg5) (y := main_v57) (f := ((extractStridedSlice S1x512 ![1, 0] · slices_S2x512_S1x512_1_0) : (⟨S2x512, .f32⟩ : BufTy).Contents (Elt F) → (⟨S1x512, .f32⟩ : BufTy).Contents (Elt F))) rfl V (by decide) (by decide)

theorem eq_main_v58 (V : Valuation τ sig (Elt F)) :
    after ops V (Proc.devRef .tc main_v58)
      = shapeCast S512 (after ops V (Proc.devRef .tc main_v57)) shapeCasts_S1x512_S512 :=
  ops_writes.reshape_at 80 (x := main_v57) (y := main_v58) rfl V (by decide) (by decide)

theorem eq_main_v59 (V : Valuation τ sig (Elt F)) :
    after ops V (Proc.devRef .tc main_v59)
      = broadcastInDim S1x512 ![1] bcast_S512_S1x512_1 (after ops V (Proc.devRef .tc main_v58)) :=
  ops_writes.unary_at 81 (x := main_v58) (y := main_v59) (f := (broadcastInDim S1x512 ![1] bcast_S512_S1x512_1 : (⟨S512, .f32⟩ : BufTy).Contents (Elt F) → (⟨S1x512, .f32⟩ : BufTy).Contents (Elt F))) rfl V (by decide) (by decide)

theorem eq_main_v60 (V : Valuation τ sig (Elt F)) :
    after ops V (Proc.devRef .tc main_v60)
      = broadcastInDim S6000x512 ![0, 1] bcast_S1x512_S6000x512_0_1 (after ops V (Proc.devRef .tc main_v59)) :=
  ops_writes.unary_at 82 (x := main_v59) (y := main_v60) (f := (broadcastInDim S6000x512 ![0, 1] bcast_S1x512_S6000x512_0_1 : (⟨S1x512, .f32⟩ : BufTy).Contents (Elt F) → (⟨S6000x512, .f32⟩ : BufTy).Contents (Elt F))) rfl V (by decide) (by decide)

theorem eq_main_v61 (V : Valuation τ sig (Elt F)) :
    after ops V (Proc.devRef .tc main_v61)
      = addf (after ops V (Proc.devRef .tc main_v56)) (after ops V (Proc.devRef .tc main_v60)) :=
  ops_writes.binary_at 83 (a := main_v56) (b := main_v60) (y := main_v61) (f := (addf : (⟨S6000x512, .f32⟩ : BufTy).Contents (Elt F) → (⟨S6000x512, .f32⟩ : BufTy).Contents (Elt F) → (⟨S6000x512, .f32⟩ : BufTy).Contents (Elt F))) rfl V (by decide) (by decide) (by decide)

theorem eq_main_call4_cst (V : Valuation τ sig (Elt F)) :
    after ops V (Proc.devRef .tc main_call4_cst)
      = (constant S_ .f32 0x00000000#32) :=
  ops_writes.nullary_at 84 (y := main_call4_cst) (v := ((constant S_ .f32 0x00000000#32) : (⟨S_, .f32⟩ : BufTy).Contents (Elt F))) rfl V (by decide)

theorem eq_main_call4_v0 (V : Valuation τ sig (Elt F)) :
    after ops V (Proc.devRef .tc main_call4_v0)
      = broadcastInDim S6000x512 ![] bcast_S_S6000x512 (after ops V (Proc.devRef .tc main_call4_cst)) :=
  ops_writes.unary_at 85 (x := main_call4_cst) (y := main_call4_v0) (f := ((broadcastInDim S6000x512 ![] bcast_S_S6000x512) : (⟨S_, .f32⟩ : BufTy).Contents (Elt F) → (⟨S6000x512, .f32⟩ : BufTy).Contents (Elt F))) rfl V (by decide) (by decide)

theorem eq_main_v62 (V : Valuation τ sig (Elt F)) :
    after ops V (Proc.devRef .tc main_v62)
      = maximumf (after ops V (Proc.devRef .tc main_v61)) (after ops V (Proc.devRef .tc main_call4_v0)) :=
  ops_writes.binary_at 86 (a := main_v61) (b := main_call4_v0) (y := main_v62) (f := (maximumf : (⟨S6000x512, .f32⟩ : BufTy).Contents (Elt F) → (⟨S6000x512, .f32⟩ : BufTy).Contents (Elt F) → (⟨S6000x512, .f32⟩ : BufTy).Contents (Elt F))) rfl V (by decide) (by decide) (by decide)

theorem eq_main_v63 (V : Valuation τ sig (Elt F)) :
    after ops V (Proc.devRef .tc main_v63)
      = extractStridedSlice S1x512x512 ![1, 0, 0] (after ops V (Proc.devRef .tc main_arg6)) slices_S2x512x512_S1x512x512_1_0_0 :=
  ops_writes.unary_at 87 (x := main_arg6) (y := main_v63) (f := ((extractStridedSlice S1x512x512 ![1, 0, 0] · slices_S2x512x512_S1x512x512_1_0_0) : (⟨S2x512x512, .f32⟩ : BufTy).Contents (Elt F) → (⟨S1x512x512, .f32⟩ : BufTy).Contents (Elt F))) rfl V (by decide) (by decide)

theorem eq_main_v64 (V : Valuation τ sig (Elt F)) :
    after ops V (Proc.devRef .tc main_v64)
      = shapeCast S512x512 (after ops V (Proc.devRef .tc main_v63)) shapeCasts_S1x512x512_S512x512 :=
  ops_writes.reshape_at 88 (x := main_v63) (y := main_v64) rfl V (by decide) (by decide)

theorem eq_main_v65 (V : Valuation τ sig (Elt F)) :
    after ops V (Proc.devRef .tc main_v65)
      = Host.dotGeneral dot_S6000x512_S512x512_S6000x512_1_0_0_1_n_n none (after ops V (Proc.devRef .tc main_v62)) (after ops V (Proc.devRef .tc main_v64)) :=
  ops_writes.binary_at 89 (a := main_v62) (b := main_v64) (y := main_v65) (f := ((fun l r => Host.dotGeneral dot_S6000x512_S512x512_S6000x512_1_0_0_1_n_n none l r) : (⟨S6000x512, .f32⟩ : BufTy).Contents (Elt F) → (⟨S512x512, .f32⟩ : BufTy).Contents (Elt F) → (⟨S6000x512, .f32⟩ : BufTy).Contents (Elt F))) rfl V (by decide) (by decide) (by decide)

theorem eq_main_v66 (V : Valuation τ sig (Elt F)) :
    after ops V (Proc.devRef .tc main_v66)
      = extractStridedSlice S1x512 ![1, 0] (after ops V (Proc.devRef .tc main_arg7)) slices_S2x512_S1x512_1_0 :=
  ops_writes.unary_at 90 (x := main_arg7) (y := main_v66) (f := ((extractStridedSlice S1x512 ![1, 0] · slices_S2x512_S1x512_1_0) : (⟨S2x512, .f32⟩ : BufTy).Contents (Elt F) → (⟨S1x512, .f32⟩ : BufTy).Contents (Elt F))) rfl V (by decide) (by decide)

theorem eq_main_v67 (V : Valuation τ sig (Elt F)) :
    after ops V (Proc.devRef .tc main_v67)
      = shapeCast S512 (after ops V (Proc.devRef .tc main_v66)) shapeCasts_S1x512_S512 :=
  ops_writes.reshape_at 91 (x := main_v66) (y := main_v67) rfl V (by decide) (by decide)

theorem eq_main_v68 (V : Valuation τ sig (Elt F)) :
    after ops V (Proc.devRef .tc main_v68)
      = broadcastInDim S1x512 ![1] bcast_S512_S1x512_1 (after ops V (Proc.devRef .tc main_v67)) :=
  ops_writes.unary_at 92 (x := main_v67) (y := main_v68) (f := (broadcastInDim S1x512 ![1] bcast_S512_S1x512_1 : (⟨S512, .f32⟩ : BufTy).Contents (Elt F) → (⟨S1x512, .f32⟩ : BufTy).Contents (Elt F))) rfl V (by decide) (by decide)

theorem eq_main_v69 (V : Valuation τ sig (Elt F)) :
    after ops V (Proc.devRef .tc main_v69)
      = broadcastInDim S6000x512 ![0, 1] bcast_S1x512_S6000x512_0_1 (after ops V (Proc.devRef .tc main_v68)) :=
  ops_writes.unary_at 93 (x := main_v68) (y := main_v69) (f := (broadcastInDim S6000x512 ![0, 1] bcast_S1x512_S6000x512_0_1 : (⟨S1x512, .f32⟩ : BufTy).Contents (Elt F) → (⟨S6000x512, .f32⟩ : BufTy).Contents (Elt F))) rfl V (by decide) (by decide)

theorem eq_main_v70 (V : Valuation τ sig (Elt F)) :
    after ops V (Proc.devRef .tc main_v70)
      = addf (after ops V (Proc.devRef .tc main_v65)) (after ops V (Proc.devRef .tc main_v69)) :=
  ops_writes.binary_at 94 (a := main_v65) (b := main_v69) (y := main_v70) (f := (addf : (⟨S6000x512, .f32⟩ : BufTy).Contents (Elt F) → (⟨S6000x512, .f32⟩ : BufTy).Contents (Elt F) → (⟨S6000x512, .f32⟩ : BufTy).Contents (Elt F))) rfl V (by decide) (by decide) (by decide)

theorem eq_main_cst_8 (V : Valuation τ sig (Elt F)) :
    after ops V (Proc.devRef .tc main_cst_8)
      = (constant S_ .f32 0x3C23D70A#32) :=
  ops_writes.nullary_at 95 (y := main_cst_8) (v := (constant S_ .f32 0x3C23D70A#32)) rfl V (by decide)

theorem eq_main_call5_cst (V : Valuation τ sig (Elt F)) :
    after ops V (Proc.devRef .tc main_call5_cst)
      = (constant S_ .f32 0x00000000#32) :=
  ops_writes.nullary_at 96 (y := main_call5_cst) (v := ((constant S_ .f32 0x00000000#32) : (⟨S_, .f32⟩ : BufTy).Contents (Elt F))) rfl V (by decide)

theorem eq_main_call5_v0 (V : Valuation τ sig (Elt F)) :
    after ops V (Proc.devRef .tc main_call5_v0)
      = broadcastInDim S6000x512 ![] bcast_S_S6000x512 (after ops V (Proc.devRef .tc main_call5_cst)) :=
  ops_writes.unary_at 97 (x := main_call5_cst) (y := main_call5_v0) (f := ((broadcastInDim S6000x512 ![] bcast_S_S6000x512) : (⟨S_, .f32⟩ : BufTy).Contents (Elt F) → (⟨S6000x512, .f32⟩ : BufTy).Contents (Elt F))) rfl V (by decide) (by decide)

theorem eq_main_call5_v1 (V : Valuation τ sig (Elt F)) :
    after ops V (Proc.devRef .tc main_call5_v1)
      = cmpf .oge (after ops V (Proc.devRef .tc main_v70)) (after ops V (Proc.devRef .tc main_call5_v0)) :=
  ops_writes.binary_at 98 (a := main_v70) (b := main_call5_v0) (y := main_call5_v1) (f := ((cmpf .oge) : (⟨S6000x512, .f32⟩ : BufTy).Contents (Elt F) → (⟨S6000x512, .f32⟩ : BufTy).Contents (Elt F) → (⟨S6000x512, .i1⟩ : BufTy).Contents (Elt F))) rfl V (by decide) (by decide) (by decide)

theorem eq_main_call5_v2 (V : Valuation τ sig (Elt F)) :
    after ops V (Proc.devRef .tc main_call5_v2)
      = id (after ops V (Proc.devRef .tc main_cst_8)) :=
  ops_writes.unary_at 99 (x := main_cst_8) (y := main_call5_v2) (f := (id : (⟨S_, .f32⟩ : BufTy).Contents (Elt F) → (⟨S_, .f32⟩ : BufTy).Contents (Elt F))) rfl V (by decide) (by decide)

theorem eq_main_call5_v3 (V : Valuation τ sig (Elt F)) :
    after ops V (Proc.devRef .tc main_call5_v3)
      = broadcastInDim S6000x512 ![] bcast_S_S6000x512 (after ops V (Proc.devRef .tc main_call5_v2)) :=
  ops_writes.unary_at 100 (x := main_call5_v2) (y := main_call5_v3) (f := ((broadcastInDim S6000x512 ![] bcast_S_S6000x512) : (⟨S_, .f32⟩ : BufTy).Contents (Elt F) → (⟨S6000x512, .f32⟩ : BufTy).Contents (Elt F))) rfl V (by decide) (by decide)

theorem eq_main_call5_v4 (V : Valuation τ sig (Elt F)) :
    after ops V (Proc.devRef .tc main_call5_v4)
      = mulf (after ops V (Proc.devRef .tc main_call5_v3)) (after ops V (Proc.devRef .tc main_v70)) :=
  ops_writes.binary_at 101 (a := main_call5_v3) (b := main_v70) (y := main_call5_v4) (f := (mulf : (⟨S6000x512, .f32⟩ : BufTy).Contents (Elt F) → (⟨S6000x512, .f32⟩ : BufTy).Contents (Elt F) → (⟨S6000x512, .f32⟩ : BufTy).Contents (Elt F))) rfl V (by decide) (by decide) (by decide)

theorem eq_main_v71 (V : Valuation τ sig (Elt F)) :
    after ops V (Proc.devRef .tc main_v71)
      = select (after ops V (Proc.devRef .tc main_call5_v1)) (after ops V (Proc.devRef .tc main_v70)) (after ops V (Proc.devRef .tc main_call5_v4)) :=
  ops_writes.ternary_at 102 (c := main_call5_v1) (a := main_v70) (b := main_call5_v4) (y := main_v71) (f := (select : (⟨S6000x512, .i1⟩ : BufTy).Contents (Elt F) → (⟨S6000x512, .f32⟩ : BufTy).Contents (Elt F) → (⟨S6000x512, .f32⟩ : BufTy).Contents (Elt F) → (⟨S6000x512, .f32⟩ : BufTy).Contents (Elt F))) rfl V (by decide) (by decide) (by decide) (by decide)

theorem eq_main_v72 (V : Valuation τ sig (Elt F)) :
    after ops V (Proc.devRef .tc main_v72)
      = addf (after ops V (Proc.devRef .tc main_v52)) (after ops V (Proc.devRef .tc main_v71)) :=
  ops_writes.binary_at 103 (a := main_v52) (b := main_v71) (y := main_v72) (f := (addf : (⟨S6000x512, .f32⟩ : BufTy).Contents (Elt F) → (⟨S6000x512, .f32⟩ : BufTy).Contents (Elt F) → (⟨S6000x512, .f32⟩ : BufTy).Contents (Elt F))) rfl V (by decide) (by decide) (by decide)

theorem eq_main_v73 (V : Valuation τ sig (Elt F)) :
    after ops V (Proc.devRef .tc main_v73)
      = extractStridedSlice S2000x512 ![0, 0] (after ops V (Proc.devRef .tc main_v72)) slices_S6000x512_S2000x512_0_0 :=
  ops_writes.unary_at 104 (x := main_v72) (y := main_v73) (f := ((extractStridedSlice S2000x512 ![0, 0] · slices_S6000x512_S2000x512_0_0) : (⟨S6000x512, .f32⟩ : BufTy).Contents (Elt F) → (⟨S2000x512, .f32⟩ : BufTy).Contents (Elt F))) rfl V (by decide) (by decide)

theorem eq_main_v74 (V : Valuation τ sig (Elt F)) :
    after ops V (Proc.devRef .tc main_v74)
      = extractStridedSlice S2000x512 ![2000, 0] (after ops V (Proc.devRef .tc main_v72)) slices_S6000x512_S2000x512_2000_0 :=
  ops_writes.unary_at 105 (x := main_v72) (y := main_v74) (f := ((extractStridedSlice S2000x512 ![2000, 0] · slices_S6000x512_S2000x512_2000_0) : (⟨S6000x512, .f32⟩ : BufTy).Contents (Elt F) → (⟨S2000x512, .f32⟩ : BufTy).Contents (Elt F))) rfl V (by decide) (by decide)

theorem eq_main_v75 (V : Valuation τ sig (Elt F)) :
    after ops V (Proc.devRef .tc main_v75)
      = extractStridedSlice S2000x512 ![4000, 0] (after ops V (Proc.devRef .tc main_v72)) slices_S6000x512_S2000x512_4000_0 :=
  ops_writes.unary_at 106 (x := main_v72) (y := main_v75) (f := ((extractStridedSlice S2000x512 ![4000, 0] · slices_S6000x512_S2000x512_4000_0) : (⟨S6000x512, .f32⟩ : BufTy).Contents (Elt F) → (⟨S2000x512, .f32⟩ : BufTy).Contents (Elt F))) rfl V (by decide) (by decide)

end Cert.ReferenceIdeal.RefRun

end
-- ==== Proof.RefFrame.lean ====
import proofs.«102648_j56324201120496_1_alg».proof.Proof.RefRun
import proofs.«102648_j56324201120496_1_alg».proof.Proof.RefSSATables
import proofs.«102648_j56324201120496_1_alg».proof.Defs

/-! # The reference runs and leaves its arguments unchanged

The reference's line writes none of its argument buffers, so what it ends with there is what the launch put there. -/

noncomputable section

namespace Cert.Proof.RefFrame

open Cert.ReferenceIdeal Cert.ReferenceIdeal.RefRun Idealize.ShloMosaic Idealize.ShloMosaic.TcCoe Idealize.SL.Sem Idealize.ShloMosaic.StableHlo

variable [hReferenceIdeal : Cert.ReferenceIdeal.Facts] [hPre_finite_inputs : Cert.Pre_finite_inputs.Facts]

theorem frame : Cert.frame_ReferenceIdeal := by
  intro m g _
  exact (θ_run (Cert.ReferenceIdeal.defs (F := Ideal)) _ _).mono (fun _ h c =>
    ⟨(h c main_arg0).trans (keep_main_arg0 (launchContents m c)),
     (h c main_arg1).trans (keep_main_arg1 (launchContents m c)),
     (h c main_arg2).trans (keep_main_arg2 (launchContents m c)),
     (h c main_arg3).trans (keep_main_arg3 (launchContents m c)),
     (h c main_arg4).trans (keep_main_arg4 (launchContents m c)),
     (h c main_arg5).trans (keep_main_arg5 (launchContents m c)),
     (h c main_arg6).trans (keep_main_arg6 (launchContents m c)),
     (h c main_arg7).trans (keep_main_arg7 (launchContents m c)),
     (h c main_arg8).trans (keep_main_arg8 (launchContents m c))⟩)
    (run_all (F := Ideal) m g)

end Cert.Proof.RefFrame

end
-- ==== Proof.KIHostA.lean ====
/-
  The host operations of the kernel program before its first region, read as pure terms of the argument arrays.

  Three values are shared with the reference, operation for operation: the stacked node features (the three
  modality arrays concatenated along the rows), the dense adjacency (the edge weights scatter-added at the edges'
  endpoints, a negative endpoint wrapped once by the number of nodes), and the degree factors (the inverse square
  root of a positive row sum of the adjacency, zero elsewhere). They are named here as definitions of the argument
  arrays, and each is shown to be what the program's first host stretches leave in the corresponding buffer.
-/
import proofs.«102648_j56324201120496_1_alg».proof.Proof.Gen.KernelIdeal.Launch
import Idealize.ShloMosaic.Lib.StableHlo.Run
import Idealize.ShloMosaic.PureOps.Ideal

noncomputable section

namespace Cert.KernelIdeal.Hand

open Cert.KernelIdeal Cert.KernelIdeal.Gen Idealize.ShloMosaic Idealize.ShloMosaic.TcCoe Idealize.SL.Sem Idealize.ShloMosaic.StableHlo

/-! ## The shared values as functions of the arguments -/

/-- The node features: the three modality arrays stacked along the rows. -/
def x0T (a0 a1 a2 : FVec Ideal S2000x512 .f32) : FVec Ideal S6000x512 .f32 :=
  concatenate S6000x512 0 [⟨S2000x512, a0⟩, ⟨S2000x512, a1⟩, ⟨S2000x512, a2⟩] concatenates_S2000x512_S2000x512_S2000x512_S6000x512_d0

/-- An endpoint list with each negative entry wrapped once by the number of nodes. -/
def wrapIdx (i : IVec S400000 32) : IVec S400000 32 :=
  select (cmpi .slt i (broadcastInDim S400000 ![] bcast_S_S400000 (constantI S_ 32 0#32)))
    (addi i (broadcastInDim S400000 ![] bcast_S_S400000 (constantI S_ 32 6000#32))) i

/-- The edges' (row, column) pairs: the two rows of the edge list, wrapped, side by side. -/
def idxPair (a8 : IVec S2x400000 32) : IVec S400000x2 32 :=
  concatenate S400000x2 1
    [⟨S400000x1, broadcastInDim S400000x1 ![0] bcast_S400000_S400000x1_0
        (wrapIdx (fun i => shapeCast S400000 (extractStridedSlice S1x400000 ![0, 0] a8 slices_S2x400000_S1x400000_0_0) shapeCasts_S1x400000_S400000 i))⟩,
     ⟨S400000x1, broadcastInDim S400000x1 ![0] bcast_S400000_S400000x1_0
        (wrapIdx (fun i => shapeCast S400000 (extractStridedSlice S1x400000 ![1, 0] a8 slices_S2x400000_S1x400000_1_0) shapeCasts_S1x400000_S400000 i))⟩]
    concatenates_S400000x1_S400000x1_S400000x2_d1

/-- The dense adjacency: the first 400000 edge weights scatter-added into zeros at the edges' pairs. -/
def adjT (a3 : FVec Ideal S500000 .f32) (a8 : IVec S2x400000 32) :
    FVec Ideal S6000x6000 .f32 :=
  Host.scatterAdd (F := Ideal) scatter_S6000x6000_S400000x2_S400000_n_01_01_1
    (broadcastInDim S6000x6000 ![] bcast_S_S6000x6000 (constant (F := Ideal) S_ .f32 0x00000000#32)) (idxPair a8)
    (extractStridedSlice S400000 ![0] a3 slices_S500000_S400000_0)

/-- The adjacency's row sums. -/
def rowSum (adj : FVec Ideal S6000x6000 .f32) : FVec Ideal S6000 .f32 :=
  Host.reduceAdd (F := Ideal) adj (constant (F := Ideal) S_ .f32 0x00000000#32) reducesTo_S6000x6000_S6000_d1 h_S_

/-- The degree factors of given row sums: the inverse square root where the sum is positive, zero elsewhere. -/
def dOfSum (rs : FVec Ideal S6000 .f32) : FVec Ideal S6000 .f32 :=
  select (cmpf .ogt rs (broadcastInDim S6000 ![] bcast_S_S6000 (constant (F := Ideal) S_ .f32 0x00000000#32)))
    (Host.rsqrt (F := Ideal) (select (cmpf .ogt rs (broadcastInDim S6000 ![] bcast_S_S6000 (constant (F := Ideal) S_ .f32 0x00000000#32))) rs
      (broadcastInDim S6000 ![] bcast_S_S6000 (constant (F := Ideal) S_ .f32 0x3F800000#32))))
    (broadcastInDim S6000 ![] bcast_S_S6000 (constant (F := Ideal) S_ .f32 0x00000000#32))

/-- The degree factors of the arguments. -/
def dT (a3 : FVec Ideal S500000 .f32) (a8 : IVec S2x400000 32) :
    FVec Ideal S6000 .f32 :=
  dOfSum (rowSum (adjT a3 a8))

/-! ## What the first host stretch leaves -/

variable (V : Valuation τ sig (Elt Ideal))

set_option maxHeartbeats 4000000 in
theorem fold0_v0 : after (hostOps0 (F := Ideal)) V (Proc.devRef .tc main_v0)
    = x0T (V (Proc.devRef .tc main_arg0)) (V (Proc.devRef .tc main_arg1)) (V (Proc.devRef .tc main_arg2)) := by
  unfold x0T
  after_results
  rfl

set_option maxHeartbeats 4000000 in
theorem fold0_v20 : after (hostOps0 (F := Ideal)) V (Proc.devRef .tc main_v20)
    = adjT (V (Proc.devRef .tc main_arg3)) (V (Proc.devRef .tc main_arg8)) := by
  unfold adjT idxPair wrapIdx
  after_results
  rfl

/-! ## The degree factors, after the three short stretches that follow -/

set_option maxHeartbeats 8000000 in
theorem fold3_v26 : after (hostOps0_3 (F := Ideal)) (after hostOps0_2 (after hostOps0_1 (after hostOps0 V))) (Proc.devRef .tc main_v26)
    = dT (V (Proc.devRef .tc main_arg3)) (V (Proc.devRef .tc main_arg8)) := by
  unfold dT dOfSum rowSum adjT idxPair wrapIdx
  after_results
  rfl

end Cert.KernelIdeal.Hand

end
-- ==== Proof.LibKeepdims.lean ====
/-
  Keepdims layouts read at an index given by coordinates.

  A sum taken with `keepdims=True` leaves a unit axis where the summed axis was, so a kernel that brings a matrix down
  to a 1×1 cell one axis at a time passes through the column shapes: a vector `[a]` is made a column `[a, 1]`, a
  column is read back as a vector, laid as a row `[1, a]`, or broadcast across `b` columns. Each lemma reads one of
  these at an index written with `ix1` / `ix2`. The reason is the same every time: the unit coordinate `u : Fin 1`
  is `0`, so the row-major position of `(i, u)` in `[a, 1]` is `i · 1 + 0 = i`, the position of `i` in `[a]`
  and of `(0, i)` in `[1, a]`.

  These complete the leading-unit-axis forms of Lib/ValueLayout.lean (`shapeCast_a_1a_apply`, `shapeCast_1a_a_apply`,
  `broadcastTo_1b_ab_apply`) on the trailing side.
-/
import Idealize.ShloMosaic.Lib.ValueLayout

namespace Idealize.ShloMosaic.KeepdimsLayout

open Idealize.ShloMosaic Idealize.ShloMosaic.ValueIdx

variable {α : Type}

/-- A vector `[a]` cast to a column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to a vector `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` cast to a row `[1, a]` reads, at `(u, i)`, the operand at `(i, 0)`: the transpose of a
    column costs nothing, both lay the `a` entries out in order. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.mul_one, Nat.add_zero, Nat.zero_mul, Nat.zero_add])

/-- A row `[1, a]` cast to a column `[a, 1]` reads, at `(i, u)`, the operand at `(0, i)`. -/
theorem shapeCast_1a_a1_apply {a : ℕ} (x : (⟨2, ![1, a]⟩ : Shape).Idx → α) (h : (⟨2, ![1, a]⟩ : Shape).ShapeCasts ⟨2, ![a, 1]⟩)
    (i : Fin a) (u : Fin 1) : shapeCast ⟨2, ![a, 1]⟩ x h (ix2 i u) = x (ix2 (0 : Fin 1) i) :=
  shapeCast_apply x h _ _ (by
    have hu : u.val = 0 := by omega
    rw [Shape.rowMajor_val_two, Shape.rowMajor_val_two]
    show 0 * a + i.val = i.val * 1 + u.val
    rw [hu, Nat.mul_one, Nat.add_zero, Nat.zero_mul, Nat.zero_add])

/-- A column `[a, 1]` broadcast to `[a, b]` reads, at `(p, c)`, the operand's one entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A one-entry vector `[1]` cast to a cell `[1, 1]` reads, anywhere, the operand's entry: the last step of a matrix
    summed down to one cell. -/
theorem shapeCast_1_11_apply (x : (⟨1, ![1]⟩ : Shape).Idx → α) (h : (⟨1, ![1]⟩ : Shape).ShapeCasts ⟨2, ![1, 1]⟩)
    (i u : Fin 1) : shapeCast ⟨2, ![1, 1]⟩ x h (ix2 i u) = x (ix1 (0 : Fin 1)) := by
  have hi : i = 0 := Subsingleton.elim _ _
  subst hi
  exact shapeCast_a_a1_apply x h 0 u

end Idealize.ShloMosaic.KeepdimsLayout
-- ==== Proof.KIHostB.lean ====
/-
  The three short host stretches around the two kernel regions, read buffer by buffer over ANY contents `T` they
  start from, each at an index given by its coordinates.

  The stretch before the first region rounds the adjacency and the weights (on the extended reals rounding is the
  identity), cuts layer 0's weights and biases out of the stacked ones, lays the degree factors out as a column,
  scales the node features' rows by them, and copies the node features into the running sum. The stretch between the
  regions does the same for layer 1, scaling the first layer's new features. The last stretch cuts the final running
  sum into its three row bands. A reshape between a vector, a row and a column, or that drops a leading unit axis,
  keeps the row-major position; a slice reads the source at the offset coordinates.
-/
import proofs.«102648_j56324201120496_1_alg».proof.Proof.Gen.KernelIdeal.Regions
import proofs.«102648_j56324201120496_1_alg».proof.Proof.LibKeepdims
import Idealize.ShloMosaic.Lib.StableHlo.Run
import Idealize.ShloMosaic.Lib.Pipeline.Value
import Idealize.ShloMosaic.Lib.ValueLayout
import Idealize.ShloMosaic.PureOps.Ideal

noncomputable section

namespace Cert.KernelIdeal.Hand

open Cert.KernelIdeal Cert.KernelIdeal.Gen Idealize.ShloMosaic Idealize.ShloMosaic.TcCoe Idealize.SL.Sem Idealize.ShloMosaic.StableHlo
open Idealize.ShloMosaic.ValueIdx

/-! ## Two layout reads -/

/-- A rank-3 array cut along its leading axis from `o` reads, at `(u, k, f)`, the source at `(a, k, f)` with `a = o + u`. -/
theorem slice3_axis0_apply {α : Type} {n0 n1 n2 m : Nat} (o : Nat) (X : (⟨3, ![n0, n1, n2]⟩ : Shape).Idx → α)
    (h : (⟨3, ![n0, n1, n2]⟩ : Shape).Slices ![o, 0, 0] ⟨3, ![m, n1, n2]⟩)
    (u : Fin m) (k : Fin n1) (f : Fin n2) (a : Fin n0) (ha : a.val = o + u.val) :
    extractStridedSlice ⟨3, ![m, n1, n2]⟩ ![o, 0, 0] X h (ix3 u k f) = X (ix3 a k f) :=
  extractStridedSlice_apply _ _ _ _ _ (fun ax => by
    match ax with
    | ⟨0, _⟩ => exact ha
    | ⟨1, _⟩ => exact (Nat.zero_add _).symm
    | ⟨2, _⟩ => exact (Nat.zero_add _).symm)

/-- A column `[a, 1]` broadcast along its own two axes to `[a, b]` reads, at `(p, q)`, the column's entry of row `p`. -/
theorem bcastCol_apply {α : Type} {a b : Nat} (x : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h x (ix2 p q) = x (ix2 p (0 : Fin 1)) := by
  refine broadcastInDim_apply _ h x (ix2 p q) (ix2 p (0 : Fin 1)) fun ax => ?_
  match ax with
  | ⟨0, _⟩ =>
    show p.val = if a = 1 then 0 else p.val
    split
    · have := p.isLt; omega
    · rfl
  | ⟨1, _⟩ => rfl

variable (T : Valuation τ sig (Elt Ideal))

/-! ## The stretch before the first region -/

/-- The rounded adjacency is the adjacency. -/
theorem h4_v28_apply (r j : Fin 6000) :
    after (hostOps0_4 (F := Ideal)) T (Proc.devRef .tc main_v28) (ix2 r j) = T (Proc.devRef .tc main_v20) (ix2 r j) := by
  have h : after (hostOps0_4 (F := Ideal)) T (Proc.devRef .tc main_v28) = (truncf .bf16 (T (Proc.devRef .tc main_v20) : FVec Ideal S6000x6000 .f32) bitsLt_bf16_f32 : FVec Ideal S6000x6000 .bf16) := by
    after_results; all_goals rfl
  rw [h]; rfl

/-- The degree factors as a column. -/
theorem h4_v27_apply (r : Fin 6000) (u : Fin 1) :
    after (hostOps0_4 (F := Ideal)) T (Proc.devRef .tc main_v27) (ix2 r u) = T (Proc.devRef .tc main_v26) (ix1 r) := by
  have h : after (hostOps0_4 (F := Ideal)) T (Proc.devRef .tc main_v27)
      = (fun i => shapeCast S6000x1 (T (Proc.devRef .tc main_v26) : FVec Ideal S6000 .f32) shapeCasts_S6000_S6000x1 i : FVec Ideal S6000x1 .f32) := by
    after_results; all_goals rfl
  rw [h]
  exact KeepdimsLayout.shapeCast_a_a1_apply (T (Proc.devRef .tc main_v26)) shapeCasts_S6000_S6000x1 r u

/-- The node features with each row scaled by its degree factor. -/
theorem h4_v43_apply (j : Fin 6000) (k : Fin 512) :
    after (hostOps0_4 (F := Ideal)) T (Proc.devRef .tc main_v43) (ix2 j k)
      = @HMul.hMul EReal EReal EReal instHMul (T (Proc.devRef .tc main_v26) (ix1 j)) (T (Proc.devRef .tc main_v0) (ix2 j k)) := by
  have h : after (hostOps0_4 (F := Ideal)) T (Proc.devRef .tc main_v43)
      = (truncf .bf16 (mulf (broadcastInDim S6000x512 ![0, 1] bcast_S6000x1_S6000x512_0_1
          (fun i => shapeCast S6000x1 (T (Proc.devRef .tc main_v26) : FVec Ideal S6000 .f32) shapeCasts_S6000_S6000x1 i : FVec Ideal S6000x1 .f32))
          (T (Proc.devRef .tc main_v0) : FVec Ideal S6000x512 .f32)) bitsLt_bf16_f32 : FVec Ideal S6000x512 .bf16) := by
    after_results; all_goals rfl
  rw [h]
  show @HMul.hMul EReal EReal EReal instHMul (broadcastInDim S6000x512 ![0, 1] bcast_S6000x1_S6000x512_0_1
      (fun i => shapeCast S6000x1 (T (Proc.devRef .tc main_v26) : FVec Ideal S6000 .f32) shapeCasts_S6000_S6000x1 i : FVec Ideal S6000x1 .f32) (ix2 j k)) (T (Proc.devRef .tc main_v0) (ix2 j k)) = _
  rw [bcastCol_apply]
  exact congrArg (fun z : EReal => @HMul.hMul EReal EReal EReal instHMul (z) (T (Proc.devRef .tc main_v0) (ix2 j k)))
    (KeepdimsLayout.shapeCast_a_a1_apply (T (Proc.devRef .tc main_v26) : FVec Ideal S6000 .f32) shapeCasts_S6000_S6000x1 j 0)

/-- The stacked first-projection weights, rounded: the weights. -/
theorem h4_v29_apply (a : Fin 2) (k f : Fin 512) :
    after (hostOps0_4 (F := Ideal)) T (Proc.devRef .tc main_v29) (ix3 a k f) = T (Proc.devRef .tc main_arg4) (ix3 a k f) := by
  have h : after (hostOps0_4 (F := Ideal)) T (Proc.devRef .tc main_v29) = (truncf .bf16 (T (Proc.devRef .tc main_arg4) : FVec Ideal S2x512x512 .f32) bitsLt_bf16_f32 : FVec Ideal S2x512x512 .bf16) := by
    after_results; all_goals rfl
  rw [h]; rfl

/-- The stacked second-projection weights, rounded: the weights. -/
theorem h4_v30_apply (a : Fin 2) (k f : Fin 512) :
    after (hostOps0_4 (F := Ideal)) T (Proc.devRef .tc main_v30) (ix3 a k f) = T (Proc.devRef .tc main_arg6) (ix3 a k f) := by
  have h : after (hostOps0_4 (F := Ideal)) T (Proc.devRef .tc main_v30) = (truncf .bf16 (T (Proc.devRef .tc main_arg6) : FVec Ideal S2x512x512 .f32) bitsLt_bf16_f32 : FVec Ideal S2x512x512 .bf16) := by
    after_results; all_goals rfl
  rw [h]; rfl

/-- Layer 0's first-projection weights. -/
theorem h4_v32_apply (k f : Fin 512) :
    after (hostOps0_4 (F := Ideal)) T (Proc.devRef .tc main_v32) (ix2 k f) = T (Proc.devRef .tc main_arg4) (ix3 (0 : Fin 2) k f) := by
  have h : after (hostOps0_4 (F := Ideal)) T (Proc.devRef .tc main_v32)
      = (fun i => shapeCast S512x512 (extractStridedSlice S1x512x512 ![0, 0, 0] (truncf .bf16 (T (Proc.devRef .tc main_arg4) : FVec Ideal S2x512x512 .f32) bitsLt_bf16_f32 : FVec Ideal S2x512x512 .bf16)
          slices_S2x512x512_S1x512x512_0_0_0) shapeCasts_S1x512x512_S512x512 i : FVec Ideal S512x512 .bf16) := by
    after_results; all_goals rfl
  rw [h]
  show shapeCast S512x512 _ shapeCasts_S1x512x512_S512x512 (ix2 k f) = _
  rw [shapeCast_1ab_ab_apply]
  exact slice3_axis0_apply 0 _ slices_S2x512x512_S1x512x512_0_0_0 0 k f 0 rfl

/-- Layer 0's second-projection weights. -/
theorem h4_v37_apply (k f : Fin 512) :
    after (hostOps0_4 (F := Ideal)) T (Proc.devRef .tc main_v37) (ix2 k f) = T (Proc.devRef .tc main_arg6) (ix3 (0 : Fin 2) k f) := by
  have h : after (hostOps0_4 (F := Ideal)) T (Proc.devRef .tc main_v37)
      = (fun i => shapeCast S512x512 (extractStridedSlice S1x512x512 ![0, 0, 0] (truncf .bf16 (T (Proc.devRef .tc main_arg6) : FVec Ideal S2x512x512 .f32) bitsLt_bf16_f32 : FVec Ideal S2x512x512 .bf16)
          slices_S2x512x512_S1x512x512_0_0_0) shapeCasts_S1x512x512_S512x512 i : FVec Ideal S512x512 .bf16) := by
    after_results; all_goals rfl
  rw [h]
  show shapeCast S512x512 _ shapeCasts_S1x512x512_S512x512 (ix2 k f) = _
  rw [shapeCast_1ab_ab_apply]
  exact slice3_axis0_apply 0 _ slices_S2x512x512_S1x512x512_0_0_0 0 k f 0 rfl

/-- Layer 0's first-projection bias as a row. -/
theorem h4_v35_apply (u : Fin 1) (f : Fin 512) :
    after (hostOps0_4 (F := Ideal)) T (Proc.devRef .tc main_v35) (ix2 u f) = T (Proc.devRef .tc main_arg5) (ix2 (0 : Fin 2) f) := by
  have h : after (hostOps0_4 (F := Ideal)) T (Proc.devRef .tc main_v35)
      = fun i => shapeCast S1x512 (fun i => shapeCast S512 (extractStridedSlice S1x512 ![0, 0] (T (Proc.devRef .tc main_arg5)) slices_S2x512_S1x512_0_0)
          shapeCasts_S1x512_S512 i) shapeCasts_S512_S1x512 i := by
    after_results; all_goals rfl
  rw [h]
  show shapeCast S1x512 _ shapeCasts_S512_S1x512 (ix2 u f) = _
  rw [shapeCast_a_1a_apply]
  show shapeCast S512 _ shapeCasts_S1x512_S512 (ix1 f) = _
  rw [shapeCast_1a_a_apply]
  exact slice2_axis0_apply 0 _ slices_S2x512_S1x512_0_0 0 f 0 rfl

/-- Layer 0's second-projection bias as a row. -/
theorem h4_v40_apply (u : Fin 1) (f : Fin 512) :
    after (hostOps0_4 (F := Ideal)) T (Proc.devRef .tc main_v40) (ix2 u f) = T (Proc.devRef .tc main_arg7) (ix2 (0 : Fin 2) f) := by
  have h : after (hostOps0_4 (F := Ideal)) T (Proc.devRef .tc main_v40)
      = fun i => shapeCast S1x512 (fun i => shapeCast S512 (extractStridedSlice S1x512 ![0, 0] (T (Proc.devRef .tc main_arg7)) slices_S2x512_S1x512_0_0)
          shapeCasts_S1x512_S512 i) shapeCasts_S512_S1x512 i := by
    after_results; all_goals rfl
  rw [h]
  show shapeCast S1x512 _ shapeCasts_S512_S1x512 (ix2 u f) = _
  rw [shapeCast_a_1a_apply]
  show shapeCast S512 _ shapeCasts_S1x512_S512 (ix1 f) = _
  rw [shapeCast_1a_a_apply]
  exact slice2_axis0_apply 0 _ slices_S2x512_S1x512_0_0 0 f 0 rfl

/-- The running sum starts as the node features. -/
theorem h4_v44_1 : after (hostOps0_4 (F := Ideal)) T (Proc.devRef .tc main_v44_1) = T (Proc.devRef .tc main_v0) := by
  after_results; all_goals rfl

/-! ## The stretch between the regions -/

/-- Layer 1's first-projection weights. -/
theorem h1_v46_apply (k f : Fin 512) :
    after (hostOps1 (F := Ideal)) T (Proc.devRef .tc main_v46) (ix2 k f) = T (Proc.devRef .tc main_v29) (ix3 (1 : Fin 2) k f) := by
  have h : after (hostOps1 (F := Ideal)) T (Proc.devRef .tc main_v46)
      = fun i => shapeCast S512x512 (extractStridedSlice S1x512x512 ![1, 0, 0] (T (Proc.devRef .tc main_v29))
          slices_S2x512x512_S1x512x512_1_0_0) shapeCasts_S1x512x512_S512x512 i := by
    after_results; all_goals rfl
  rw [h]
  show shapeCast S512x512 _ shapeCasts_S1x512x512_S512x512 (ix2 k f) = _
  rw [shapeCast_1ab_ab_apply]
  exact slice3_axis0_apply 1 _ slices_S2x512x512_S1x512x512_1_0_0 0 k f 1 rfl

/-- Layer 1's second-projection weights. -/
theorem h1_v51_apply (k f : Fin 512) :
    after (hostOps1 (F := Ideal)) T (Proc.devRef .tc main_v51) (ix2 k f) = T (Proc.devRef .tc main_v30) (ix3 (1 : Fin 2) k f) := by
  have h : after (hostOps1 (F := Ideal)) T (Proc.devRef .tc main_v51)
      = fun i => shapeCast S512x512 (extractStridedSlice S1x512x512 ![1, 0, 0] (T (Proc.devRef .tc main_v30))
          slices_S2x512x512_S1x512x512_1_0_0) shapeCasts_S1x512x512_S512x512 i := by
    after_results; all_goals rfl
  rw [h]
  show shapeCast S512x512 _ shapeCasts_S1x512x512_S512x512 (ix2 k f) = _
  rw [shapeCast_1ab_ab_apply]
  exact slice3_axis0_apply 1 _ slices_S2x512x512_S1x512x512_1_0_0 0 k f 1 rfl

/-- Layer 1's first-projection bias as a row. -/
theorem h1_v49_apply (u : Fin 1) (f : Fin 512) :
    after (hostOps1 (F := Ideal)) T (Proc.devRef .tc main_v49) (ix2 u f) = T (Proc.devRef .tc main_arg5) (ix2 (1 : Fin 2) f) := by
  have h : after (hostOps1 (F := Ideal)) T (Proc.devRef .tc main_v49)
      = fun i => shapeCast S1x512 (fun i => shapeCast S512 (extractStridedSlice S1x512 ![1, 0] (T (Proc.devRef .tc main_arg5)) slices_S2x512_S1x512_1_0)
          shapeCasts_S1x512_S512 i) shapeCasts_S512_S1x512 i := by
    after_results; all_goals rfl
  rw [h]
  show shapeCast S1x512 _ shapeCasts_S512_S1x512 (ix2 u f) = _
  rw [shapeCast_a_1a_apply]
  show shapeCast S512 _ shapeCasts_S1x512_S512 (ix1 f) = _
  rw [shapeCast_1a_a_apply]
  exact slice2_axis0_apply 1 _ slices_S2x512_S1x512_1_0 0 f 1 rfl

/-- Layer 1's second-projection bias as a row. -/
theorem h1_v54_apply (u : Fin 1) (f : Fin 512) :
    after (hostOps1 (F := Ideal)) T (Proc.devRef .tc main_v54) (ix2 u f) = T (Proc.devRef .tc main_arg7) (ix2 (1 : Fin 2) f) := by
  have h : after (hostOps1 (F := Ideal)) T (Proc.devRef .tc main_v54)
      = fun i => shapeCast S1x512 (fun i => shapeCast S512 (extractStridedSlice S1x512 ![1, 0] (T (Proc.devRef .tc main_arg7)) slices_S2x512_S1x512_1_0)
          shapeCasts_S1x512_S512 i) shapeCasts_S512_S1x512 i := by
    after_results; all_goals rfl
  rw [h]
  show shapeCast S1x512 _ shapeCasts_S512_S1x512 (ix2 u f) = _
  rw [shapeCast_a_1a_apply]
  show shapeCast S512 _ shapeCasts_S1x512_S512 (ix1 f) = _
  rw [shapeCast_1a_a_apply]
  exact slice2_axis0_apply 1 _ slices_S2x512_S1x512_1_0 0 f 1 rfl

/-- The first layer's new features with each row scaled by its degree factor. -/
theorem h1_v57_apply (j : Fin 6000) (k : Fin 512) :
    after (hostOps1 (F := Ideal)) T (Proc.devRef .tc main_v57) (ix2 j k)
      = @HMul.hMul EReal EReal EReal instHMul (T (Proc.devRef .tc main_v27) (ix2 j (0 : Fin 1))) (T (Proc.devRef .tc main_v44_0) (ix2 j k)) := by
  have h : after (hostOps1 (F := Ideal)) T (Proc.devRef .tc main_v57)
      = (truncf .bf16 (mulf (broadcastInDim S6000x512 ![0, 1] bcast_S6000x1_S6000x512_0_1 (T (Proc.devRef .tc main_v27) : FVec Ideal S6000x1 .f32))
          (T (Proc.devRef .tc main_v44_0) : FVec Ideal S6000x512 .f32)) bitsLt_bf16_f32 : FVec Ideal S6000x512 .bf16) := by
    after_results; all_goals rfl
  rw [h]
  show @HMul.hMul EReal EReal EReal instHMul (broadcastInDim S6000x512 ![0, 1] bcast_S6000x1_S6000x512_0_1 (T (Proc.devRef .tc main_v27) : FVec Ideal S6000x1 .f32) (ix2 j k)) (T (Proc.devRef .tc main_v44_0) (ix2 j k)) = _
  rw [bcastCol_apply]

/-! ## The last stretch -/

/-- The final running sum's first row band, -/
theorem h2_v59_apply (p : Fin 2000) (q : Fin 512) :
    after (hostOps2 (F := Ideal)) T (Proc.devRef .tc main_v59) (ix2 p q) = T (Proc.devRef .tc main_v58_1) (ix2 (⟨p.val, by omega⟩ : Fin 6000) q) := by
  have h : after (hostOps2 (F := Ideal)) T (Proc.devRef .tc main_v59)
      = extractStridedSlice S2000x512 ![0, 0] (T (Proc.devRef .tc main_v58_1)) slices_S6000x512_S2000x512_0_0 := by
    after_results; all_goals rfl
  rw [h]
  exact slice2_axis0_apply 0 _ slices_S6000x512_S2000x512_0_0 p q _ (Nat.zero_add _).symm

/-- its second, -/
theorem h2_v60_apply (p : Fin 2000) (q : Fin 512) :
    after (hostOps2 (F := Ideal)) T (Proc.devRef .tc main_v60) (ix2 p q) = T (Proc.devRef .tc main_v58_1) (ix2 (⟨p.val + 2000, by omega⟩ : Fin 6000) q) := by
  have h : after (hostOps2 (F := Ideal)) T (Proc.devRef .tc main_v60)
      = extractStridedSlice S2000x512 ![2000, 0] (T (Proc.devRef .tc main_v58_1)) slices_S6000x512_S2000x512_2000_0 := by
    after_results; all_goals rfl
  rw [h]
  exact slice2_axis0_apply 2000 _ slices_S6000x512_S2000x512_2000_0 p q _ (Nat.add_comm _ _)

/-- and its third. -/
theorem h2_v61_apply (p : Fin 2000) (q : Fin 512) :
    after (hostOps2 (F := Ideal)) T (Proc.devRef .tc main_v61) (ix2 p q) = T (Proc.devRef .tc main_v58_1) (ix2 (⟨p.val + 4000, by omega⟩ : Fin 6000) q) := by
  have h : after (hostOps2 (F := Ideal)) T (Proc.devRef .tc main_v61)
      = extractStridedSlice S2000x512 ![4000, 0] (T (Proc.devRef .tc main_v58_1)) slices_S6000x512_S2000x512_4000_0 := by
    after_results; all_goals rfl
  rw [h]
  exact slice2_axis0_apply 4000 _ slices_S6000x512_S2000x512_4000_0 p q _ (Nat.add_comm _ _)

end Cert.KernelIdeal.Hand

end
-- ==== Proof.GcnSpec.lean ====
/-
  The mathematics of one graph-convolution layer on the extended reals, and the one law that joins the two programs.

  A layer takes the adjacency `A` (N × N), the inverse-square-root degrees `d` (one per node), the node features `X`
  (N × 512), two weight matrices with their biases, and the running sum `S`. It propagates the features through the
  symmetrically normalised adjacency, projects and rectifies them (the new features), projects those again through
  a leaky rectifier, and adds the result to the running sum.

  The two programs differ only in how the propagation is grouped. One scales the features' rows by `d` first,
  multiplies by the raw adjacency, and scales the product's rows by `d`:
      zRows A Xs dr r k = (∑ j, A r j * Xs j k) * dr r      with   Xs j k = d j * X j k ;
  the other scales the adjacency on both sides and multiplies once:
      zBoth A d X r k = ∑ j, ((d r * A r j) * d j) * X j k .
  They agree whenever every `d r` is a non-negative real: a non-negative real factor distributes over any sum of
  extended reals (infinite terms included), and multiplication of extended reals is associative and commutative.
  No finiteness of `A` or `X` is used.
-/
import Idealize.ShloMosaic.PureOps.Ideal
import Idealize.ShloMosaic.Lib.ValueIdx

noncomputable section

namespace Cert.GcnSpec

open Idealize.ShloMosaic

/-! ## A non-negative real factor distributes over a finite sum of extended reals -/

theorem mul_sum_of_nonneg_ne_top {ι : Type*} (s : Finset ι) (c : EReal) (hc : 0 ≤ c) (hc' : c ≠ ⊤) (f : ι → EReal) :
    c * ∑ j ∈ s, f j = ∑ j ∈ s, c * f j := by
  classical
  induction s using Finset.induction_on with
  | empty => simp
  | insert a s ha ih =>
    rw [Finset.sum_insert ha, Finset.sum_insert ha, EReal.left_distrib_of_nonneg_of_ne_top hc hc', ih]

/-! ## The propagation, in its two groupings -/

variable {n : ℕ}

/-- Rows of `A · Xs` scaled by `dr`: the product of a row tile of the adjacency with the pre-scaled features, then the
    row scale. `n` is the number of rows at hand (a tile's, or the whole array's). -/
def zRows (A : Fin n → Fin 6000 → EReal) (Xs : Fin 6000 → Fin 512 → EReal) (dr : Fin n → EReal) (r : Fin n) (k : Fin 512) : EReal :=
  (∑ j : Fin 6000, A r j * Xs j k) * dr r

/-- The adjacency scaled on both sides, then multiplied with the features. -/
def zBoth (A : Fin 6000 → Fin 6000 → EReal) (d : Fin 6000 → EReal) (X : Fin 6000 → Fin 512 → EReal) (r : Fin 6000) (k : Fin 512) : EReal :=
  ∑ j : Fin 6000, ((d r * A r j) * d j) * X j k

/-- The two groupings agree when every degree factor is a non-negative real. -/
theorem zRows_eq_zBoth (A : Fin 6000 → Fin 6000 → EReal) (d : Fin 6000 → EReal) (X : Fin 6000 → Fin 512 → EReal)
    (hd : ∀ r, 0 ≤ d r ∧ d r ≠ ⊤) (r : Fin 6000) (k : Fin 512) :
    zRows A (fun j k => d j * X j k) d r k = zBoth A d X r k := by
  unfold zRows zBoth
  rw [mul_comm, mul_sum_of_nonneg_ne_top _ _ (hd r).1 (hd r).2]
  refine Finset.sum_congr rfl fun j _ => ?_
  rw [← mul_assoc, ← mul_assoc]

/-! ## The two projections of a layer -/

/-- The slope of the leaky rectifier: the single-precision word both programs carry for 0.01. -/
def slope : EReal := Ideal.ofBits .f32 0x3C23D70A#32

/-- The leaky rectifier. -/
def leaky (h : EReal) : EReal := if 0 ≤ h then h else slope * h

/-- The new features: the propagated features `Z` times the first weights, plus the bias, rectified. -/
def feat (Z : Fin n → Fin 512 → EReal) (W : Fin 512 → Fin 512 → EReal) (b : Fin 512 → EReal) (r : Fin n) (f : Fin 512) : EReal :=
  max ((∑ k : Fin 512, Z r k * W k f) + b f) 0

/-- The running sum after the layer: the incoming sum plus the leaky-rectified second projection of the new features. -/
def fsum (Fe : Fin n → Fin 512 → EReal) (W : Fin 512 → Fin 512 → EReal) (b : Fin 512 → EReal) (S : Fin n → Fin 512 → EReal)
    (r : Fin n) (f : Fin 512) : EReal :=
  S r f + leaky ((∑ k : Fin 512, Fe r k * W k f) + b f)

/-! ## Two layers -/

/-- The first grouping with the features' pre-scaling spelt out. -/
def zScaled (A : Fin 6000 → Fin 6000 → EReal) (d : Fin 6000 → EReal) (X : Fin 6000 → Fin 512 → EReal) : Fin 6000 → Fin 512 → EReal :=
  zRows A (fun j k => d j * X j k) d

/-- Two layers in sequence over a propagation `z`: the second layer propagates the first layer's new features; the
    running sum starts at the input features. `W b` are the first projection's weights and bias per layer, `Wf bf` the
    second's. -/
def twoLayer (z : (Fin 6000 → Fin 512 → EReal) → Fin 6000 → Fin 512 → EReal) (X : Fin 6000 → Fin 512 → EReal)
    (W0 : Fin 512 → Fin 512 → EReal) (b0 : Fin 512 → EReal) (Wf0 : Fin 512 → Fin 512 → EReal) (bf0 : Fin 512 → EReal)
    (W1 : Fin 512 → Fin 512 → EReal) (b1 : Fin 512 → EReal) (Wf1 : Fin 512 → Fin 512 → EReal) (bf1 : Fin 512 → EReal) :
    Fin 6000 → Fin 512 → EReal :=
  fsum (feat (z (feat (z X) W0 b0)) W1 b1) Wf1 bf1 (fsum (feat (z X) W0 b0) Wf0 bf0 X)

/-- Both groupings of the propagation give the same two layers when every degree factor is a non-negative real. -/
theorem twoLayer_scaled_eq_both (A : Fin 6000 → Fin 6000 → EReal) (d : Fin 6000 → EReal) (hd : ∀ r, 0 ≤ d r ∧ d r ≠ ⊤)
    (X : Fin 6000 → Fin 512 → EReal) (W0 : Fin 512 → Fin 512 → EReal) (b0 : Fin 512 → EReal) (Wf0 : Fin 512 → Fin 512 → EReal)
    (bf0 : Fin 512 → EReal) (W1 : Fin 512 → Fin 512 → EReal) (b1 : Fin 512 → EReal) (Wf1 : Fin 512 → Fin 512 → EReal) (bf1 : Fin 512 → EReal) :
    twoLayer (zScaled A d) X W0 b0 Wf0 bf0 W1 b1 Wf1 bf1 = twoLayer (zBoth A d) X W0 b0 Wf0 bf0 W1 b1 Wf1 bf1 := by
  have hz : zScaled A d = zBoth A d := funext fun Y => funext fun r => funext fun k => zRows_eq_zBoth A d Y hd r k
  rw [hz]

/-! ## The same over whole arrays, indexed by the arrays' own index types -/

open Idealize.ShloMosaic.ValueIdx in
/-- The new features as an array: `a` the adjacency (or a row tile of it, `n` rows), `xs` the pre-scaled features,
    `dc` the row scales as a column, `w` the weights, `b` the bias as a row. -/
def featArr (a : (⟨2, ![n, 6000]⟩ : Shape).Idx → EReal) (xs : (⟨2, ![6000, 512]⟩ : Shape).Idx → EReal)
    (dc : (⟨2, ![n, 1]⟩ : Shape).Idx → EReal) (w : (⟨2, ![512, 512]⟩ : Shape).Idx → EReal)
    (b : (⟨2, ![1, 512]⟩ : Shape).Idx → EReal) : (⟨2, ![n, 512]⟩ : Shape).Idx → EReal :=
  fun i => feat (zRows (fun r j => a (ix2 r j)) (fun j k => xs (ix2 j k)) (fun r => dc (ix2 r (0 : Fin 1))))
    (fun k f => w (ix2 k f)) (fun f => b (ix2 (0 : Fin 1) f)) (i 0) (i 1)

open Idealize.ShloMosaic.ValueIdx in
/-- The running sum after the layer as an array: `fe` the new features, `w`, `b` the second projection, `s` the incoming sum. -/
def fsumArr (fe : (⟨2, ![n, 512]⟩ : Shape).Idx → EReal) (w : (⟨2, ![512, 512]⟩ : Shape).Idx → EReal)
    (b : (⟨2, ![1, 512]⟩ : Shape).Idx → EReal) (s : (⟨2, ![n, 512]⟩ : Shape).Idx → EReal) :
    (⟨2, ![n, 512]⟩ : Shape).Idx → EReal :=
  fun i => fsum (fun r k => fe (ix2 r k)) (fun k f => w (ix2 k f)) (fun f => b (ix2 (0 : Fin 1) f)) (fun r f => s (ix2 r f)) (i 0) (i 1)

/-- A comparison `h ≥ 0` as a one-bit word selects between two values as the order does. -/
theorem select_cmp_oge {α : Type} (h : EReal) (a b : α) :
    Scalar.select (Ideal.cmp .oge h 0) a b = if (0 : EReal) ≤ h then a else b := by
  unfold Scalar.select Ideal.cmp
  by_cases hh : (0 : EReal) ≤ h
  · simp [hh]
  · simp [hh]

end Cert.GcnSpec

end
-- ==== Proof.LibDotRead.lean ====
/-
  A matrix product accumulated into zero, read at one entry, at the ideal values.

  For the two dimension-number forms a two-operand product takes on rank-2 operands — rows × contraction times
  contraction × columns (`DotDims.plain`), and the same with the right operand stored transposed, columns × contraction
  (`DotDims.transposedRhs`) — entry `(r, c)` of the product is the plain sum, over the one contracted axis, of the
  left operand at `(r, k)` times the right operand at `(k, c)` (at `(c, k)` when stored transposed). The contraction
  index type of the dimension numbers is re-indexed to `Fin K` (`ValueIdx.contrEquiv1`), and the operands' indices at an
  output index and a contraction position are computed axis by axis: a free axis reads the output index, the
  contracted axis the contraction position. Extents are variables: nothing here depends on their values.
  No law of real arithmetic beyond `0 + x = x` is used, so the statements hold at the infinities too.
-/
import Idealize.ShloMosaic.Lib.ValueIdx
import Idealize.ShloMosaic.PureOps.Ideal.Laws

noncomputable section

namespace Idealize.ShloMosaic.DotRead

open Idealize.ShloMosaic Idealize.ShloMosaic.ValueIdx

/-! ## Rows × contraction times contraction × columns -/

/-- The left operand's row is the output's row. -/
theorem plain_lhs_row (M K N : Nat) (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction position. -/
theorem plain_lhs_col (M K N : Nat) (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row is the contraction position. -/
theorem plain_rhs_row (M K N : Nat) (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column is the output's column. -/
theorem plain_rhs_col (M K N : Nat) (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- Entry `(r, c)` of `A · B` accumulated into zero is `∑ k, A (r, k) * B (k, c)`. -/
theorem matmul_plain_zero_apply {φ₁ φ₂ : FTy} (M K N : Nat) (prec : Option ContractPrecision)
    (lhs : FVec Ideal ⟨2, ![M, K]⟩ φ₁) (rhs : FVec Ideal ⟨2, ![K, N]⟩ φ₂) (r : Fin M) (c : Fin N) :
    FloatOps.matmul (DotDims.plain M K N) prec lhs rhs (constant (F := Ideal) ⟨2, ![M, N]⟩ .f32 0x00000000#32) (ix2 r c)
      = ∑ k : Fin K, lhs (ix2 r k) * rhs (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact plain_lhs_row M K N _ _
      | ⟨1, _⟩ => exact (plain_lhs_col M K N _ _).trans hk)
  have er : (DotDims.plain M K N).rhsIdx (ix2 r c) ((contrEquiv1 (DotDims.plain M K N) K rfl rfl).symm k) = ix2 k c :=
    funext fun a => Fin.ext (by
      match a with
      | ⟨0, _⟩ => exact (plain_rhs_row M K N _ _).trans hk
      | ⟨1, _⟩ => exact plain_rhs_col M K N _ _)
  rw [el, er]

/-! ## The right operand stored transposed: rows × contraction times columns × contraction -/

/-- The left operand's row is the output's row. -/
theorem transposedRhs_lhs_row (M K N : Nat) (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The left operand's column is the contraction position. -/
theorem transposedRhs_lhs_col (M K N : Nat) (i : (⟨2, ![M, N]⟩ : Shape).Idx) (q : (DotDims.transposedRhs M K N).contr.Idx) :
    ((DotDims.transposedRhs M K N).lhsIdx i q 1).val = (q ⟨0, Nat.one_pos⟩).val :=
  (DotDims.transposedRhs M K N).lhsIdx_val_of_single rfl i q

/-- The right operand's row is the output's column. -/
theorem transposedRhs_rhs_row (M K N : Nat) (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The right operand's column is the contraction position. -/
theorem transposedRhs_rhs_col (M K N : Nat) (i : (⟨2, ![M, N]⟩ : Shape).Idx) (q : (DotDims.transposedRhs M K N).contr.Idx) :
    ((DotDims.transposedRhs M K N).rhsIdx i q 1).val = (q ⟨0, Nat.one_pos⟩).val :=
  (DotDims.transposedRhs M K N).rhsIdx_val_of_single rfl i q

/-- Entry `(r, c)` of `A · Bᵀ` accumulated into zero is `∑ k, A (r, k) * B (c, k)`. -/
theorem matmul_transposedRhs_zero_apply {φ₁ φ₂ : FTy} (M K N : Nat) (prec : Option ContractPrecision)
    (lhs : FVec Ideal ⟨2, ![M, K]⟩ φ₁) (rhs : FVec Ideal ⟨2, ![N, K]⟩ φ₂) (r : Fin M) (c : Fin N) :
    FloatOps.matmul (DotDims.transposedRhs M K N) prec lhs rhs (constant (F := Ideal) ⟨2, ![M, N]⟩ .f32 0x00000000#32) (ix2 r c)
      = ∑ k : Fin K, lhs (ix2 r k) * rhs (ix2 c k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 r c) ((contrEquiv1 (DotDims.transposedRhs M K N) K rfl rfl).symm k) = ix2 r k :=
    funext fun a => Fin.ext (by
      match a with
      | ⟨0, _⟩ => exact transposedRhs_lhs_row M K N _ _
      | ⟨1, _⟩ => exact (transposedRhs_lhs_col M K N _ _).trans hk)
  have er : (DotDims.transposedRhs M K N).rhsIdx (ix2 r c) ((contrEquiv1 (DotDims.transposedRhs M K N) K rfl rfl).symm k) = ix2 c k :=
    funext fun a => Fin.ext (by
      match a with
      | ⟨0, _⟩ => exact transposedRhs_rhs_row M K N _ _
      | ⟨1, _⟩ => exact (transposedRhs_rhs_col M K N _ _).trans hk)
  rw [el, er]

end Idealize.ShloMosaic.DotRead

end
-- ==== Proof.KIPayload.lean ====
/-
  The body of a layer read at one entry, at the ideal values.

  A row tile of the adjacency (400 rows) meets the whole pre-scaled feature array: entry (p, k) of their product,
  accumulated into zero, is the plain sum over the 6000 nodes; the column of row scales, broadcast across the 512
  feature columns, multiplies row p by its one scale. That is the propagated feature `zRows` at (p, k). The first
  projection multiplies by the weights (a sum over 512), adds the bias row (a row broadcast down the 400 rows reads the
  bias at the column), and takes the maximum with the zero word: the new feature `feat` at (p, q). The second projection
  is one more product and bias, then the leaky rectifier spelt as a comparison with zero selecting between the value and
  the slope times the value; the incoming running sum's entry is added in front: `fsum` at (p, q). Changes of float
  format and casts to the same shape do nothing at the ideal values.

  Last, a row of the new features depends on the same row of the adjacency and of the scales only, so a block of rows of
  the whole-array function is the tile-sized function of the blocks of rows.
-/
import proofs.«102648_j56324201120496_1_alg».proof.Proof.KIData
import proofs.«102648_j56324201120496_1_alg».proof.Proof.GcnSpec
import proofs.«102648_j56324201120496_1_alg».proof.Proof.LibDotRead
import proofs.«102648_j56324201120496_1_alg».proof.Proof.LibKeepdims
import Idealize.ShloMosaic.Lib.ValueLayout
import Idealize.ShloMosaic.Lib.Pipeline.Value

set_option maxRecDepth 16384

noncomputable section

namespace Cert.KernelIdeal.Hand

open Cert.KernelIdeal Cert.KernelIdeal.Gen
open Idealize.ShloMosaic
open Cert.GcnSpec Idealize.ShloMosaic.ValueIdx

/-- The zero offsets of a whole-buffer access, as a function. -/
theorem hz : (![0, 0] : Fin 2 → Nat) = fun _ => 0 := funext fun a => by fin_cases a <;> rfl

/-! ## The two products and the two broadcasts of the body, at an entry -/

/-- Entry (p, k) of the propagated features: the tile's row p against column k of the pre-scaled features, times the
    row's scale. -/
theorem prop_apply (x0 : Vec Ideal S400x6000 .bf16) (x1 : Vec Ideal S6000x512 .bf16) (x2 : Vec Ideal S400x1 .f32)
    (p : Fin 400) (k : Fin 512) :
    FloatOps.matmul (F := Ideal) (φ₁ := .bf16) (φ₂ := .bf16) dot_S400x6000_S6000x512_S400x512_1_0_0_1_n_n none x0 x1
        (constant (F := Ideal) S400x512 .f32 0x00000000#32) (ix2 p k)
      * broadcastTo S400x512 x2 broadcasts_S400x1_S400x512 (ix2 p k)
      = zRows (fun r j => x0 (ix2 r j)) (fun j k => x1 (ix2 j k)) (fun r => x2 (ix2 r (0 : Fin 1))) p k :=
  congrArg₂ (· * ·)
    (DotRead.matmul_plain_zero_apply (φ₁ := .bf16) (φ₂ := .bf16) 400 6000 512 none x0 x1 p k)
    (KeepdimsLayout.broadcastTo_a1_ab_apply x2 broadcasts_S400x1_S400x512 p k)

/-- Entry (p, q) of a projection: row p of a 400 × 512 array against column q of the weights, plus the bias at q. -/
theorem proj_apply (z : FVec Ideal S400x512 .bf16) (w : Vec Ideal S512x512 .bf16) (b : Vec Ideal S1x512 .f32)
    (p : Fin 400) (q : Fin 512) :
    FloatOps.matmul (F := Ideal) (φ₁ := .bf16) (φ₂ := .bf16) dot_S400x512_S512x512_S400x512_1_0_0_1_n_n none z w
        (constant (F := Ideal) S400x512 .f32 0x00000000#32) (ix2 p q)
      + broadcastTo S400x512 b broadcasts_S1x512_S400x512 (ix2 p q)
      = (∑ k : Fin 512, z (ix2 p k) * w (ix2 k q)) + b (ix2 (0 : Fin 1) q) :=
  congrArg₂ (· + ·)
    (DotRead.matmul_plain_zero_apply (φ₁ := .bf16) (φ₂ := .bf16) 400 512 512 none z w p q)
    (broadcastTo_1b_ab_apply b broadcasts_S1x512_S400x512 p q)

/-! ## The new features -/

/-- The body's first stored value at (p, q) is the new feature there. -/
theorem pay2_apply (x0 : Vec Ideal S400x6000 .bf16) (x1 : Vec Ideal S6000x512 .bf16) (x2 : Vec Ideal S400x1 .f32)
    (x3 : Vec Ideal S512x512 .bf16) (x4 : Vec Ideal S1x512 .f32) (p : Fin 400) (q : Fin 512) :
    k0_pay2 (F := Ideal) x0 x1 x2 x3 x4 (ix2 p q) = featArr (n := 400) x0 x1 x2 x3 x4 (ix2 p q) := by
  unfold k0_pay2
  simp only [shapeCast_self]
  show max (_ + _) (Ideal.ofBits .f32 0x00000000#32) = max ((∑ k : Fin 512, _ * x3 (ix2 k q)) + x4 (ix2 (0 : Fin 1) q)) 0
  refine congrArg₂ max ((proj_apply _ x3 x4 p q).trans ?_) Ideal.ofBits_zero_f32
  refine congrArg (· + x4 (ix2 (0 : Fin 1) q)) (Finset.sum_congr rfl fun k _ => ?_)
  exact congrArg (· * x3 (ix2 k q)) (prop_apply x0 x1 x2 p k)

/-- What the body leaves in the new-feature buffer, at (p, q). -/
theorem out0_8_apply (x0 : Vec Ideal S400x6000 .bf16) (x1 : Vec Ideal S6000x512 .bf16) (x2 : Vec Ideal S400x1 .f32)
    (x3 : Vec Ideal S512x512 .bf16) (x4 : Vec Ideal S1x512 .f32) (p : Fin 400) (q : Fin 512) :
    out0_8 (F := Ideal) x0 x1 x2 x3 x4 (ix2 p q) = featArr (n := 400) x0 x1 x2 x3 x4 (ix2 p q) := by
  unfold out0_8 rO rA rX rD rW rB
  rw [View.canon_unit_zero hz]
  simp only [View.ld_unit_zero (S := S400x6000) hz, View.ld_unit_zero (S := S6000x512) hz, View.ld_unit_zero (S := S400x1) hz,
    View.ld_unit_zero (S := S512x512) hz, View.ld_unit_zero (S := S1x512) hz]
  exact pay2_apply x0 x1 x2 x3 x4 p q

/-! ## The running sum -/

/-- The leaky rectifier as the body spells it: compare with the zero word, keep the value or take the slope's multiple. -/
theorem leaky_word (h : EReal) :
    Scalar.select (Ideal.cmp .oge h (Ideal.ofBits .f32 0x00000000#32)) h (Ideal.ofBits .f32 0x3C23D70A#32 * h) = leaky h := by
  rw [Ideal.ofBits_zero_f32, select_cmp_oge]
  rfl

/-- The body's second value at (p, q): the leaky rectifier of the second projection of row p of the new features. -/
theorem pay3_apply (x0 : Vec Ideal S400x6000 .bf16) (x1 : Vec Ideal S6000x512 .bf16) (x2 : Vec Ideal S400x1 .f32)
    (x3 : Vec Ideal S512x512 .bf16) (x4 : Vec Ideal S1x512 .f32) (x5 : Vec Ideal S512x512 .bf16) (x6 : Vec Ideal S1x512 .f32)
    (p : Fin 400) (q : Fin 512) :
    k0_pay3 (F := Ideal) x0 x1 x2 x3 x4 x5 x6 (ix2 p q)
      = leaky ((∑ k : Fin 512, featArr (n := 400) x0 x1 x2 x3 x4 (ix2 p k) * x5 (ix2 k q)) + x6 (ix2 (0 : Fin 1) q)) := by
  unfold k0_pay3
  simp only [shapeCast_self]
  show Scalar.select (Ideal.cmp .oge (_ + _) (Ideal.ofBits .f32 0x00000000#32)) (_ + _) (Ideal.ofBits .f32 0x3C23D70A#32 * (_ + _)) = _
  refine (leaky_word _).trans (congrArg leaky ((proj_apply _ x5 x6 p q).trans ?_))
  refine congrArg (· + x6 (ix2 (0 : Fin 1) q)) (Finset.sum_congr rfl fun k _ => ?_)
  exact congrArg (· * x5 (ix2 k q)) (pay2_apply x0 x1 x2 x3 x4 p k)

/-- What the body leaves in the running-sum buffer, at (p, q). -/
theorem out0_9_apply (x0 : Vec Ideal S400x6000 .bf16) (x1 : Vec Ideal S6000x512 .bf16) (x2 : Vec Ideal S400x1 .f32)
    (x3 : Vec Ideal S512x512 .bf16) (x4 : Vec Ideal S1x512 .f32) (x5 : Vec Ideal S512x512 .bf16) (x6 : Vec Ideal S1x512 .f32)
    (x7 : Vec Ideal S400x512 .f32) (p : Fin 400) (q : Fin 512) :
    out0_9 (F := Ideal) x0 x1 x2 x3 x4 x5 x6 x7 (ix2 p q)
      = fsumArr (n := 400) (featArr (n := 400) x0 x1 x2 x3 x4) x5 x6 x7 (ix2 p q) := by
  unfold out0_9 rO rA rX rD rW rB
  rw [View.canon_unit_zero hz]
  simp only [View.ld_unit_zero (S := S400x6000) hz, View.ld_unit_zero (S := S6000x512) hz, View.ld_unit_zero (S := S400x1) hz,
    View.ld_unit_zero (S := S512x512) hz, View.ld_unit_zero (S := S1x512) hz, View.ld_unit_zero (S := S400x512) hz]
  unfold k0_pay1
  simp only [shapeCast_self]
  show x7 (ix2 p q) + k0_pay3 (F := Ideal) x0 x1 x2 x3 x4 x5 x6 (ix2 p q) = x7 (ix2 p q) + leaky (_ + x6 (ix2 (0 : Fin 1) q))
  exact congrArg (x7 (ix2 p q) + ·) (pay3_apply x0 x1 x2 x3 x4 x5 x6 p q)

/-! ## The second region runs the same body -/

theorem out1_8_apply (x0 : Vec Ideal S400x6000 .bf16) (x1 : Vec Ideal S6000x512 .bf16) (x2 : Vec Ideal S400x1 .f32)
    (x3 : Vec Ideal S512x512 .bf16) (x4 : Vec Ideal S1x512 .f32) (p : Fin 400) (q : Fin 512) :
    out1_8 (F := Ideal) x0 x1 x2 x3 x4 (ix2 p q) = featArr (n := 400) x0 x1 x2 x3 x4 (ix2 p q) :=
  out0_8_apply x0 x1 x2 x3 x4 p q

theorem out1_9_apply (x0 : Vec Ideal S400x6000 .bf16) (x1 : Vec Ideal S6000x512 .bf16) (x2 : Vec Ideal S400x1 .f32)
    (x3 : Vec Ideal S512x512 .bf16) (x4 : Vec Ideal S1x512 .f32) (x5 : Vec Ideal S512x512 .bf16) (x6 : Vec Ideal S1x512 .f32)
    (x7 : Vec Ideal S400x512 .f32) (p : Fin 400) (q : Fin 512) :
    out1_9 (F := Ideal) x0 x1 x2 x3 x4 x5 x6 x7 (ix2 p q)
      = fsumArr (n := 400) (featArr (n := 400) x0 x1 x2 x3 x4) x5 x6 x7 (ix2 p q) :=
  out0_9_apply x0 x1 x2 x3 x4 x5 x6 x7 p q

/-! ## A row of the result depends on the same row of the adjacency, the scales and the incoming sum -/

/-- Two adjacencies (of any heights) that agree along a row, with scales that agree there, and the same pre-scaled
    features, weights and bias, give the same new features along that row. -/
theorem featArr_rows {n n' : ℕ} (a : (⟨2, ![n, 6000]⟩ : Shape).Idx → EReal) (a' : (⟨2, ![n', 6000]⟩ : Shape).Idx → EReal)
    (xs xs' : (⟨2, ![6000, 512]⟩ : Shape).Idx → EReal)
    (dc : (⟨2, ![n, 1]⟩ : Shape).Idx → EReal) (dc' : (⟨2, ![n', 1]⟩ : Shape).Idx → EReal)
    (w w' : (⟨2, ![512, 512]⟩ : Shape).Idx → EReal) (b b' : (⟨2, ![1, 512]⟩ : Shape).Idx → EReal)
    (r : Fin n) (r' : Fin n') (q : Fin 512)
    (ha : ∀ j : Fin 6000, a (ix2 r j) = a' (ix2 r' j)) (hx : xs = xs')
    (hd : dc (ix2 r (0 : Fin 1)) = dc' (ix2 r' (0 : Fin 1))) (hw : w = w') (hb : b = b') :
    featArr (n := n) a xs dc w b (ix2 r q) = featArr (n := n') a' xs' dc' w' b' (ix2 r' q) := by
  subst hx hw hb
  show feat (zRows _ _ _) _ _ r q = feat (zRows _ _ _) _ _ r' q
  unfold feat zRows
  simp only [ha, hd]

/-- New features that agree along a row, with incoming sums that agree at the entry, and the same weights and bias, give
    the same running sum there. -/
theorem fsumArr_rows {n n' : ℕ} (fe : (⟨2, ![n, 512]⟩ : Shape).Idx → EReal) (fe' : (⟨2, ![n', 512]⟩ : Shape).Idx → EReal)
    (w w' : (⟨2, ![512, 512]⟩ : Shape).Idx → EReal) (b b' : (⟨2, ![1, 512]⟩ : Shape).Idx → EReal)
    (s : (⟨2, ![n, 512]⟩ : Shape).Idx → EReal) (s' : (⟨2, ![n', 512]⟩ : Shape).Idx → EReal)
    (r : Fin n) (r' : Fin n') (q : Fin 512)
    (hf : ∀ k : Fin 512, fe (ix2 r k) = fe' (ix2 r' k)) (hw : w = w') (hb : b = b') (hs : s (ix2 r q) = s' (ix2 r' q)) :
    fsumArr (n := n) fe w b s (ix2 r q) = fsumArr (n := n') fe' w' b' s' (ix2 r' q) := by
  subst hw hb
  show fsum _ _ _ _ r q = fsum _ _ _ _ r' q
  unfold fsum
  simp only [hf, hs]

end Cert.KernelIdeal.Hand

end
-- ==== Proof.KIArr0.lean ====
/-
  From blocks to arrays, first region: the two result arrays as whole-array functions of the arrays the region found.

  The grid has 15 points; point t handles rows 400·t … 400·t + 399. The adjacency, the row scales, the incoming sum and
  both results are cut into tiles of 400 rows with block index (t, 0); the pre-scaled features, the weights and the
  biases are single blocks with index (0, 0), so their block is the array. A block's element (p, q) therefore sits at
  row 400·t + p, column q of its array. What point t writes back, entry by entry, is the tile-sized layer function of
  the input blocks; a row of the layer function depends on the same row of the adjacency, scales and incoming sum only,
  so this is the whole-array layer function read at row 400·t + p. Row r of a result is written by point r / 400, and
  the 15 tiles cover the 6000 rows.
-/
import proofs.«102648_j56324201120496_1_alg».proof.Proof.KIPayload
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe
open Idealize.ShloMosaic.Pipeline (Dat)
open Cert.GcnSpec Idealize.ShloMosaic.ValueIdx

variable (V : (c : Dev nD) → (b : Ref sig .tc) → Buf (Elt Ideal) ((c : Thread nD τ).loc b))

/-! ## The block indices over the grid -/

/-- The tiled windows have block index (t, 0) at point t, the whole-array windows (0, 0). -/
theorem idx_facts0 : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0)
    ∧ (win0_9.index t (0 : Fin 2) = t.val ∧ win0_9.index t (1 : Fin 2) = 0) :=
  (by decide +kernel : ∀ t : Fin grid0.N, _)

theorem t_lt0 (t : Fin cfg0.N) : t.val < 15 := lt_of_lt_of_eq t.isLt N_0

/-! ## Each input block, read in its array -/

/-- The adjacency tile at point t: rows 400·t … of the adjacency. -/
theorem iblk0_0_apply (c : Dev nD) (t : Fin cfg0.N) (p : Fin 400) (j : Fin 6000) (r : Fin 6000) (hr : r.val = 400 * t.val + p.val) :
    (iblk0 V c 0 t : Vec Ideal S400x6000 .bf16) (ix2 p j) = (V c main_v28 : S6000x6000.Idx → EReal) (ix2 r j) := by
  obtain ⟨e0, e1⟩ := (idx_facts0 t).1
  unfold iblk0
  rw [View.read_apply]
  show V c main_v28 _ = V c main_v28 _
  refine congrArg (V c main_v28) (funext fun a => Fin.ext ?_)
  match a with
  | ⟨0, _⟩ => show win0_0.index t (0 : Fin 2) * 400 + 1 * p.val = r.val; rw [e0, hr]; omega
  | ⟨1, _⟩ => show win0_0.index t (1 : Fin 2) * 6000 + 1 * j.val = j.val; rw [e1]; omega

/-- The pre-scaled features' one block is the array. -/
theorem iblk0_1_eq (c : Dev nD) (t : Fin cfg0.N) :
    (iblk0 V c 1 t : Vec Ideal S6000x512 .bf16) = (V c main_v43 : S6000x512.Idx → EReal) := by
  obtain ⟨e0, e1⟩ := (idx_facts0 t).2.1
  funext y
  unfold iblk0
  rw [View.read_apply]
  show V c main_v43 _ = V c main_v43 y
  refine congrArg (V c main_v43) (funext fun a => Fin.ext ?_)
  match a with
  | ⟨0, _⟩ => show win0_1.index t (0 : Fin 2) * 6000 + 1 * (y 0).val = (y 0).val; rw [e0]; omega
  | ⟨1, _⟩ => show win0_1.index t (1 : Fin 2) * 512 + 1 * (y 1).val = (y 1).val; rw [e1]; omega

/-- The row scales' tile at point t: rows 400·t … of the column of scales. -/
theorem iblk0_2_apply (c : Dev nD) (t : Fin cfg0.N) (p : Fin 400) (r : Fin 6000) (hr : r.val = 400 * t.val + p.val) :
    (iblk0 V c 2 t : Vec Ideal S400x1 .f32) (ix2 p (0 : Fin 1)) = (V c main_v27 : S6000x1.Idx → EReal) (ix2 r (0 : Fin 1)) := by
  obtain ⟨e0, e1⟩ := (idx_facts0 t).2.2.1
  unfold iblk0
  rw [View.read_apply]
  show V c main_v27 _ = V c main_v27 _
  refine congrArg (V c main_v27) (funext fun a => Fin.ext ?_)
  match a with
  | ⟨0, _⟩ => show win0_2.index t (0 : Fin 2) * 400 + 1 * p.val = r.val; rw [e0, hr]; omega
  | ⟨1, _⟩ => show win0_2.index t (1 : Fin 2) * 1 + 1 * 0 = 0; rw [e1]

/-- The first weights' one block is the array. -/
theorem iblk0_3_eq (c : Dev nD) (t : Fin cfg0.N) :
    (iblk0 V c 3 t : Vec Ideal S512x512 .bf16) = (V c main_v32 : S512x512.Idx → EReal) := by
  obtain ⟨e0, e1⟩ := (idx_facts0 t).2.2.2.1
  funext y
  unfold iblk0
  rw [View.read_apply]
  show V c main_v32 _ = V c main_v32 y
  refine congrArg (V c main_v32) (funext fun a => Fin.ext ?_)
  match a with
  | ⟨0, _⟩ => show win0_3.index t (0 : Fin 2) * 512 + 1 * (y 0).val = (y 0).val; rw [e0]; omega
  | ⟨1, _⟩ => show win0_3.index t (1 : Fin 2) * 512 + 1 * (y 1).val = (y 1).val; rw [e1]; omega

/-- The first bias's one block is the array. -/
theorem iblk0_4_eq (c : Dev nD) (t : Fin cfg0.N) :
    (iblk0 V c 4 t : Vec Ideal S1x512 .f32) = (V c main_v35 : S1x512.Idx → EReal) := by
  obtain ⟨e0, e1⟩ := (idx_facts0 t).2.2.2.2.1
  funext y
  unfold iblk0
  rw [View.read_apply]
  show V c main_v35 _ = V c main_v35 y
  refine congrArg (V c main_v35) (funext fun a => Fin.ext ?_)
  match a with
  | ⟨0, _⟩ => show win0_4.index t (0 : Fin 2) * 1 + 1 * (y 0).val = (y 0).val; rw [e0]; omega
  | ⟨1, _⟩ => show win0_4.index t (1 : Fin 2) * 512 + 1 * (y 1).val = (y 1).val; rw [e1]; omega

/-- The second weights' one block is the array. -/
theorem iblk0_5_eq (c : Dev nD) (t : Fin cfg0.N) :
    (iblk0 V c 5 t : Vec Ideal S512x512 .bf16) = (V c main_v37 : S512x512.Idx → EReal) := by
  obtain ⟨e0, e1⟩ := (idx_facts0 t).2.2.2.2.2.1
  funext y
  unfold iblk0
  rw [View.read_apply]
  show V c main_v37 _ = V c main_v37 y
  refine congrArg (V c main_v37) (funext fun a => Fin.ext ?_)
  match a with
  | ⟨0, _⟩ => show win0_5.index t (0 : Fin 2) * 512 + 1 * (y 0).val = (y 0).val; rw [e0]; omega
  | ⟨1, _⟩ => show win0_5.index t (1 : Fin 2) * 512 + 1 * (y 1).val = (y 1).val; rw [e1]; omega

/-- The second bias's one block is the array. -/
theorem iblk0_6_eq (c : Dev nD) (t : Fin cfg0.N) :
    (iblk0 V c 6 t : Vec Ideal S1x512 .f32) = (V c main_v40 : S1x512.Idx → EReal) := by
  obtain ⟨e0, e1⟩ := (idx_facts0 t).2.2.2.2.2.2.1
  funext y
  unfold iblk0
  rw [View.read_apply]
  show V c main_v40 _ = V c main_v40 y
  refine congrArg (V c main_v40) (funext fun a => Fin.ext ?_)
  match a with
  | ⟨0, _⟩ => show win0_6.index t (0 : Fin 2) * 1 + 1 * (y 0).val = (y 0).val; rw [e0]; omega
  | ⟨1, _⟩ => show win0_6.index t (1 : Fin 2) * 512 + 1 * (y 1).val = (y 1).val; rw [e1]; omega

/-- The incoming sum's tile at point t: rows 400·t … of the incoming sum. -/
theorem iblk0_7_apply (c : Dev nD) (t : Fin cfg0.N) (p : Fin 400) (q : Fin 512) (r : Fin 6000) (hr : r.val = 400 * t.val + p.val) :
    (iblk0 V c 7 t : Vec Ideal S400x512 .f32) (ix2 p q) = (V c main_v0 : S6000x512.Idx → EReal) (ix2 r q) := by
  obtain ⟨e0, e1⟩ := (idx_facts0 t).2.2.2.2.2.2.2.1
  unfold iblk0
  rw [View.read_apply]
  show V c main_v0 _ = V c main_v0 _
  refine congrArg (V c main_v0) (funext fun a => Fin.ext ?_)
  match a with
  | ⟨0, _⟩ => show win0_7.index t (0 : Fin 2) * 400 + 1 * p.val = r.val; rw [e0, hr]; omega
  | ⟨1, _⟩ => show win0_7.index t (1 : Fin 2) * 512 + 1 * q.val = q.val; rw [e1]; omega

/-! ## What a point writes back is a block of the whole-array function -/

/-- The new features of the region's arrays. -/
abbrev F0 (c : Dev nD) : S6000x512.Idx → EReal :=
  featArr (n := 6000) (V c main_v28) (V c main_v43) (V c main_v27) (V c main_v32) (V c main_v35)

/-- The running sum after the layer, of the region's arrays. -/
abbrev G0 (c : Dev nD) : S6000x512.Idx → EReal :=
  fsumArr (n := 6000) (F0 V c) (V c main_v37) (V c main_v40) (V c main_v0)

/-- Row p of the tile-sized new features of the blocks at point t is row 400·t + p of the whole-array new features. -/
theorem feat_blk0 (c : Dev nD) (t : Fin cfg0.N) (p : Fin 400) (q : Fin 512) (r : Fin 6000) (hr : r.val = 400 * t.val + p.val) :
    featArr (n := 400) (iblk0 V c 0 t) (iblk0 V c 1 t) (iblk0 V c 2 t) (iblk0 V c 3 t) (iblk0 V c 4 t) (ix2 p q) = F0 V c (ix2 r q) :=
  featArr_rows (n := 400) (n' := 6000) (iblk0 V c 0 t) (V c main_v28) (iblk0 V c 1 t) (V c main_v43) (iblk0 V c 2 t) (V c main_v27)
    (iblk0 V c 3 t) (V c main_v32) (iblk0 V c 4 t) (V c main_v35) p r q
    (fun j => iblk0_0_apply V c t p j r hr) (iblk0_1_eq V c t) (iblk0_2_apply V c t p r hr) (iblk0_3_eq V c t) (iblk0_4_eq V c t)

/-- Point t writes back, into the new-feature array, the block of the whole-array new features. -/
theorem flushed0_8 (c : Dev nD) (t : Fin cfg0.N) :
    (dat0 (F := Ideal) V c).flushed 8 t = ((cfg0.win 8).blk t).view.read (Elt Ideal) (F0 V c) := by
  obtain ⟨e0, e1⟩ := (idx_facts0 t).2.2.2.2.2.2.2.2.1
  have ht := t_lt0 t
  show (cfg0.win 8).cut (grid0.coords t) ((dat0 (F := Ideal) V c).after 8 t) = _
  rw [after0_8]
  funext y
  have hp : (y 0).val < 400 := (y 0).isLt
  have hq : (y 1).val < 512 := (y 1).isLt
  have hr : 400 * t.val + (y 0).val < 6000 := by omega
  have hy : (cfg0.win 8).xinj (grid0.coords t) y = ix2 (⟨(y 0).val, hp⟩ : Fin 400) (⟨(y 1).val, hq⟩ : Fin 512) :=
    funext fun a => by match a with | ⟨0, _⟩ => rfl | ⟨1, _⟩ => rfl
  have he : ((cfg0.win 8).blk t).view.emb y = ix2 (⟨400 * t.val + (y 0).val, hr⟩ : Fin 6000) (⟨(y 1).val, hq⟩ : Fin 512) :=
    funext fun a => Fin.ext (by
      match a with
      | ⟨0, _⟩ => show win0_8.index t (0 : Fin 2) * 400 + 1 * (y 0).val = 400 * t.val + (y 0).val; rw [e0]; omega
      | ⟨1, _⟩ => show win0_8.index t (1 : Fin 2) * 512 + 1 * (y 1).val = (y 1).val; rw [e1]; omega)
  rw [View.read_apply]
  show out0_8 (F := Ideal) (iblk0 V c 0 t) (iblk0 V c 1 t) (iblk0 V c 2 t) (iblk0 V c 3 t) (iblk0 V c 4 t) ((cfg0.win 8).xinj (grid0.coords t) y)
    = F0 V c (((cfg0.win 8).blk t).view.emb y)
  refine (congrArg (out0_8 (F := Ideal) (iblk0 V c 0 t) (iblk0 V c 1 t) (iblk0 V c 2 t) (iblk0 V c 3 t) (iblk0 V c 4 t)) hy).trans ?_
  refine (out0_8_apply (iblk0 V c 0 t) (iblk0 V c 1 t) (iblk0 V c 2 t) (iblk0 V c 3 t) (iblk0 V c 4 t) ⟨(y 0).val, hp⟩ ⟨(y 1).val, hq⟩).trans ?_
  refine (feat_blk0 V c t ⟨(y 0).val, hp⟩ ⟨(y 1).val, hq⟩ ⟨400 * t.val + (y 0).val, hr⟩ rfl).trans ?_
  exact (congrArg (F0 V c) he).symm

/-- Row p of the tile-sized running sum of the blocks at point t is row 400·t + p of the whole-array running sum. -/
theorem fsum_blk0 (c : Dev nD) (t : Fin cfg0.N) (p : Fin 400) (q : Fin 512) (r : Fin 6000) (hr : r.val = 400 * t.val + p.val) :
    fsumArr (n := 400) (featArr (n := 400) (iblk0 V c 0 t) (iblk0 V c 1 t) (iblk0 V c 2 t) (iblk0 V c 3 t) (iblk0 V c 4 t))
        (iblk0 V c 5 t) (iblk0 V c 6 t) (iblk0 V c 7 t) (ix2 p q) = G0 V c (ix2 r q) :=
  fsumArr_rows (n := 400) (n' := 6000)
    (featArr (n := 400) (iblk0 V c 0 t) (iblk0 V c 1 t) (iblk0 V c 2 t) (iblk0 V c 3 t) (iblk0 V c 4 t)) (F0 V c)
    (iblk0 V c 5 t) (V c main_v37) (iblk0 V c 6 t) (V c main_v40) (iblk0 V c 7 t) (V c main_v0) p r q
    (fun k => feat_blk0 V c t p k r hr) (iblk0_5_eq V c t) (iblk0_6_eq V c t) (iblk0_7_apply V c t p q r hr)

/-- Point t writes back, into the running-sum array, the block of the whole-array running sum. -/
theorem flushed0_9 (c : Dev nD) (t : Fin cfg0.N) :
    (dat0 (F := Ideal) V c).flushed 9 t = ((cfg0.win 9).blk t).view.read (Elt Ideal) (G0 V c) := by
  obtain ⟨e0, e1⟩ := (idx_facts0 t).2.2.2.2.2.2.2.2.2
  have ht := t_lt0 t
  show (cfg0.win 9).cut (grid0.coords t) ((dat0 (F := Ideal) V c).after 9 t) = _
  rw [after0_9]
  funext y
  have hp : (y 0).val < 400 := (y 0).isLt
  have hq : (y 1).val < 512 := (y 1).isLt
  have hr : 400 * t.val + (y 0).val < 6000 := by omega
  have hy : (cfg0.win 9).xinj (grid0.coords t) y = ix2 (⟨(y 0).val, hp⟩ : Fin 400) (⟨(y 1).val, hq⟩ : Fin 512) :=
    funext fun a => by match a with | ⟨0, _⟩ => rfl | ⟨1, _⟩ => rfl
  have he : ((cfg0.win 9).blk t).view.emb y = ix2 (⟨400 * t.val + (y 0).val, hr⟩ : Fin 6000) (⟨(y 1).val, hq⟩ : Fin 512) :=
    funext fun a => Fin.ext (by
      match a with
      | ⟨0, _⟩ => show win0_9.index t (0 : Fin 2) * 400 + 1 * (y 0).val = 400 * t.val + (y 0).val; rw [e0]; omega
      | ⟨1, _⟩ => show win0_9.index t (1 : Fin 2) * 512 + 1 * (y 1).val = (y 1).val; rw [e1]; omega)
  rw [View.read_apply]
  show out0_9 (F := Ideal) (iblk0 V c 0 t) (iblk0 V c 1 t) (iblk0 V c 2 t) (iblk0 V c 3 t) (iblk0 V c 4 t) (iblk0 V c 5 t) (iblk0 V c 6 t)
      (iblk0 V c 7 t) ((cfg0.win 9).xinj (grid0.coords t) y)
    = G0 V c (((cfg0.win 9).blk t).view.emb y)
  refine (congrArg (out0_9 (F := Ideal) (iblk0 V c 0 t) (iblk0 V c 1 t) (iblk0 V c 2 t) (iblk0 V c 3 t) (iblk0 V c 4 t) (iblk0 V c 5 t)
    (iblk0 V c 6 t) (iblk0 V c 7 t)) hy).trans ?_
  refine (out0_9_apply (iblk0 V c 0 t) (iblk0 V c 1 t) (iblk0 V c 2 t) (iblk0 V c 3 t) (iblk0 V c 4 t) (iblk0 V c 5 t) (iblk0 V c 6 t)
    (iblk0 V c 7 t) ⟨(y 0).val, hp⟩ ⟨(y 1).val, hq⟩).trans ?_
  refine (fsum_blk0 V c t ⟨(y 0).val, hp⟩ ⟨(y 1).val, hq⟩ ⟨400 * t.val + (y 0).val, hr⟩ rfl).trans ?_
  exact (congrArg (G0 V c) he).symm

/-! ## The tiles cover the arrays -/

/-- An index of the new-feature array is in point t's block iff each coordinate is in the block's range. -/
theorem mem_blk0_8 (t : Fin cfg0.N) (i : S6000x512.Idx) :
    i ∈ ((cfg0.win 8).blk t).view.set
      ↔ ∀ a : Fin 2, win0_8.index t a * S400x512.size a ≤ (i a).val ∧ (i a).val < win0_8.index t a * S400x512.size a + S400x512.size a := by
  show i ∈ ((View.whole main_v44_0).slice (win0_8.rect t)).set ↔ _
  rw [View.set_slice_whole, Rect.mem_set_unit]
  exact Iff.rfl

/-- An index of the running-sum array is in point t's block iff each coordinate is in the block's range. -/
theorem mem_blk0_9 (t : Fin cfg0.N) (i : S6000x512.Idx) :
    i ∈ ((cfg0.win 9).blk t).view.set
      ↔ ∀ a : Fin 2, win0_9.index t a * S400x512.size a ≤ (i a).val ∧ (i a).val < win0_9.index t a * S400x512.size a + S400x512.size a := by
  show i ∈ ((View.whole main_v44_1).slice (win0_9.rect t)).set ↔ _
  rw [View.set_slice_whole, Rect.mem_set_unit]
  exact Iff.rfl

/-- Row r of the new-feature array is written by point r / 400. -/
theorem cover0_8 (i : S6000x512.Idx) : ∃ t : Fin cfg0.N, (cfg0.win 8).flush t = true ∧ i ∈ ((cfg0.win 8).blk t).view.set := by
  have h0 : (i 0).val < 6000 := (i 0).isLt
  have h1 : (i 1).val < 512 := (i 1).isLt
  have hN : cfg0.N = 15 := N_0
  have hlt : (i 0).val / 400 < cfg0.N := by rw [hN]; omega
  obtain ⟨e0, e1⟩ := (idx_facts0 ⟨(i 0).val / 400, hlt⟩).2.2.2.2.2.2.2.2.1
  have e0' : win0_8.index ⟨(i 0).val / 400, hlt⟩ (0 : Fin 2) = (i 0).val / 400 := e0
  refine ⟨⟨(i 0).val / 400, hlt⟩, flush0_8 _, ?_⟩
  rw [mem_blk0_8]
  intro a
  match a with
  | ⟨0, _⟩ =>
    show win0_8.index ⟨(i 0).val / 400, hlt⟩ (0 : Fin 2) * 400 ≤ (i 0).val
      ∧ (i 0).val < win0_8.index ⟨(i 0).val / 400, hlt⟩ (0 : Fin 2) * 400 + 400
    rw [e0']; omega
  | ⟨1, _⟩ =>
    show win0_8.index ⟨(i 0).val / 400, hlt⟩ (1 : Fin 2) * 512 ≤ (i 1).val
      ∧ (i 1).val < win0_8.index ⟨(i 0).val / 400, hlt⟩ (1 : Fin 2) * 512 + 512
    rw [e1]; omega

/-- Row r of the running-sum array is written by point r / 400. -/
theorem cover0_9 (i : S6000x512.Idx) : ∃ t : Fin cfg0.N, (cfg0.win 9).flush t = true ∧ i ∈ ((cfg0.win 9).blk t).view.set := by
  have h0 : (i 0).val < 6000 := (i 0).isLt
  have h1 : (i 1).val < 512 := (i 1).isLt
  have hN : cfg0.N = 15 := N_0
  have hlt : (i 0).val / 400 < cfg0.N := by rw [hN]; omega
  obtain ⟨e0, e1⟩ := (idx_facts0 ⟨(i 0).val / 400, hlt⟩).2.2.2.2.2.2.2.2.2
  have e0' : win0_9.index ⟨(i 0).val / 400, hlt⟩ (0 : Fin 2) = (i 0).val / 400 := e0
  refine ⟨⟨(i 0).val / 400, hlt⟩, flush0_9 _, ?_⟩
  rw [mem_blk0_9]
  intro a
  match a with
  | ⟨0, _⟩ =>
    show win0_9.index ⟨(i 0).val / 400, hlt⟩ (0 : Fin 2) * 400 ≤ (i 0).val
      ∧ (i 0).val < win0_9.index ⟨(i 0).val / 400, hlt⟩ (0 : Fin 2) * 400 + 400
    rw [e0']; omega
  | ⟨1, _⟩ =>
    show win0_9.index ⟨(i 0).val / 400, hlt⟩ (1 : Fin 2) * 512 ≤ (i 1).val
      ∧ (i 1).val < win0_9.index ⟨(i 0).val / 400, hlt⟩ (1 : Fin 2) * 512 + 512
    rw [e1]; omega

/-! ## The two result arrays after the region -/

/-- The new-feature array after the region is the layer's new features of the arrays the region found. -/
theorem arr0_8 (c : Dev nD) : (dat0 (F := Ideal) V c).arrAt 8 cfg0.N
    = featArr (n := 6000) (V c main_v28) (V c main_v43) (V c main_v27) (V c main_v32) (V c main_v35) :=
  (dat0 (F := Ideal) V c).arrAt_eq_of_cover 8 (F0 V c) (fun t _ => flushed0_8 V c t) cover0_8

/-- The running-sum array after the region is the incoming sum plus the layer's contribution. -/
theorem arr0_9 (c : Dev nD) : (dat0 (F := Ideal) V c).arrAt 9 cfg0.N
    = fsumArr (n := 6000) (featArr (n := 6000) (V c main_v28) (V c main_v43) (V c main_v27) (V c main_v32) (V c main_v35))
        (V c main_v37) (V c main_v40) (V c main_v0) :=
  (dat0 (F := Ideal) V c).arrAt_eq_of_cover 9 (G0 V c) (fun t _ => flushed0_9 V c t) cover0_9

end Cert.KernelIdeal.Hand

end
-- ==== Proof.KIArr1.lean ====
/-
  From blocks to arrays, second region: the two result arrays as whole-array functions of the arrays the region found.

  The grid has 15 points; point t handles rows 400·t … 400·t + 399. The adjacency, the row scales, the incoming sum and
  both results are cut into tiles of 400 rows with block index (t, 0); the pre-scaled features, the weights and the
  biases are single blocks with index (0, 0), so their block is the array. A block's element (p, q) therefore sits at
  row 400·t + p, column q of its array. What point t writes back, entry by entry, is the tile-sized layer function of
  the input blocks; a row of the layer function depends on the same row of the adjacency, scales and incoming sum only,
  so this is the whole-array layer function read at row 400·t + p. Row r of a result is written by point r / 400, and
  the 15 tiles cover the 6000 rows.
-/
import proofs.«102648_j56324201120496_1_alg».proof.Proof.KIPayload
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe
open Idealize.ShloMosaic.Pipeline (Dat)
open Cert.GcnSpec Idealize.ShloMosaic.ValueIdx

variable (V : (c : Dev nD) → (b : Ref sig .tc) → Buf (Elt Ideal) ((c : Thread nD τ).loc b))

/-! ## The block indices over the grid -/

/-- The tiled windows have block index (t, 0) at point t, the whole-array windows (0, 0). -/
theorem idx_facts1 : ∀ t : Fin cfg1.N,
    (win1_0.index t (0 : Fin 2) = t.val ∧ win1_0.index t (1 : Fin 2) = 0)
    ∧ (win1_1.index t (0 : Fin 2) = 0 ∧ win1_1.index t (1 : Fin 2) = 0)
    ∧ (win1_2.index t (0 : Fin 2) = t.val ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = t.val ∧ win1_7.index t (1 : Fin 2) = 0)
    ∧ (win1_8.index t (0 : Fin 2) = t.val ∧ win1_8.index t (1 : Fin 2) = 0)
    ∧ (win1_9.index t (0 : Fin 2) = t.val ∧ win1_9.index t (1 : Fin 2) = 0) :=
  (by decide +kernel : ∀ t : Fin grid1.N, _)

theorem t_lt1 (t : Fin cfg1.N) : t.val < 15 := lt_of_lt_of_eq t.isLt N_1

/-! ## Each input block, read in its array -/

/-- The adjacency tile at point t: rows 400·t … of the adjacency. -/
theorem iblk1_0_apply (c : Dev nD) (t : Fin cfg1.N) (p : Fin 400) (j : Fin 6000) (r : Fin 6000) (hr : r.val = 400 * t.val + p.val) :
    (iblk1 V c 0 t : Vec Ideal S400x6000 .bf16) (ix2 p j) = (V c main_v28 : S6000x6000.Idx → EReal) (ix2 r j) := by
  obtain ⟨e0, e1⟩ := (idx_facts1 t).1
  unfold iblk1
  rw [View.read_apply]
  show V c main_v28 _ = V c main_v28 _
  refine congrArg (V c main_v28) (funext fun a => Fin.ext ?_)
  match a with
  | ⟨0, _⟩ => show win1_0.index t (0 : Fin 2) * 400 + 1 * p.val = r.val; rw [e0, hr]; omega
  | ⟨1, _⟩ => show win1_0.index t (1 : Fin 2) * 6000 + 1 * j.val = j.val; rw [e1]; omega

/-- The pre-scaled features' one block is the array. -/
theorem iblk1_1_eq (c : Dev nD) (t : Fin cfg1.N) :
    (iblk1 V c 1 t : Vec Ideal S6000x512 .bf16) = (V c main_v57 : S6000x512.Idx → EReal) := by
  obtain ⟨e0, e1⟩ := (idx_facts1 t).2.1
  funext y
  unfold iblk1
  rw [View.read_apply]
  show V c main_v57 _ = V c main_v57 y
  refine congrArg (V c main_v57) (funext fun a => Fin.ext ?_)
  match a with
  | ⟨0, _⟩ => show win1_1.index t (0 : Fin 2) * 6000 + 1 * (y 0).val = (y 0).val; rw [e0]; omega
  | ⟨1, _⟩ => show win1_1.index t (1 : Fin 2) * 512 + 1 * (y 1).val = (y 1).val; rw [e1]; omega

/-- The row scales' tile at point t: rows 400·t … of the column of scales. -/
theorem iblk1_2_apply (c : Dev nD) (t : Fin cfg1.N) (p : Fin 400) (r : Fin 6000) (hr : r.val = 400 * t.val + p.val) :
    (iblk1 V c 2 t : Vec Ideal S400x1 .f32) (ix2 p (0 : Fin 1)) = (V c main_v27 : S6000x1.Idx → EReal) (ix2 r (0 : Fin 1)) := by
  obtain ⟨e0, e1⟩ := (idx_facts1 t).2.2.1
  unfold iblk1
  rw [View.read_apply]
  show V c main_v27 _ = V c main_v27 _
  refine congrArg (V c main_v27) (funext fun a => Fin.ext ?_)
  match a with
  | ⟨0, _⟩ => show win1_2.index t (0 : Fin 2) * 400 + 1 * p.val = r.val; rw [e0, hr]; omega
  | ⟨1, _⟩ => show win1_2.index t (1 : Fin 2) * 1 + 1 * 0 = 0; rw [e1]

/-- The first weights' one block is the array. -/
theorem iblk1_3_eq (c : Dev nD) (t : Fin cfg1.N) :
    (iblk1 V c 3 t : Vec Ideal S512x512 .bf16) = (V c main_v46 : S512x512.Idx → EReal) := by
  obtain ⟨e0, e1⟩ := (idx_facts1 t).2.2.2.1
  funext y
  unfold iblk1
  rw [View.read_apply]
  show V c main_v46 _ = V c main_v46 y
  refine congrArg (V c main_v46) (funext fun a => Fin.ext ?_)
  match a with
  | ⟨0, _⟩ => show win1_3.index t (0 : Fin 2) * 512 + 1 * (y 0).val = (y 0).val; rw [e0]; omega
  | ⟨1, _⟩ => show win1_3.index t (1 : Fin 2) * 512 + 1 * (y 1).val = (y 1).val; rw [e1]; omega

/-- The first bias's one block is the array. -/
theorem iblk1_4_eq (c : Dev nD) (t : Fin cfg1.N) :
    (iblk1 V c 4 t : Vec Ideal S1x512 .f32) = (V c main_v49 : S1x512.Idx → EReal) := by
  obtain ⟨e0, e1⟩ := (idx_facts1 t).2.2.2.2.1
  funext y
  unfold iblk1
  rw [View.read_apply]
  show V c main_v49 _ = V c main_v49 y
  refine congrArg (V c main_v49) (funext fun a => Fin.ext ?_)
  match a with
  | ⟨0, _⟩ => show win1_4.index t (0 : Fin 2) * 1 + 1 * (y 0).val = (y 0).val; rw [e0]; omega
  | ⟨1, _⟩ => show win1_4.index t (1 : Fin 2) * 512 + 1 * (y 1).val = (y 1).val; rw [e1]; omega

/-- The second weights' one block is the array. -/
theorem iblk1_5_eq (c : Dev nD) (t : Fin cfg1.N) :
    (iblk1 V c 5 t : Vec Ideal S512x512 .bf16) = (V c main_v51 : S512x512.Idx → EReal) := by
  obtain ⟨e0, e1⟩ := (idx_facts1 t).2.2.2.2.2.1
  funext y
  unfold iblk1
  rw [View.read_apply]
  show V c main_v51 _ = V c main_v51 y
  refine congrArg (V c main_v51) (funext fun a => Fin.ext ?_)
  match a with
  | ⟨0, _⟩ => show win1_5.index t (0 : Fin 2) * 512 + 1 * (y 0).val = (y 0).val; rw [e0]; omega
  | ⟨1, _⟩ => show win1_5.index t (1 : Fin 2) * 512 + 1 * (y 1).val = (y 1).val; rw [e1]; omega

/-- The second bias's one block is the array. -/
theorem iblk1_6_eq (c : Dev nD) (t : Fin cfg1.N) :
    (iblk1 V c 6 t : Vec Ideal S1x512 .f32) = (V c main_v54 : S1x512.Idx → EReal) := by
  obtain ⟨e0, e1⟩ := (idx_facts1 t).2.2.2.2.2.2.1
  funext y
  unfold iblk1
  rw [View.read_apply]
  show V c main_v54 _ = V c main_v54 y
  refine congrArg (V c main_v54) (funext fun a => Fin.ext ?_)
  match a with
  | ⟨0, _⟩ => show win1_6.index t (0 : Fin 2) * 1 + 1 * (y 0).val = (y 0).val; rw [e0]; omega
  | ⟨1, _⟩ => show win1_6.index t (1 : Fin 2) * 512 + 1 * (y 1).val = (y 1).val; rw [e1]; omega

/-- The incoming sum's tile at point t: rows 400·t … of the incoming sum. -/
theorem iblk1_7_apply (c : Dev nD) (t : Fin cfg1.N) (p : Fin 400) (q : Fin 512) (r : Fin 6000) (hr : r.val = 400 * t.val + p.val) :
    (iblk1 V c 7 t : Vec Ideal S400x512 .f32) (ix2 p q) = (V c main_v44_1 : S6000x512.Idx → EReal) (ix2 r q) := by
  obtain ⟨e0, e1⟩ := (idx_facts1 t).2.2.2.2.2.2.2.1
  unfold iblk1
  rw [View.read_apply]
  show V c main_v44_1 _ = V c main_v44_1 _
  refine congrArg (V c main_v44_1) (funext fun a => Fin.ext ?_)
  match a with
  | ⟨0, _⟩ => show win1_7.index t (0 : Fin 2) * 400 + 1 * p.val = r.val; rw [e0, hr]; omega
  | ⟨1, _⟩ => show win1_7.index t (1 : Fin 2) * 512 + 1 * q.val = q.val; rw [e1]; omega

/-! ## What a point writes back is a block of the whole-array function -/

/-- The new features of the region's arrays. -/
abbrev F1 (c : Dev nD) : S6000x512.Idx → EReal :=
  featArr (n := 6000) (V c main_v28) (V c main_v57) (V c main_v27) (V c main_v46) (V c main_v49)

/-- The running sum after the layer, of the region's arrays. -/
abbrev G1 (c : Dev nD) : S6000x512.Idx → EReal :=
  fsumArr (n := 6000) (F1 V c) (V c main_v51) (V c main_v54) (V c main_v44_1)

/-- Row p of the tile-sized new features of the blocks at point t is row 400·t + p of the whole-array new features. -/
theorem feat_blk1 (c : Dev nD) (t : Fin cfg1.N) (p : Fin 400) (q : Fin 512) (r : Fin 6000) (hr : r.val = 400 * t.val + p.val) :
    featArr (n := 400) (iblk1 V c 0 t) (iblk1 V c 1 t) (iblk1 V c 2 t) (iblk1 V c 3 t) (iblk1 V c 4 t) (ix2 p q) = F1 V c (ix2 r q) :=
  featArr_rows (n := 400) (n' := 6000) (iblk1 V c 0 t) (V c main_v28) (iblk1 V c 1 t) (V c main_v57) (iblk1 V c 2 t) (V c main_v27)
    (iblk1 V c 3 t) (V c main_v46) (iblk1 V c 4 t) (V c main_v49) p r q
    (fun j => iblk1_0_apply V c t p j r hr) (iblk1_1_eq V c t) (iblk1_2_apply V c t p r hr) (iblk1_3_eq V c t) (iblk1_4_eq V c t)

/-- Point t writes back, into the new-feature array, the block of the whole-array new features. -/
theorem flushed1_8 (c : Dev nD) (t : Fin cfg1.N) :
    (dat1 (F := Ideal) V c).flushed 8 t = ((cfg1.win 8).blk t).view.read (Elt Ideal) (F1 V c) := by
  obtain ⟨e0, e1⟩ := (idx_facts1 t).2.2.2.2.2.2.2.2.1
  have ht := t_lt1 t
  show (cfg1.win 8).cut (grid1.coords t) ((dat1 (F := Ideal) V c).after 8 t) = _
  rw [after1_8]
  funext y
  have hp : (y 0).val < 400 := (y 0).isLt
  have hq : (y 1).val < 512 := (y 1).isLt
  have hr : 400 * t.val + (y 0).val < 6000 := by omega
  have hy : (cfg1.win 8).xinj (grid1.coords t) y = ix2 (⟨(y 0).val, hp⟩ : Fin 400) (⟨(y 1).val, hq⟩ : Fin 512) :=
    funext fun a => by match a with | ⟨0, _⟩ => rfl | ⟨1, _⟩ => rfl
  have he : ((cfg1.win 8).blk t).view.emb y = ix2 (⟨400 * t.val + (y 0).val, hr⟩ : Fin 6000) (⟨(y 1).val, hq⟩ : Fin 512) :=
    funext fun a => Fin.ext (by
      match a with
      | ⟨0, _⟩ => show win1_8.index t (0 : Fin 2) * 400 + 1 * (y 0).val = 400 * t.val + (y 0).val; rw [e0]; omega
      | ⟨1, _⟩ => show win1_8.index t (1 : Fin 2) * 512 + 1 * (y 1).val = (y 1).val; rw [e1]; omega)
  rw [View.read_apply]
  show out1_8 (F := Ideal) (iblk1 V c 0 t) (iblk1 V c 1 t) (iblk1 V c 2 t) (iblk1 V c 3 t) (iblk1 V c 4 t) ((cfg1.win 8).xinj (grid1.coords t) y)
    = F1 V c (((cfg1.win 8).blk t).view.emb y)
  refine (congrArg (out1_8 (F := Ideal) (iblk1 V c 0 t) (iblk1 V c 1 t) (iblk1 V c 2 t) (iblk1 V c 3 t) (iblk1 V c 4 t)) hy).trans ?_
  refine (out1_8_apply (iblk1 V c 0 t) (iblk1 V c 1 t) (iblk1 V c 2 t) (iblk1 V c 3 t) (iblk1 V c 4 t) ⟨(y 0).val, hp⟩ ⟨(y 1).val, hq⟩).trans ?_
  refine (feat_blk1 V c t ⟨(y 0).val, hp⟩ ⟨(y 1).val, hq⟩ ⟨400 * t.val + (y 0).val, hr⟩ rfl).trans ?_
  exact (congrArg (F1 V c) he).symm

/-- Row p of the tile-sized running sum of the blocks at point t is row 400·t + p of the whole-array running sum. -/
theorem fsum_blk1 (c : Dev nD) (t : Fin cfg1.N) (p : Fin 400) (q : Fin 512) (r : Fin 6000) (hr : r.val = 400 * t.val + p.val) :
    fsumArr (n := 400) (featArr (n := 400) (iblk1 V c 0 t) (iblk1 V c 1 t) (iblk1 V c 2 t) (iblk1 V c 3 t) (iblk1 V c 4 t))
        (iblk1 V c 5 t) (iblk1 V c 6 t) (iblk1 V c 7 t) (ix2 p q) = G1 V c (ix2 r q) :=
  fsumArr_rows (n := 400) (n' := 6000)
    (featArr (n := 400) (iblk1 V c 0 t) (iblk1 V c 1 t) (iblk1 V c 2 t) (iblk1 V c 3 t) (iblk1 V c 4 t)) (F1 V c)
    (iblk1 V c 5 t) (V c main_v51) (iblk1 V c 6 t) (V c main_v54) (iblk1 V c 7 t) (V c main_v44_1) p r q
    (fun k => feat_blk1 V c t p k r hr) (iblk1_5_eq V c t) (iblk1_6_eq V c t) (iblk1_7_apply V c t p q r hr)

/-- Point t writes back, into the running-sum array, the block of the whole-array running sum. -/
theorem flushed1_9 (c : Dev nD) (t : Fin cfg1.N) :
    (dat1 (F := Ideal) V c).flushed 9 t = ((cfg1.win 9).blk t).view.read (Elt Ideal) (G1 V c) := by
  obtain ⟨e0, e1⟩ := (idx_facts1 t).2.2.2.2.2.2.2.2.2
  have ht := t_lt1 t
  show (cfg1.win 9).cut (grid1.coords t) ((dat1 (F := Ideal) V c).after 9 t) = _
  rw [after1_9]
  funext y
  have hp : (y 0).val < 400 := (y 0).isLt
  have hq : (y 1).val < 512 := (y 1).isLt
  have hr : 400 * t.val + (y 0).val < 6000 := by omega
  have hy : (cfg1.win 9).xinj (grid1.coords t) y = ix2 (⟨(y 0).val, hp⟩ : Fin 400) (⟨(y 1).val, hq⟩ : Fin 512) :=
    funext fun a => by match a with | ⟨0, _⟩ => rfl | ⟨1, _⟩ => rfl
  have he : ((cfg1.win 9).blk t).view.emb y = ix2 (⟨400 * t.val + (y 0).val, hr⟩ : Fin 6000) (⟨(y 1).val, hq⟩ : Fin 512) :=
    funext fun a => Fin.ext (by
      match a with
      | ⟨0, _⟩ => show win1_9.index t (0 : Fin 2) * 400 + 1 * (y 0).val = 400 * t.val + (y 0).val; rw [e0]; omega
      | ⟨1, _⟩ => show win1_9.index t (1 : Fin 2) * 512 + 1 * (y 1).val = (y 1).val; rw [e1]; omega)
  rw [View.read_apply]
  show out1_9 (F := Ideal) (iblk1 V c 0 t) (iblk1 V c 1 t) (iblk1 V c 2 t) (iblk1 V c 3 t) (iblk1 V c 4 t) (iblk1 V c 5 t) (iblk1 V c 6 t)
      (iblk1 V c 7 t) ((cfg1.win 9).xinj (grid1.coords t) y)
    = G1 V c (((cfg1.win 9).blk t).view.emb y)
  refine (congrArg (out1_9 (F := Ideal) (iblk1 V c 0 t) (iblk1 V c 1 t) (iblk1 V c 2 t) (iblk1 V c 3 t) (iblk1 V c 4 t) (iblk1 V c 5 t)
    (iblk1 V c 6 t) (iblk1 V c 7 t)) hy).trans ?_
  refine (out1_9_apply (iblk1 V c 0 t) (iblk1 V c 1 t) (iblk1 V c 2 t) (iblk1 V c 3 t) (iblk1 V c 4 t) (iblk1 V c 5 t) (iblk1 V c 6 t)
    (iblk1 V c 7 t) ⟨(y 0).val, hp⟩ ⟨(y 1).val, hq⟩).trans ?_
  refine (fsum_blk1 V c t ⟨(y 0).val, hp⟩ ⟨(y 1).val, hq⟩ ⟨400 * t.val + (y 0).val, hr⟩ rfl).trans ?_
  exact (congrArg (G1 V c) he).symm

/-! ## The tiles cover the arrays -/

/-- An index of the new-feature array is in point t's block iff each coordinate is in the block's range. -/
theorem mem_blk1_8 (t : Fin cfg1.N) (i : S6000x512.Idx) :
    i ∈ ((cfg1.win 8).blk t).view.set
      ↔ ∀ a : Fin 2, win1_8.index t a * S400x512.size a ≤ (i a).val ∧ (i a).val < win1_8.index t a * S400x512.size a + S400x512.size a := by
  show i ∈ ((View.whole main_v58_0).slice (win1_8.rect t)).set ↔ _
  rw [View.set_slice_whole, Rect.mem_set_unit]
  exact Iff.rfl

/-- An index of the running-sum array is in point t's block iff each coordinate is in the block's range. -/
theorem mem_blk1_9 (t : Fin cfg1.N) (i : S6000x512.Idx) :
    i ∈ ((cfg1.win 9).blk t).view.set
      ↔ ∀ a : Fin 2, win1_9.index t a * S400x512.size a ≤ (i a).val ∧ (i a).val < win1_9.index t a * S400x512.size a + S400x512.size a := by
  show i ∈ ((View.whole main_v58_1).slice (win1_9.rect t)).set ↔ _
  rw [View.set_slice_whole, Rect.mem_set_unit]
  exact Iff.rfl

/-- Row r of the new-feature array is written by point r / 400. -/
theorem cover1_8 (i : S6000x512.Idx) : ∃ t : Fin cfg1.N, (cfg1.win 8).flush t = true ∧ i ∈ ((cfg1.win 8).blk t).view.set := by
  have h0 : (i 0).val < 6000 := (i 0).isLt
  have h1 : (i 1).val < 512 := (i 1).isLt
  have hN : cfg1.N = 15 := N_1
  have hlt : (i 0).val / 400 < cfg1.N := by rw [hN]; omega
  obtain ⟨e0, e1⟩ := (idx_facts1 ⟨(i 0).val / 400, hlt⟩).2.2.2.2.2.2.2.2.1
  have e0' : win1_8.index ⟨(i 0).val / 400, hlt⟩ (0 : Fin 2) = (i 0).val / 400 := e0
  refine ⟨⟨(i 0).val / 400, hlt⟩, flush1_8 _, ?_⟩
  rw [mem_blk1_8]
  intro a
  match a with
  | ⟨0, _⟩ =>
    show win1_8.index ⟨(i 0).val / 400, hlt⟩ (0 : Fin 2) * 400 ≤ (i 0).val
      ∧ (i 0).val < win1_8.index ⟨(i 0).val / 400, hlt⟩ (0 : Fin 2) * 400 + 400
    rw [e0']; omega
  | ⟨1, _⟩ =>
    show win1_8.index ⟨(i 0).val / 400, hlt⟩ (1 : Fin 2) * 512 ≤ (i 1).val
      ∧ (i 1).val < win1_8.index ⟨(i 0).val / 400, hlt⟩ (1 : Fin 2) * 512 + 512
    rw [e1]; omega

/-- Row r of the running-sum array is written by point r / 400. -/
theorem cover1_9 (i : S6000x512.Idx) : ∃ t : Fin cfg1.N, (cfg1.win 9).flush t = true ∧ i ∈ ((cfg1.win 9).blk t).view.set := by
  have h0 : (i 0).val < 6000 := (i 0).isLt
  have h1 : (i 1).val < 512 := (i 1).isLt
  have hN : cfg1.N = 15 := N_1
  have hlt : (i 0).val / 400 < cfg1.N := by rw [hN]; omega
  obtain ⟨e0, e1⟩ := (idx_facts1 ⟨(i 0).val / 400, hlt⟩).2.2.2.2.2.2.2.2.2
  have e0' : win1_9.index ⟨(i 0).val / 400, hlt⟩ (0 : Fin 2) = (i 0).val / 400 := e0
  refine ⟨⟨(i 0).val / 400, hlt⟩, flush1_9 _, ?_⟩
  rw [mem_blk1_9]
  intro a
  match a with
  | ⟨0, _⟩ =>
    show win1_9.index ⟨(i 0).val / 400, hlt⟩ (0 : Fin 2) * 400 ≤ (i 0).val
      ∧ (i 0).val < win1_9.index ⟨(i 0).val / 400, hlt⟩ (0 : Fin 2) * 400 + 400
    rw [e0']; omega
  | ⟨1, _⟩ =>
    show win1_9.index ⟨(i 0).val / 400, hlt⟩ (1 : Fin 2) * 512 ≤ (i 1).val
      ∧ (i 1).val < win1_9.index ⟨(i 0).val / 400, hlt⟩ (1 : Fin 2) * 512 + 512
    rw [e1]; omega

/-! ## The two result arrays after the region -/

/-- The new-feature array after the region is the layer's new features of the arrays the region found. -/
theorem arr1_8 (c : Dev nD) : (dat1 (F := Ideal) V c).arrAt 8 cfg1.N
    = featArr (n := 6000) (V c main_v28) (V c main_v57) (V c main_v27) (V c main_v46) (V c main_v49) :=
  (dat1 (F := Ideal) V c).arrAt_eq_of_cover 8 (F1 V c) (fun t _ => flushed1_8 V c t) cover1_8

/-- The running-sum array after the region is the incoming sum plus the layer's contribution. -/
theorem arr1_9 (c : Dev nD) : (dat1 (F := Ideal) V c).arrAt 9 cfg1.N
    = fsumArr (n := 6000) (featArr (n := 6000) (V c main_v28) (V c main_v57) (V c main_v27) (V c main_v46) (V c main_v49))
        (V c main_v51) (V c main_v54) (V c main_v44_1) :=
  (dat1 (F := Ideal) V c).arrAt_eq_of_cover 9 (G1 V c) (fun t _ => flushed1_9 V c t) cover1_9

end Cert.KernelIdeal.Hand

end
-- ==== Proof.KIValue.lean ====
/-
  The kernel program's value: what its two regions, and the host stretches around them, leave in the three result
  buffers — two graph-convolution layers of the argument arrays, the propagation grouped as the kernel groups it
  (the features' rows scaled by the degree factors, the raw adjacency applied, the rows scaled again).

  The buffer contents at each boundary of the run are read back one boundary at a time. Before the first region:
  the adjacency, the degree factors and the stacked features are the three shared values of the arguments; the
  weights and biases are slices of the arguments; the pre-scaled features are the degree factor times the feature.
  The first region leaves the first layer's new features and running sum. Between the regions the same slices are
  taken for layer 1 and the new features are pre-scaled. The second region leaves the second layer's running sum,
  which the last stretch cuts into three row bands.
-/
import proofs.«102648_j56324201120496_1_alg».proof.Proof.KIRun
import proofs.«102648_j56324201120496_1_alg».proof.Proof.KIHostA
import proofs.«102648_j56324201120496_1_alg».proof.Proof.KIHostB
import proofs.«102648_j56324201120496_1_alg».proof.Proof.KIArr0
import proofs.«102648_j56324201120496_1_alg».proof.Proof.KIArr1
import proofs.«102648_j56324201120496_1_alg».proof.Proof.GcnSpec

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo
open Idealize.ShloMosaic.Pipeline (Dat)
open Cert.GcnSpec Idealize.ShloMosaic.ValueIdx

/-! ## A layer's two arrays read at a row and a column -/

/-- The new-features array at `(r, k)`, its operands given coordinate by coordinate. -/
theorem featArr_apply_of {n : ℕ} (a : (⟨2, ![n, 6000]⟩ : Shape).Idx → EReal) (xs : (⟨2, ![6000, 512]⟩ : Shape).Idx → EReal)
    (dc : (⟨2, ![n, 1]⟩ : Shape).Idx → EReal) (w : (⟨2, ![512, 512]⟩ : Shape).Idx → EReal) (b : (⟨2, ![1, 512]⟩ : Shape).Idx → EReal)
    (A : Fin n → Fin 6000 → EReal) (Xs : Fin 6000 → Fin 512 → EReal) (dr : Fin n → EReal) (W : Fin 512 → Fin 512 → EReal) (bb : Fin 512 → EReal)
    (hA : ∀ r j, a (ix2 r j) = A r j) (hX : ∀ j k, xs (ix2 j k) = Xs j k) (hd : ∀ r, dc (ix2 r (0 : Fin 1)) = dr r)
    (hW : ∀ k f, w (ix2 k f) = W k f) (hb : ∀ f, b (ix2 (0 : Fin 1) f) = bb f) (r : Fin n) (k : Fin 512) :
    featArr a xs dc w b (ix2 r k) = feat (zRows A Xs dr) W bb r k := by
  have e1 : (fun r j => a (ix2 r j)) = A := funext fun r => funext fun j => hA r j
  have e2 : (fun j k => xs (ix2 j k)) = Xs := funext fun j => funext fun k => hX j k
  have e3 : (fun r => dc (ix2 r (0 : Fin 1))) = dr := funext fun r => hd r
  have e4 : (fun k f => w (ix2 k f)) = W := funext fun k => funext fun f => hW k f
  have e5 : (fun f => b (ix2 (0 : Fin 1) f)) = bb := funext fun f => hb f
  show feat (zRows (fun r j => a (ix2 r j)) (fun j k => xs (ix2 j k)) (fun r => dc (ix2 r (0 : Fin 1))))
    (fun k f => w (ix2 k f)) (fun f => b (ix2 (0 : Fin 1) f)) r k = _
  rw [e1, e2, e3, e4, e5]

/-- The running-sum array at `(r, f)`, its operands given coordinate by coordinate. -/
theorem fsumArr_apply_of {n : ℕ} (fe : (⟨2, ![n, 512]⟩ : Shape).Idx → EReal) (w : (⟨2, ![512, 512]⟩ : Shape).Idx → EReal)
    (b : (⟨2, ![1, 512]⟩ : Shape).Idx → EReal) (s : (⟨2, ![n, 512]⟩ : Shape).Idx → EReal)
    (Fe : Fin n → Fin 512 → EReal) (W : Fin 512 → Fin 512 → EReal) (bb : Fin 512 → EReal) (S : Fin n → Fin 512 → EReal)
    (hF : ∀ r k, fe (ix2 r k) = Fe r k) (hW : ∀ k f, w (ix2 k f) = W k f) (hb : ∀ f, b (ix2 (0 : Fin 1) f) = bb f)
    (hS : ∀ r f, s (ix2 r f) = S r f) (r : Fin n) (f : Fin 512) :
    fsumArr fe w b s (ix2 r f) = fsum Fe W bb S r f := by
  have e1 : (fun r k => fe (ix2 r k)) = Fe := funext fun r => funext fun k => hF r k
  have e2 : (fun k f => w (ix2 k f)) = W := funext fun k => funext fun f => hW k f
  have e3 : (fun f => b (ix2 (0 : Fin 1) f)) = bb := funext fun f => hb f
  have e4 : (fun r f => s (ix2 r f)) = S := funext fun r => funext fun f => hS r f
  show fsum (fun r k => fe (ix2 r k)) (fun k f => w (ix2 k f)) (fun f => b (ix2 (0 : Fin 1) f)) (fun r f => s (ix2 r f)) r f = _
  rw [e1, e2, e3, e4]

variable (m : (ℓ : Loc nD τ sig) → Buf (Elt Ideal) ℓ) (ρ : Dev nD → PrngReg) (c : Dev nD)

/-! ## The kernel's operands as functions of coordinates, and its value -/

/-- The dense adjacency, -/
abbrev kAdj : Fin 6000 → Fin 6000 → EReal := fun r j => adjT (m ((c : Thread nD τ).loc main_arg3)) (m ((c : Thread nD τ).loc main_arg8)) (ix2 r j)
/-- the degree factors, -/
abbrev kDeg : Fin 6000 → EReal := fun r => dT (m ((c : Thread nD τ).loc main_arg3)) (m ((c : Thread nD τ).loc main_arg8)) (ix1 r)
/-- the stacked node features, -/
abbrev kX : Fin 6000 → Fin 512 → EReal := fun r k => x0T (m ((c : Thread nD τ).loc main_arg0)) (m ((c : Thread nD τ).loc main_arg1)) (m ((c : Thread nD τ).loc main_arg2)) (ix2 r k)
/-- layer `l`'s first-projection weights and bias, -/
abbrev kW (l : Fin 2) : Fin 512 → Fin 512 → EReal := fun k f => (m ((c : Thread nD τ).loc main_arg4)) (ix3 l k f)
abbrev kB (l : Fin 2) : Fin 512 → EReal := fun f => (m ((c : Thread nD τ).loc main_arg5)) (ix2 l f)
/-- and its second-projection weights and bias, of the arguments on core `c`. -/
abbrev kWf (l : Fin 2) : Fin 512 → Fin 512 → EReal := fun k f => (m ((c : Thread nD τ).loc main_arg6)) (ix3 l k f)
abbrev kBf (l : Fin 2) : Fin 512 → EReal := fun f => (m ((c : Thread nD τ).loc main_arg7)) (ix2 l f)

/-- The kernel program's value: two layers over the propagation that scales the features' rows, applies the raw
    adjacency and scales the rows again. -/
def kOut : Fin 6000 → Fin 512 → EReal :=
  Cert.GcnSpec.twoLayer
    (Cert.GcnSpec.zScaled (fun r j => adjT (m ((c : Thread nD τ).loc main_arg3)) (m ((c : Thread nD τ).loc main_arg8)) (ix2 r j)) (fun r => dT (m ((c : Thread nD τ).loc main_arg3)) (m ((c : Thread nD τ).loc main_arg8)) (ix1 r)))
    (fun r k => x0T (m ((c : Thread nD τ).loc main_arg0)) (m ((c : Thread nD τ).loc main_arg1)) (m ((c : Thread nD τ).loc main_arg2)) (ix2 r k))
    (fun k f => (m ((c : Thread nD τ).loc main_arg4)) (ix3 (0 : Fin 2) k f)) (fun f => (m ((c : Thread nD τ).loc main_arg5)) (ix2 (0 : Fin 2) f))
    (fun k f => (m ((c : Thread nD τ).loc main_arg6)) (ix3 (0 : Fin 2) k f)) (fun f => (m ((c : Thread nD τ).loc main_arg7)) (ix2 (0 : Fin 2) f))
    (fun k f => (m ((c : Thread nD τ).loc main_arg4)) (ix3 (1 : Fin 2) k f)) (fun f => (m ((c : Thread nD τ).loc main_arg5)) (ix2 (1 : Fin 2) f))
    (fun k f => (m ((c : Thread nD τ).loc main_arg6)) (ix3 (1 : Fin 2) k f)) (fun f => (m ((c : Thread nD τ).loc main_arg7)) (ix2 (1 : Fin 2) f))

/-- The first layer's new features -/
abbrev kFe0 : Fin 6000 → Fin 512 → EReal := feat (zScaled (kAdj m c) (kDeg m c) (kX m c)) (kW m c 0) (kB m c 0)
/-- and running sum. -/
abbrev kS0 : Fin 6000 → Fin 512 → EReal := fsum (kFe0 m c) (kWf m c 0) (kBf m c 0) (kX m c)

theorem kOut_eq : kOut m c
    = fsum (feat (zScaled (kAdj m c) (kDeg m c) (kFe0 m c)) (kW m c 1) (kB m c 1)) (kWf m c 1) (kBf m c 1) (kS0 m c) := rfl

/-! ## Before the first region -/

theorem W4_v26 : W4 m ρ c (Proc.devRef .tc main_v26) = dT (m ((c : Thread nD τ).loc main_arg3)) (m ((c : Thread nD τ).loc main_arg8)) := fold3_v26 (W0 m ρ c)

theorem W4_v20 : W4 m ρ c (Proc.devRef .tc main_v20) = adjT (m ((c : Thread nD τ).loc main_arg3)) (m ((c : Thread nD τ).loc main_arg8)) :=
  calc W4 m ρ c (Proc.devRef .tc main_v20)
    _ = W3 m ρ c (Proc.devRef .tc main_v20) := after_of_writes_sub hostOps0_3 _ hostOps0_3_writes (by decide)
    _ = W2 m ρ c (Proc.devRef .tc main_v20) := after_of_writes_sub hostOps0_2 _ hostOps0_2_writes (by decide)
    _ = W1 m ρ c (Proc.devRef .tc main_v20) := after_of_writes_sub hostOps0_1 _ hostOps0_1_writes (by decide)
    _ = adjT (m ((c : Thread nD τ).loc main_arg3)) (m ((c : Thread nD τ).loc main_arg8)) := fold0_v20 (W0 m ρ c)

theorem W4_v0 : W4 m ρ c (Proc.devRef .tc main_v0) = x0T (m ((c : Thread nD τ).loc main_arg0)) (m ((c : Thread nD τ).loc main_arg1)) (m ((c : Thread nD τ).loc main_arg2)) :=
  calc W4 m ρ c (Proc.devRef .tc main_v0)
    _ = W3 m ρ c (Proc.devRef .tc main_v0) := after_of_writes_sub hostOps0_3 _ hostOps0_3_writes (by decide)
    _ = W2 m ρ c (Proc.devRef .tc main_v0) := after_of_writes_sub hostOps0_2 _ hostOps0_2_writes (by decide)
    _ = W1 m ρ c (Proc.devRef .tc main_v0) := after_of_writes_sub hostOps0_1 _ hostOps0_1_writes (by decide)
    _ = x0T (m ((c : Thread nD τ).loc main_arg0)) (m ((c : Thread nD τ).loc main_arg1)) (m ((c : Thread nD τ).loc main_arg2)) := fold0_v0 (W0 m ρ c)

theorem W4_arg4 : W4 m ρ c (Proc.devRef .tc main_arg4) = (m ((c : Thread nD τ).loc main_arg4)) :=
  calc W4 m ρ c (Proc.devRef .tc main_arg4)
    _ = W3 m ρ c (Proc.devRef .tc main_arg4) := after_of_writes_sub hostOps0_3 _ hostOps0_3_writes (by decide)
    _ = W2 m ρ c (Proc.devRef .tc main_arg4) := after_of_writes_sub hostOps0_2 _ hostOps0_2_writes (by decide)
    _ = W1 m ρ c (Proc.devRef .tc main_arg4) := after_of_writes_sub hostOps0_1 _ hostOps0_1_writes (by decide)
    _ = W0 m ρ c (Proc.devRef .tc main_arg4) := after_of_writes_sub hostOps0 _ hostOps0_writes (by decide)
    _ = (m ((c : Thread nD τ).loc main_arg4)) := rfl

theorem W4_arg5 : W4 m ρ c (Proc.devRef .tc main_arg5) = (m ((c : Thread nD τ).loc main_arg5)) :=
  calc W4 m ρ c (Proc.devRef .tc main_arg5)
    _ = W3 m ρ c (Proc.devRef .tc main_arg5) := after_of_writes_sub hostOps0_3 _ hostOps0_3_writes (by decide)
    _ = W2 m ρ c (Proc.devRef .tc main_arg5) := after_of_writes_sub hostOps0_2 _ hostOps0_2_writes (by decide)
    _ = W1 m ρ c (Proc.devRef .tc main_arg5) := after_of_writes_sub hostOps0_1 _ hostOps0_1_writes (by decide)
    _ = W0 m ρ c (Proc.devRef .tc main_arg5) := after_of_writes_sub hostOps0 _ hostOps0_writes (by decide)
    _ = (m ((c : Thread nD τ).loc main_arg5)) := rfl

theorem W4_arg6 : W4 m ρ c (Proc.devRef .tc main_arg6) = (m ((c : Thread nD τ).loc main_arg6)) :=
  calc W4 m ρ c (Proc.devRef .tc main_arg6)
    _ = W3 m ρ c (Proc.devRef .tc main_arg6) := after_of_writes_sub hostOps0_3 _ hostOps0_3_writes (by decide)
    _ = W2 m ρ c (Proc.devRef .tc main_arg6) := after_of_writes_sub hostOps0_2 _ hostOps0_2_writes (by decide)
    _ = W1 m ρ c (Proc.devRef .tc main_arg6) := after_of_writes_sub hostOps0_1 _ hostOps0_1_writes (by decide)
    _ = W0 m ρ c (Proc.devRef .tc main_arg6) := after_of_writes_sub hostOps0 _ hostOps0_writes (by decide)
    _ = (m ((c : Thread nD τ).loc main_arg6)) := rfl

theorem W4_arg7 : W4 m ρ c (Proc.devRef .tc main_arg7) = (m ((c : Thread nD τ).loc main_arg7)) :=
  calc W4 m ρ c (Proc.devRef .tc main_arg7)
    _ = W3 m ρ c (Proc.devRef .tc main_arg7) := after_of_writes_sub hostOps0_3 _ hostOps0_3_writes (by decide)
    _ = W2 m ρ c (Proc.devRef .tc main_arg7) := after_of_writes_sub hostOps0_2 _ hostOps0_2_writes (by decide)
    _ = W1 m ρ c (Proc.devRef .tc main_arg7) := after_of_writes_sub hostOps0_1 _ hostOps0_1_writes (by decide)
    _ = W0 m ρ c (Proc.devRef .tc main_arg7) := after_of_writes_sub hostOps0 _ hostOps0_writes (by decide)
    _ = (m ((c : Thread nD τ).loc main_arg7)) := rfl

/-- The adjacency window's array at region 0's entry. -/
theorem V5_v28 (r j : Fin 6000) : V5 m ρ c main_v28 (ix2 r j) = kAdj m c r j :=
  (h4_v28_apply (W4 m ρ c) r j).trans (congrFun (W4_v20 m ρ c) _)

/-- The degree factors' column. -/
theorem V5_v27 (r : Fin 6000) (u : Fin 1) : V5 m ρ c main_v27 (ix2 r u) = kDeg m c r :=
  (h4_v27_apply (W4 m ρ c) r u).trans (congrFun (W4_v26 m ρ c) _)

/-- The pre-scaled features. -/
theorem V5_v43 (j : Fin 6000) (k : Fin 512) : V5 m ρ c main_v43 (ix2 j k) = kDeg m c j * kX m c j k :=
  (h4_v43_apply (W4 m ρ c) j k).trans
    (congrArg₂ (@HMul.hMul EReal EReal EReal instHMul) (congrFun (W4_v26 m ρ c) (ix1 j)) (congrFun (W4_v0 m ρ c) (ix2 j k)))

theorem V5_v32 (k f : Fin 512) : V5 m ρ c main_v32 (ix2 k f) = kW m c 0 k f :=
  (h4_v32_apply (W4 m ρ c) k f).trans (congrFun (W4_arg4 m ρ c) _)
theorem V5_v35 (u : Fin 1) (f : Fin 512) : V5 m ρ c main_v35 (ix2 u f) = kB m c 0 f :=
  (h4_v35_apply (W4 m ρ c) u f).trans (congrFun (W4_arg5 m ρ c) _)
theorem V5_v37 (k f : Fin 512) : V5 m ρ c main_v37 (ix2 k f) = kWf m c 0 k f :=
  (h4_v37_apply (W4 m ρ c) k f).trans (congrFun (W4_arg6 m ρ c) _)
theorem V5_v40 (u : Fin 1) (f : Fin 512) : V5 m ρ c main_v40 (ix2 u f) = kBf m c 0 f :=
  (h4_v40_apply (W4 m ρ c) u f).trans (congrFun (W4_arg7 m ρ c) _)
/-- The incoming running sum: the node features. -/
theorem V5_v0 (r : Fin 6000) (f : Fin 512) : V5 m ρ c main_v0 (ix2 r f) = kX m c r f :=
  (congrFun (after_of_writes_sub hostOps0_4 (W4 m ρ c) hostOps0_4_writes (by decide) : W5 m ρ c (Proc.devRef .tc main_v0) = W4 m ρ c (Proc.devRef .tc main_v0)) _).trans
    (congrFun (W4_v0 m ρ c) _)
/-- The stacked weights, kept for layer 1. -/
theorem W5_v29 (l : Fin 2) (k f : Fin 512) : W5 m ρ c (Proc.devRef .tc main_v29) (ix3 l k f) = kW m c l k f :=
  (h4_v29_apply (W4 m ρ c) l k f).trans (congrFun (W4_arg4 m ρ c) _)
theorem W5_v30 (l : Fin 2) (k f : Fin 512) : W5 m ρ c (Proc.devRef .tc main_v30) (ix3 l k f) = kWf m c l k f :=
  (h4_v30_apply (W4 m ρ c) l k f).trans (congrFun (W4_arg6 m ρ c) _)
theorem W5_arg5 : W5 m ρ c (Proc.devRef .tc main_arg5) = (m ((c : Thread nD τ).loc main_arg5)) :=
  (after_of_writes_sub hostOps0_4 (W4 m ρ c) hostOps0_4_writes (by decide)).trans (W4_arg5 m ρ c)
theorem W5_arg7 : W5 m ρ c (Proc.devRef .tc main_arg7) = (m ((c : Thread nD τ).loc main_arg7)) :=
  (after_of_writes_sub hostOps0_4 (W4 m ρ c) hostOps0_4_writes (by decide)).trans (W4_arg7 m ρ c)

/-! ## The first region -/

/-- An input window's array leaves the region as it entered. -/
theorem W6_in (w : Fin cfg0.W) (hw : (cfg0.win w).isOut = false) :
    W6 m ρ c (Proc.devRef .tc (Pipeline.arrRef spec0 w)) = W5 m ρ c (Proc.devRef .tc (Pipeline.arrRef spec0 w)) :=
  (W6_arr m ρ c w).trans (((dat0 (V5 m ρ) c).arrAt_in w hw _).trans (A_eq0 (V5 m ρ) c w))

/-- The first layer's new features. -/
theorem W6_v44_0 (r : Fin 6000) (k : Fin 512) : W6 m ρ c (Proc.devRef .tc main_v44_0) (ix2 r k) = kFe0 m c r k := by
  have h : W6 m ρ c (Proc.devRef .tc main_v44_0)
      = featArr (n := 6000) (V5 m ρ c main_v28) (V5 m ρ c main_v43) (V5 m ρ c main_v27) (V5 m ρ c main_v32) (V5 m ρ c main_v35) :=
    (W6_arr m ρ c 8).trans (arr0_8 (V5 m ρ) c)
  rw [h]
  exact featArr_apply_of _ _ _ _ _ (kAdj m c) (fun j k => kDeg m c j * kX m c j k) (kDeg m c) (kW m c 0) (kB m c 0)
    (V5_v28 m ρ c) (V5_v43 m ρ c) (fun r => V5_v27 m ρ c r 0) (V5_v32 m ρ c) (fun f => V5_v35 m ρ c 0 f) r k

/-- The first layer's running sum. -/
theorem W6_v44_1 (r : Fin 6000) (f : Fin 512) : W6 m ρ c (Proc.devRef .tc main_v44_1) (ix2 r f) = kS0 m c r f := by
  have h : W6 m ρ c (Proc.devRef .tc main_v44_1)
      = fsumArr (n := 6000) (featArr (n := 6000) (V5 m ρ c main_v28) (V5 m ρ c main_v43) (V5 m ρ c main_v27) (V5 m ρ c main_v32) (V5 m ρ c main_v35))
          (V5 m ρ c main_v37) (V5 m ρ c main_v40) (V5 m ρ c main_v0) :=
    (W6_arr m ρ c 9).trans (arr0_9 (V5 m ρ) c)
  rw [h]
  exact fsumArr_apply_of _ _ _ _ (kFe0 m c) (kWf m c 0) (kBf m c 0) (kX m c)
    (fun r k => featArr_apply_of _ _ _ _ _ (kAdj m c) (fun j k => kDeg m c j * kX m c j k) (kDeg m c) (kW m c 0) (kB m c 0)
      (V5_v28 m ρ c) (V5_v43 m ρ c) (fun r => V5_v27 m ρ c r 0) (V5_v32 m ρ c) (fun f => V5_v35 m ρ c 0 f) r k)
    (V5_v37 m ρ c) (fun f => V5_v40 m ρ c 0 f) (V5_v0 m ρ c) r f

/-! ## Between the regions -/

theorem V7_v28 (r j : Fin 6000) : V7 m ρ c main_v28 (ix2 r j) = kAdj m c r j :=
  (congrFun (after_of_writes_sub hostOps1 (W6 m ρ c) hostOps1_writes (by decide) : W7 m ρ c (Proc.devRef .tc main_v28) = W6 m ρ c (Proc.devRef .tc main_v28)) _).trans
    ((congrFun (W6_in m ρ c 0 rfl) _).trans (V5_v28 m ρ c r j))

theorem W6_v27 (r : Fin 6000) (u : Fin 1) : W6 m ρ c (Proc.devRef .tc main_v27) (ix2 r u) = kDeg m c r :=
  (congrFun (W6_in m ρ c 2 rfl) _).trans (V5_v27 m ρ c r u)

theorem V7_v27 (r : Fin 6000) (u : Fin 1) : V7 m ρ c main_v27 (ix2 r u) = kDeg m c r :=
  (congrFun (after_of_writes_sub hostOps1 (W6 m ρ c) hostOps1_writes (by decide) : W7 m ρ c (Proc.devRef .tc main_v27) = W6 m ρ c (Proc.devRef .tc main_v27)) _).trans
    (W6_v27 m ρ c r u)

/-- The first layer's new features, pre-scaled for the second. -/
theorem V7_v57 (j : Fin 6000) (k : Fin 512) : V7 m ρ c main_v57 (ix2 j k) = kDeg m c j * kFe0 m c j k :=
  (h1_v57_apply (W6 m ρ c) j k).trans
    (congrArg₂ (@HMul.hMul EReal EReal EReal instHMul) (W6_v27 m ρ c j 0) (W6_v44_0 m ρ c j k))

theorem V7_v46 (k f : Fin 512) : V7 m ρ c main_v46 (ix2 k f) = kW m c 1 k f :=
  (h1_v46_apply (W6 m ρ c) k f).trans
    ((congrFun (W6_of_ne m ρ c main_v29 (by decide)) _).trans (W5_v29 m ρ c 1 k f))
theorem V7_v51 (k f : Fin 512) : V7 m ρ c main_v51 (ix2 k f) = kWf m c 1 k f :=
  (h1_v51_apply (W6 m ρ c) k f).trans
    ((congrFun (W6_of_ne m ρ c main_v30 (by decide)) _).trans (W5_v30 m ρ c 1 k f))
theorem V7_v49 (u : Fin 1) (f : Fin 512) : V7 m ρ c main_v49 (ix2 u f) = kB m c 1 f :=
  (h1_v49_apply (W6 m ρ c) u f).trans
    (congrFun ((W6_of_ne m ρ c main_arg5 (by decide)).trans (W5_arg5 m ρ c)) _)
theorem V7_v54 (u : Fin 1) (f : Fin 512) : V7 m ρ c main_v54 (ix2 u f) = kBf m c 1 f :=
  (h1_v54_apply (W6 m ρ c) u f).trans
    (congrFun ((W6_of_ne m ρ c main_arg7 (by decide)).trans (W5_arg7 m ρ c)) _)
/-- The second layer's incoming running sum: the first layer's. -/
theorem V7_v44_1 (r : Fin 6000) (f : Fin 512) : V7 m ρ c main_v44_1 (ix2 r f) = kS0 m c r f :=
  (congrFun (after_of_writes_sub hostOps1 (W6 m ρ c) hostOps1_writes (by decide) : W7 m ρ c (Proc.devRef .tc main_v44_1) = W6 m ρ c (Proc.devRef .tc main_v44_1)) _).trans
    (W6_v44_1 m ρ c r f)

/-! ## The second region, and the result -/

/-- The second layer's running sum: the program's value. -/
theorem W8_v58_1 (r : Fin 6000) (f : Fin 512) : W8 m ρ c (Proc.devRef .tc main_v58_1) (ix2 r f) = kOut m c r f := by
  have h : W8 m ρ c (Proc.devRef .tc main_v58_1)
      = fsumArr (n := 6000) (featArr (n := 6000) (V7 m ρ c main_v28) (V7 m ρ c main_v57) (V7 m ρ c main_v27) (V7 m ρ c main_v46) (V7 m ρ c main_v49))
          (V7 m ρ c main_v51) (V7 m ρ c main_v54) (V7 m ρ c main_v44_1) :=
    (W8_arr m ρ c 9).trans (arr1_9 (V7 m ρ) c)
  rw [h, kOut_eq]
  exact fsumArr_apply_of _ _ _ _ (feat (zScaled (kAdj m c) (kDeg m c) (kFe0 m c)) (kW m c 1) (kB m c 1)) (kWf m c 1) (kBf m c 1) (kS0 m c)
    (fun r k => featArr_apply_of _ _ _ _ _ (kAdj m c) (fun j k => kDeg m c j * kFe0 m c j k) (kDeg m c) (kW m c 1) (kB m c 1)
      (V7_v28 m ρ c) (V7_v57 m ρ c) (fun r => V7_v27 m ρ c r 0) (V7_v46 m ρ c) (fun f => V7_v49 m ρ c 0 f) r k)
    (V7_v51 m ρ c) (fun f => V7_v54 m ρ c 0 f) (V7_v44_1 m ρ c) r f

/-- The three result buffers hold the three row bands of the program's value. -/
theorem kernel_v59 (p : Fin 2000) (q : Fin 512) :
    W9 m ρ c (Proc.devRef .tc main_v59) (ix2 p q) = kOut m c ⟨p.val, by omega⟩ q :=
  (h2_v59_apply (W8 m ρ c) p q).trans (W8_v58_1 m ρ c _ q)
theorem kernel_v60 (p : Fin 2000) (q : Fin 512) :
    W9 m ρ c (Proc.devRef .tc main_v60) (ix2 p q) = kOut m c ⟨p.val + 2000, by omega⟩ q :=
  (h2_v60_apply (W8 m ρ c) p q).trans (W8_v58_1 m ρ c _ q)
theorem kernel_v61 (p : Fin 2000) (q : Fin 512) :
    W9 m ρ c (Proc.devRef .tc main_v61) (ix2 p q) = kOut m c ⟨p.val + 4000, by omega⟩ q :=
  (h2_v61_apply (W8 m ρ c) p q).trans (W8_v58_1 m ρ c _ q)

end Cert.KernelIdeal.Hand

end
-- ==== Proof.GcnDegree.lean ====
/-
  The degree factor of a node is a non-negative real, whatever its row sum.

  With `s` the node's row sum of the adjacency, the factor is `s^(-1/2)` when `s > 0` and `0` otherwise, spelt with two
  selects on the comparison `s > 0`: the inner one feeds the inverse square root `s` itself when it is positive (and a
  harmless constant otherwise), the outer one discards the inverse square root when it is not. On the extended reals
  the inverse square root of a positive number is a non-negative real — `0` at `+∞`, `(√s)⁻¹` at a positive real — so
  the factor is a non-negative real in every case. No finiteness of `s` is used.
-/
import proofs.«102648_j56324201120496_1_alg».proof.Proof.GcnSpec

noncomputable section

namespace Cert.GcnSpec

open Idealize.ShloMosaic

/-- The inverse square root of a positive extended real is a non-negative real. -/
theorem rsqrt_pos_nonneg_ne_top (s : EReal) (hs : 0 < s) : 0 ≤ Ideal.rsqrt s ∧ Ideal.rsqrt s ≠ ⊤ := by
  induction s using EReal.rec with
  | bot => exact absurd hs (by simp)
  | top =>
    have e : Ideal.rsqrt (⊤ : EReal) = 0 := rfl
    rw [e]
    exact ⟨le_refl _, EReal.zero_ne_top⟩
  | coe r =>
    have hr : 0 < r := by exact_mod_cast hs
    have h1 : ¬ r < 0 := not_lt.mpr hr.le
    have h2 : r ≠ 0 := hr.ne'
    have e : Ideal.rsqrt (r : EReal)
        = if r < 0 then (⊥ : EReal) else if r = 0 then (⊤ : EReal) else (((Real.sqrt r)⁻¹ : ℝ) : EReal) := rfl
    rw [e, if_neg h1, if_neg h2]
    refine ⟨?_, EReal.coe_ne_top _⟩
    exact_mod_cast inv_nonneg.mpr (Real.sqrt_nonneg r)

/-- The degree factor: `s^(-1/2)` where `s > 0`, else `zero`; a non-negative real when `zero` is `0`. -/
theorem degree_factor (s one zero : EReal) (hz : zero = 0) :
    0 ≤ Scalar.select (Ideal.cmp .ogt s zero) (Ideal.rsqrt (Scalar.select (Ideal.cmp .ogt s zero) s one)) zero
      ∧ Scalar.select (Ideal.cmp .ogt s zero) (Ideal.rsqrt (Scalar.select (Ideal.cmp .ogt s zero) s one)) zero ≠ ⊤ := by
  subst hz
  unfold Scalar.select Ideal.cmp
  by_cases hs : (0 : EReal) < s
  · simp only [hs, decide_true, BitVec.ofBool_true, if_true]
    exact rsqrt_pos_nonneg_ne_top s hs
  · simp [hs]

end Cert.GcnSpec

end
-- ==== Proof.KIDegree.lean ====
/-
  Every degree factor the program computes is a non-negative real: at node `r` it is the two-select form of
  `s^(-1/2) where s > 0, else 0` over the node's row sum `s` of the adjacency, whatever that sum is.
-/
import proofs.«102648_j56324201120496_1_alg».proof.Proof.KIHostA
import proofs.«102648_j56324201120496_1_alg».proof.Proof.GcnDegree
import Idealize.ShloMosaic.Lib.ValueIdx
import Idealize.ShloMosaic.PureOps.Ideal.Laws

noncomputable section

namespace Cert.KernelIdeal.Hand

open Cert.KernelIdeal Idealize.ShloMosaic Idealize.ShloMosaic.ValueIdx

theorem dT_nonneg_real (a3 : FVec Ideal S500000 .f32) (a8 : IVec S2x400000 32) (r : Fin 6000) :
    0 ≤ dT a3 a8 (ix1 r) ∧ dT a3 a8 (ix1 r) ≠ ⊤ :=
  Cert.GcnSpec.degree_factor (rowSum (adjT a3 a8) (ix1 r)) (Ideal.ofBits .f32 0x3F800000#32) (Ideal.ofBits .f32 0x00000000#32)
    Ideal.ofBits_zero_f32

end Cert.KernelIdeal.Hand

end
-- ==== Proof.RefValue.lean ====
import proofs.«102648_j56324201120496_1_alg».proof.Proof.RefSSATables
import proofs.«102648_j56324201120496_1_alg».proof.Proof.GcnSpec
import Idealize.ShloMosaic.PureOps.Ideal

/-! # The reference's values as functions of its arguments

Three values the reference shares, operation for operation, with the kernel program: the stacked node features
(the three modality arrays concatenated along the rows), the dense adjacency (the edge weights scatter-added at
the edges' endpoints, a negative endpoint wrapped once by the number of nodes), and the degree factors (the
inverse square root of a positive row sum of the adjacency, zero elsewhere). Each is a definition of the argument
arrays, and each is what the reference's line ends with in the corresponding buffer. -/

noncomputable section

namespace Cert.ReferenceIdeal.RefValue

open Cert.ReferenceIdeal Cert.ReferenceIdeal.Gen Cert.ReferenceIdeal.RefRun Idealize.ShloMosaic Idealize.ShloMosaic.TcCoe Idealize.SL.Sem Idealize.ShloMosaic.StableHlo

/-! ## The shared values as functions of the arguments -/

/-- The node features: the three modality arrays stacked along the rows. -/
def x0T (a0 a1 a2 : FVec Ideal S2000x512 .f32) : FVec Ideal S6000x512 .f32 :=
  concatenate S6000x512 0 [⟨S2000x512, a0⟩, ⟨S2000x512, a1⟩, ⟨S2000x512, a2⟩] concatenates_S2000x512_S2000x512_S2000x512_S6000x512_d0

/-- An endpoint list with each negative entry wrapped once by the number of nodes. -/
def wrapIdx (i : IVec S400000 32) : IVec S400000 32 :=
  select (cmpi .slt i (broadcastInDim S400000 ![] bcast_S_S400000 (constantI S_ 32 0#32)))
    (addi i (broadcastInDim S400000 ![] bcast_S_S400000 (constantI S_ 32 6000#32))) i

/-- The edges' (row, column) pairs: the two rows of the edge list, wrapped, side by side. -/
def idxPair (a8 : IVec S2x400000 32) : IVec S400000x2 32 :=
  concatenate S400000x2 1
    [⟨S400000x1, broadcastInDim S400000x1 ![0] bcast_S400000_S400000x1_0
        (wrapIdx (fun i => shapeCast S400000 (extractStridedSlice S1x400000 ![0, 0] a8 slices_S2x400000_S1x400000_0_0) shapeCasts_S1x400000_S400000 i))⟩,
     ⟨S400000x1, broadcastInDim S400000x1 ![0] bcast_S400000_S400000x1_0
        (wrapIdx (fun i => shapeCast S400000 (extractStridedSlice S1x400000 ![1, 0] a8 slices_S2x400000_S1x400000_1_0) shapeCasts_S1x400000_S400000 i))⟩]
    concatenates_S400000x1_S400000x1_S400000x2_d1

/-- The dense adjacency: the first 400000 edge weights scatter-added into zeros at the edges' pairs. -/
def adjT (a3 : FVec Ideal S500000 .f32) (a8 : IVec S2x400000 32) :
    FVec Ideal S6000x6000 .f32 :=
  Host.scatterAdd (F := Ideal) scatter_S6000x6000_S400000x2_S400000_n_01_01_1
    (broadcastInDim S6000x6000 ![] bcast_S_S6000x6000 (constant (F := Ideal) S_ .f32 0x00000000#32)) (idxPair a8)
    (extractStridedSlice S400000 ![0] a3 slices_S500000_S400000_0)

/-- The adjacency's row sums. -/
def rowSum (adj : FVec Ideal S6000x6000 .f32) : FVec Ideal S6000 .f32 :=
  Host.reduceAdd (F := Ideal) adj (constant (F := Ideal) S_ .f32 0x00000000#32) reducesTo_S6000x6000_S6000_d1 h_S_

/-- The degree factors of given row sums: the inverse square root where the sum is positive, zero elsewhere. -/
def dOfSum (rs : FVec Ideal S6000 .f32) : FVec Ideal S6000 .f32 :=
  select (cmpf .ogt rs (broadcastInDim S6000 ![] bcast_S_S6000 (constant (F := Ideal) S_ .f32 0x00000000#32)))
    (Host.rsqrt (F := Ideal) (select (cmpf .ogt rs (broadcastInDim S6000 ![] bcast_S_S6000 (constant (F := Ideal) S_ .f32 0x00000000#32))) rs
      (broadcastInDim S6000 ![] bcast_S_S6000 (constant (F := Ideal) S_ .f32 0x3F800000#32))))
    (broadcastInDim S6000 ![] bcast_S_S6000 (constant (F := Ideal) S_ .f32 0x00000000#32))

/-- The degree factors of the arguments. -/
def dT (a3 : FVec Ideal S500000 .f32) (a8 : IVec S2x400000 32) :
    FVec Ideal S6000 .f32 :=
  dOfSum (rowSum (adjT a3 a8))

/-! ## What the reference's line ends with in their buffers -/

variable (V : Valuation τ sig (Elt Ideal))

/-- The concatenate's buffer holds the stacked features. -/
theorem val_v0 : after (ops (F := Ideal)) V (Proc.devRef .tc main_v0)
    = x0T (V (Proc.devRef .tc main_arg0)) (V (Proc.devRef .tc main_arg1)) (V (Proc.devRef .tc main_arg2)) := by
  rw [eq_main_v0, keep_main_arg0, keep_main_arg1, keep_main_arg2]
  rfl

/-- The scatter's buffer holds the dense adjacency. -/
theorem val_v20 : after (ops (F := Ideal)) V (Proc.devRef .tc main_v20)
    = adjT (V (Proc.devRef .tc main_arg3)) (V (Proc.devRef .tc main_arg8)) := by
  rw [eq_main_v20, eq_main_v19, eq_main_v18, eq_main_v17, eq_main_v16, eq_main_v15, eq_main_v14, eq_main_c_2, eq_main_v13,
    eq_main_v12, eq_main_c_1, eq_main_v11, eq_main_v10, eq_main_v9, eq_main_c_0, eq_main_v8, eq_main_v7, eq_main_c, eq_main_v6,
    eq_main_v5, eq_main_v4, eq_main_v3, eq_main_v2, eq_main_cst, eq_main_v1, keep_main_arg8, keep_main_arg3]
  rfl

/-- The second guarded select's buffer holds the degree factors. -/
theorem val_v26 : after (ops (F := Ideal)) V (Proc.devRef .tc main_v26)
    = dT (V (Proc.devRef .tc main_arg3)) (V (Proc.devRef .tc main_arg8)) := by
  rw [eq_main_v26, eq_main_call1_v1, eq_main_call1_v0, eq_main_cst_6, eq_main_v25, eq_main_v24, eq_main_call0_v1,
    eq_main_call0_v0, eq_main_cst_5, eq_main_v23, eq_main_v22, eq_main_cst_4, eq_main_v21, eq_main_cst_3, val_v20]
  rfl

end Cert.ReferenceIdeal.RefValue

end
-- ==== Proof.RefOps.lean ====
/-
  The reference program's pure operations, read at an entry, at the ideal values.

  The reference normalises the adjacency on both sides: the degree factors are laid as a column and spread across the
  columns, multiplied in, then laid as a row and spread down the rows, multiplied in: entry (r, j) is
  (d r * A r j) * d j. Each layer multiplies the normalised adjacency with the features (a sum over the 6000 nodes),
  the result with the layer's weight matrix (a sum over 512), adds the layer's bias (a vector laid as a row and spread
  down the rows), and rectifies: the maximum with zero for the new features, and for the second projection the leaky
  rectifier spelt as a comparison with zero selecting between the value and the slope times the value. A layer's
  weights and bias are one slab of a stacked array, cut out and its unit axis dropped. The result is cut into three
  bands of 2000 rows.
-/
import proofs.«102648_j56324201120496_1_alg».proof.ReferenceIdeal
import proofs.«102648_j56324201120496_1_alg».proof.Proof.GcnSpec
import proofs.«102648_j56324201120496_1_alg».proof.Proof.LibDotRead
import proofs.«102648_j56324201120496_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.ReferenceIdeal.RefOps

open Cert.ReferenceIdeal Cert.GcnSpec Idealize.ShloMosaic Idealize.ShloMosaic.ValueIdx
open Cert.ReferenceIdeal.Facts₀

variable [Facts₀]

/-! ## Broadcasts -/

/-- A scalar spread over any shape reads the scalar everywhere. -/
theorem bcast_scalar_apply {T : Shape} {α : Type} (h : S_.BroadcastsInDim T ![]) (x : S_.Idx → α) (j : T.Idx) :
    broadcastInDim T ![] h x j = x ix0 := by
  unfold broadcastInDim
  exact congrArg x (funext fun a => a.elim0)

/-- A vector laid as a column, then spread across the columns, reads at (r, j) the vector at r. -/
theorem bcast_col_apply (d : FVec Ideal S6000 .f32) (r j : Fin 6000) :
    broadcastInDim S6000x6000 ![0, 1] bcast_S6000x1_S6000x6000_0_1 (broadcastInDim S6000x1 ![0] bcast_S6000_S6000x1_0 d) (ix2 r j)
      = d (ix1 r) := by
  refine (broadcastInDim_apply ![0, 1] bcast_S6000x1_S6000x6000_0_1 _ (ix2 r j) (ix2 r (0 : Fin 1)) fun a => ?_).trans ?_
  · match a with
    | ⟨0, _⟩ => show r.val = if (6000 : ℕ) = 1 then 0 else r.val; exact (if_neg (by decide)).symm
    | ⟨1, _⟩ => show (0 : ℕ) = if (1 : ℕ) = 1 then 0 else j.val; exact (if_pos rfl).symm
  · refine broadcastInDim_apply ![0] bcast_S6000_S6000x1_0 d (ix2 r (0 : Fin 1)) (ix1 r) fun a => ?_
    match a with
    | ⟨0, _⟩ => show r.val = if (6000 : ℕ) = 1 then 0 else r.val; exact (if_neg (by decide)).symm

/-- A vector laid as a row, then spread down the rows, reads at (r, j) the vector at j. -/
theorem bcast_row_apply (d : FVec Ideal S6000 .f32) (r j : Fin 6000) :
    broadcastInDim S6000x6000 ![0, 1] bcast_S1x6000_S6000x6000_0_1 (broadcastInDim S1x6000 ![1] bcast_S6000_S1x6000_1 d) (ix2 r j)
      = d (ix1 j) := by
  refine (broadcastInDim_apply ![0, 1] bcast_S1x6000_S6000x6000_0_1 _ (ix2 r j) (ix2 (0 : Fin 1) j) fun a => ?_).trans ?_
  · match a with
    | ⟨0, _⟩ => show (0 : ℕ) = if (1 : ℕ) = 1 then 0 else r.val; exact (if_pos rfl).symm
    | ⟨1, _⟩ => show j.val = if (6000 : ℕ) = 1 then 0 else j.val; exact (if_neg (by decide)).symm
  · refine broadcastInDim_apply ![1] bcast_S6000_S1x6000_1 d (ix2 (0 : Fin 1) j) (ix1 j) fun a => ?_
    match a with
    | ⟨0, _⟩ => show j.val = if (6000 : ℕ) = 1 then 0 else j.val; exact (if_neg (by decide)).symm

/-- A bias vector laid as a row, then spread down the 6000 rows, reads at (r, f) the vector at f. -/
theorem bcast_bias_apply (bv : FVec Ideal S512 .f32) (r : Fin 6000) (f : Fin 512) :
    broadcastInDim S6000x512 ![0, 1] bcast_S1x512_S6000x512_0_1 (broadcastInDim S1x512 ![1] bcast_S512_S1x512_1 bv) (ix2 r f)
      = bv (ix1 f) := by
  refine (broadcastInDim_apply ![0, 1] bcast_S1x512_S6000x512_0_1 _ (ix2 r f) (ix2 (0 : Fin 1) f) fun a => ?_).trans ?_
  · match a with
    | ⟨0, _⟩ => show (0 : ℕ) = if (1 : ℕ) = 1 then 0 else r.val; exact (if_pos rfl).symm
    | ⟨1, _⟩ => show f.val = if (512 : ℕ) = 1 then 0 else f.val; exact (if_neg (by decide)).symm
  · refine broadcastInDim_apply ![1] bcast_S512_S1x512_1 bv (ix2 (0 : Fin 1) f) (ix1 f) fun a => ?_
    match a with
    | ⟨0, _⟩ => show f.val = if (512 : ℕ) = 1 then 0 else f.val; exact (if_neg (by decide)).symm

/-! ## The normalised adjacency -/

/-- Entry (r, j) of the adjacency scaled on both sides by the degree factors. -/
theorem gcn_apply (d : FVec Ideal S6000 .f32) (adj : FVec Ideal S6000x6000 .f32) (r j : Fin 6000) :
    mulf (mulf (broadcastInDim S6000x6000 ![0, 1] bcast_S6000x1_S6000x6000_0_1 (broadcastInDim S6000x1 ![0] bcast_S6000_S6000x1_0 d)) adj)
        (broadcastInDim S6000x6000 ![0, 1] bcast_S1x6000_S6000x6000_0_1 (broadcastInDim S1x6000 ![1] bcast_S6000_S1x6000_1 d)) (ix2 r j)
      = (d (ix1 r) * adj (ix2 r j)) * d (ix1 j) := by
  show (_ * adj (ix2 r j)) * _ = _
  exact congrArg₂ (· * ·) (congrArg (· * adj (ix2 r j)) (bcast_col_apply d r j)) (bcast_row_apply d r j)

/-! ## The two products -/

/-- Entry (r, c) of a plain product on the host is the sum, over the one contracted axis, of the left operand at
    (r, k) times the right operand at (k, c): no accumulator, whatever the schedule key. -/
theorem dotGeneral_plain_apply {φ₁ φ₂ : FTy} (M K N : Nat) (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c) = ∑ k : Fin K, lhs (ix2 r k) * rhs (ix2 k c) := by
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact DotRead.plain_lhs_row M K N _ _
      | ⟨1, _⟩ => exact (DotRead.plain_lhs_col M K N _ _).trans hk)
  have er : (DotDims.plain M K N).rhsIdx (ix2 r c) ((contrEquiv1 (DotDims.plain M K N) K rfl rfl).symm k) = ix2 k c :=
    funext fun a => Fin.ext (by
      match a with
      | ⟨0, _⟩ => exact (DotRead.plain_rhs_row M K N _ _).trans hk
      | ⟨1, _⟩ => exact DotRead.plain_rhs_col M K N _ _)
  rw [el, er]

/-- The propagation: entry (r, k) of the normalised adjacency times the features. -/
theorem dot_prop_apply (l : FVec Ideal S6000x6000 .f32) (x : FVec Ideal S6000x512 .f32) (r : Fin 6000) (k : Fin 512) :
    Host.dotGeneral (F := Ideal) (φ₁ := .f32) (φ₂ := .f32) dot_S6000x6000_S6000x512_S6000x512_1_0_0_1_n_n none l x (ix2 r k)
      = ∑ j : Fin 6000, l (ix2 r j) * x (ix2 j k) :=
  dotGeneral_plain_apply (φ₁ := .f32) (φ₂ := .f32) 6000 6000 512 none .single l x r k

/-- A projection: entry (r, f) of a 6000 × 512 array times a weight matrix. -/
theorem dot_proj_apply (z : FVec Ideal S6000x512 .f32) (w : FVec Ideal S512x512 .f32) (r : Fin 6000) (f : Fin 512) :
    Host.dotGeneral (F := Ideal) (φ₁ := .f32) (φ₂ := .f32) dot_S6000x512_S512x512_S6000x512_1_0_0_1_n_n none z w (ix2 r f)
      = ∑ k : Fin 512, z (ix2 r k) * w (ix2 k f) :=
  dotGeneral_plain_apply (φ₁ := .f32) (φ₂ := .f32) 6000 512 512 none .single z w r f

/-! ## A layer's weights and bias: one slab of a stacked array -/

/-- Slab `L` of a stack of weight matrices, its unit axis dropped, reads at (k, f) the stack at (L, k, f). -/
theorem slab_apply (L : Fin 2) (a : FVec Ideal S2x512x512 .f32) (hs : S2x512x512.Slices ![L.val, 0, 0] S1x512x512)
    (k f : Fin 512) :
    shapeCast S512x512 (extractStridedSlice S1x512x512 ![L.val, 0, 0] a hs) shapeCasts_S1x512x512_S512x512 (ix2 k f)
      = a (ix3 L k f) := by
  refine (shapeCast_1ab_ab_apply _ shapeCasts_S1x512x512_S512x512 k f).trans ?_
  refine extractStridedSlice_apply _ a hs (ix3 (0 : Fin 1) k f) (ix3 L k f) fun ax => ?_
  match ax with
  | ⟨0, _⟩ => exact (Nat.add_zero _).symm
  | ⟨1, _⟩ => exact (Nat.zero_add _).symm
  | ⟨2, _⟩ => exact (Nat.zero_add _).symm

/-- The first layer's weights. -/
theorem slab0_apply (a : FVec Ideal S2x512x512 .f32) (k f : Fin 512) :
    shapeCast S512x512 (extractStridedSlice S1x512x512 ![0, 0, 0] a slices_S2x512x512_S1x512x512_0_0_0) shapeCasts_S1x512x512_S512x512 (ix2 k f)
      = a (ix3 (0 : Fin 2) k f) :=
  slab_apply 0 a slices_S2x512x512_S1x512x512_0_0_0 k f

/-- The second layer's weights. -/
theorem slab1_apply (a : FVec Ideal S2x512x512 .f32) (k f : Fin 512) :
    shapeCast S512x512 (extractStridedSlice S1x512x512 ![1, 0, 0] a slices_S2x512x512_S1x512x512_1_0_0) shapeCasts_S1x512x512_S512x512 (ix2 k f)
      = a (ix3 (1 : Fin 2) k f) :=
  slab_apply 1 a slices_S2x512x512_S1x512x512_1_0_0 k f

/-- Row `L` of a stack of bias vectors, its unit axis dropped, reads at f the stack at (L, f). -/
theorem brow_apply (L : Fin 2) (a : FVec Ideal S2x512 .f32) (hs : S2x512.Slices ![L.val, 0] S1x512) (f : Fin 512) :
    shapeCast S512 (extractStridedSlice S1x512 ![L.val, 0] a hs) shapeCasts_S1x512_S512 (ix1 f) = a (ix2 L f) := by
  refine (shapeCast_1a_a_apply _ shapeCasts_S1x512_S512 f).trans ?_
  exact slice2_axis0_apply L.val a hs (0 : Fin 1) f L (Nat.add_zero _).symm

/-- A layer's bias, spread down the rows, reads at (r, f) the stack of biases at (L, f). -/
theorem bias_apply (L : Fin 2) (a : FVec Ideal S2x512 .f32) (hs : S2x512.Slices ![L.val, 0] S1x512) (r : Fin 6000) (f : Fin 512) :
    broadcastInDim S6000x512 ![0, 1] bcast_S1x512_S6000x512_0_1 (broadcastInDim S1x512 ![1] bcast_S512_S1x512_1
        (shapeCast S512 (extractStridedSlice S1x512 ![L.val, 0] a hs) shapeCasts_S1x512_S512)) (ix2 r f)
      = a (ix2 L f) :=
  (bcast_bias_apply _ r f).trans (brow_apply L a hs f)

/-- The first layer's bias. -/
theorem bias0_apply (a : FVec Ideal S2x512 .f32) (r : Fin 6000) (f : Fin 512) :
    broadcastInDim S6000x512 ![0, 1] bcast_S1x512_S6000x512_0_1 (broadcastInDim S1x512 ![1] bcast_S512_S1x512_1
        (shapeCast S512 (extractStridedSlice S1x512 ![0, 0] a slices_S2x512_S1x512_0_0) shapeCasts_S1x512_S512)) (ix2 r f)
      = a (ix2 (0 : Fin 2) f) :=
  bias_apply 0 a slices_S2x512_S1x512_0_0 r f

/-- The second layer's bias. -/
theorem bias1_apply (a : FVec Ideal S2x512 .f32) (r : Fin 6000) (f : Fin 512) :
    broadcastInDim S6000x512 ![0, 1] bcast_S1x512_S6000x512_0_1 (broadcastInDim S1x512 ![1] bcast_S512_S1x512_1
        (shapeCast S512 (extractStridedSlice S1x512 ![1, 0] a slices_S2x512_S1x512_1_0) shapeCasts_S1x512_S512)) (ix2 r f)
      = a (ix2 (1 : Fin 2) f) :=
  bias_apply 1 a slices_S2x512_S1x512_1_0 r f

/-! ## The two rectifiers -/

/-- The rectifier: the maximum with a scalar that is zero, spread over the array. -/
theorem relu_of (h : FVec Ideal S6000x512 .f32) (z : FVec Ideal S_ .f32) (hz : z ix0 = 0) (i : S6000x512.Idx) :
    maximumf h (broadcastInDim S6000x512 ![] bcast_S_S6000x512 z) i = max (h i) 0 := by
  show max (h i) (broadcastInDim S6000x512 ![] bcast_S_S6000x512 z i) = _
  rw [bcast_scalar_apply, hz]

/-- The rectifier as the program spells it, with the zero word. -/
theorem relu_apply (h : FVec Ideal S6000x512 .f32) (i : S6000x512.Idx) :
    maximumf h (broadcastInDim S6000x512 ![] bcast_S_S6000x512 (constant (F := Ideal) S_ .f32 0x00000000#32)) i = max (h i) 0 :=
  relu_of h _ Ideal.ofBits_zero_f32 i

/-- The leaky rectifier: compare with a scalar that is zero, keep the value or take a scalar slope's multiple. -/
theorem leaky_of (h : FVec Ideal S6000x512 .f32) (z c : FVec Ideal S_ .f32) (hz : z ix0 = 0) (hc : c ix0 = slope)
    (i : S6000x512.Idx) :
    select (cmpf .oge h (broadcastInDim S6000x512 ![] bcast_S_S6000x512 z)) h
        (mulf (broadcastInDim S6000x512 ![] bcast_S_S6000x512 c) h) i = leaky (h i) := by
  show Scalar.select (Ideal.cmp .oge (h i) (broadcastInDim S6000x512 ![] bcast_S_S6000x512 z i)) (h i)
      (broadcastInDim S6000x512 ![] bcast_S_S6000x512 c i * h i) = _
  rw [bcast_scalar_apply, bcast_scalar_apply, hz, hc, select_cmp_oge]
  rfl

/-- The leaky rectifier as the program spells it, with the zero word and the slope word. -/
theorem leaky_apply (h : FVec Ideal S6000x512 .f32) (i : S6000x512.Idx) :
    select (cmpf .oge h (broadcastInDim S6000x512 ![] bcast_S_S6000x512 (constant (F := Ideal) S_ .f32 0x00000000#32))) h
        (mulf (broadcastInDim S6000x512 ![] bcast_S_S6000x512 (id (constant (F := Ideal) S_ .f32 0x3C23D70A#32))) h) i
      = leaky (h i) :=
  leaky_of h _ _ Ideal.ofBits_zero_f32 rfl i

/-! ## The three bands of the result -/

/-- Rows o … o + 1999 of a 6000-row array. -/
theorem band_apply (o : ℕ) (s : FVec Ideal S6000x512 .f32) (hs : S6000x512.Slices ![o, 0] S2000x512) (p : Fin 2000) (q : Fin 512)
    (hp : p.val + o < 6000) :
    extractStridedSlice S2000x512 ![o, 0] s hs (ix2 p q) = s (ix2 (⟨p.val + o, hp⟩ : Fin 6000) q) :=
  slice2_axis0_apply o s hs p q ⟨p.val + o, hp⟩ (Nat.add_comm _ _)

theorem band0_apply (s : FVec Ideal S6000x512 .f32) (p : Fin 2000) (q : Fin 512) :
    extractStridedSlice S2000x512 ![0, 0] s slices_S6000x512_S2000x512_0_0 (ix2 p q)
      = s (ix2 (⟨p.val + 0, by have := p.isLt; omega⟩ : Fin 6000) q) :=
  band_apply 0 s slices_S6000x512_S2000x512_0_0 p q _

theorem band1_apply (s : FVec Ideal S6000x512 .f32) (p : Fin 2000) (q : Fin 512) :
    extractStridedSlice S2000x512 ![2000, 0] s slices_S6000x512_S2000x512_2000_0 (ix2 p q)
      = s (ix2 (⟨p.val + 2000, by have := p.isLt; omega⟩ : Fin 6000) q) :=
  band_apply 2000 s slices_S6000x512_S2000x512_2000_0 p q _

theorem band2_apply (s : FVec Ideal S6000x512 .f32) (p : Fin 2000) (q : Fin 512) :
    extractStridedSlice S2000x512 ![4000, 0] s slices_S6000x512_S2000x512_4000_0 (ix2 p q)
      = s (ix2 (⟨p.val + 4000, by have := p.isLt; omega⟩ : Fin 6000) q) :=
  band_apply 4000 s slices_S6000x512_S2000x512_4000_0 p q _

/-! ## A whole layer -/

/-- The new features depend on the propagated features along the row only. -/
theorem feat_congr {n : ℕ} (Z Z' : Fin n → Fin 512 → EReal) (W W' : Fin 512 → Fin 512 → EReal) (b b' : Fin 512 → EReal)
    (r : Fin n) (f : Fin 512) (hZ : ∀ k, Z r k = Z' r k) (hW : ∀ k, W k f = W' k f) (hb : b f = b' f) :
    feat Z W b r f = feat Z' W' b' r f := by
  unfold feat
  simp only [hZ, hW, hb]

/-- The running sum depends on the new features along the row and on the incoming sum at the entry only. -/
theorem fsum_congr {n : ℕ} (Fe Fe' : Fin n → Fin 512 → EReal) (W W' : Fin 512 → Fin 512 → EReal) (b b' : Fin 512 → EReal)
    (S S' : Fin n → Fin 512 → EReal) (r : Fin n) (f : Fin 512)
    (hF : ∀ k, Fe r k = Fe' r k) (hW : ∀ k, W k f = W' k f) (hb : b f = b' f) (hS : S r f = S' r f) :
    fsum Fe W b S r f = fsum Fe' W' b' S' r f := by
  unfold fsum
  simp only [hF, hW, hb, hS]

/-- The propagation through the adjacency scaled on both sides, entry (r, k): the sum the specification calls `zBoth`. -/
theorem prop_zBoth (d : FVec Ideal S6000 .f32) (adj : FVec Ideal S6000x6000 .f32) (x : FVec Ideal S6000x512 .f32)
    (r : Fin 6000) (k : Fin 512) :
    Host.dotGeneral (F := Ideal) (φ₁ := .f32) (φ₂ := .f32) dot_S6000x6000_S6000x512_S6000x512_1_0_0_1_n_n none
        (mulf (mulf (broadcastInDim S6000x6000 ![0, 1] bcast_S6000x1_S6000x6000_0_1 (broadcastInDim S6000x1 ![0] bcast_S6000_S6000x1_0 d)) adj)
          (broadcastInDim S6000x6000 ![0, 1] bcast_S1x6000_S6000x6000_0_1 (broadcastInDim S1x6000 ![1] bcast_S6000_S1x6000_1 d)))
        x (ix2 r k)
      = zBoth (fun r j => adj (ix2 r j)) (fun r => d (ix1 r)) (fun j k => x (ix2 j k)) r k :=
  (dot_prop_apply _ x r k).trans (Finset.sum_congr rfl fun j _ => congrArg (· * x (ix2 j k)) (gcn_apply d adj r j))

/-- A layer's new features, entry (r, f): propagate, project, add the bias, rectify. -/
theorem featR (gcn : FVec Ideal S6000x6000 .f32) (x : FVec Ideal S6000x512 .f32) (w : FVec Ideal S512x512 .f32)
    (bv : FVec Ideal S512 .f32) (r : Fin 6000) (f : Fin 512) :
    maximumf
        (addf
          (Host.dotGeneral (F := Ideal) (φ₁ := .f32) (φ₂ := .f32) dot_S6000x512_S512x512_S6000x512_1_0_0_1_n_n none
            (Host.dotGeneral (F := Ideal) (φ₁ := .f32) (φ₂ := .f32) dot_S6000x6000_S6000x512_S6000x512_1_0_0_1_n_n none gcn x) w)
          (broadcastInDim S6000x512 ![0, 1] bcast_S1x512_S6000x512_0_1 (broadcastInDim S1x512 ![1] bcast_S512_S1x512_1 bv)))
        (broadcastInDim S6000x512 ![] bcast_S_S6000x512 (constant (F := Ideal) S_ .f32 0x00000000#32)) (ix2 r f)
      = feat (fun r k => ∑ j : Fin 6000, gcn (ix2 r j) * x (ix2 j k)) (fun k f => w (ix2 k f)) (fun f => bv (ix1 f)) r f := by
  refine (relu_apply _ (ix2 r f)).trans ?_
  show max (_ + _) 0 = max ((∑ k : Fin 512, _ * w (ix2 k f)) + bv (ix1 f)) 0
  refine congrArg (max · 0) (congrArg₂ (· + ·) ((dot_proj_apply _ w r f).trans ?_) (bcast_bias_apply bv r f))
  exact Finset.sum_congr rfl fun k _ => congrArg (· * w (ix2 k f)) (dot_prop_apply gcn x r k)

/-- A layer's running sum, entry (r, f): project the new features, add the bias, the leaky rectifier, add to the
    incoming sum. -/
theorem fsumR (s fe : FVec Ideal S6000x512 .f32) (wf : FVec Ideal S512x512 .f32) (bf : FVec Ideal S512 .f32)
    (r : Fin 6000) (f : Fin 512) :
    addf s
        (select
          (cmpf .oge
            (addf (Host.dotGeneral (F := Ideal) (φ₁ := .f32) (φ₂ := .f32) dot_S6000x512_S512x512_S6000x512_1_0_0_1_n_n none fe wf)
              (broadcastInDim S6000x512 ![0, 1] bcast_S1x512_S6000x512_0_1 (broadcastInDim S1x512 ![1] bcast_S512_S1x512_1 bf)))
            (broadcastInDim S6000x512 ![] bcast_S_S6000x512 (constant (F := Ideal) S_ .f32 0x00000000#32)))
          (addf (Host.dotGeneral (F := Ideal) (φ₁ := .f32) (φ₂ := .f32) dot_S6000x512_S512x512_S6000x512_1_0_0_1_n_n none fe wf)
            (broadcastInDim S6000x512 ![0, 1] bcast_S1x512_S6000x512_0_1 (broadcastInDim S1x512 ![1] bcast_S512_S1x512_1 bf)))
          (mulf (broadcastInDim S6000x512 ![] bcast_S_S6000x512 (id (constant (F := Ideal) S_ .f32 0x3C23D70A#32)))
            (addf (Host.dotGeneral (F := Ideal) (φ₁ := .f32) (φ₂ := .f32) dot_S6000x512_S512x512_S6000x512_1_0_0_1_n_n none fe wf)
              (broadcastInDim S6000x512 ![0, 1] bcast_S1x512_S6000x512_0_1 (broadcastInDim S1x512 ![1] bcast_S512_S1x512_1 bf)))))
        (ix2 r f)
      = fsum (fun r k => fe (ix2 r k)) (fun k f => wf (ix2 k f)) (fun f => bf (ix1 f)) (fun r f => s (ix2 r f)) r f := by
  show s (ix2 r f) + _ = s (ix2 r f) + leaky ((∑ k : Fin 512, fe (ix2 r k) * wf (ix2 k f)) + bf (ix1 f))
  refine congrArg (s (ix2 r f) + ·) ((leaky_apply _ (ix2 r f)).trans (congrArg leaky ?_))
  show _ + _ = _ + _
  exact congrArg₂ (· + ·) (dot_proj_apply fe wf r f) (bcast_bias_apply bf r f)

/-! ## A layer with its weights and bias cut out of the stacked arrays -/

/-- Layer `L`'s new features, entry (r, f), over the stacked weights and biases. -/
theorem featL (L : Fin 2) (gcn : FVec Ideal S6000x6000 .f32) (x : FVec Ideal S6000x512 .f32)
    (a4 : FVec Ideal S2x512x512 .f32) (a5 : FVec Ideal S2x512 .f32)
    (h4 : S2x512x512.Slices ![L.val, 0, 0] S1x512x512) (h5 : S2x512.Slices ![L.val, 0] S1x512) (r : Fin 6000) (f : Fin 512) :
    maximumf
        (addf
          (Host.dotGeneral (F := Ideal) (φ₁ := .f32) (φ₂ := .f32) dot_S6000x512_S512x512_S6000x512_1_0_0_1_n_n none
            (Host.dotGeneral (F := Ideal) (φ₁ := .f32) (φ₂ := .f32) dot_S6000x6000_S6000x512_S6000x512_1_0_0_1_n_n none gcn x)
            (shapeCast S512x512 (extractStridedSlice S1x512x512 ![L.val, 0, 0] a4 h4) shapeCasts_S1x512x512_S512x512))
          (broadcastInDim S6000x512 ![0, 1] bcast_S1x512_S6000x512_0_1 (broadcastInDim S1x512 ![1] bcast_S512_S1x512_1
            (shapeCast S512 (extractStridedSlice S1x512 ![L.val, 0] a5 h5) shapeCasts_S1x512_S512))))
        (broadcastInDim S6000x512 ![] bcast_S_S6000x512 (constant (F := Ideal) S_ .f32 0x00000000#32)) (ix2 r f)
      = feat (fun r k => ∑ j : Fin 6000, gcn (ix2 r j) * x (ix2 j k)) (fun k f => a4 (ix3 L k f)) (fun f => a5 (ix2 L f)) r f :=
  (featR gcn x _ _ r f).trans
    (feat_congr _ _ _ _ _ _ r f (fun _ => rfl) (fun k => slab_apply L a4 h4 k f) (brow_apply L a5 h5 f))

/-- The first layer's new features. -/
theorem feat0 (gcn : FVec Ideal S6000x6000 .f32) (x : FVec Ideal S6000x512 .f32)
    (a4 : FVec Ideal S2x512x512 .f32) (a5 : FVec Ideal S2x512 .f32) (r : Fin 6000) (f : Fin 512) :
    maximumf
        (addf
          (Host.dotGeneral (F := Ideal) (φ₁ := .f32) (φ₂ := .f32) dot_S6000x512_S512x512_S6000x512_1_0_0_1_n_n none
            (Host.dotGeneral (F := Ideal) (φ₁ := .f32) (φ₂ := .f32) dot_S6000x6000_S6000x512_S6000x512_1_0_0_1_n_n none gcn x)
            (shapeCast S512x512 (extractStridedSlice S1x512x512 ![0, 0, 0] a4 slices_S2x512x512_S1x512x512_0_0_0) shapeCasts_S1x512x512_S512x512))
          (broadcastInDim S6000x512 ![0, 1] bcast_S1x512_S6000x512_0_1 (broadcastInDim S1x512 ![1] bcast_S512_S1x512_1
            (shapeCast S512 (extractStridedSlice S1x512 ![0, 0] a5 slices_S2x512_S1x512_0_0) shapeCasts_S1x512_S512))))
        (broadcastInDim S6000x512 ![] bcast_S_S6000x512 (constant (F := Ideal) S_ .f32 0x00000000#32)) (ix2 r f)
      = feat (fun r k => ∑ j : Fin 6000, gcn (ix2 r j) * x (ix2 j k)) (fun k f => a4 (ix3 (0 : Fin 2) k f)) (fun f => a5 (ix2 (0 : Fin 2) f)) r f :=
  featL 0 gcn x a4 a5 slices_S2x512x512_S1x512x512_0_0_0 slices_S2x512_S1x512_0_0 r f

/-- The second layer's new features. -/
theorem feat1 (gcn : FVec Ideal S6000x6000 .f32) (x : FVec Ideal S6000x512 .f32)
    (a4 : FVec Ideal S2x512x512 .f32) (a5 : FVec Ideal S2x512 .f32) (r : Fin 6000) (f : Fin 512) :
    maximumf
        (addf
          (Host.dotGeneral (F := Ideal) (φ₁ := .f32) (φ₂ := .f32) dot_S6000x512_S512x512_S6000x512_1_0_0_1_n_n none
            (Host.dotGeneral (F := Ideal) (φ₁ := .f32) (φ₂ := .f32) dot_S6000x6000_S6000x512_S6000x512_1_0_0_1_n_n none gcn x)
            (shapeCast S512x512 (extractStridedSlice S1x512x512 ![1, 0, 0] a4 slices_S2x512x512_S1x512x512_1_0_0) shapeCasts_S1x512x512_S512x512))
          (broadcastInDim S6000x512 ![0, 1] bcast_S1x512_S6000x512_0_1 (broadcastInDim S1x512 ![1] bcast_S512_S1x512_1
            (shapeCast S512 (extractStridedSlice S1x512 ![1, 0] a5 slices_S2x512_S1x512_1_0) shapeCasts_S1x512_S512))))
        (broadcastInDim S6000x512 ![] bcast_S_S6000x512 (constant (F := Ideal) S_ .f32 0x00000000#32)) (ix2 r f)
      = feat (fun r k => ∑ j : Fin 6000, gcn (ix2 r j) * x (ix2 j k)) (fun k f => a4 (ix3 (1 : Fin 2) k f)) (fun f => a5 (ix2 (1 : Fin 2) f)) r f :=
  featL 1 gcn x a4 a5 slices_S2x512x512_S1x512x512_1_0_0 slices_S2x512_S1x512_1_0 r f

/-- Layer `L`'s running sum, entry (r, f), over the stacked weights and biases. -/
theorem fsumL (L : Fin 2) (s fe : FVec Ideal S6000x512 .f32) (a6 : FVec Ideal S2x512x512 .f32) (a7 : FVec Ideal S2x512 .f32)
    (h6 : S2x512x512.Slices ![L.val, 0, 0] S1x512x512) (h7 : S2x512.Slices ![L.val, 0] S1x512) (r : Fin 6000) (f : Fin 512) :
    addf s
        (select
          (cmpf .oge
            (addf (Host.dotGeneral (F := Ideal) (φ₁ := .f32) (φ₂ := .f32) dot_S6000x512_S512x512_S6000x512_1_0_0_1_n_n none fe
              (shapeCast S512x512 (extractStridedSlice S1x512x512 ![L.val, 0, 0] a6 h6) shapeCasts_S1x512x512_S512x512))
            (broadcastInDim S6000x512 ![0, 1] bcast_S1x512_S6000x512_0_1 (broadcastInDim S1x512 ![1] bcast_S512_S1x512_1
              (shapeCast S512 (extractStridedSlice S1x512 ![L.val, 0] a7 h7) shapeCasts_S1x512_S512))))
            (broadcastInDim S6000x512 ![] bcast_S_S6000x512 (constant (F := Ideal) S_ .f32 0x00000000#32)))
          (addf (Host.dotGeneral (F := Ideal) (φ₁ := .f32) (φ₂ := .f32) dot_S6000x512_S512x512_S6000x512_1_0_0_1_n_n none fe
              (shapeCast S512x512 (extractStridedSlice S1x512x512 ![L.val, 0, 0] a6 h6) shapeCasts_S1x512x512_S512x512))
            (broadcastInDim S6000x512 ![0, 1] bcast_S1x512_S6000x512_0_1 (broadcastInDim S1x512 ![1] bcast_S512_S1x512_1
              (shapeCast S512 (extractStridedSlice S1x512 ![L.val, 0] a7 h7) shapeCasts_S1x512_S512))))
          (mulf (broadcastInDim S6000x512 ![] bcast_S_S6000x512 (id (constant (F := Ideal) S_ .f32 0x3C23D70A#32)))
            (addf (Host.dotGeneral (F := Ideal) (φ₁ := .f32) (φ₂ := .f32) dot_S6000x512_S512x512_S6000x512_1_0_0_1_n_n none fe
              (shapeCast S512x512 (extractStridedSlice S1x512x512 ![L.val, 0, 0] a6 h6) shapeCasts_S1x512x512_S512x512))
            (broadcastInDim S6000x512 ![0, 1] bcast_S1x512_S6000x512_0_1 (broadcastInDim S1x512 ![1] bcast_S512_S1x512_1
              (shapeCast S512 (extractStridedSlice S1x512 ![L.val, 0] a7 h7) shapeCasts_S1x512_S512))))))
        (ix2 r f)
      = fsum (fun r k => fe (ix2 r k)) (fun k f => a6 (ix3 L k f)) (fun f => a7 (ix2 L f)) (fun r f => s (ix2 r f)) r f :=
  (fsumR s fe _ _ r f).trans
    (fsum_congr _ _ _ _ _ _ _ _ r f (fun _ => rfl) (fun k => slab_apply L a6 h6 k f) (brow_apply L a7 h7 f) rfl)

/-- The first layer's running sum. -/
theorem fsum0 (s fe : FVec Ideal S6000x512 .f32) (a6 : FVec Ideal S2x512x512 .f32) (a7 : FVec Ideal S2x512 .f32)
    (r : Fin 6000) (f : Fin 512) :
    addf s
        (select
          (cmpf .oge
            (addf (Host.dotGeneral (F := Ideal) (φ₁ := .f32) (φ₂ := .f32) dot_S6000x512_S512x512_S6000x512_1_0_0_1_n_n none fe
              (shapeCast S512x512 (extractStridedSlice S1x512x512 ![0, 0, 0] a6 slices_S2x512x512_S1x512x512_0_0_0) shapeCasts_S1x512x512_S512x512))
            (broadcastInDim S6000x512 ![0, 1] bcast_S1x512_S6000x512_0_1 (broadcastInDim S1x512 ![1] bcast_S512_S1x512_1
              (shapeCast S512 (extractStridedSlice S1x512 ![0, 0] a7 slices_S2x512_S1x512_0_0) shapeCasts_S1x512_S512))))
            (broadcastInDim S6000x512 ![] bcast_S_S6000x512 (constant (F := Ideal) S_ .f32 0x00000000#32)))
          (addf (Host.dotGeneral (F := Ideal) (φ₁ := .f32) (φ₂ := .f32) dot_S6000x512_S512x512_S6000x512_1_0_0_1_n_n none fe
              (shapeCast S512x512 (extractStridedSlice S1x512x512 ![0, 0, 0] a6 slices_S2x512x512_S1x512x512_0_0_0) shapeCasts_S1x512x512_S512x512))
            (broadcastInDim S6000x512 ![0, 1] bcast_S1x512_S6000x512_0_1 (broadcastInDim S1x512 ![1] bcast_S512_S1x512_1
              (shapeCast S512 (extractStridedSlice S1x512 ![0, 0] a7 slices_S2x512_S1x512_0_0) shapeCasts_S1x512_S512))))
          (mulf (broadcastInDim S6000x512 ![] bcast_S_S6000x512 (id (constant (F := Ideal) S_ .f32 0x3C23D70A#32)))
            (addf (Host.dotGeneral (F := Ideal) (φ₁ := .f32) (φ₂ := .f32) dot_S6000x512_S512x512_S6000x512_1_0_0_1_n_n none fe
              (shapeCast S512x512 (extractStridedSlice S1x512x512 ![0, 0, 0] a6 slices_S2x512x512_S1x512x512_0_0_0) shapeCasts_S1x512x512_S512x512))
            (broadcastInDim S6000x512 ![0, 1] bcast_S1x512_S6000x512_0_1 (broadcastInDim S1x512 ![1] bcast_S512_S1x512_1
              (shapeCast S512 (extractStridedSlice S1x512 ![0, 0] a7 slices_S2x512_S1x512_0_0) shapeCasts_S1x512_S512))))))
        (ix2 r f)
      = fsum (fun r k => fe (ix2 r k)) (fun k f => a6 (ix3 (0 : Fin 2) k f)) (fun f => a7 (ix2 (0 : Fin 2) f)) (fun r f => s (ix2 r f)) r f :=
  fsumL 0 s fe a6 a7 slices_S2x512x512_S1x512x512_0_0_0 slices_S2x512_S1x512_0_0 r f

/-- The second layer's running sum. -/
theorem fsum1 (s fe : FVec Ideal S6000x512 .f32) (a6 : FVec Ideal S2x512x512 .f32) (a7 : FVec Ideal S2x512 .f32)
    (r : Fin 6000) (f : Fin 512) :
    addf s
        (select
          (cmpf .oge
            (addf (Host.dotGeneral (F := Ideal) (φ₁ := .f32) (φ₂ := .f32) dot_S6000x512_S512x512_S6000x512_1_0_0_1_n_n none fe
              (shapeCast S512x512 (extractStridedSlice S1x512x512 ![1, 0, 0] a6 slices_S2x512x512_S1x512x512_1_0_0) shapeCasts_S1x512x512_S512x512))
            (broadcastInDim S6000x512 ![0, 1] bcast_S1x512_S6000x512_0_1 (broadcastInDim S1x512 ![1] bcast_S512_S1x512_1
              (shapeCast S512 (extractStridedSlice S1x512 ![1, 0] a7 slices_S2x512_S1x512_1_0) shapeCasts_S1x512_S512))))
            (broadcastInDim S6000x512 ![] bcast_S_S6000x512 (constant (F := Ideal) S_ .f32 0x00000000#32)))
          (addf (Host.dotGeneral (F := Ideal) (φ₁ := .f32) (φ₂ := .f32) dot_S6000x512_S512x512_S6000x512_1_0_0_1_n_n none fe
              (shapeCast S512x512 (extractStridedSlice S1x512x512 ![1, 0, 0] a6 slices_S2x512x512_S1x512x512_1_0_0) shapeCasts_S1x512x512_S512x512))
            (broadcastInDim S6000x512 ![0, 1] bcast_S1x512_S6000x512_0_1 (broadcastInDim S1x512 ![1] bcast_S512_S1x512_1
              (shapeCast S512 (extractStridedSlice S1x512 ![1, 0] a7 slices_S2x512_S1x512_1_0) shapeCasts_S1x512_S512))))
          (mulf (broadcastInDim S6000x512 ![] bcast_S_S6000x512 (id (constant (F := Ideal) S_ .f32 0x3C23D70A#32)))
            (addf (Host.dotGeneral (F := Ideal) (φ₁ := .f32) (φ₂ := .f32) dot_S6000x512_S512x512_S6000x512_1_0_0_1_n_n none fe
              (shapeCast S512x512 (extractStridedSlice S1x512x512 ![1, 0, 0] a6 slices_S2x512x512_S1x512x512_1_0_0) shapeCasts_S1x512x512_S512x512))
            (broadcastInDim S6000x512 ![0, 1] bcast_S1x512_S6000x512_0_1 (broadcastInDim S1x512 ![1] bcast_S512_S1x512_1
              (shapeCast S512 (extractStridedSlice S1x512 ![1, 0] a7 slices_S2x512_S1x512_1_0) shapeCasts_S1x512_S512))))))
        (ix2 r f)
      = fsum (fun r k => fe (ix2 r k)) (fun k f => a6 (ix3 (1 : Fin 2) k f)) (fun f => a7 (ix2 (1 : Fin 2) f)) (fun r f => s (ix2 r f)) r f :=
  fsumL 1 s fe a6 a7 slices_S2x512x512_S1x512x512_1_0_0 slices_S2x512_S1x512_1_0 r f

end Cert.ReferenceIdeal.RefOps

end
-- ==== Proof.RefLayers.lean ====
import proofs.«102648_j56324201120496_1_alg».proof.Proof.RefValue
import proofs.«102648_j56324201120496_1_alg».proof.Proof.RefOps
import Idealize.ShloMosaic.Lib.ValueIdx

/-! # The reference's result, entry by entry

The reference normalises the adjacency on both sides by the degree factors and runs two layers over it; each
layer propagates the features through the normalised adjacency, projects, adds a bias and rectifies (the new
features), projects those again through the leaky rectifier and adds the result to the running sum, which starts
at the stacked features. Entry (r, f) of what the line ends with in the running sum's last buffer is the
specification's two layers over the adjacency scaled on both sides; the three results are its row blocks. -/

noncomputable section

namespace Cert.ReferenceIdeal.RefValue

open Cert.ReferenceIdeal Cert.ReferenceIdeal.Gen Cert.ReferenceIdeal.RefRun Cert.GcnSpec Idealize.ShloMosaic Idealize.ShloMosaic.TcCoe Idealize.SL.Sem
  Idealize.ShloMosaic.StableHlo Idealize.ShloMosaic.ValueIdx

variable (V : Valuation τ sig (Elt Ideal))

/-! ## The specification's operands, as entries of the shared values and of the arguments -/

/-- The adjacency's entries. -/
def adjE : Fin 6000 → Fin 6000 → EReal := fun r j => adjT (V (Proc.devRef .tc main_arg3)) (V (Proc.devRef .tc main_arg8)) (ix2 r j)
/-- The degree factors' entries. -/
def degE : Fin 6000 → EReal := fun r => dT (V (Proc.devRef .tc main_arg3)) (V (Proc.devRef .tc main_arg8)) (ix1 r)
/-- The stacked features' entries. -/
def featE : Fin 6000 → Fin 512 → EReal := fun r k => x0T (V (Proc.devRef .tc main_arg0)) (V (Proc.devRef .tc main_arg1)) (V (Proc.devRef .tc main_arg2)) (ix2 r k)

/-- The first layer's new features. -/
def feat0 : Fin 6000 → Fin 512 → EReal :=
  feat (zBoth (adjE V) (degE V) (featE V)) (fun k f => (V (Proc.devRef .tc main_arg4)) (ix3 (0 : Fin 2) k f)) (fun f => (V (Proc.devRef .tc main_arg5)) (ix2 (0 : Fin 2) f))
/-- The running sum after the first layer. -/
def sum0 : Fin 6000 → Fin 512 → EReal :=
  fsum (feat0 V) (fun k f => (V (Proc.devRef .tc main_arg6)) (ix3 (0 : Fin 2) k f)) (fun f => (V (Proc.devRef .tc main_arg7)) (ix2 (0 : Fin 2) f)) (featE V)
/-- The second layer's new features. -/
def feat1 : Fin 6000 → Fin 512 → EReal :=
  feat (zBoth (adjE V) (degE V) (feat0 V)) (fun k f => (V (Proc.devRef .tc main_arg4)) (ix3 (1 : Fin 2) k f)) (fun f => (V (Proc.devRef .tc main_arg5)) (ix2 (1 : Fin 2) f))

/-- The reference's result before it is cut into its three row blocks: two layers over the adjacency scaled on both sides. -/
def refOut : Fin 6000 → Fin 512 → EReal :=
  twoLayer (zBoth (fun r j => adjT (V (Proc.devRef .tc main_arg3)) (V (Proc.devRef .tc main_arg8)) (ix2 r j)) (fun r => dT (V (Proc.devRef .tc main_arg3)) (V (Proc.devRef .tc main_arg8)) (ix1 r)))
    (fun r k => x0T (V (Proc.devRef .tc main_arg0)) (V (Proc.devRef .tc main_arg1)) (V (Proc.devRef .tc main_arg2)) (ix2 r k))
    (fun k f => (V (Proc.devRef .tc main_arg4)) (ix3 (0 : Fin 2) k f)) (fun f => (V (Proc.devRef .tc main_arg5)) (ix2 (0 : Fin 2) f))
    (fun k f => (V (Proc.devRef .tc main_arg6)) (ix3 (0 : Fin 2) k f)) (fun f => (V (Proc.devRef .tc main_arg7)) (ix2 (0 : Fin 2) f))
    (fun k f => (V (Proc.devRef .tc main_arg4)) (ix3 (1 : Fin 2) k f)) (fun f => (V (Proc.devRef .tc main_arg5)) (ix2 (1 : Fin 2) f))
    (fun k f => (V (Proc.devRef .tc main_arg6)) (ix3 (1 : Fin 2) k f)) (fun f => (V (Proc.devRef .tc main_arg7)) (ix2 (1 : Fin 2) f))

/-- The result is the second layer's running sum. -/
theorem refOut_eq : refOut V
    = fsum (feat1 V) (fun k f => (V (Proc.devRef .tc main_arg6)) (ix3 (1 : Fin 2) k f)) (fun f => (V (Proc.devRef .tc main_arg7)) (ix2 (1 : Fin 2) f)) (sum0 V) := rfl

/-! ## The normalised adjacency and the propagation through it -/

/-- Entry (r, j) of the normalised adjacency: the adjacency's entry scaled by the two nodes' degree factors. -/
theorem gcn_entry (r j : Fin 6000) :
    after (ops (F := Ideal)) V (Proc.devRef .tc main_v32) (ix2 r j) = (degE V r * adjE V r j) * degE V j := by
  rw [eq_main_v32, eq_main_v31, eq_main_v30, eq_main_v29, eq_main_v28, eq_main_v27, val_v26, val_v20]
  exact RefOps.gcn_apply _ _ r j

/-- The propagation of any features through an array with the normalised adjacency's entries is the specification's sum. -/
theorem prop_sum (g : FVec Ideal S6000x6000 .f32) (hg : ∀ r j, g (ix2 r j) = (degE V r * adjE V r j) * degE V j)
    (x : FVec Ideal S6000x512 .f32) (X : Fin 6000 → Fin 512 → EReal) (hx : ∀ j k, x (ix2 j k) = X j k)
    (r : Fin 6000) (k : Fin 512) :
    ∑ j : Fin 6000, g (ix2 r j) * x (ix2 j k) = zBoth (adjE V) (degE V) X r k := by
  unfold zBoth
  exact Finset.sum_congr rfl fun j _ => by rw [hg, hx]

/-! ## One layer, for either slab of the stacked weights -/

/-- A layer's new features from any incoming features. -/
theorem feat_stage (x : FVec Ideal S6000x512 .f32) (X : Fin 6000 → Fin 512 → EReal) (hx : ∀ j k, x (ix2 j k) = X j k)
    (a4 : FVec Ideal S2x512x512 .f32) (a5 : FVec Ideal S2x512 .f32) (L : Fin 2)
    (hs4 : S2x512x512.Slices ![L.val, 0, 0] S1x512x512) (hs5 : S2x512.Slices ![L.val, 0] S1x512) (r : Fin 6000) (f : Fin 512) :
    maximumf
        (addf (Host.dotGeneral (F := Ideal) (φ₁ := .f32) (φ₂ := .f32) dot_S6000x512_S512x512_S6000x512_1_0_0_1_n_n none (Host.dotGeneral (F := Ideal) (φ₁ := .f32) (φ₂ := .f32) dot_S6000x6000_S6000x512_S6000x512_1_0_0_1_n_n none (after (ops (F := Ideal)) V (Proc.devRef .tc main_v32)) x) (shapeCast S512x512 (extractStridedSlice S1x512x512 ![L.val, 0, 0] a4 hs4) shapeCasts_S1x512x512_S512x512))
          (broadcastInDim S6000x512 ![0, 1] bcast_S1x512_S6000x512_0_1 (broadcastInDim S1x512 ![1] bcast_S512_S1x512_1
          (shapeCast S512 (extractStridedSlice S1x512 ![L.val, 0] a5 hs5) shapeCasts_S1x512_S512))))
        (broadcastInDim S6000x512 ![] bcast_S_S6000x512 (constant (F := Ideal) S_ .f32 0x00000000#32)) (ix2 r f)
      = feat (zBoth (adjE V) (degE V) X) (fun k f => a4 (ix3 L k f)) (fun f => a5 (ix2 L f)) r f :=
  (RefOps.featR _ x _ _ r f).trans
    (RefOps.feat_congr _ _ _ _ _ _ r f (fun k => prop_sum V (after (ops (F := Ideal)) V (Proc.devRef .tc main_v32)) (gcn_entry V) x X hx r k) (fun k => RefOps.slab_apply L a4 hs4 k f)
      (RefOps.brow_apply L a5 hs5 f))

/-- A layer's running sum from any incoming sum and new features. -/
theorem fsum_stage (s fe : FVec Ideal S6000x512 .f32) (S Fe : Fin 6000 → Fin 512 → EReal)
    (hs : ∀ r f, s (ix2 r f) = S r f) (hfe : ∀ r k, fe (ix2 r k) = Fe r k)
    (a6 : FVec Ideal S2x512x512 .f32) (a7 : FVec Ideal S2x512 .f32) (L : Fin 2)
    (hs6 : S2x512x512.Slices ![L.val, 0, 0] S1x512x512) (hs7 : S2x512.Slices ![L.val, 0] S1x512) (r : Fin 6000) (f : Fin 512) :
    addf s
        (select (cmpf .oge (addf (Host.dotGeneral (F := Ideal) (φ₁ := .f32) (φ₂ := .f32) dot_S6000x512_S512x512_S6000x512_1_0_0_1_n_n none fe (shapeCast S512x512 (extractStridedSlice S1x512x512 ![L.val, 0, 0] a6 hs6) shapeCasts_S1x512x512_S512x512))
        (broadcastInDim S6000x512 ![0, 1] bcast_S1x512_S6000x512_0_1 (broadcastInDim S1x512 ![1] bcast_S512_S1x512_1
          (shapeCast S512 (extractStridedSlice S1x512 ![L.val, 0] a7 hs7) shapeCasts_S1x512_S512)))) (broadcastInDim S6000x512 ![] bcast_S_S6000x512 (constant (F := Ideal) S_ .f32 0x00000000#32)))
          (addf (Host.dotGeneral (F := Ideal) (φ₁ := .f32) (φ₂ := .f32) dot_S6000x512_S512x512_S6000x512_1_0_0_1_n_n none fe (shapeCast S512x512 (extractStridedSlice S1x512x512 ![L.val, 0, 0] a6 hs6) shapeCasts_S1x512x512_S512x512))
        (broadcastInDim S6000x512 ![0, 1] bcast_S1x512_S6000x512_0_1 (broadcastInDim S1x512 ![1] bcast_S512_S1x512_1
          (shapeCast S512 (extractStridedSlice S1x512 ![L.val, 0] a7 hs7) shapeCasts_S1x512_S512))))
          (mulf (broadcastInDim S6000x512 ![] bcast_S_S6000x512 (id (constant (F := Ideal) S_ .f32 0x3C23D70A#32)))
            (addf (Host.dotGeneral (F := Ideal) (φ₁ := .f32) (φ₂ := .f32) dot_S6000x512_S512x512_S6000x512_1_0_0_1_n_n none fe (shapeCast S512x512 (extractStridedSlice S1x512x512 ![L.val, 0, 0] a6 hs6) shapeCasts_S1x512x512_S512x512))
        (broadcastInDim S6000x512 ![0, 1] bcast_S1x512_S6000x512_0_1 (broadcastInDim S1x512 ![1] bcast_S512_S1x512_1
          (shapeCast S512 (extractStridedSlice S1x512 ![L.val, 0] a7 hs7) shapeCasts_S1x512_S512)))))) (ix2 r f)
      = fsum Fe (fun k f => a6 (ix3 L k f)) (fun f => a7 (ix2 L f)) S r f :=
  (RefOps.fsumR s fe _ _ r f).trans
    (RefOps.fsum_congr _ _ _ _ _ _ _ _ r f (fun k => hfe r k) (fun k => RefOps.slab_apply L a6 hs6 k f)
      (RefOps.brow_apply L a7 hs7 f) (hs r f))

/-! ## The two layers of the line -/

/-- The stacked features' buffer, entry by entry. -/
theorem x_entry (r : Fin 6000) (k : Fin 512) : after (ops (F := Ideal)) V (Proc.devRef .tc main_v0) (ix2 r k) = featE V r k :=
  congrFun (val_v0 V) (ix2 r k)

/-- The first layer's new features. -/
theorem val_v42 (r : Fin 6000) (f : Fin 512) : after (ops (F := Ideal)) V (Proc.devRef .tc main_v42) (ix2 r f) = feat0 V r f := by
  rw [eq_main_v42, eq_main_call2_v0, eq_main_call2_cst, eq_main_v41, eq_main_v40, eq_main_v39, eq_main_v38, eq_main_v37, eq_main_v36, eq_main_v35, eq_main_v34, eq_main_v33, keep_main_arg5, keep_main_arg4]
  exact feat_stage V _ (featE V) (x_entry V) _ _ 0 slices_S2x512x512_S1x512x512_0_0_0 slices_S2x512_S1x512_0_0 r f

/-- The running sum after the first layer. -/
theorem val_v52 (r : Fin 6000) (f : Fin 512) : after (ops (F := Ideal)) V (Proc.devRef .tc main_v52) (ix2 r f) = sum0 V r f := by
  rw [eq_main_v52, eq_main_v51, eq_main_call3_v4, eq_main_call3_v3, eq_main_call3_v2, eq_main_call3_v1, eq_main_call3_v0, eq_main_call3_cst, eq_main_cst_7, eq_main_v50, eq_main_v49, eq_main_v48, eq_main_v47, eq_main_v46, eq_main_v45, eq_main_v44, eq_main_v43, keep_main_arg7, keep_main_arg6]
  exact fsum_stage _ _ (featE V) (feat0 V) (x_entry V) (val_v42 V) _ _ 0 slices_S2x512x512_S1x512x512_0_0_0 slices_S2x512_S1x512_0_0 r f

/-- The second layer's new features. -/
theorem val_v62 (r : Fin 6000) (f : Fin 512) : after (ops (F := Ideal)) V (Proc.devRef .tc main_v62) (ix2 r f) = feat1 V r f := by
  rw [eq_main_v62, eq_main_call4_v0, eq_main_call4_cst, eq_main_v61, eq_main_v60, eq_main_v59, eq_main_v58, eq_main_v57, eq_main_v56, eq_main_v55, eq_main_v54, eq_main_v53, keep_main_arg5, keep_main_arg4]
  exact feat_stage V _ (feat0 V) (val_v42 V) _ _ 1 slices_S2x512x512_S1x512x512_1_0_0 slices_S2x512_S1x512_1_0 r f

/-- The running sum after the second layer: the result before it is cut. -/
theorem val_v72 (r : Fin 6000) (f : Fin 512) : after (ops (F := Ideal)) V (Proc.devRef .tc main_v72) (ix2 r f) = refOut V r f := by
  rw [refOut_eq, eq_main_v72, eq_main_v71, eq_main_call5_v4, eq_main_call5_v3, eq_main_call5_v2, eq_main_call5_v1, eq_main_call5_v0, eq_main_call5_cst, eq_main_cst_8, eq_main_v70, eq_main_v69, eq_main_v68, eq_main_v67, eq_main_v66, eq_main_v65, eq_main_v64, eq_main_v63, keep_main_arg7, keep_main_arg6]
  exact fsum_stage _ _ (sum0 V) (feat1 V) (val_v52 V) (val_v62 V) _ _ 1 slices_S2x512x512_S1x512x512_1_0_0 slices_S2x512_S1x512_1_0 r f

/-! ## The three results: the row blocks -/

theorem val_v73 (p : Fin 2000) (q : Fin 512) :
    after (ops (F := Ideal)) V (Proc.devRef .tc main_v73) (ix2 p q) = refOut V ⟨p.val, by omega⟩ q := by
  rw [eq_main_v73]
  exact (RefOps.band0_apply _ p q).trans (val_v72 V _ q)

theorem val_v74 (p : Fin 2000) (q : Fin 512) :
    after (ops (F := Ideal)) V (Proc.devRef .tc main_v74) (ix2 p q) = refOut V ⟨p.val + 2000, by omega⟩ q := by
  rw [eq_main_v74]
  exact (RefOps.band1_apply _ p q).trans (val_v72 V _ q)

theorem val_v75 (p : Fin 2000) (q : Fin 512) :
    after (ops (F := Ideal)) V (Proc.devRef .tc main_v75) (ix2 p q) = refOut V ⟨p.val + 4000, by omega⟩ q := by
  rw [eq_main_v75]
  exact (RefOps.band2_apply _ p q).trans (val_v72 V _ q)

end Cert.ReferenceIdeal.RefValue

end
-- ==== Proof.Bridge.lean ====
/-
  The two programs end with equal results on the extended reals.

  Both read the same three values off the arguments — the stacked features, the dense adjacency, the degree factors —
  by the same operations, so those agree once the arguments do. Each program's result is then two layers over its own
  grouping of the normalised propagation: rows of the features scaled first and rows of the product scaled after, in
  the kernel; the adjacency scaled on both sides, in the reference. The degree factors are non-negative reals, and a
  non-negative real factor distributes over a sum of extended reals, so the two groupings are one function, and so
  are the two layers built on them.
-/
import proofs.«102648_j56324201120496_1_alg».proof.Proof.KIValue
import proofs.«102648_j56324201120496_1_alg».proof.Proof.KIDegree
import proofs.«102648_j56324201120496_1_alg».proof.Proof.RefLayers

noncomputable section

namespace Cert.Proof.Bridge

open Idealize.ShloMosaic Idealize.ShloMosaic.TcCoe Idealize.ShloMosaic.ValueIdx Idealize.SL.Sem Idealize.ShloMosaic.StableHlo

/-! ## The shared values are the same functions of the arguments -/

theorem x0T_eq (a0 a1 a2 : FVec Ideal Cert.KernelIdeal.S2000x512 .f32) :
    Cert.ReferenceIdeal.RefValue.x0T a0 a1 a2 = Cert.KernelIdeal.Hand.x0T a0 a1 a2 := by
  unfold Cert.ReferenceIdeal.RefValue.x0T Cert.KernelIdeal.Hand.x0T
  rfl

theorem adjT_eq (a3 : FVec Ideal Cert.KernelIdeal.S500000 .f32) (a8 : IVec Cert.KernelIdeal.S2x400000 32) :
    Cert.ReferenceIdeal.RefValue.adjT a3 a8 = Cert.KernelIdeal.Hand.adjT a3 a8 := by
  unfold Cert.ReferenceIdeal.RefValue.adjT Cert.KernelIdeal.Hand.adjT Cert.ReferenceIdeal.RefValue.idxPair
    Cert.KernelIdeal.Hand.idxPair Cert.ReferenceIdeal.RefValue.wrapIdx Cert.KernelIdeal.Hand.wrapIdx
  rfl

theorem dT_eq (a3 : FVec Ideal Cert.KernelIdeal.S500000 .f32) (a8 : IVec Cert.KernelIdeal.S2x400000 32) :
    Cert.ReferenceIdeal.RefValue.dT a3 a8 = Cert.KernelIdeal.Hand.dT a3 a8 := by
  unfold Cert.ReferenceIdeal.RefValue.dT Cert.KernelIdeal.Hand.dT
  rw [adjT_eq]
  unfold Cert.ReferenceIdeal.RefValue.dOfSum Cert.KernelIdeal.Hand.dOfSum Cert.ReferenceIdeal.RefValue.rowSum
    Cert.KernelIdeal.Hand.rowSum
  rfl

/-! ## The results agree -/

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The two memories hold the same argument arrays on core `c`. -/
def Agree : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
  ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)

/-- From agreeing arguments the reference's two layers are the kernel's: the shared values coincide, and the two
    groupings of the propagation are equal because every degree factor is a non-negative real. -/
theorem refOut_eq_kOut (h : Agree m m' c) :
    Cert.ReferenceIdeal.RefValue.refOut (launchContents m' c) = Cert.KernelIdeal.Hand.kOut m c := by
  obtain ⟨h0, h1, h2, h3, h4, h5, h6, h7, h8⟩ := h
  have e0 : launchContents m' c (Proc.devRef .tc Cert.ReferenceIdeal.main_arg0) = m ((c : Thread Cert.KernelIdeal.nD Cert.KernelIdeal.τ).loc Cert.KernelIdeal.main_arg0) := h0
  have e1 : launchContents m' c (Proc.devRef .tc Cert.ReferenceIdeal.main_arg1) = m ((c : Thread Cert.KernelIdeal.nD Cert.KernelIdeal.τ).loc Cert.KernelIdeal.main_arg1) := h1
  have e2 : launchContents m' c (Proc.devRef .tc Cert.ReferenceIdeal.main_arg2) = m ((c : Thread Cert.KernelIdeal.nD Cert.KernelIdeal.τ).loc Cert.KernelIdeal.main_arg2) := h2
  have e3 : launchContents m' c (Proc.devRef .tc Cert.ReferenceIdeal.main_arg3) = m ((c : Thread Cert.KernelIdeal.nD Cert.KernelIdeal.τ).loc Cert.KernelIdeal.main_arg3) := h3
  have e4 : launchContents m' c (Proc.devRef .tc Cert.ReferenceIdeal.main_arg4) = m ((c : Thread Cert.KernelIdeal.nD Cert.KernelIdeal.τ).loc Cert.KernelIdeal.main_arg4) := h4
  have e5 : launchContents m' c (Proc.devRef .tc Cert.ReferenceIdeal.main_arg5) = m ((c : Thread Cert.KernelIdeal.nD Cert.KernelIdeal.τ).loc Cert.KernelIdeal.main_arg5) := h5
  have e6 : launchContents m' c (Proc.devRef .tc Cert.ReferenceIdeal.main_arg6) = m ((c : Thread Cert.KernelIdeal.nD Cert.KernelIdeal.τ).loc Cert.KernelIdeal.main_arg6) := h6
  have e7 : launchContents m' c (Proc.devRef .tc Cert.ReferenceIdeal.main_arg7) = m ((c : Thread Cert.KernelIdeal.nD Cert.KernelIdeal.τ).loc Cert.KernelIdeal.main_arg7) := h7
  have e8 : launchContents m' c (Proc.devRef .tc Cert.ReferenceIdeal.main_arg8) = m ((c : Thread Cert.KernelIdeal.nD Cert.KernelIdeal.τ).loc Cert.KernelIdeal.main_arg8) := h8
  unfold Cert.ReferenceIdeal.RefValue.refOut Cert.KernelIdeal.Hand.kOut
  rw [e0, e1, e2, e3, e4, e5, e6, e7, e8, x0T_eq, adjT_eq, dT_eq]
  exact (Cert.GcnSpec.twoLayer_scaled_eq_both _ _ (fun r => Cert.KernelIdeal.Hand.dT_nonneg_real _ _ r) _ _ _ _ _ _ _ _ _).symm

end

end Cert.Proof.Bridge

end
-- ==== Proof.lean ====
/-
  A two-layer graph convolution: the stacked node features are propagated through the symmetrically normalised
  adjacency, projected and rectified, projected again through a leaky rectifier and accumulated — twice — and the
  accumulated sum is returned in three row bands.

  The kernel program builds the adjacency and the degree factors on the host, then runs each layer as one pipelined
  region over 15 row tiles of the adjacency: a tile times the pre-scaled features, the product's rows scaled by the
  tile's degree factors, the two projections. The reference scales the adjacency on both sides and multiplies whole
  arrays. On the extended reals the two agree: the degree factors are non-negative reals (an inverse square root of a
  positive number, or zero), and a non-negative real factor distributes over any sum of extended reals.

  The frames: each kernel program is two regions among seven stretches of host operations; the run is assembled from
  one record per region (its body run once at a symbolic grid point: eight whole-block loads, two whole-block
  stores) and one per host stretch, and every argument array is read back unchanged through the stretch and region
  boundaries. The reference is a straight line of host operations; its run is their fold over the launch memory.
  Nothing was rewritten by the idealisation, so the kernel's idealisation is the program's own text.
-/
import proofs.«102648_j56324201120496_1_alg».proof.Defs
import proofs.«102648_j56324201120496_1_alg».proof.Proof.Gen.Pre_finite_inputs
import proofs.«102648_j56324201120496_1_alg».proof.Proof.KRun
import proofs.«102648_j56324201120496_1_alg».proof.Proof.KIRun
import proofs.«102648_j56324201120496_1_alg».proof.Proof.RefFrame
import proofs.«102648_j56324201120496_1_alg».proof.Proof.Bridge

noncomputable section

namespace Cert.Proof

open Idealize.ShloMosaic Idealize.ShloMosaic.TcCoe Idealize.ShloMosaic.ValueIdx Idealize.SL.Sem Idealize.ShloMosaic.StableHlo

/-- A band of 2000 rows of the reference's accumulated sum is the same band of the kernel's, entry by entry. -/
theorem band_eq
    (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD)
    (h : Bridge.Agree m m' c)
    (x : (⟨2, ![2000, 512]⟩ : Shape).Idx → EReal) (y : (⟨2, ![2000, 512]⟩ : Shape).Idx → EReal) (o : ℕ) (ho : o + 2000 ≤ 6000)
    (hx : ∀ (p : Fin 2000) (q : Fin 512), x (ix2 p q) = Cert.ReferenceIdeal.RefValue.refOut (launchContents m' c) ⟨p.val + o, by omega⟩ q)
    (hy : ∀ (p : Fin 2000) (q : Fin 512), y (ix2 p q) = Cert.KernelIdeal.Hand.kOut m c ⟨p.val + o, by omega⟩ q) : x = y := by
  funext i
  obtain ⟨p, q, rfl⟩ : ∃ (p : Fin 2000) (q : Fin 512), i = ix2 p q := ⟨i 0, i 1, eq_ix2 i⟩
  rw [hx, hy, Bridge.refOut_eq_kOut m m' c h]

theorem frame_k : Cert.frame_Kernel (hKernel := Cert.Kernel.Gen.facts) (hPre_finite_inputs := Cert.Pre_finite_inputs.Gen.facts) :=
  fun m ρ _ => Cert.Kernel.Hand.frame m ρ

theorem frame_ki : Cert.frame_KernelIdeal (hKernelIdeal := Cert.KernelIdeal.Gen.facts) (hPre_finite_inputs := Cert.Pre_finite_inputs.Gen.facts) :=
  fun m ρ _ => Cert.KernelIdeal.Hand.frame m ρ

theorem frame_ri : Cert.frame_ReferenceIdeal (hReferenceIdeal := Cert.ReferenceIdeal.Gen.facts) (hPre_finite_inputs := Cert.Pre_finite_inputs.Gen.facts) :=
  Cert.Proof.RefFrame.frame (hReferenceIdeal := Cert.ReferenceIdeal.Gen.facts) (hPre_finite_inputs := Cert.Pre_finite_inputs.Gen.facts)

/-- Both idealised programs run to the end from memories agreeing on the arguments; the kernel's three result bands
    are the values named, and the reference's are equal to them: both are the two layers, over groupings of the
    propagation that coincide because the degree factors are non-negative reals. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Hand.W9 m ρ c (Proc.devRef .tc Cert.KernelIdeal.main_v59), fun c => Cert.KernelIdeal.Hand.W9 m ρ c (Proc.devRef .tc Cert.KernelIdeal.main_v60),
    fun c => Cert.KernelIdeal.Hand.W9 m ρ c (Proc.devRef .tc Cert.KernelIdeal.main_v61), ?_, ?_⟩
  · refine (θ_run Cert.KernelIdeal.defs _ _).mono (fun r h c => ?_) (Cert.KernelIdeal.Hand.run_all (F := Ideal) m ρ)
    exact ⟨h c Cert.KernelIdeal.main_v59 (by decide), h c Cert.KernelIdeal.main_v60 (by decide), h c Cert.KernelIdeal.main_v61 (by decide),
      (h c Cert.KernelIdeal.main_arg0 (by decide)).trans (Cert.KernelIdeal.Hand.W9_main_arg0 m ρ c),
      (h c Cert.KernelIdeal.main_arg1 (by decide)).trans (Cert.KernelIdeal.Hand.W9_main_arg1 m ρ c),
      (h c Cert.KernelIdeal.main_arg2 (by decide)).trans (Cert.KernelIdeal.Hand.W9_main_arg2 m ρ c),
      (h c Cert.KernelIdeal.main_arg3 (by decide)).trans (Cert.KernelIdeal.Hand.W9_main_arg3 m ρ c),
      (h c Cert.KernelIdeal.main_arg4 (by decide)).trans (Cert.KernelIdeal.Hand.W9_main_arg4 m ρ c),
      (h c Cert.KernelIdeal.main_arg5 (by decide)).trans (Cert.KernelIdeal.Hand.W9_main_arg5 m ρ c),
      (h c Cert.KernelIdeal.main_arg6 (by decide)).trans (Cert.KernelIdeal.Hand.W9_main_arg6 m ρ c),
      (h c Cert.KernelIdeal.main_arg7 (by decide)).trans (Cert.KernelIdeal.Hand.W9_main_arg7 m ρ c),
      (h c Cert.KernelIdeal.main_arg8 (by decide)).trans (Cert.KernelIdeal.Hand.W9_main_arg8 m ρ c)⟩
  · refine (θ_run Cert.ReferenceIdeal.defs _ _).mono (fun r h c => ?_) (Cert.ReferenceIdeal.RefRun.run_all (F := Ideal) m' ρ')
    have hag : Bridge.Agree m m' c := hagree c
    refine ⟨(h c Cert.ReferenceIdeal.main_v73).trans ?_, (h c Cert.ReferenceIdeal.main_v74).trans ?_, (h c Cert.ReferenceIdeal.main_v75).trans ?_,
      (h c Cert.ReferenceIdeal.main_arg0).trans (Cert.ReferenceIdeal.RefRun.keep_main_arg0 _), (h c Cert.ReferenceIdeal.main_arg1).trans (Cert.ReferenceIdeal.RefRun.keep_main_arg1 _),
      (h c Cert.ReferenceIdeal.main_arg2).trans (Cert.ReferenceIdeal.RefRun.keep_main_arg2 _), (h c Cert.ReferenceIdeal.main_arg3).trans (Cert.ReferenceIdeal.RefRun.keep_main_arg3 _),
      (h c Cert.ReferenceIdeal.main_arg4).trans (Cert.ReferenceIdeal.RefRun.keep_main_arg4 _), (h c Cert.ReferenceIdeal.main_arg5).trans (Cert.ReferenceIdeal.RefRun.keep_main_arg5 _),
      (h c Cert.ReferenceIdeal.main_arg6).trans (Cert.ReferenceIdeal.RefRun.keep_main_arg6 _), (h c Cert.ReferenceIdeal.main_arg7).trans (Cert.ReferenceIdeal.RefRun.keep_main_arg7 _),
      (h c Cert.ReferenceIdeal.main_arg8).trans (Cert.ReferenceIdeal.RefRun.keep_main_arg8 _)⟩
    · exact band_eq m ρ m' c hag _ _ 0 (by omega) (fun p q => Cert.ReferenceIdeal.RefValue.val_v73 _ p q) (fun p q => Cert.KernelIdeal.Hand.kernel_v59 m ρ c p q)
    · exact band_eq m ρ m' c hag _ _ 2000 (by omega) (fun p q => Cert.ReferenceIdeal.RefValue.val_v74 _ p q) (fun p q => Cert.KernelIdeal.Hand.kernel_v60 m ρ c p q)
    · exact band_eq m ρ m' c hag _ _ 4000 (by omega) (fun p q => Cert.ReferenceIdeal.RefValue.val_v75 _ p q) (fun p q => Cert.KernelIdeal.Hand.kernel_v61 m ρ c p q)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
